-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x2048 : Shape := ⟨2, ![4096, 2048]⟩
abbrev S2048 : Shape := ⟨1, ![2048]⟩
abbrev S2048x2048 : Shape := ⟨2, ![2048, 2048]⟩
abbrev S2048x32000 : Shape := ⟨2, ![2048, 32000]⟩
abbrev S32000 : Shape := ⟨1, ![32000]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x32000 : S_.BroadcastsInDim S2048x32000 (![] : Fin 0 → Fin S2048x32000.rank)
  reducesTo_S2048x32000_S_d0_1 : S2048x32000.ReducesTo [0, 1] S_
  bcast_S_S32000 : S_.BroadcastsInDim S32000 (![] : Fin 0 → Fin S32000.rank)
  reducesTo_S32000_S_d0 : S32000.ReducesTo [0] S_

variable [Facts]

def fn_part6 {F : FTy → Type} [FloatOps F] (main_arg21 : FVec F S2048x32000 .f32) (main_arg22 : FVec F S32000 .f32) (main_v98 : IVec S_ 1) (main_v101 : IVec S2048 1) (main_c_39 : IVec S_ 1) : IVec S_ 1 :=
  let main_v102 : IVec S_ 1 := (fun x v => Host.reduce IntOp.andi x v reducesTo_S2048_S_d0 h_S_) main_v101 main_c_39
  let main_v103 : IVec S_ 1 := andi main_v98 main_v102
  let main_v104 : FVec F S2048x32000 .f32 := Host.absf main_arg21
  let main_cst_40 : FVec F S_ .f32 := constant S_ .f32 0x7F800000#32
  let main_v105 : FVec F S2048x32000 .f32 := broadcastInDim S2048x32000 ![] bcast_S_S2048x32000 main_cst_40
  let main_v106 : IVec S2048x32000 1 := cmpf .olt main_v104 main_v105
  let main_c_41 : IVec S_ 1 := constantI S_ 1 1#1
  let main_v107 : IVec S_ 1 := (fun x v => Host.reduce IntOp.andi x v reducesTo_S2048x32000_S_d0_1 h_S_) main_v106 main_c_41
  let main_v108 : IVec S_ 1 := andi main_v103 main_v107
  let main_v109 : FVec F S32000 .f32 := Host.absf main_arg22
  let main_cst_42 : FVec F S_ .f32 := constant S_ .f32 0x7F800000#32
  let main_v110 : FVec F S32000 .f32 := broadcastInDim S32000 ![] bcast_S_S32000 main_cst_42
  let main_v111 : IVec S32000 1 := cmpf .olt main_v109 main_v110
  let main_c_43 : IVec S_ 1 := constantI S_ 1 1#1
  let main_v112 : IVec S_ 1 := (fun x v => Host.reduce IntOp.andi x v reducesTo_S32000_S_d0 h_S_) main_v111 main_c_43
  let main_v113 : IVec S_ 1 := andi main_v108 main_v112
  main_v113

def fn_part5 {F : FTy → Type} [FloatOps F] (main_arg18 : FVec F S2048 .f32) (main_arg19 : FVec F S2048x2048 .f32) (main_arg20 : FVec F S2048 .f32) (main_arg21 : FVec F S2048x32000 .f32) (main_arg22 : FVec F S32000 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S2048x2048 .f32 := Host.absf main_arg19
  let main_cst_36 : FVec F S_ .f32 := constant S_ .f32 0x7F800000#32
  let main_v95 : FVec F S2048x2048 .f32 := broadcastInDim S2048x2048 ![] bcast_S_S2048x2048 main_cst_36
  let main_v96 : IVec S2048x2048 1 := cmpf .olt main_v94 main_v95
  let main_c_37 : IVec S_ 1 := constantI S_ 1 1#1
  let main_v97 : IVec S_ 1 := (fun x v => Host.reduce IntOp.andi x v reducesTo_S2048x2048_S_d0_1 h_S_) main_v96 main_c_37
  let main_v98 : IVec S_ 1 := andi main_v93 main_v97
  let main_v99 : FVec F S2048 .f32 := Host.absf main_arg20
  let main_cst_38 : FVec F S_ .f32 := constant S_ .f32 0x7F800000#32
  let main_v100 : FVec F S2048 .f32 := broadcastInDim S2048 ![] bcast_S_S2048 main_cst_38
  let main_v101 : IVec S2048 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x32000 .f32) (main_arg22 : FVec F S32000 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x32000 .f32) (main_arg22 : FVec F S32000 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x32000 .f32) (main_arg22 : FVec F S32000 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x32000 .f32) (main_arg22 : FVec F S32000 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S4096x4096 .f32) (main_arg1 : FVec F S4096x2048 .f32) (main_arg2 : FVec F S4096x2048 .f32) (main_arg3 : FVec F S4096x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x32000 .f32) (main_arg22 : FVec F S32000 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S4096x4096 : Shape := ⟨2, ![4096, 4096]⟩
abbrev S4096x2048 : Shape := ⟨2, ![4096, 2048]⟩
abbrev S2048 : Shape := ⟨1, ![2048]⟩
abbrev S2048x2048 : Shape := ⟨2, ![2048, 2048]⟩
abbrev S2048x32000 : Shape := ⟨2, ![2048, 32000]⟩
abbrev S32000 : Shape := ⟨1, ![32000]⟩
abbrev S1x2048 : Shape := ⟨2, ![1, 2048]⟩
abbrev S1x32000 : Shape := ⟨2, ![1, 32000]⟩
abbrev S4096x32000 : Shape := ⟨2, ![4096, 32000]⟩
abbrev S4096x1 : Shape := ⟨2, ![4096, 1]⟩
abbrev S512x512 : Shape := ⟨2, ![512, 512]⟩
abbrev S512x2048 : Shape := ⟨2, ![512, 2048]⟩
abbrev S1x512 : Shape := ⟨2, ![1, 512]⟩
abbrev S1024x2048 : Shape := ⟨2, ![1024, 2048]⟩
abbrev S2048x1280 : Shape := ⟨2, ![2048, 1280]⟩
abbrev S1x1280 : Shape := ⟨2, ![1, 1280]⟩
abbrev S1024x1280 : Shape := ⟨2, ![1024, 1280]⟩
abbrev S1024x1 : Shape := ⟨2, ![1024, 1]⟩
abbrev S1024 : Shape := ⟨1, ![1024]⟩

abbrev nBuf : Space → Nat
  | .hbm => 51
  | .vmem => 63
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S2048, .f32⟩
  | .hbm, ⟨21, _⟩ => ⟨S2048x32000, .f32⟩
  | .hbm, ⟨22, _⟩ => ⟨S32000, .f32⟩
  | .hbm, ⟨23, _⟩ => ⟨S4096x2048, .bf16⟩
  | .hbm, ⟨24, _⟩ => ⟨S1x2048, .f32⟩
  | .hbm, ⟨25, _⟩ => ⟨S4096x2048, .bf16⟩
  | .hbm, ⟨26, _⟩ => ⟨S2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S4096x2048, .bf16⟩
  | .hbm, ⟨35, _⟩ => ⟨S2048x2048, .bf16⟩
  | .hbm, ⟨36, _⟩ => ⟨S2048x2048, .bf16⟩
  | .hbm, ⟨37, _⟩ => ⟨S2048x2048, .bf16⟩
  | .hbm, ⟨38, _⟩ => ⟨S2048x2048, .bf16⟩
  | .hbm, ⟨39, _⟩ => ⟨S2048x2048, .bf16⟩
  | .hbm, ⟨40, _⟩ => ⟨S2048x2048, .bf16⟩
  | .hbm, ⟨41, _⟩ => ⟨S2048x2048, .bf16⟩
  | .hbm, ⟨42, _⟩ => ⟨S2048x2048, .bf16⟩
  | .hbm, ⟨43, _⟩ => ⟨S4096x2048, .f32⟩
  | .hbm, ⟨44, _⟩ => ⟨S4096x2048, .f32⟩
  | .hbm, ⟨45, _⟩ => ⟨S4096x2048, .bf16⟩
  | .hbm, ⟨46, _⟩ => ⟨S2048x32000, .bf16⟩
  | .hbm, ⟨47, _⟩ => ⟨S1x32000, .f32⟩
  | .hbm, ⟨48, _⟩ => ⟨S4096x32000, .f32⟩
  | .hbm, ⟨49, _⟩ => ⟨S4096x1, .f32⟩
  | .hbm, ⟨50, _⟩ => ⟨S4096x32000, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S512x512, .f32⟩
  | .local _ .vmem, ⟨39, _⟩ => ⟨S512x512, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x512, .f32⟩
  | .local _ .vmem, ⟨46, _⟩ => ⟨S1024x2048, .bf16⟩
  | .local _ .vmem, ⟨47, _⟩ => ⟨S2048x1280, .bf16⟩
  | .local _ .vmem, ⟨48, _⟩ => ⟨S2048x1280, .bf16⟩
  | .local _ .vmem, ⟨49, _⟩ => ⟨S1x1280, .f32⟩
  | .local _ .vmem, ⟨50, _⟩ => ⟨S1x1280, .f32⟩
  | .local _ .vmem, ⟨51, _⟩ => ⟨S1024x1280, .f32⟩
  | .local _ .vmem, ⟨52, _⟩ => ⟨S1024x1280, .f32⟩
  | .local _ .vmem, ⟨53, _⟩ => ⟨S1024x1, .f32⟩
  | .local _ .vmem, ⟨54, _⟩ => ⟨S1024x1, .f32⟩
  | .local _ .vmem, ⟨55, _⟩ => ⟨S1024x1, .f32⟩
  | .local _ .vmem, ⟨56, _⟩ => ⟨S1024x1, .f32⟩
  | .local _ .vmem, ⟨57, _⟩ => ⟨S1024x1280, .f32⟩
  | .local _ .vmem, ⟨58, _⟩ => ⟨S1024x1280, .f32⟩
  | .local _ .vmem, ⟨59, _⟩ => ⟨S1024x1, .f32⟩
  | .local _ .vmem, ⟨60, _⟩ => ⟨S1024x1, .f32⟩
  | .local _ .vmem, ⟨61, _⟩ => ⟨S1024x1280, .f32⟩
  | .local _ .vmem, ⟨62, _⟩ => ⟨S1024x1280, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_v19 : Ref sig .tc := ⟨.hbm, 42, rfl⟩
abbrev main_v0_1 : Ref sig .tc := ⟨.hbm, 43, rfl⟩
abbrev main_v0_2 : Ref sig .tc := ⟨.hbm, 44, rfl⟩
abbrev main_call0_v21 : Ref sig .tc := ⟨.hbm, 45, rfl⟩
abbrev main_call0_v22 : Ref sig .tc := ⟨.hbm, 46, rfl⟩
abbrev main_call0_v23 : Ref sig .tc := ⟨.hbm, 47, rfl⟩
abbrev main_call0_v24_0 : Ref sig .tc := ⟨.hbm, 48, rfl⟩
abbrev main_call0_v24_1 : Ref sig .tc := ⟨.hbm, 49, rfl⟩
abbrev main_v0_0 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc1_stg13_1 : Ref sig .tc := ⟨.vmem, 35, rfl⟩
abbrev cc1_stg14_0 : Ref sig .tc := ⟨.vmem, 36, rfl⟩
abbrev cc1_stg14_1 : Ref sig .tc := ⟨.vmem, 37, rfl⟩
abbrev cc1_stg15_0 : Ref sig .tc := ⟨.vmem, 38, rfl⟩
abbrev cc1_stg15_1 : Ref sig .tc := ⟨.vmem, 39, rfl⟩
abbrev cc1_stg16_0 : Ref sig .tc := ⟨.vmem, 40, rfl⟩
abbrev cc1_stg16_1 : Ref sig .tc := ⟨.vmem, 41, rfl⟩
abbrev cc1_scratch0 : Ref sig .tc := ⟨.vmem, 42, rfl⟩
abbrev cc1_scratch1 : Ref sig .tc := ⟨.vmem, 43, rfl⟩
abbrev cc1_scratch2 : Ref sig .tc := ⟨.vmem, 44, rfl⟩
abbrev cc1_scratch3 : Ref sig .tc := ⟨.vmem, 45, rfl⟩
abbrev cc2_stg0_0 : Ref sig .tc := ⟨.vmem, 46, rfl⟩
abbrev cc2_stg1_0 : Ref sig .tc := ⟨.vmem, 47, rfl⟩
abbrev cc2_stg1_1 : Ref sig .tc := ⟨.vmem, 48, rfl⟩
abbrev cc2_stg2_0 : Ref sig .tc := ⟨.vmem, 49, rfl⟩
abbrev cc2_stg2_1 : Ref sig .tc := ⟨.vmem, 50, rfl⟩
abbrev cc2_stg3_0 : Ref sig .tc := ⟨.vmem, 51, rfl⟩
abbrev cc2_stg3_1 : Ref sig .tc := ⟨.vmem, 52, rfl⟩
abbrev cc2_stg4_0 : Ref sig .tc := ⟨.vmem, 53, rfl⟩
abbrev cc2_stg4_1 : Ref sig .tc := ⟨.vmem, 54, rfl⟩
abbrev cc2_scratch0 : Ref sig .tc := ⟨.vmem, 55, rfl⟩
abbrev cc2_scratch1 : Ref sig .tc := ⟨.vmem, 56, rfl⟩
abbrev cc3_stg0_0 : Ref sig .tc := ⟨.vmem, 57, rfl⟩
abbrev cc3_stg0_1 : Ref sig .tc := ⟨.vmem, 58, rfl⟩
abbrev cc3_stg1_0 : Ref sig .tc := ⟨.vmem, 59, rfl⟩
abbrev cc3_stg1_1 : Ref sig .tc := ⟨.vmem, 60, rfl⟩
abbrev cc3_stg2_0 : Ref sig .tc := ⟨.vmem, 61, rfl⟩
abbrev cc3_stg2_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem12_1 : DmaSem sig := 32
abbrev cc1_sem13_0 : DmaSem sig := 33
abbrev cc1_sem13_1 : DmaSem sig := 34
abbrev cc1_sem14_0 : DmaSem sig := 35
abbrev cc1_sem14_1 : DmaSem sig := 36
abbrev cc1_sem15_0 : DmaSem sig := 37
abbrev cc1_sem15_1 : DmaSem sig := 38
abbrev cc1_sem16_0 : DmaSem sig := 39
abbrev cc1_sem16_1 : DmaSem sig := 40
abbrev cc2_sem0_0 : DmaSem sig := 41
abbrev cc2_sem1_0 : DmaSem sig := 42
abbrev cc2_sem1_1 : DmaSem sig := 43
abbrev cc2_sem2_0 : DmaSem sig := 44
abbrev cc2_sem2_1 : DmaSem sig := 45
abbrev cc2_sem3_0 : DmaSem sig := 46
abbrev cc2_sem3_1 : DmaSem sig := 47
abbrev cc2_sem4_0 : DmaSem sig := 48
abbrev cc2_sem4_1 : DmaSem sig := 49
abbrev cc3_sem0_0 : DmaSem sig := 50
abbrev cc3_sem0_1 : DmaSem sig := 51
abbrev cc3_sem1_0 : DmaSem sig := 52
abbrev cc3_sem1_1 : DmaSem sig := 53
abbrev cc3_sem2_0 : DmaSem sig := 54
abbrev cc3_sem2_1 : DmaSem sig := 55

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v71 : BitVec 1 := Scalar.cmpi .eq arg2 c3_i32
  let v72 : BitVec 32 := Scalar.extui v71
  let c0_i32_59 : BitVec 32 := 0#32
  let v73 : BitVec 1 := Scalar.cmpi .ne v72 c0_i32_59
  v73

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_10 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_11 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_12 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_13 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_14 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_15 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_16 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, true]

abbrev stage1_7 : Fin 2 → Memref sig .tc .vmem S512x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true, true]

abbrev stage1_8 : Fin 2 → Memref sig .tc .vmem S512x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true, true]

abbrev stage1_9 : Fin 2 → Memref sig .tc .vmem S512x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true, true]

abbrev stage1_10 : Fin 2 → Memref sig .tc .vmem S512x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![false, true, true]

abbrev stage1_11 : Fin 2 → Memref sig .tc .vmem S1x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![false, true, false]

abbrev stage1_12 : Fin 2 → Memref sig .tc .vmem S1x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![false, true, false]

abbrev stage1_13 : Fin 2 → Memref sig .tc .vmem S1x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![false, true, false]

abbrev stage1_14 : Fin 2 → Memref sig .tc .vmem S1x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![false, true, false]

abbrev stage1_15 : Fin 2 → Memref sig .tc .vmem S512x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true, false]

abbrev stage1_16 : Fin 2 → Memref sig .tc .vmem S512x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true, false]

abbrev grid2 : Pipeline.Grid := ⟨2, ![4, 25], ![false, false]⟩

def k2_cond2 (i : grid2.Coords) : BitVec 1 :=
  let arg1 : BitVec 32 := BitVec.ofNat 32 (i 1).val
  let c24_i32 : BitVec 32 := 24#32
  let v34 : BitVec 1 := Scalar.cmpi .eq arg1 c24_i32
  let v35 : BitVec 32 := Scalar.extui v34
  let c0_i32_20 : BitVec 32 := 0#32
  let v36 : BitVec 1 := Scalar.cmpi .ne v35 c0_i32_20
  v36

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .vmem S1024x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1280 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 25], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1280 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1280 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  bitsLt_bf16_f32 : FTy.bits .bf16 < FTy.bits .f32
  shapeCasts_S2048_S1x2048 : S2048.ShapeCasts S1x2048
  shapeCasts_S32000_S1x32000 : S32000.ShapeCasts S1x32000
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  packedbf16_S512x2048_S512x2048_0_0 : (Rect.unit (s := S512x2048) ![0, 0] S512x2048.size inb_S512x2048_S512x2048_0_0).PackedRows (EltTy.packing .bf16)
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1280_S2048x1280_0_0 : ∀ a, (![0, 0] : Fin 2 → Nat) a + S2048x1280.size a ≤ S2048x1280.size a
  h_S2048x1280 : 0 < S2048x1280.numel
  shapeCasts_S2048x1280_S2048x1280 : S2048x1280.ShapeCasts S2048x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  inb_S1024x1280_S1024x1280_0_0 : ∀ a, (![0, 0] : Fin 2 → Nat) a + S1024x1280.size a ≤ S1024x1280.size a
  h_S1024x1280 : 0 < S1024x1280.numel
  reduces_S1024x1280_S1024 : S1024x1280.Reduces [1] S1024
  shapeCasts_S1024_S1024x1 : S1024.ShapeCasts S1024x1
  broadcasts_S1024x1_S1024x1280 : S1024x1.Broadcasts S1024x1280
  shapeCasts_S1024x1280_S1024x1280 : S1024x1280.ShapeCasts S1024x1280
  dot_S512x512_S512x2048_S512x2048_1_0_0_1_n_n_wf : DotDims.WF S512x512 S512x2048 S512x2048 [1] [0] [0] [1] [] []
  dot_S512x512_S512x512_S512x512_1_0_0_1_n_n_wf : DotDims.WF S512x512 S512x512 S512x512 [1] [0] [0] [1] [] []
  dot_S1024x2048_S2048x1280_S1024x1280_1_0_0_1_n_n_wf : DotDims.WF S1024x2048 S2048x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .bf16 = 32 ∨ (Rect.block (s := S4096x2048) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x2048.size a
  hwx1_0 : ∀ i : grid1.Coords, EltTy.bits .bf16 = 32 ∨ (Rect.block (s := S4096x2048) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x2048.size a
  hwx1_1 : ∀ i : grid1.Coords, EltTy.bits .bf16 = 32 ∨ (Rect.block (s := S4096x2048) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x2048.size a
  hwx1_2 : ∀ i : grid1.Coords, EltTy.bits .f32 = 32 ∨ (Rect.block (s := S4096x2048) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S2048x2048.size a
  hwx1_3 : ∀ i : grid1.Coords, EltTy.bits .bf16 = 32 ∨ (Rect.block (s := S2048x2048) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S2048x2048.size a
  hwx1_4 : ∀ i : grid1.Coords, EltTy.bits .bf16 = 32 ∨ (Rect.block (s := S2048x2048) S512x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S2048x2048.size a
  hwx1_5 : ∀ i : grid1.Coords, EltTy.bits .bf16 = 32 ∨ (Rect.block (s := S2048x2048) S512x512.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S2048x2048.size a
  hwx1_6 : ∀ i : grid1.Coords, EltTy.bits .bf16 = 32 ∨ (Rect.block (s := S2048x2048) S512x512.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S2048x2048.size a
  hwx1_7 : ∀ i : grid1.Coords, EltTy.bits .bf16 = 32 ∨ (Rect.block (s := S2048x2048) S512x512.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x512.size a ≤ S2048x2048.size a
  hwx1_8 : ∀ i : grid1.Coords, EltTy.bits .bf16 = 32 ∨ (Rect.block (s := S2048x2048) S512x512.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x512.size a ≤ S2048x2048.size a
  hwx1_9 : ∀ i : grid1.Coords, EltTy.bits .bf16 = 32 ∨ (Rect.block (s := S2048x2048) S512x512.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x512.size a ≤ S2048x2048.size a
  hwx1_10 : ∀ i : grid1.Coords, EltTy.bits .bf16 = 32 ∨ (Rect.block (s := S2048x2048) S512x512.size (cc1_transform_10 i) (hinb1_10 i)).WholeWords (EltTy.packing .bf16)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x512.size a ≤ S1x2048.size a
  hwx1_11 : ∀ i : grid1.Coords, EltTy.bits .f32 = 32 ∨ (Rect.block (s := S1x2048) S1x512.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x512.size a ≤ S1x2048.size a
  hwx1_12 : ∀ i : grid1.Coords, EltTy.bits .f32 = 32 ∨ (Rect.block (s := S1x2048) S1x512.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x512.size a ≤ S1x2048.size a
  hwx1_13 : ∀ i : grid1.Coords, EltTy.bits .f32 = 32 ∨ (Rect.block (s := S1x2048) S1x512.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1x512.size a ≤ S1x2048.size a
  hwx1_14 : ∀ i : grid1.Coords, EltTy.bits .f32 = 32 ∨ (Rect.block (s := S1x2048) S1x512.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S512x512.size a ≤ S4096x2048.size a
  hwx1_15 : ∀ i : grid1.Coords, EltTy.bits .f32 = 32 ∨ (Rect.block (s := S4096x2048) S512x512.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S512x512.size a ≤ S4096x2048.size a
  hwx1_16 : ∀ i : grid1.Coords, EltTy.bits .f32 = 32 ∨ (Rect.block (s := S4096x2048) S512x512.size (cc1_transform_16 i) (hinb1_16 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S4096x2048.size a
  hwx2_0 : ∀ i : grid2.Coords, EltTy.bits .bf16 = 32 ∨ (Rect.block (s := S4096x2048) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1280.size a ≤ S2048x32000.size a
  hwx2_1 : ∀ i : grid2.Coords, EltTy.bits .bf16 = 32 ∨ (Rect.block (s := S2048x32000) S2048x1280.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1280.size a ≤ S1x32000.size a
  hwx2_2 : ∀ i : grid2.Coords, EltTy.bits .f32 = 32 ∨ (Rect.block (s := S1x32000) S1x1280.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1280.size a ≤ S4096x32000.size a
  hwx2_3 : ∀ i : grid2.Coords, EltTy.bits .f32 = 32 ∨ (Rect.block (s := S4096x32000) S1024x1280.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S4096x1.size a
  hwx2_4 : ∀ i : grid2.Coords, EltTy.bits .f32 = 32 ∨ (Rect.block (s := S4096x1) S1024x1.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1280.size a ≤ S4096x32000.size a
  hwx3_0 : ∀ i : grid3.Coords, EltTy.bits .f32 = 32 ∨ (Rect.block (s := S4096x32000) S1024x1280.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1.size a ≤ S4096x1.size a
  hwx3_1 : ∀ i : grid3.Coords, EltTy.bits .f32 = 32 ∨ (Rect.block (s := S4096x1) S1024x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1280.size a ≤ S4096x32000.size a
  hwx3_2 : ∀ i : grid3.Coords, EltTy.bits .f32 = 32 ∨ (Rect.block (s := S4096x32000) S1024x1280.size (cc3_transform_2 i) (hinb3_2 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1024x2048_S2048x1280_S1024x1280_1_0_0_1_n_n : DotDims S1024x2048 S2048x1280 S1024x1280 where
  lhsContracting := [1]
  rhsContracting := [0]
  lhsNonContracting := [0]
  rhsNonContracting := [1]
  lhsBatch := []
  rhsBatch := []
  wf := dot_S1024x2048_S2048x1280_S1024x1280_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_call0_v2) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v11) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v12) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v13) S512x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v14) S512x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v15) S512x512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_call0_v16) S512x512.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_call0_v17) S512x512.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_call0_v18) S512x512.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_call0_v19) S512x512.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_call0_v4) S1x512.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_call0_v6) S1x512.size cc1_transform_12 reads1_12 false false 2 stage1_12 sem1_12
    hrank1 hreads1_12 hinb1_12 nbuf1_12 (Memref.isWhole_whole _) hwx1_12 hstage1_12

abbrev win1_13 : Pipeline.Window sig grid1 :=
  Pipeline.Window.ofSpec (Memref.whole main_call0_v8) S1x512.size cc1_transform_13 reads1_13 false false 2 stage1_13 sem1_13
    hrank1 hreads1_13 hinb1_13 nbuf1_13 (Memref.isWhole_whole _) hwx1_13 hstage1_13

abbrev win1_14 : Pipeline.Window sig grid1 :=
  Pipeline.Window.ofSpec (Memref.whole main_call0_v10) S1x512.size cc1_transform_14 reads1_14 false false 2 stage1_14 sem1_14
    hrank1 hreads1_14 hinb1_14 nbuf1_14 (Memref.isWhole_whole _) hwx1_14 hstage1_14

abbrev win1_15 : Pipeline.Window sig grid1 :=
  Pipeline.Window.ofSpec (Memref.whole main_v0_1) S512x512.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v0_2) S512x512.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

abbrev idle1 : Fin 17 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k1_cond2 i == 1#1) | 16 => fun i => !(k1_cond2 i == 1#1) | ⟨_ + 17, h⟩ => absurd h (Nat.not_lt.2 (Nat.le_add_left _ _))

abbrev win2_0 : Pipeline.Window sig grid2 :=
  Pipeline.Window.ofSpec (Memref.whole main_call0_v21) S1024x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_call0_v22) S2048x1280.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v23) S1x1280.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v24_0) S1024x1280.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v24_1) S1024x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_call0_v24_0) S1024x1280.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v24_1) S1024x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0_0) S1024x1280.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4096x4096 : Shape := ⟨2, ![4096, 4096]⟩
abbrev S4096x2048 : Shape := ⟨2, ![4096, 2048]⟩
abbrev S2048 : Shape := ⟨1, ![2048]⟩
abbrev S2048x2048 : Shape := ⟨2, ![2048, 2048]⟩
abbrev S2048x32000 : Shape := ⟨2, ![2048, 32000]⟩
abbrev S32000 : Shape := ⟨1, ![32000]⟩
abbrev S1x2048 : Shape := ⟨2, ![1, 2048]⟩
abbrev S_ : Shape := ⟨0, ![]⟩
abbrev S4096x32000 : Shape := ⟨2, ![4096, 32000]⟩
abbrev S1x32000 : Shape := ⟨2, ![1, 32000]⟩
abbrev S4096 : Shape := ⟨1, ![4096]⟩
abbrev S4096x1 : Shape := ⟨2, ![4096, 1]⟩

abbrev nBuf : Space → Nat
  | .hbm => 112
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S2048, .f32⟩
  | .hbm, ⟨21, _⟩ => ⟨S2048x32000, .f32⟩
  | .hbm, ⟨22, _⟩ => ⟨S32000, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S1x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S1x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S1x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S1x2048, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S4096x2048, .f32⟩
  | .hbm, ⟨87, _⟩ => ⟨S4096x2048, .f32⟩
  | .hbm, ⟨88, _⟩ => ⟨S_, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x32000, .f32⟩
  | .hbm, ⟨94, _⟩ => ⟨S1x32000, .f32⟩
  | .hbm, ⟨95, _⟩ => ⟨S4096x32000, .f32⟩
  | .hbm, ⟨96, _⟩ => ⟨S4096x32000, .f32⟩
  | .hbm, ⟨97, _⟩ => ⟨S_, .f32⟩
  | .hbm, ⟨98, _⟩ => ⟨S4096, .f32⟩
  | .hbm, ⟨99, _⟩ => ⟨S_, .f32⟩
  | .hbm, ⟨100, _⟩ => ⟨S4096, .f32⟩
  | .hbm, ⟨101, _⟩ => ⟨S4096, .f32⟩
  | .hbm, ⟨102, _⟩ => ⟨S4096x1, .f32⟩
  | .hbm, ⟨103, _⟩ => ⟨S4096x32000, .f32⟩
  | .hbm, ⟨104, _⟩ => ⟨S4096x32000, .f32⟩
  | .hbm, ⟨105, _⟩ => ⟨S4096x32000, .f32⟩
  | .hbm, ⟨106, _⟩ => ⟨S_, .f32⟩
  | .hbm, ⟨107, _⟩ => ⟨S4096, .f32⟩
  | .hbm, ⟨108, _⟩ => ⟨S4096x1, .f32⟩
  | .hbm, ⟨109, _⟩ => ⟨S4096x1, .f32⟩
  | .hbm, ⟨110, _⟩ => ⟨S4096x32000, .f32⟩
  | .hbm, ⟨111, _⟩ => ⟨S4096x32000, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst : Ref sig .tc := ⟨.hbm, 38, rfl⟩
abbrev main_v15 : Ref sig .tc := ⟨.hbm, 39, rfl⟩
abbrev main_v16 : Ref sig .tc := ⟨.hbm, 40, rfl⟩
abbrev main_cst_0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_1 : Ref sig .tc := ⟨.hbm, 55, rfl⟩
abbrev main_v30 : Ref sig .tc := ⟨.hbm, 56, rfl⟩
abbrev main_v31 : Ref sig .tc := ⟨.hbm, 57, rfl⟩
abbrev main_cst_2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_3 : Ref sig .tc := ⟨.hbm, 85, rfl⟩
abbrev main_v58 : Ref sig .tc := ⟨.hbm, 86, rfl⟩
abbrev main_v59 : Ref sig .tc := ⟨.hbm, 87, rfl⟩
abbrev main_cst_4 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call0_cst : Ref sig .tc := ⟨.hbm, 97, rfl⟩
abbrev main_call0_v0 : Ref sig .tc := ⟨.hbm, 98, rfl⟩
abbrev main_call0_cst_0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_cst_1 : Ref sig .tc := ⟨.hbm, 106, rfl⟩
abbrev main_call0_v7 : Ref sig .tc := ⟨.hbm, 107, rfl⟩
abbrev main_call0_v8 : Ref sig .tc := ⟨.hbm, 108, rfl⟩
abbrev main_call0_v9 : Ref sig .tc := ⟨.hbm, 109, rfl⟩
abbrev main_call0_v10 : Ref sig .tc := ⟨.hbm, 110, rfl⟩
abbrev main_v68 : Ref sig .tc := ⟨.hbm, 111, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S32000_S1x32000_1 : S32000.BroadcastsInDim S1x32000 (![1] : Fin 1 → Fin S1x32000.rank)
  bcast_S1x32000_S4096x32000_0_1 : S1x32000.BroadcastsInDim S4096x32000 (![0, 1] : Fin 2 → Fin S4096x32000.rank)
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  dot_S4096x4096_S4096x2048_S4096x2048_1_0_0_1_n_n_wf : DotDims.WF S4096x4096 S4096x2048 S4096x2048 [1] [0] [0] [1] [] []
  dot_S4096x2048_S2048x2048_S4096x2048_1_0_0_1_n_n_wf : DotDims.WF S4096x2048 S2048x2048 S4096x2048 [1] [0] [0] [1] [] []
  dot_S4096x2048_S2048x32000_S4096x32000_1_0_0_1_n_n_wf : DotDims.WF S4096x2048 S2048x32000 S4096x32000 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x32000_S4096x32000_1_0_0_1_n_n : DotDims S4096x2048 S2048x32000 S4096x32000 where
  lhsContracting := [1]
  rhsContracting := [0]
  lhsNonContracting := [0]
  rhsNonContracting := [1]
  lhsBatch := []
  rhsBatch := []
  wf := dot_S4096x2048_S2048x32000_S4096x32000_1_0_0_1_n_n_wf

class Facts : Prop extends Facts₀ where

variable [Facts]
-- ==== Proof.KernelNorm.lean ====
/-
  The last kernel region: every [1024, 1280] tile of the logits less its rows' log-sum-exp column.

  A grid point's body reads the logits tile and the [1024, 1] column of the rows' log-sum-exp, subtracts the column
  (broadcast along the rows) from the tile, and stores the difference over the whole output tile. The output tile is
  loaded once before that store and the loaded value is dropped, so what the tile held before does not matter.
  Nothing is kept from one grid point to the next, so the region's invariant is the plain one: the buffers the
  region does not stage at some contents, and the generator register at some state.
-/
import proofs.«125352_j18708877541498_2_alg».proof.Proof.Gen.Kernel.Points
import proofs.«125352_j18708877541498_2_alg».proof.Proof.Gen.Kernel.Skeleton
import proofs.«125352_j18708877541498_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Norm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, cut out of its array as the region finds it. -/
def blockAt (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The logits tile is in its staging buffer at every point: an input window, never idle, never clipped, left in
    place by the body. -/
theorem logits_staged {c : Dev nD} (dat : Dat τ (Elt F) Unit ℕ (UR sig nD τ) ℕ cfg3 c)
    (hA : dat.A 0 = V c (Pipeline.arrRef spec3 0)) (hafter : ∀ t, dat.after 0 t = blockAt V c 0 t)
    (t : Fin cfg3.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- So is the log-sum-exp column, which is fetched only when the row block changes. -/
theorem column_staged {c : Dev nD} (dat : Dat τ (Elt F) Unit ℕ (UR sig nD τ) ℕ cfg3 c)
    (hA : dat.A 1 = V c (Pipeline.arrRef spec3 1)) (hafter : ∀ t, dat.after 1 t = blockAt V c 1 t)
    (t : Fin cfg3.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- The whole [1024, 1280] tile and the whole [1024, 1] column, as rectangles. -/
abbrev tileRect : Rect S1024x1280 := Rect.unit (s := S1024x1280) ![0, 0] S1024x1280.size inb_S1024x1280_S1024x1280_0_0
abbrev colRect : Rect S1024x1 := Rect.unit (s := S1024x1) ![0, 0] S1024x1.size inb_S1024x1_S1024x1_0_0

/-- What a point leaves in the output tile: one store, over the whole tile, of the logits less the column. -/
def normTile (x : Vec F S1024x1280 .f32) (l : Vec F S1024x1 .f32) : Vec F S1024x1280 .f32 :=
  View.canon [⟨tileRect, k3_pay1 (View.ld x tileRect) (View.ld l colRect)⟩]

/-- That one store covers the tile. -/
theorem tile_covered (p : Vec F S1024x1280 .f32) (y : S1024x1280.Idx) :
    ∃ pc ∈ ([⟨tileRect, p⟩] : List (View.Piece (Elt F) S1024x1280 .f32)), y ∈ pc.1.set :=
  View.cover_of_tiled [⟨tileRect, p⟩] S1024x1280.size (by rfl) y

set_option maxHeartbeats 1000000 in
/-- The body on whole staging buffers: the logits tile at `x`, the column at `l`, the output tile at anything; it
    returns with the two inputs as they were and the output tile at `normTile x l`. -/
theorem body_runs (c : Dev nD) (E : Set ℕ) (i : grid3.Coords)
    (arg2 : Memref sig .tc .vmem S1024x1280 .f32) (harg2 : arg2.IsWhole)
    (arg3 : Memref sig .tc .vmem S1024x1 .f32) (harg3 : arg3.IsWhole)
    (arg4 : Memref sig .tc .vmem S1024x1280 .f32) (harg4 : arg4.IsWhole)
    (x : Vec F S1024x1280 .f32) (l : Vec F S1024x1 .f32) (K : PUnit → sProp 𝕄) :
    iprop(owns (c : Thread nD τ) arg2 fullShare x ∗ owns (c : Thread nD τ) arg3 fullShare l
        ∗ (∃ d, owns (c : Thread nD τ) arg4 fullShare d)
        ∗ (iprop(owns (c : Thread nD τ) arg2 fullShare x ∗ owns (c : Thread nD τ) arg3 fullShare l
            ∗ owns (c : Thread nD τ) arg4 fullShare (normTile x l)) -∗ K ⟨⟩))
      ⊢ wp frame (wpE (defs₀ (F := F)) Variants.none c none) E (cc3__norm_kernel i arg2 harg2 arg3 harg3 arg4 harg4) K := by
  simp only [cc3__norm_kernel_eq_skeleton]; unfold cc3__norm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

/-- The region's proof data on core `c`: the arrays as found; after a point's body the two inputs' buffers at their
    blocks and the output's at `normTile` of them; the plain invariant; nothing owed; full shares. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => normTile (blockAt V c 0 t) (blockAt V c 1 t)
  Φ _ := Pipeline.ΦA spec3 c
  q _ := fullShare
  owed _ := 0

theorem dat_A (c : Dev nD) (w : Fin cfg3.W) : (dat V c).A w = V c (Pipeline.arrRef spec3 w) := by
  dsimp only [dat]

theorem after_logits (c : Dev nD) (t : Fin cfg3.N) : (dat V c).after 0 t = blockAt V c 0 t := by dsimp only [dat]
theorem after_column (c : Dev nD) (t : Fin cfg3.N) : (dat V c).after 1 t = blockAt V c 1 t := by dsimp only [dat]
theorem after_out (c : Dev nD) (t : Fin cfg3.N) :
    (dat V c).after 2 t = normTile (blockAt V c 0 t) (blockAt V c 1 t) := by dsimp only [dat]

theorem before_logits (c : Dev nD) (t : Fin cfg3.N) (d) : (dat V c).before 0 t d = blockAt V c 0 t :=
  logits_staged V (dat V c) (dat_A V c 0) (after_logits V c) t d
theorem before_column (c : Dev nD) (t : Fin cfg3.N) (d) : (dat V c).before 1 t d = blockAt V c 1 t :=
  column_staged V (dat V c) (dat_A V c 1) (after_column V c) t d

/-- What the body is entered with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns with. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

theorem body_at_point (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_logits, before_column]
  rw [show (dat V c).Φ t.succ = (dat V c).Φ t.castSucc from rfl,
    show (dat V c).owesAt () t.succ = (dat V c).owesAt () t.castSucc from rfl,
    after_logits, after_column, after_out]
  iintro ⟨HΦ, Ho, ⟨%d0, H0⟩, ⟨%d1, H1⟩, ⟨%d2, H2⟩⟩
  iapply (body_runs c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation (c : Dev nD) :
    BodyObligation (dat (F := F) V c) (defs₀ (F := F)) Variants.none () Set.univ := fun t => by
  rw [bigSep_W3, bigSep_W3]
  exact body_at_point V c t

end Cert.Kernel.Norm

end
-- ==== Proof.KernelEmbBase.lean ====
/-
  The first kernel region: emb = input · We + be, accumulated block by block along the contracted axis.

  The grid is 8 row blocks by 8 blocks of the contracted axis, the latter innermost. A grid point's body adds the
  product of a [512, 512] tile of the input (rounded to bf16) and a [512, 2048] tile of the weights into a
  [512, 2048] f32 accumulator that lives in a scratch buffer carried from point to point. At the first point of a
  run along the contracted axis the accumulator is zeroed before the addition; at the last point of the run the
  accumulator plus the bias row, rounded to bf16, is stored over the whole output tile. At every other point the
  output tile is left as found, and the pipeline does not write it back there.

  This module holds what the three control cases share: the blocks, the rectangles, the contents each store
  leaves in closed form, and the two branch conditions decided over the grid.
-/
import proofs.«125352_j18708877541498_2_alg».proof.Proof.Gen.Kernel.Points
import proofs.«125352_j18708877541498_2_alg».proof.Proof.Gen.Kernel.Skeleton
import proofs.«125352_j18708877541498_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The condition of the first conditional (the accumulator is zeroed), from the grid coordinates. -/
abbrev condFirst (i : grid0.Coords) : Prop :=
  (Scalar.cmpi .ne (Scalar.extui (Scalar.cmpi .eq (BitVec.ofNat 32 (i 1).val) 0#32)) 0#32) = 1#1
/-- It holds at the first point of each run of 8 along the contracted axis. -/
theorem condFirst_iff : ∀ t : Fin cfg0.N, condFirst (grid0.coords t) ↔ t.val % 8 = 0 :=
  (by decide +kernel : ∀ t : Fin grid0.N, condFirst (grid0.coords t) ↔ t.val % 8 = 0)

/-- The condition of the second conditional (the output tile is stored). -/
abbrev condLast (i : grid0.Coords) : Prop := k0_cond2 i = 1#1
/-- It holds at the last point of each run. -/
theorem condLast_iff : ∀ t : Fin cfg0.N, condLast (grid0.coords t) ↔ t.val % 8 = 7 :=
  (by decide +kernel : ∀ t : Fin grid0.N, condLast (grid0.coords t) ↔ t.val % 8 = 7)

/-! ## Where the windows are idle -/

theorem live_x : ∀ t : Fin cfg0.N, cfg0.idle 0 (grid0.coords t) = false := by decide +kernel
theorem live_w : ∀ t : Fin cfg0.N, cfg0.idle 1 (grid0.coords t) = false := by decide +kernel
theorem live_b : ∀ t : Fin cfg0.N, cfg0.idle 2 (grid0.coords t) = false := by decide +kernel
/-- Off the last point of a run the output window is idle and is not written back. -/
theorem idle_out : ∀ t : Fin cfg0.N, ¬condLast (grid0.coords t) → cfg0.idle 3 (grid0.coords t) = true := by decide +kernel
theorem noFlush_out : ∀ t : Fin cfg0.N, ¬condLast (grid0.coords t) → (cfg0.win 3).flush t = false := by decide +kernel
/-- At the last point of a run it is live. -/
theorem live_out : ∀ t : Fin cfg0.N, condLast (grid0.coords t) → cfg0.idle 3 (grid0.coords t) = false := by decide +kernel

/-! ## The rectangles and what the stores leave -/

/-- The whole input tile, the whole [512, 2048] tile (weights, accumulator, output) and the whole bias row. -/
abbrev xRect : Rect S512x512 := Rect.unit (s := S512x512) ![0, 0] S512x512.size inb_S512x512_S512x512_0_0
abbrev tRect : Rect S512x2048 := Rect.unit (s := S512x2048) ![0, 0] S512x2048.size inb_S512x2048_S512x2048_0_0
abbrev bRect : Rect S1x2048 := Rect.unit (s := S1x2048) ![0, 0] S1x2048.size inb_S1x2048_S1x2048_0_0

/-- The accumulator after the zeroing store. -/
def accZero : Vec F S512x2048 .f32 := View.canon [⟨tRect, k0_pay1 (F := F)⟩]

/-- The accumulator after the accumulating store: what it held plus the product of the two tiles. -/
def accStep (x : Vec F S512x512 .f32) (a : Vec F S512x2048 .f32) (w : Vec F S512x2048 .bf16) : Vec F S512x2048 .f32 :=
  View.canon [⟨tRect, k0_pay2 (View.ld x xRect) (View.ld a tRect) (View.ld w tRect)⟩]

/-- The output tile after its store: the accumulator plus the bias row, rounded. -/
def outTile (a : Vec F S512x2048 .f32) (b : Vec F S1x2048 .f32) : Vec F S512x2048 .bf16 :=
  View.canon [⟨tRect, k0_pay3 (View.ld a tRect) (View.ld b bRect)⟩]

/-- One store over the whole tile covers it, -/
theorem tile_covered {e : EltTy} (p : Vec F S512x2048 e) (y : S512x2048.Idx) :
    ∃ pc ∈ ([⟨tRect, p⟩] : List (View.Piece (Elt F) S512x2048 e)), y ∈ pc.1.set :=
  View.cover_of_tiled [⟨tRect, p⟩] S512x2048.size (by rfl) y

/-- and so do two. -/
theorem tile_covered₂ {e : EltTy} (p q : Vec F S512x2048 e) (y : S512x2048.Idx) :
    ∃ pc ∈ ([⟨tRect, p⟩, ⟨tRect, q⟩] : List (View.Piece (Elt F) S512x2048 e)), y ∈ pc.1.set := by
  obtain ⟨pc, hm, hy⟩ := tile_covered p y
  exact ⟨pc, List.mem_cons.mpr (Or.inl (List.mem_singleton.mp hm)), hy⟩

/-- A store over the whole tile hides every earlier one. -/
theorem canon_whole_cons {e : EltTy} (p : Vec F S512x2048 e) (L : List (View.Piece (Elt F) S512x2048 e)) :
    View.canon (⟨tRect, p⟩ :: L) = View.canon [⟨tRect, p⟩] := by
  funext y
  obtain ⟨pc, hm, hy⟩ := tile_covered p y
  simp only [List.mem_cons, List.mem_nil_iff, or_false] at hm
  subst hm
  obtain ⟨x, rfl⟩ : ∃ x, (tRect).emb x = y := (tRect).exists_idx_of_mem hy
  rw [View.canon_cons_emb, View.canon_cons_emb]

end Cert.Kernel.Emb

end
-- ==== Proof.KernelEmbFirst.lean ====
/-
  The first kernel region, the first point of a run along the contracted axis: the first conditional is taken, the
  second is not. The accumulator, whatever the scratch buffer held, is zeroed and then receives the product of the
  two tiles; the bias row and the output tile are left as found.
-/
import proofs.«125352_j18708877541498_2_alg».proof.Proof.KernelEmbBase

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on whole buffers at a point where only the first conditional is taken: the input tile at `x`, the
    weights tile at `w`, the bias row at `b`, the output tile at `o`, the accumulator at anything; it returns with
    all as they were but the accumulator, which is at `accStep x accZero w`. -/
theorem body_runs_first (c : Dev nD) (E : Set ℕ) (i : grid0.Coords)
    (arg2 : Memref sig .tc .vmem S512x512 .f32) (harg2 : arg2.IsWhole)
    (arg3 : Memref sig .tc .vmem S512x2048 .bf16) (harg3 : arg3.IsWhole)
    (arg4 : Memref sig .tc .vmem S1x2048 .f32) (harg4 : arg4.IsWhole)
    (arg5 : Memref sig .tc .vmem S512x2048 .bf16) (harg5 : arg5.IsWhole)
    (arg6 : Memref sig .tc .vmem S512x2048 .f32) (harg6 : arg6.IsWhole)
    (hc0 : condFirst i) (hc1 : ¬condLast i)
    (x : Vec F S512x512 .f32) (w : Vec F S512x2048 .bf16) (b : Vec F S1x2048 .f32) (o : Vec F S512x2048 .bf16)
    (K : PUnit → sProp 𝕄) :
    iprop(owns (c : Thread nD τ) arg2 fullShare x ∗ owns (c : Thread nD τ) arg3 fullShare w
        ∗ owns (c : Thread nD τ) arg4 fullShare b ∗ owns (c : Thread nD τ) arg5 fullShare o
        ∗ (∃ d, owns (c : Thread nD τ) arg6 fullShare d)
        ∗ (iprop(owns (c : Thread nD τ) arg2 fullShare x ∗ owns (c : Thread nD τ) arg3 fullShare w
            ∗ owns (c : Thread nD τ) arg4 fullShare b ∗ owns (c : Thread nD τ) arg5 fullShare o
            ∗ owns (c : Thread nD τ) arg6 fullShare (accStep x (accZero (F := F)) w)) -∗ K ⟨⟩))
      ⊢ wp frame (wpE (defs₀ (F := F)) Variants.none c none) E
          (cc0__emb_kernel i arg2 harg2 arg3 harg3 arg4 harg4 arg5 harg5 arg6 harg6) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (tile_covered₂ _ _)).trans ?_
  rw [canon_whole_cons]
  unfold accStep accZero body_runs_first.sl.v5 body_runs_first.sl.H4_1
  rw [View.readCov_eq_canon_ld _ _ _ (tile_covered _)]
  rfl

end Cert.Kernel.Emb

end
-- ==== Proof.KernelEmbMid.lean ====
/-
  The first kernel region, a middle point of a run along the contracted axis: neither conditional is taken. The
  accumulator, carried in the scratch buffer from the point before, receives the product of the two tiles; the
  bias row and the output tile are left as found.
-/
import proofs.«125352_j18708877541498_2_alg».proof.Proof.KernelEmbBase

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on whole buffers at a point where neither conditional is taken: the input tile at `x`, the weights
    tile at `w`, the bias row at `b`, the output tile at `o`, the accumulator at `a`; it returns with all as they
    were but the accumulator, which is at `accStep x a w`. -/
theorem body_runs_mid (c : Dev nD) (E : Set ℕ) (i : grid0.Coords)
    (arg2 : Memref sig .tc .vmem S512x512 .f32) (harg2 : arg2.IsWhole)
    (arg3 : Memref sig .tc .vmem S512x2048 .bf16) (harg3 : arg3.IsWhole)
    (arg4 : Memref sig .tc .vmem S1x2048 .f32) (harg4 : arg4.IsWhole)
    (arg5 : Memref sig .tc .vmem S512x2048 .bf16) (harg5 : arg5.IsWhole)
    (arg6 : Memref sig .tc .vmem S512x2048 .f32) (harg6 : arg6.IsWhole)
    (hc0 : ¬condFirst i) (hc1 : ¬condLast i)
    (x : Vec F S512x512 .f32) (w : Vec F S512x2048 .bf16) (b : Vec F S1x2048 .f32) (o : Vec F S512x2048 .bf16)
    (a : Vec F S512x2048 .f32) (K : PUnit → sProp 𝕄) :
    iprop(owns (c : Thread nD τ) arg2 fullShare x ∗ owns (c : Thread nD τ) arg3 fullShare w
        ∗ owns (c : Thread nD τ) arg4 fullShare b ∗ owns (c : Thread nD τ) arg5 fullShare o
        ∗ owns (c : Thread nD τ) arg6 fullShare a
        ∗ (iprop(owns (c : Thread nD τ) arg2 fullShare x ∗ owns (c : Thread nD τ) arg3 fullShare w
            ∗ owns (c : Thread nD τ) arg4 fullShare b ∗ owns (c : Thread nD τ) arg5 fullShare o
            ∗ owns (c : Thread nD τ) arg6 fullShare (accStep x a w)) -∗ K ⟨⟩))
      ⊢ wp frame (wpE (defs₀ (F := F)) Variants.none c none) E
          (cc0__emb_kernel i arg2 harg2 arg3 harg3 arg4 harg4 arg5 harg5 arg6 harg6) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_covered _)

end Cert.Kernel.Emb

end
-- ==== Proof.KernelEmbLast.lean ====
/-
  The first kernel region, the last point of a run along the contracted axis: the first conditional is not taken,
  the second is. The accumulator, carried in the scratch buffer from the point before, receives the product of the
  two tiles; then the accumulator plus the bias row, rounded, is stored over the whole output tile.
-/
import proofs.«125352_j18708877541498_2_alg».proof.Proof.KernelEmbBase

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on whole buffers at a point where only the second conditional is taken: the input tile at `x`, the
    weights tile at `w`, the bias row at `b`, the output tile at anything, the accumulator at `a`; it returns with
    the inputs as they were, the accumulator at `accStep x a w` and the output tile at `outTile` of that and `b`. -/
theorem body_runs_last (c : Dev nD) (E : Set ℕ) (i : grid0.Coords)
    (arg2 : Memref sig .tc .vmem S512x512 .f32) (harg2 : arg2.IsWhole)
    (arg3 : Memref sig .tc .vmem S512x2048 .bf16) (harg3 : arg3.IsWhole)
    (arg4 : Memref sig .tc .vmem S1x2048 .f32) (harg4 : arg4.IsWhole)
    (arg5 : Memref sig .tc .vmem S512x2048 .bf16) (harg5 : arg5.IsWhole)
    (arg6 : Memref sig .tc .vmem S512x2048 .f32) (harg6 : arg6.IsWhole)
    (hc0 : ¬condFirst i) (hc1 : condLast i)
    (x : Vec F S512x512 .f32) (w : Vec F S512x2048 .bf16) (b : Vec F S1x2048 .f32)
    (a : Vec F S512x2048 .f32) (K : PUnit → sProp 𝕄) :
    iprop(owns (c : Thread nD τ) arg2 fullShare x ∗ owns (c : Thread nD τ) arg3 fullShare w
        ∗ owns (c : Thread nD τ) arg4 fullShare b ∗ (∃ d, owns (c : Thread nD τ) arg5 fullShare d)
        ∗ owns (c : Thread nD τ) arg6 fullShare a
        ∗ (iprop(owns (c : Thread nD τ) arg2 fullShare x ∗ owns (c : Thread nD τ) arg3 fullShare w
            ∗ owns (c : Thread nD τ) arg4 fullShare b
            ∗ owns (c : Thread nD τ) arg5 fullShare (outTile (accStep x a w) b)
            ∗ owns (c : Thread nD τ) arg6 fullShare (accStep x a w)) -∗ K ⟨⟩))
      ⊢ wp frame (wpE (defs₀ (F := F)) Variants.none c none) E
          (cc0__emb_kernel i arg2 harg2 arg3 harg3 arg4 harg4 arg5 harg5 arg6 harg6) K := by
  simp only [cc0__emb_kernel_eq_skeleton]; unfold cc0__emb_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (tile_covered _)).trans ?_
    unfold outTile accStep body_runs_last.sl.v16 body_runs_last.sl.H4_1
    rw [View.readCov_eq_canon_ld _ _ _ (tile_covered _)]
    rfl
  iexists _; isplitr
  swap; · iexact H4
  ipureintro
  exact View.read_writes_eq_canon _ _ _ (tile_covered _)

end Cert.Kernel.Emb

end
-- ==== Proof.KernelEmb.lean ====
/-
  The first kernel region: emb = input · We + be, accumulated block by block along the contracted axis — the region's
  proof data, its body obligation, and the invariant at the region's two ends.

  The accumulator lives in a scratch buffer the kernel carries from grid point to grid point, so the region's
  invariant names its contents: before the first point the plain invariant (the scratch at anything); after point
  `n` the scratch at `accAt n`, the running sum of the products of the tiles met since the last zeroing. The
  output tile's contents after a point are the rounding of that sum plus the bias row; they are consulted only at
  the last point of a run along the contracted axis, the only one where the tile is stored and written back.
-/
import proofs.«125352_j18708877541498_2_alg».proof.Proof.KernelEmbFirst
import proofs.«125352_j18708877541498_2_alg».proof.Proof.KernelEmbMid
import proofs.«125352_j18708877541498_2_alg».proof.Proof.KernelEmbLast

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, cut out of its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The input tile is in its staging buffer at every point: an input window, never idle, never clipped, left in
    place by the body. -/
theorem x_staged {c : Dev nD} (dat : Dat τ (Elt F) Unit ℕ (UR sig nD τ) ℕ cfg0 c)
    (hA : dat.A 0 = V c (Pipeline.arrRef spec0 0)) (hafter : ∀ t, dat.after 0 t = blockAt V c 0 t)
    (t : Fin cfg0.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- So is the weights tile, -/
theorem w_staged {c : Dev nD} (dat : Dat τ (Elt F) Unit ℕ (UR sig nD τ) ℕ cfg0 c)
    (hA : dat.A 1 = V c (Pipeline.arrRef spec0 1)) (hafter : ∀ t, dat.after 1 t = blockAt V c 1 t)
    (t : Fin cfg0.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- and the bias row, which is fetched at the first point only. -/
theorem b_staged {c : Dev nD} (dat : Dat τ (Elt F) Unit ℕ (UR sig nD τ) ℕ cfg0 c)
    (hA : dat.A 2 = V c (Pipeline.arrRef spec0 2)) (hafter : ∀ t, dat.after 2 t = blockAt V c 2 t)
    (t : Fin cfg0.N) (d) : dat.before 2 t d = blockAt V c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)

/-! ## The accumulator, point by point -/

/-- The scratch buffer that holds the accumulator, as a memref. -/
abbrev accM : Memref sig .tc .vmem S512x2048 .f32 := Memref.whole cc0_scratch0

/-- What the accumulator holds after the body at position `n`: at the first point of a run along the contracted
    axis the product of that point's tiles added to zero, at any other the product added to what the point before
    left. -/
def accAt (c : Dev nD) : (n : ℕ) → n < cfg0.N → Vec F S512x2048 .f32
  | 0, hn => accStep (blockAt V c 0 ⟨0, hn⟩) (accZero (F := F)) (blockAt V c 1 ⟨0, hn⟩)
  | n + 1, hn =>
    if (n + 1) % 8 = 0 then accStep (blockAt V c 0 ⟨n + 1, hn⟩) (accZero (F := F)) (blockAt V c 1 ⟨n + 1, hn⟩)
    else accStep (blockAt V c 0 ⟨n + 1, hn⟩) (accAt c n (Nat.lt_of_succ_lt hn)) (blockAt V c 1 ⟨n + 1, hn⟩)

theorem accAt_first (c : Dev nD) (t : Fin cfg0.N) (h : t.val % 8 = 0) :
    accAt V c t.val t.isLt = accStep (blockAt V c 0 t) (accZero (F := F)) (blockAt V c 1 t) := by
  obtain ⟨n, hn⟩ := t
  cases n with
  | zero => rfl
  | succ n => exact (if_pos h).trans rfl

theorem accAt_next (c : Dev nD) (t : Fin cfg0.N) (h : ¬t.val % 8 = 0) :
    accAt V c t.val t.isLt
      = accStep (blockAt V c 0 t) (accAt V c (t.val - 1) (Nat.lt_of_le_of_lt (Nat.sub_le _ _) t.isLt)) (blockAt V c 1 t) := by
  obtain ⟨n, hn⟩ := t
  cases n with
  | zero => exact absurd (Nat.zero_mod _) h
  | succ n => exact (if_neg h).trans rfl

/-! ## The invariant -/

/-- The region's invariant before position `n`: before the first point the plain one; afterwards the accumulator at
    what the point before left, the other scoped buffers at anything, the generator register at some state. -/
def PhiS (c : Dev nD) : (n : ℕ) → n ≤ cfg0.N → sProp 𝕄
  | 0, _ => Pipeline.ΦA spec0 c
  | n + 1, hn => iprop((owns (c : Thread nD τ) accM fullShare (accAt V c n hn) ∗ Pipeline.scopedRestBut (Ix := Unit) (Name := ℕ) (U := UR sig nD τ) (Lvl := ℕ) (Val := Elt F) spec0 c [cc0_scratch0]) ∗ (∃ r, prngReg c r))

theorem PhiS_succ (c : Dev nD) (n : ℕ) (hn : n < cfg0.N) :
    PhiS V c (n + 1) hn
      = iprop((owns (c : Thread nD τ) accM fullShare (accAt V c n hn) ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h
      = iprop((owns (c : Thread nD τ) accM fullShare (accAt V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The plain invariant with the accumulator's buffer taken out of the scoped rest. -/
theorem PhiA_eq (c : Dev nD) :
    (Pipeline.ΦA spec0 c : sProp 𝕄)
      = iprop(((∃ d, owns (c : Thread nD τ) accM fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [accM, owns_whole]; try rfl

/-- At any position the invariant gives the plain one: the accumulator's named contents are forgotten. -/
theorem PhiS_forget (c : Dev nD) (n : ℕ) (h : n ≤ cfg0.N) :
    PhiS V c n h ⊢ iprop(((∃ d, owns (c : Thread nD τ) accM fullShare d) ∗ Pipeline.scopedRestBut (Ix := Unit) (Name := ℕ) (U := UR sig nD τ) (Lvl := ℕ) (Val := Elt F) spec0 c [cc0_scratch0]) ∗ (∃ r, prngReg c r)) := by
  cases n with
  | zero => exact Entails.of_eq (PhiA_eq c)
  | succ n =>
    rw [PhiS_succ]
    iintro ⟨⟨HS, HR⟩, Hg⟩
    isplitl [HS HR]
    · isplitl [HS]
      · iexists _; iexact HS
      iexact HR
    iexact Hg

/-! ## The proof data -/

/-- The region's proof data on core `c`: the arrays as found; after a point's body the three inputs' buffers at their
    blocks and the output's at the rounding of the accumulator plus the bias row; the invariant `PhiS`; nothing owed;
    full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => outTile (accAt V c t.val t.isLt) (blockAt V c 2 t)
  Φ t := PhiS V c t.val (Nat.le_of_lt_succ t.isLt)
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blockAt V c 0 t := by dsimp only [dat]
theorem after_w (c : Dev nD) (t : Fin cfg0.N) : (dat V c).after 1 t = blockAt V c 1 t := by dsimp only [dat]
theorem after_b (c : Dev nD) (t : Fin cfg0.N) : (dat V c).after 2 t = blockAt V c 2 t := by dsimp only [dat]
theorem after_out (c : Dev nD) (t : Fin cfg0.N) :
    (dat V c).after 3 t = outTile (accAt V c t.val t.isLt) (blockAt V c 2 t) := by dsimp only [dat]

theorem before_x (c : Dev nD) (t : Fin cfg0.N) (d) : (dat V c).before 0 t d = blockAt V c 0 t :=
  x_staged V (dat V c) (dat_A V c 0) (after_x V c) t d
theorem before_w (c : Dev nD) (t : Fin cfg0.N) (d) : (dat V c).before 1 t d = blockAt V c 1 t :=
  w_staged V (dat V c) (dat_A V c 1) (after_w V c) t d
theorem before_b (c : Dev nD) (t : Fin cfg0.N) (d) : (dat V c).before 2 t d = blockAt V c 2 t :=
  b_staged V (dat V c) (dat_A V c 2) (after_b V c) t d

theorem Phi_castSucc (c : Dev nD) (t : Fin cfg0.N) :
    (dat V c).Φ t.castSucc = PhiS V c t.val (Nat.le_of_lt t.isLt) := by
  dsimp only [dat]; simp only [Fin.coe_castSucc]

/-! ## The body obligation -/

/-- What the body is entered with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns with. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_x (c : Dev nD) (t : Fin cfg0.N) :
    (dat V c).leavesExact 0 t = owns (c : Thread nD τ) (st0_0 t) fullShare (blockAt V c 0 t) := by
  unfold Dat.leavesExact; rw [live_x t, after_x]
theorem leaves_w (c : Dev nD) (t : Fin cfg0.N) :
    (dat V c).leavesExact 1 t = owns (c : Thread nD τ) (st0_1 t) fullShare (blockAt V c 1 t) := by
  unfold Dat.leavesExact; rw [live_w t, after_w]
theorem leaves_b (c : Dev nD) (t : Fin cfg0.N) :
    (dat V c).leavesExact 2 t = owns (c : Thread nD τ) (st0_2 t) fullShare (blockAt V c 2 t) := by
  unfold Dat.leavesExact; rw [live_b t, after_b]
theorem leaves_out_idle (c : Dev nD) (t : Fin cfg0.N) (h : ¬t.val % 8 = 7) :
    (dat V c).leavesExact 3 t = iprop(∃ d, owns (c : Thread nD τ) (st0_3 t) fullShare ((dat V c).before 3 t d)) :=
  Dat.leavesExact_idle (dat V c) 3 t (idle_out t fun hc => h ((condLast_iff t).mp hc))
    (noFlush_out t fun hc => h ((condLast_iff t).mp hc))
theorem leaves_out_live (c : Dev nD) (t : Fin cfg0.N) (h : t.val % 8 = 7) :
    (dat V c).leavesExact 3 t
      = owns (c : Thread nD τ) (st0_3 t) fullShare (outTile (accAt V c t.val t.isLt) (blockAt V c 2 t)) := by
  unfold Dat.leavesExact; rw [live_out t ((condLast_iff t).mpr h), after_out]

set_option maxHeartbeats 4000000 in
/-- The body at any point, by the three control cases. -/
theorem body_at_point (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).owesAt () t.succ = (dat V c).owesAt () t.castSucc from rfl,
    show (dat V c).Φ t.succ = PhiS V c (t.val + 1) t.isLt from rfl, PhiS_succ,
    leaves_x, leaves_w, leaves_b, Phi_castSucc]
  have hN : t.val < 64 := lt_of_lt_of_eq t.isLt (show cfg0.N = 64 from N_0)
  by_cases h0 : t.val % 8 = 0
  · have h1 : ¬t.val % 8 = 7 := by omega
    rw [leaves_out_idle V c t h1, accAt_first V c t h0]
    iintro ⟨HP, Ho, ⟨%d0, H0⟩, ⟨%d1, H1⟩, ⟨%d2, H2⟩, ⟨%d3, H3⟩⟩
    ihave HQ := (PhiS_forget V c t.val (Nat.le_of_lt t.isLt)) $$ HP
    icases HQ with ⟨⟨⟨%ds, HS⟩, HR⟩, Hg⟩
    iapply (body_runs_first c Set.univ (grid0.coords t) _ _ _ _ _ _ _ _ _ _ ((condFirst_iff t).mpr h0)
      (fun hc => h1 ((condLast_iff t).mp hc)) (blockAt V c 0 t) (blockAt V c 1 t) (blockAt V c 2 t) _ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · have hz : t.val ≠ 0 := fun h => h0 (by rw [h])
    rw [PhiS_pos V c _ _ hz, accAt_next V c t h0]
    by_cases h1 : t.val % 8 = 7
    · rw [leaves_out_live V c t h1, accAt_next V c t h0]
      iintro ⟨⟨⟨HS, HR⟩, Hg⟩, Ho, ⟨%d0, H0⟩, ⟨%d1, H1⟩, ⟨%d2, H2⟩, ⟨%d3, H3⟩⟩
      iapply (body_runs_last c Set.univ (grid0.coords t) _ _ _ _ _ _ _ _ _ _ (fun hc => h0 ((condFirst_iff t).mp hc))
        ((condLast_iff t).mpr h1) (blockAt V c 0 t) (blockAt V c 1 t) (blockAt V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [leaves_out_idle V c t h1]
      iintro ⟨⟨⟨HS, HR⟩, Hg⟩, Ho, ⟨%d0, H0⟩, ⟨%d1, H1⟩, ⟨%d2, H2⟩, ⟨%d3, H3⟩⟩
      iapply (body_runs_mid c Set.univ (grid0.coords t) _ _ _ _ _ _ _ _ _ _ (fun hc => h0 ((condFirst_iff t).mp hc))
        (fun hc => h1 ((condLast_iff t).mp hc)) (blockAt V c 0 t) (blockAt V c 1 t) (blockAt V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation of the region, at every point. -/
theorem body_obligation (c : Dev nD) :
    BodyObligation (dat (F := F) V c) (defs₀ (F := F)) Variants.none () Set.univ := fun t => by
  rw [bigSep_W0, bigSep_W0]
  exact body_at_point V c t

/-! ## The invariant at the region's two ends -/

/-- What the launch hands the region is the invariant before the first point. -/
theorem phi_in (c : Dev nD) : Pipeline.ΦA spec0 c ⊢ (dat V c).Φ 0 := by
  exact Entails.of_eq (show Pipeline.ΦA spec0 c = (dat V c).Φ 0 from rfl)

/-- After the last point the invariant gives the plain one back. -/
theorem phi_out (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiA_eq]
  exact PhiS_forget V c _ _

end Cert.Kernel.Emb

end
-- ==== Proof.KernelHeadDefs.lean ====
/-
  The head region, shared definitions: what one grid point computes from its three input blocks and the two carried
  columns, as functions of whole blocks; the two branch conditions of the body in closed form over the grid.

  A grid point (i, j) takes the [1024, 2048] block of hidden rows, the [2048, 1280] tile of head weights and the
  [1, 1280] tile of the bias row, and forms the [1024, 1280] logits tile (matrix product plus the bias row broadcast
  along the rows). Beside the tile it keeps, per row, a running maximum and a running sum of exponentials over the
  column tiles seen so far in two [1024, 1] columns that survive from one point to the next: at the first column
  tile they are reset to -infinity and 0, at every tile they are updated, and at the last column tile the rows'
  log-sum-exp (maximum plus logarithm of the sum) is stored.
-/
import proofs.«125352_j18708877541498_2_alg».proof.Proof.Gen.Kernel.Points
import proofs.«125352_j18708877541498_2_alg».proof.Proof.Gen.Kernel.Skeleton
import proofs.«125352_j18708877541498_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles through which the body loads and stores. -/
abbrev rH : Rect S1024x2048 := Rect.unit (s := S1024x2048) ![0, 0] S1024x2048.size inb_S1024x2048_S1024x2048_0_0
abbrev rW : Rect S2048x1280 := Rect.unit (s := S2048x1280) ![0, 0] S2048x1280.size inb_S2048x1280_S2048x1280_0_0
abbrev rB : Rect S1x1280 := Rect.unit (s := S1x1280) ![0, 0] S1x1280.size inb_S1x1280_S1x1280_0_0
abbrev rT : Rect S1024x1280 := Rect.unit (s := S1024x1280) ![0, 0] S1024x1280.size inb_S1024x1280_S1024x1280_0_0
abbrev rC : Rect S1024x1 := Rect.unit (s := S1024x1) ![0, 0] S1024x1.size inb_S1024x1_S1024x1_0_0

/-- The logits tile of a point: hidden block times weight tile, plus the bias tile along the rows. -/
def tileOf (x0 : Vec F S1024x2048 .bf16) (x1 : Vec F S2048x1280 .bf16) (x2 : Vec F S1x1280 .f32) : Vec F S1024x1280 .f32 :=
  k2_pay5 (View.ld x0 rH) (View.ld x1 rW) (View.ld x2 rB)

/-- The rows' running maximum after the point, from the running maximum `m` before it. -/
def maxOf (x0 : Vec F S1024x2048 .bf16) (x1 : Vec F S2048x1280 .bf16) (x2 : Vec F S1x1280 .f32)
    (m : Vec F S1024x1 .f32) : Vec F S1024x1 .f32 :=
  k2_pay1 (k2_pay6 (View.ld x0 rH) (View.ld x1 rW) (View.ld x2 rB) m)

/-- The rows' running sum of exponentials after the point, from the running maximum `m` and sum `l` before it. -/
def sumOf (x0 : Vec F S1024x2048 .bf16) (x1 : Vec F S2048x1280 .bf16) (x2 : Vec F S1x1280 .f32)
    (m l : Vec F S1024x1 .f32) : Vec F S1024x1 .f32 :=
  k2_pay7 (View.ld x0 rH) (View.ld x1 rW) (View.ld x2 rB) m m l

/-- The rows' log-sum-exp from a running maximum and sum. -/
def lseOf (m l : Vec F S1024x1 .f32) : Vec F S1024x1 .f32 := k2_pay2 m l

/-- The columns a first column tile starts from: -infinity and 0. -/
def maxInit : Vec F S1024x1 .f32 := k2_pay3 (F := F)
def sumInit : Vec F S1024x1 .f32 := k2_pay4 (F := F)

/-- The body's first branch condition (reset the two columns), from the grid coordinates. -/
abbrev cond1 (i : grid2.Coords) : Prop :=
  (Scalar.cmpi .ne (Scalar.extui (Scalar.cmpi .eq (BitVec.ofNat 32 (i 1).val) 0#32)) 0#32) = 1#1
/-- It holds at the first column tile of each row block. -/
theorem hcond1 : ∀ t : Fin cfg2.N, cond1 (grid2.coords t) ↔ t.val % 25 = 0 :=
  (by decide +kernel : ∀ t : Fin grid2.N, cond1 (grid2.coords t) ↔ t.val % 25 = 0)

/-- The body's second branch condition (store the log-sum-exp). -/
abbrev cond2 (i : grid2.Coords) : Prop := k2_cond2 i = 1#1
/-- It holds at the last column tile of each row block. -/
theorem hcond2 : ∀ t : Fin cfg2.N, cond2 (grid2.coords t) ↔ t.val % 25 = 24 :=
  (by decide +kernel : ∀ t : Fin grid2.N, cond2 (grid2.coords t) ↔ t.val % 25 = 24)

/-- The inputs and the logits tile are never idle; the log-sum-exp column is idle, and not written back, off the
    last column tile, and live at it. -/
theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem idle4 : ∀ t : Fin cfg2.N, ¬cond2 (grid2.coords t) → cfg2.idle 4 (grid2.coords t) = true := by decide +kernel
theorem noFlush4 : ∀ t : Fin cfg2.N, ¬cond2 (grid2.coords t) → (cfg2.win 4).flush t = false := by decide +kernel
theorem live4 : ∀ t : Fin cfg2.N, cond2 (grid2.coords t) → cfg2.idle 4 (grid2.coords t) = false := by decide +kernel

/-- The two carried columns as whole memrefs. -/
abbrev scM : Memref sig .tc .vmem S1024x1 .f32 := Memref.whole cc2_scratch0
abbrev scL : Memref sig .tc .vmem S1024x1 .f32 := Memref.whole cc2_scratch1

/-- Zero offsets, however spelt. -/
theorem hz : (![0, 0] : Fin 2 → Nat) = fun _ => 0 := funext fun a => by fin_cases a <;> rfl

/-- One whole-block store covers its block. -/
theorem tile_covered (p : Vec F S1024x1280 .f32) (y : S1024x1280.Idx) :
    ∃ pc ∈ ([⟨rT, p⟩] : List (View.Piece (Elt F) S1024x1280 .f32)), y ∈ pc.1.set :=
  ⟨_, List.mem_singleton_self _, View.mem_set_unit_zero hz inb_S1024x1280_S1024x1280_0_0 y⟩

/-- A list of whole-column stores covers the column. -/
theorem col_covered (p : Vec F S1024x1 .f32) (L : List (View.Piece (Elt F) S1024x1 .f32)) (y : S1024x1.Idx) :
    ∃ pc ∈ ((⟨rC, p⟩ : View.Piece (Elt F) S1024x1 .f32) :: L), y ∈ pc.1.set :=
  ⟨_, List.mem_cons_self, View.mem_set_unit_zero hz inb_S1024x1_S1024x1_0_0 y⟩

end Cert.Kernel.Head

end
-- ==== Proof.KernelHeadRunA.lean ====
/-
  The head region's body at the first column tile of a row block: the reset branch taken, the final one not.
-/
import proofs.«125352_j18708877541498_2_alg».proof.Proof.KernelHeadDefs

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first column tile of a row block, on whole buffers — the three inputs at `x0`, `x1`, `x2`, the logits
    tile and the two carried columns at anything, the log-sum-exp column at `xi` (untouched) — the body resets the
    carried columns and returns with the inputs as they were, the logits tile computed, and the carried columns
    updated from their reset values. -/
theorem run_first (c : Dev nD) (E : Set ℕ) (i : grid2.Coords)
    (arg2 : Memref sig .tc .vmem S1024x2048 .bf16) (harg2 : arg2.IsWhole)
    (arg3 : Memref sig .tc .vmem S2048x1280 .bf16) (harg3 : arg3.IsWhole)
    (arg4 : Memref sig .tc .vmem S1x1280 .f32) (harg4 : arg4.IsWhole)
    (arg5 : Memref sig .tc .vmem S1024x1280 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole)
    (hc1 : cond1 i) (hc2 : ¬cond2 i)
    (x0 : Vec F S1024x2048 .bf16) (x1 : Vec F S2048x1280 .bf16) (x2 : Vec F S1x1280 .f32)
    (xi : Vec F S1024x1 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d)
        ∗ owns (c : Thread nD τ) arg6 fullShare xi
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (tileOf x0 x1 x2)
            ∗ owns (c : Thread nD τ) arg6 fullShare xi
            ∗ owns (c : Thread nD τ) arg7 fullShare (maxOf x0 x1 x2 maxInit)
            ∗ owns (c : Thread nD τ) arg8 fullShare (sumOf x0 x1 x2 maxInit sumInit)) -∗ K ⟨⟩))
      ⊢ wp frame (wpE (defs₀ (F := F)) Variants.none c none) E (cc2__out_kernel i arg2 harg2 arg3 harg3 arg4 harg4 arg5 harg5 arg6 harg6 arg7 harg7 arg8 harg8) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%d6, %f6, -, H6⟩, Hk⟩
  subst hf0; subst hf1; subst hf2; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (tile_covered _)).trans (View.canon_unit_zero hz _ _)
  isplitl [H4]
  · iexists f4; isplitr; · ipureintro; rfl
    iexact H4
  isplitl [H5]
  · iexists _; isplitr
    swap; · iexact H5
    ipureintro
    refine (View.read_writes_eq_canon _ _ _ (col_covered _ _)).trans ((View.canon_cons_unit_zero hz _ _ _).trans ?_)
    (try sl_unfold_words)
    simp only [maxOf, sumOf, lseOf, maxInit, sumInit, View.readCov_cons_toLoadRect, View.readAt_eq_ld, View.ld_unit_zero (S := S1024x1) hz]
  iexists _; isplitr
  swap; · iexact H6
  ipureintro
  refine (View.read_writes_eq_canon _ _ _ (col_covered _ _)).trans ((View.canon_cons_unit_zero hz _ _ _).trans ?_)
  (try sl_unfold_words)
  simp only [maxOf, sumOf, lseOf, maxInit, sumInit, View.readCov_cons_toLoadRect, View.readAt_eq_ld, View.ld_unit_zero (S := S1024x1) hz]

end Cert.Kernel.Head

end
-- ==== Proof.KernelHeadRunB.lean ====
/-
  The head region's body at a middle column tile: neither branch taken.
-/
import proofs.«125352_j18708877541498_2_alg».proof.Proof.KernelHeadDefs

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a column tile that is neither the first nor the last of its row block, on whole buffers — the three inputs at
    `x0`, `x1`, `x2`, the logits tile at anything, the log-sum-exp column at `xi` (untouched), the two carried
    columns at `m` and `l` — the body returns with the inputs as they were, the logits tile computed, and the carried
    columns updated. -/
theorem run_mid (c : Dev nD) (E : Set ℕ) (i : grid2.Coords)
    (arg2 : Memref sig .tc .vmem S1024x2048 .bf16) (harg2 : arg2.IsWhole)
    (arg3 : Memref sig .tc .vmem S2048x1280 .bf16) (harg3 : arg3.IsWhole)
    (arg4 : Memref sig .tc .vmem S1x1280 .f32) (harg4 : arg4.IsWhole)
    (arg5 : Memref sig .tc .vmem S1024x1280 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole)
    (hc1 : ¬cond1 i) (hc2 : ¬cond2 i)
    (x0 : Vec F S1024x2048 .bf16) (x1 : Vec F S2048x1280 .bf16) (x2 : Vec F S1x1280 .f32)
    (xi m l : Vec F S1024x1 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d)
        ∗ owns (c : Thread nD τ) arg6 fullShare xi
        ∗ owns (c : Thread nD τ) arg7 fullShare m ∗ owns (c : Thread nD τ) arg8 fullShare l
        ∗ (iprop(owns (c : Thread nD τ) arg2 fullShare x0 ∗ owns (c : Thread nD τ) arg3 fullShare x1
            ∗ owns (c : Thread nD τ) arg4 fullShare x2
            ∗ owns (c : Thread nD τ) arg5 fullShare (tileOf x0 x1 x2)
            ∗ owns (c : Thread nD τ) arg6 fullShare xi
            ∗ owns (c : Thread nD τ) arg7 fullShare (maxOf x0 x1 x2 m)
            ∗ owns (c : Thread nD τ) arg8 fullShare (sumOf x0 x1 x2 m l)) -∗ K ⟨⟩))
      ⊢ wp frame (wpE (defs₀ (F := F)) Variants.none c none) E (cc2__out_kernel i arg2 harg2 arg3 harg3 arg4 harg4 arg5 harg5 arg6 harg6 arg7 harg7 arg8 harg8) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
  subst hf0; subst hf1; subst hf2; subst hf4; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (tile_covered _)).trans (View.canon_unit_zero hz _ _)
  isplitl [H4]
  · iexists f4; isplitr; · ipureintro; rfl
    iexact H4
  isplitl [H5]
  · iexists _; isplitr
    swap; · iexact H5
    ipureintro
    refine (View.read_writes_eq_canon _ _ _ (col_covered _ _)).trans ((View.canon_cons_unit_zero hz _ _ _).trans ?_)
    (try sl_unfold_words)
    simp only [maxOf, sumOf, lseOf, maxInit, sumInit, View.readCov_cons_toLoadRect, View.readAt_eq_ld, View.ld_unit_zero (S := S1024x1) hz]
  iexists _; isplitr
  swap; · iexact H6
  ipureintro
  refine (View.read_writes_eq_canon _ _ _ (col_covered _ _)).trans ((View.canon_cons_unit_zero hz _ _ _).trans ?_)
  (try sl_unfold_words)
  simp only [maxOf, sumOf, lseOf, maxInit, sumInit, View.readCov_cons_toLoadRect, View.readAt_eq_ld, View.ld_unit_zero (S := S1024x1) hz]

end Cert.Kernel.Head

end
-- ==== Proof.KernelHeadRunC.lean ====
/-
  The head region's body at the last column tile of a row block: the reset branch not taken, the final one taken.
-/
import proofs.«125352_j18708877541498_2_alg».proof.Proof.KernelHeadDefs

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last column tile of a row block, on whole buffers — the three inputs at `x0`, `x1`, `x2`, the logits
    tile and the log-sum-exp column at anything, the two carried columns at `m` and `l` — the body returns with
    the inputs as they were, the logits tile computed, the carried columns updated, and the log-sum-exp column
    computed from the updated columns. -/
theorem run_last (c : Dev nD) (E : Set ℕ) (i : grid2.Coords)
    (arg2 : Memref sig .tc .vmem S1024x2048 .bf16) (harg2 : arg2.IsWhole)
    (arg3 : Memref sig .tc .vmem S2048x1280 .bf16) (harg3 : arg3.IsWhole)
    (arg4 : Memref sig .tc .vmem S1x1280 .f32) (harg4 : arg4.IsWhole)
    (arg5 : Memref sig .tc .vmem S1024x1280 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole)
    (hc1 : ¬cond1 i) (hc2 : cond2 i)
    (x0 : Vec F S1024x2048 .bf16) (x1 : Vec F S2048x1280 .bf16) (x2 : Vec F S1x1280 .f32)
    (m l : Vec F S1024x1 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d)
        ∗ (∃ d, owns (c : Thread nD τ) arg6 fullShare d)
        ∗ owns (c : Thread nD τ) arg7 fullShare m ∗ owns (c : Thread nD τ) arg8 fullShare l
        ∗ (iprop(owns (c : Thread nD τ) arg2 fullShare x0 ∗ owns (c : Thread nD τ) arg3 fullShare x1
            ∗ owns (c : Thread nD τ) arg4 fullShare x2
            ∗ owns (c : Thread nD τ) arg5 fullShare (tileOf x0 x1 x2)
            ∗ owns (c : Thread nD τ) arg6 fullShare (lseOf (maxOf x0 x1 x2 m) (sumOf x0 x1 x2 m l))
            ∗ owns (c : Thread nD τ) arg7 fullShare (maxOf x0 x1 x2 m)
            ∗ owns (c : Thread nD τ) arg8 fullShare (sumOf x0 x1 x2 m l)) -∗ K ⟨⟩))
      ⊢ wp frame (wpE (defs₀ (F := F)) Variants.none c none) E (cc2__out_kernel i arg2 harg2 arg3 harg3 arg4 harg4 arg5 harg5 arg6 harg6 arg7 harg7 arg8 harg8) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf0; subst hf1; subst hf2; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (tile_covered _)).trans (View.canon_unit_zero hz _ _)
  isplitl [H4]
  · iexists _; isplitr
    swap; · iexact H4
    ipureintro
    refine (View.read_writes_eq_canon _ _ _ (col_covered _ _)).trans ((View.canon_cons_unit_zero hz _ _ _).trans ?_)
    (try sl_unfold_words)
    simp only [maxOf, sumOf, lseOf, maxInit, sumInit, View.readCov_cons_toLoadRect, View.readAt_eq_ld, View.ld_unit_zero (S := S1024x1) hz]
  isplitl [H5]
  · iexists _; isplitr
    swap; · iexact H5
    ipureintro
    refine (View.read_writes_eq_canon _ _ _ (col_covered _ _)).trans ((View.canon_cons_unit_zero hz _ _ _).trans ?_)
    (try sl_unfold_words)
    simp only [maxOf, sumOf, lseOf, maxInit, sumInit, View.readCov_cons_toLoadRect, View.readAt_eq_ld, View.ld_unit_zero (S := S1024x1) hz]
  iexists _; isplitr
  swap; · iexact H6
  ipureintro
  refine (View.read_writes_eq_canon _ _ _ (col_covered _ _)).trans ((View.canon_cons_unit_zero hz _ _ _).trans ?_)
  (try sl_unfold_words)
  simp only [maxOf, sumOf, lseOf, maxInit, sumInit, View.readCov_cons_toLoadRect, View.readAt_eq_ld, View.ld_unit_zero (S := S1024x1) hz]

end Cert.Kernel.Head

end
-- ==== Proof.KernelHead.lean ====
/-
  The head region: every [1024, 1280] tile of the logits, and the rows' log-sum-exp over all column tiles.

  The grid is 4 row blocks by 25 column tiles. A point's body forms its logits tile and stores it; beside it the
  body keeps, per row, a running maximum and a running sum of exponentials over the column tiles of the row block
  seen so far, in two columns that are carried from one point to the next: reset at the first column tile, updated
  at every tile, and turned into the rows' log-sum-exp at the last. So the region's invariant names what the two
  columns hold after each point (`carried`, by recursion on the point), the log-sum-exp column is idle except at
  the last column tile of each row block, and the body's triple is taken by cases on the point's column tile: first,
  middle, last.
-/
import proofs.«125352_j18708877541498_2_alg».proof.Proof.KernelHeadRunA
import proofs.«125352_j18708877541498_2_alg».proof.Proof.KernelHeadRunB
import proofs.«125352_j18708877541498_2_alg».proof.Proof.KernelHeadRunC

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, cut out of its array as the region finds it. -/
def blockAt (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The three input blocks of a point at their own shapes: hidden rows, weight tile, bias tile. -/
def blk0 (c : Dev nD) (t : Fin cfg2.N) : Vec F S1024x2048 .bf16 := blockAt V c 0 t
def blk1 (c : Dev nD) (t : Fin cfg2.N) : Vec F S2048x1280 .bf16 := blockAt V c 1 t
def blk2 (c : Dev nD) (t : Fin cfg2.N) : Vec F S1x1280 .f32 := blockAt V c 2 t

/-- The hidden block is in its staging buffer at every point, fetched there or not: an input window, never idle, never
    clipped, left in place by the body. -/
theorem hidden_staged {c : Dev nD} (dat : Dat τ (Elt F) Unit ℕ (UR sig nD τ) ℕ cfg2 c)
    (hA : dat.A 0 = V c (Pipeline.arrRef spec2 0)) (hafter : ∀ t, dat.after 0 t = blockAt V c 0 t)
    (t : Fin cfg2.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- So is the weight tile, -/
theorem weights_staged {c : Dev nD} (dat : Dat τ (Elt F) Unit ℕ (UR sig nD τ) ℕ cfg2 c)
    (hA : dat.A 1 = V c (Pipeline.arrRef spec2 1)) (hafter : ∀ t, dat.after 1 t = blockAt V c 1 t)
    (t : Fin cfg2.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- and the bias tile. -/
theorem bias_staged {c : Dev nD} (dat : Dat τ (Elt F) Unit ℕ (UR sig nD τ) ℕ cfg2 c)
    (hA : dat.A 2 = V c (Pipeline.arrRef spec2 2)) (hafter : ∀ t, dat.after 2 t = blockAt V c 2 t)
    (t : Fin cfg2.N) (d) : dat.before 2 t d = blockAt V c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)

/-- One grid point's update of the carried pair (running maximum, running sum). -/
def step (x0 : Vec F S1024x2048 .bf16) (x1 : Vec F S2048x1280 .bf16) (x2 : Vec F S1x1280 .f32)
    (s : Vec F S1024x1 .f32 × Vec F S1024x1 .f32) : Vec F S1024x1 .f32 × Vec F S1024x1 .f32 :=
  (maxOf x0 x1 x2 s.1, sumOf x0 x1 x2 s.1 s.2)

/-- What the two carried columns hold after the body at position `n`: the point's update of what the point before
    left, or of the reset values at the first column tile of a row block. -/
def carried (c : Dev nD) : (n : ℕ) → n < cfg2.N → Vec F S1024x1 .f32 × Vec F S1024x1 .f32
  | 0, hn => step (blk0 V c ⟨0, hn⟩) (blk1 V c ⟨0, hn⟩) (blk2 V c ⟨0, hn⟩) (maxInit, sumInit)
  | n + 1, hn => step (blk0 V c ⟨n + 1, hn⟩) (blk1 V c ⟨n + 1, hn⟩) (blk2 V c ⟨n + 1, hn⟩)
      (if (n + 1) % 25 = 0 then (maxInit, sumInit) else carried c n (Nat.lt_of_succ_lt hn))

theorem carried_first (c : Dev nD) (t : Fin cfg2.N) (h : t.val % 25 = 0) :
    carried V c t.val t.isLt = step (blk0 V c t) (blk1 V c t) (blk2 V c t) (maxInit, sumInit) := by
  obtain ⟨n, hn⟩ := t
  cases n with
  | zero => rfl
  | succ n =>
    show step _ _ _ (if (n + 1) % 25 = 0 then _ else _) = _
    rw [if_pos h]

theorem carried_next (c : Dev nD) (t : Fin cfg2.N) (h : ¬t.val % 25 = 0) :
    carried V c t.val t.isLt = step (blk0 V c t) (blk1 V c t) (blk2 V c t)
      (carried V c (t.val - 1) (Nat.lt_of_le_of_lt (Nat.sub_le _ _) t.isLt)) := by
  obtain ⟨n, hn⟩ := t
  cases n with
  | zero => exact absurd (Nat.zero_mod _) h
  | succ n =>
    show step _ _ _ (if (n + 1) % 25 = 0 then _ else _) = _
    rw [if_neg h]; rfl

/-- The region's invariant with the two carried columns named: the scoped buffers other than the two columns, and
    the generator register, as the launch hands them over. -/
theorem PhiA_eq (c : Dev nD) :
    (Pipeline.ΦA spec2 c : sProp 𝕄)
      = iprop(iprop(iprop((∃ d, owns (c : Thread nD τ) scM fullShare d) ∗ (∃ d, owns (c : Thread nD τ) scL fullShare d))
          ∗ Pipeline.scopedRestBut spec2 c [cc2_scratch0, cc2_scratch1]) ∗ (∃ r, prngReg c r)) := by
  unfold Pipeline.ΦA; rw [scopedRest2_split]; simp only [scM, scL, owns_whole]; try rfl

/-- The invariant before position `n`: before the first point what the launch hands over; afterwards the same with the
    two carried columns at what the point before left. -/
def PhiS (c : Dev nD) : (n : ℕ) → n ≤ cfg2.N → sProp 𝕄
  | 0, _ => Pipeline.ΦA spec2 c
  | n + 1, hn => iprop(iprop(iprop(owns (c : Thread nD τ) scM fullShare (carried V c n hn).1 ∗ owns (c : Thread nD τ) scL fullShare (carried V c n hn).2)
      ∗ Pipeline.scopedRestBut spec2 c [cc2_scratch0, cc2_scratch1]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM fullShare (carried V c n hn).1 ∗ owns (c : Thread nD τ) scL fullShare (carried V c n hn).2)
      ∗ Pipeline.scopedRestBut spec2 c [cc2_scratch0, cc2_scratch1]) ∗ (∃ r, prngReg c r)) := rfl

theorem PhiS_pos (c : Dev nD) (n : ℕ) (h : n ≤ cfg2.N) (hz : n ≠ 0) :
    PhiS V c n h = iprop(iprop(iprop(owns (c : Thread nD τ) scM fullShare (carried V c (n - 1) (by omega)).1 ∗ owns (c : Thread nD τ) scL fullShare (carried V c (n - 1) (by omega)).2)
      ∗ Pipeline.scopedRestBut spec2 c [cc2_scratch0, cc2_scratch1]) ∗ (∃ r, prngReg c r)) := by
  cases n with
  | zero => exact absurd rfl hz
  | succ n => rfl

/-- The region's proof data on core `c`: the arrays as found; after a point's body the three inputs' buffers at their
    blocks, the logits tile computed from them, the log-sum-exp column from the carried pair after the point; the
    invariant `PhiS`; nothing owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => tileOf (blk0 V c t) (blk1 V c t) (blk2 V c t)
    | ⟨4, _⟩ => lseOf (carried V c t.val t.isLt).1 (carried V c t.val t.isLt).2
  Φ t := PhiS V c t.val (Nat.le_of_lt_succ t.isLt)
  q _ := fullShare
  owed _ := 0

theorem dat_A (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_hidden' (c : Dev nD) (t : Fin cfg2.N) : (dat V c).after 0 t = blockAt V c 0 t := by dsimp only [dat]
theorem after_weights' (c : Dev nD) (t : Fin cfg2.N) : (dat V c).after 1 t = blockAt V c 1 t := by dsimp only [dat]
theorem after_bias' (c : Dev nD) (t : Fin cfg2.N) : (dat V c).after 2 t = blockAt V c 2 t := by dsimp only [dat]
theorem after_hidden (c : Dev nD) (t : Fin cfg2.N) : (dat V c).after 0 t = blk0 V c t := after_hidden' V c t
theorem after_weights (c : Dev nD) (t : Fin cfg2.N) : (dat V c).after 1 t = blk1 V c t := after_weights' V c t
theorem after_bias (c : Dev nD) (t : Fin cfg2.N) : (dat V c).after 2 t = blk2 V c t := after_bias' V c t
theorem after_tile (c : Dev nD) (t : Fin cfg2.N) :
    (dat V c).after 3 t = tileOf (blk0 V c t) (blk1 V c t) (blk2 V c t) := by dsimp only [dat]
theorem after_lse (c : Dev nD) (t : Fin cfg2.N) :
    (dat V c).after 4 t = lseOf (carried V c t.val t.isLt).1 (carried V c t.val t.isLt).2 := by dsimp only [dat]

theorem before_hidden (c : Dev nD) (t : Fin cfg2.N) (d) : (dat V c).before 0 t d = blk0 V c t :=
  hidden_staged V (dat V c) (dat_A V c 0) (after_hidden' V c) t d
theorem before_weights (c : Dev nD) (t : Fin cfg2.N) (d) : (dat V c).before 1 t d = blk1 V c t :=
  weights_staged V (dat V c) (dat_A V c 1) (after_weights' V c) t d
theorem before_bias (c : Dev nD) (t : Fin cfg2.N) (d) : (dat V c).before 2 t d = blk2 V c t :=
  bias_staged V (dat V c) (dat_A V c 2) (after_bias' V c) t d

/-- What the body is entered with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- and what it returns with: the log-sum-exp column's buffer as it was found where the point is idle for it. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ (dat V c).leavesExact 4 t)

/-- Before any point the invariant gives the two carried columns at some contents. -/
theorem Phi_weak (c : Dev nD) (n : ℕ) (h : n ≤ cfg2.N) :
    PhiS V c n h ⊢ iprop(iprop(iprop((∃ d, owns (c : Thread nD τ) scM fullShare d) ∗ (∃ d, owns (c : Thread nD τ) scL fullShare d))
          ∗ Pipeline.scopedRestBut spec2 c [cc2_scratch0, cc2_scratch1]) ∗ (∃ r, prngReg c r)) := by
  by_cases hz : n = 0
  · rw [PhiS_zero V c n h hz, PhiA_eq]; try exact Idealize.SL.BI.Entails.refl _
  · rw [PhiS_pos V c n h hz]
    iintro ⟨⟨⟨HM, HL⟩, HR⟩, Hg⟩
    isplitl [HM HL HR]
    · isplitl [HM HL]
      · isplitl [HM]; · iexists _; iexact HM
        iexists _; iexact HL
      iexact HR
    iexact Hg

set_option maxHeartbeats 4000000 in
/-- The body at any point: the inputs' buffers hold their blocks; the point is the first, a middle or the last column
    tile of its row block, and that case's run applies; the invariant hands the body the carried columns at what
    the point before left (at anything at a first column tile, where they are reset) and takes them back at this
    point's contents. -/
theorem body_at_point (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_hidden, before_weights, before_bias]
  rw [show (dat V c).owesAt () t.succ = (dat V c).owesAt () t.castSucc from rfl,
    show (dat V c).Φ t.succ = PhiS V c (t.val + 1) t.isLt from rfl, PhiS_succ,
    after_hidden, after_weights, after_bias, after_tile, PhiS_castSucc V c t]
  have hN : t.val < 100 := lt_of_lt_of_eq t.isLt (show cfg2.N = 100 from N_2)
  by_cases h0 : t.val % 25 = 0
  · have h24 : ¬t.val % 25 = 24 := by omega
    have hc1 : cond1 (grid2.coords t) := (hcond1 t).mpr h0
    have hc2 : ¬cond2 (grid2.coords t) := fun h => h24 ((hcond2 t).mp h)
    rw [Dat.leavesExact_idle (dat V c) 4 t (idle4 t hc2) (noFlush4 t hc2), carried_first V c t h0]
    unfold step; dsimp only
    iintro ⟨HΦ, Ho, ⟨%d0, H0⟩, ⟨%d1, H1⟩, ⟨%d2, H2⟩, ⟨%d3, H3⟩, ⟨%d4, H4⟩⟩
    ihave HΦ' := (Phi_weak V c t.val (Nat.le_of_lt t.isLt)) $$ HΦ
    icases HΦ' with ⟨⟨⟨⟨%dm, HM⟩, ⟨%dl, HL⟩⟩, HR⟩, Hg⟩
    iapply (run_first c Set.univ (grid2.coords t) _ _ _ _ _ _ _ _ _ _ _ _ _ _ hc1 hc2 (blk0 V c t) (blk1 V c t) (blk2 V c t) ((dat V c).before 4 t d4) _)
    isplitl [H0]; · iexact H0
    isplitl [H1]; · iexact H1
    isplitl [H2]; · iexact H2
    isplitl [H3]; · iexists _; iexact H3
    isplitl [H4]; · iexact H4
    isplitl [HM]; · iexists _; iexact HM
    isplitl [HL]; · iexists _; iexact HL
    iintro ⟨H0, H1, H2, H3, H4, HM, HL⟩
    isplitl [HM HL HR Hg]
    · isplitl [HM HL HR]
      · isplitl [HM HL]
        · isplitl [HM]; · iexact HM
          iexact HL
        iexact HR
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc1 : ¬cond1 (grid2.coords t) := fun h => h0 ((hcond1 t).mp h)
    rw [PhiS_pos V c _ _ hz, carried_next V c t h0]
    unfold step; dsimp only
    by_cases h24 : t.val % 25 = 24
    · have hc2 : cond2 (grid2.coords t) := (hcond2 t).mpr h24
      rw [show (dat V c).leavesExact 4 t = owns (c : Thread nD τ) (st2_4 t) fullShare ((dat V c).after 4 t) from by
        unfold Dat.leavesExact; rw [live4 t hc2], after_lse, carried_next V c t h0]
      unfold step; dsimp only
      iintro ⟨⟨⟨⟨HM, HL⟩, HR⟩, Hg⟩, Ho, ⟨%d0, H0⟩, ⟨%d1, H1⟩, ⟨%d2, H2⟩, ⟨%d3, H3⟩, ⟨%d4, H4⟩⟩
      iapply (run_last c Set.univ (grid2.coords t) _ _ _ _ _ _ _ _ _ _ _ _ _ _ hc1 hc2 (blk0 V c t) (blk1 V c t) (blk2 V c t) _ _ _)
      isplitl [H0]; · iexact H0
      isplitl [H1]; · iexact H1
      isplitl [H2]; · iexact H2
      isplitl [H3]; · iexists _; iexact H3
      isplitl [H4]; · iexists _; iexact H4
      isplitl [HM]; · iexact HM
      isplitl [HL]; · iexact HL
      iintro ⟨H0, H1, H2, H3, H4, HM, HL⟩
      isplitl [HM HL HR Hg]
      · isplitl [HM HL HR]
        · isplitl [HM HL]
          · isplitl [HM]; · iexact HM
            iexact HL
          iexact HR
        iexact Hg
      isplitl [Ho]; · iexact Ho
      isplitl [H0]; · iexact H0
      isplitl [H1]; · iexact H1
      isplitl [H2]; · iexact H2
      isplitl [H3]; · iexact H3
      iexact H4
    · have hc2 : ¬cond2 (grid2.coords t) := fun h => h24 ((hcond2 t).mp h)
      rw [Dat.leavesExact_idle (dat V c) 4 t (idle4 t hc2) (noFlush4 t hc2)]
      iintro ⟨⟨⟨⟨HM, HL⟩, HR⟩, Hg⟩, Ho, ⟨%d0, H0⟩, ⟨%d1, H1⟩, ⟨%d2, H2⟩, ⟨%d3, H3⟩, ⟨%d4, H4⟩⟩
      iapply (run_mid c Set.univ (grid2.coords t) _ _ _ _ _ _ _ _ _ _ _ _ _ _ hc1 hc2 (blk0 V c t) (blk1 V c t) (blk2 V c t) ((dat V c).before 4 t d4) _ _ _)
      isplitl [H0]; · iexact H0
      isplitl [H1]; · iexact H1
      isplitl [H2]; · iexact H2
      isplitl [H3]; · iexists _; iexact H3
      isplitl [H4]; · iexact H4
      isplitl [HM]; · iexact HM
      isplitl [HL]; · iexact HL
      iintro ⟨H0, H1, H2, H3, H4, HM, HL⟩
      isplitl [HM HL HR Hg]
      · isplitl [HM HL HR]
        · isplitl [HM HL]
          · isplitl [HM]; · iexact HM
            iexact HL
          iexact HR
        iexact Hg
      isplitl [Ho]; · iexact Ho
      isplitl [H0]; · iexact H0
      isplitl [H1]; · iexact H1
      isplitl [H2]; · iexact H2
      isplitl [H3]; · iexact H3
      iexists _; iexact H4

/-- The body obligation of the region, at every point. -/
theorem body_obligation (c : Dev nD) :
    BodyObligation (dat (F := F) V c) (defs₀ (F := F)) Variants.none () Set.univ := fun t => by
  rw [bigSep_W2, bigSep_W2]
  exact body_at_point V c t

/-- What the launch hands the region is the invariant before the first point. -/
theorem phi_in (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives it back: what the carried columns hold is forgotten. -/
theorem phi_out (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl, PhiA_eq]
  exact Phi_weak V c _ _

end Cert.Kernel.Head

end
-- ==== Proof.KernelGatesBase.lean ====
/-
  The gates region: what its proofs share.

  A grid point (i, j, k) of the 8 × 4 × 4 grid adds, into four [512, 512] accumulators kept from point to point,
  the products of the k-th [512, 512] blocks of the embedding and hidden rows with the k-th blocks of the eight
  weight matrices; the accumulators are zeroed where k = 0, and where k = 3 the gate nonlinearities and the
  cell/hidden update are stored into the two output tiles. This module holds the two branch conditions in closed
  form over the grid, where the output windows are idle, the accumulator memrefs, the invariant the region is
  entered with restated over them, the input blocks, and one accumulation step per gate as a pure function.
-/
import proofs.«125352_j18708877541498_2_alg».proof.Proof.Gen.Kernel.Points
import proofs.«125352_j18708877541498_2_alg».proof.Proof.Gen.Kernel.Skeleton
import proofs.«125352_j18708877541498_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gates

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The condition under which the accumulators are zeroed (k = 0), from the grid coordinates. -/
abbrev cond1 (i : grid1.Coords) : Prop :=
  (Scalar.cmpi .ne (Scalar.extui (Scalar.cmpi .eq (BitVec.ofNat 32 (i 2).val) 0#32)) 0#32) = 1#1
/-- It holds at the points ≡ 0 (mod 4). -/
theorem hcond1 : ∀ t : Fin cfg1.N, cond1 (grid1.coords t) ↔ t.val % 4 = 0 :=
  (by decide +kernel : ∀ t : Fin grid1.N, cond1 (grid1.coords t) ↔ t.val % 4 = 0)

/-- The condition under which the outputs are stored (k = 3). -/
abbrev cond2 (i : grid1.Coords) : Prop := k1_cond2 i = 1#1
/-- It holds at the points ≡ 3 (mod 4). -/
theorem hcond2 : ∀ t : Fin cfg1.N, cond2 (grid1.coords t) ↔ t.val % 4 = 3 :=
  (by decide +kernel : ∀ t : Fin grid1.N, cond2 (grid1.coords t) ↔ t.val % 4 = 3)

/-! ## Where the output windows are idle -/

theorem idle15 : ∀ t : Fin cfg1.N, ¬cond2 (grid1.coords t) → cfg1.idle 15 (grid1.coords t) = true := by decide +kernel
theorem idle16 : ∀ t : Fin cfg1.N, ¬cond2 (grid1.coords t) → cfg1.idle 16 (grid1.coords t) = true := by decide +kernel
theorem noFlush15 : ∀ t : Fin cfg1.N, ¬cond2 (grid1.coords t) → (cfg1.win 15).flush t = false := by decide +kernel
theorem noFlush16 : ∀ t : Fin cfg1.N, ¬cond2 (grid1.coords t) → (cfg1.win 16).flush t = false := by decide +kernel
theorem live15 : ∀ t : Fin cfg1.N, cond2 (grid1.coords t) → cfg1.idle 15 (grid1.coords t) = false := by decide +kernel
theorem live16 : ∀ t : Fin cfg1.N, cond2 (grid1.coords t) → cfg1.idle 16 (grid1.coords t) = false := by decide +kernel

/-! ## The accumulators -/

/-- The four accumulators: whole scoped buffers of the kernel's own, passed beside the windows. -/
abbrev scM0 : Memref sig .tc .vmem S512x512 .f32 := Memref.whole cc1_scratch0
abbrev scM1 : Memref sig .tc .vmem S512x512 .f32 := Memref.whole cc1_scratch1
abbrev scM2 : Memref sig .tc .vmem S512x512 .f32 := Memref.whole cc1_scratch2
abbrev scM3 : Memref sig .tc .vmem S512x512 .f32 := Memref.whole cc1_scratch3

/-- The scoped buffers of the region other than its staging buffers and its four accumulators. -/
abbrev restBut (c : Dev nD) : sProp 𝕄 :=
  Pipeline.scopedRestBut (Ix := Unit) (Name := ℕ) (U := UR sig nD τ) (Lvl := ℕ) (Val := Elt F) spec1 c
    [cc1_scratch0, cc1_scratch1, cc1_scratch2, cc1_scratch3]

/-- What the region is entered with, the accumulators as memrefs owned at some contents. -/
theorem PhiA_eq (c : Dev nD) :
    (Pipeline.ΦA spec1 c : sProp 𝕄)
      = iprop(iprop(iprop((∃ d, owns (c : Thread nD τ) scM0 fullShare d) ∗ (∃ d, owns (c : Thread nD τ) scM1 fullShare d)
            ∗ (∃ d, owns (c : Thread nD τ) scM2 fullShare d) ∗ (∃ d, owns (c : Thread nD τ) scM3 fullShare d))
          ∗ restBut (F := F) c) ∗ (∃ r, prngReg c r)) := by
  unfold Pipeline.ΦA; rw [scopedRest1_split]; simp only [scM0, scM1, scM2, scM3, owns_whole]; try rfl

/-! ## The input blocks -/

-- the buffers' contents when the region is entered
variable (V : (c : Dev nD) → (b : Ref sig .tc) → Buf (Elt F) ((c : Thread nD τ).loc b))

/-- Window `w`'s block at grid point `t`, cut out of its array as the region finds it. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! Each input window's current staging buffer holds its block at every point, fetched there or not: an input
    window, never idle, never clipped, left in place by the body. -/
theorem staged0 {c : Dev nD} (dat : Dat τ (Elt F) Unit ℕ (UR sig nD τ) ℕ cfg1 c)
    (hA : dat.A 0 = V c (Pipeline.arrRef spec1 0)) (hafter : ∀ t, dat.after 0 t = blockAt V c 0 t)
    (t : Fin cfg1.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem staged1 {c : Dev nD} (dat : Dat τ (Elt F) Unit ℕ (UR sig nD τ) ℕ cfg1 c)
    (hA : dat.A 1 = V c (Pipeline.arrRef spec1 1)) (hafter : ∀ t, dat.after 1 t = blockAt V c 1 t)
    (t : Fin cfg1.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem staged2 {c : Dev nD} (dat : Dat τ (Elt F) Unit ℕ (UR sig nD τ) ℕ cfg1 c)
    (hA : dat.A 2 = V c (Pipeline.arrRef spec1 2)) (hafter : ∀ t, dat.after 2 t = blockAt V c 2 t)
    (t : Fin cfg1.N) (d) : dat.before 2 t d = blockAt V c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
theorem staged3 {c : Dev nD} (dat : Dat τ (Elt F) Unit ℕ (UR sig nD τ) ℕ cfg1 c)
    (hA : dat.A 3 = V c (Pipeline.arrRef spec1 3)) (hafter : ∀ t, dat.after 3 t = blockAt V c 3 t)
    (t : Fin cfg1.N) (d) : dat.before 3 t d = blockAt V c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)
theorem staged4 {c : Dev nD} (dat : Dat τ (Elt F) Unit ℕ (UR sig nD τ) ℕ cfg1 c)
    (hA : dat.A 4 = V c (Pipeline.arrRef spec1 4)) (hafter : ∀ t, dat.after 4 t = blockAt V c 4 t)
    (t : Fin cfg1.N) (d) : dat.before 4 t d = blockAt V c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)
theorem staged5 {c : Dev nD} (dat : Dat τ (Elt F) Unit ℕ (UR sig nD τ) ℕ cfg1 c)
    (hA : dat.A 5 = V c (Pipeline.arrRef spec1 5)) (hafter : ∀ t, dat.after 5 t = blockAt V c 5 t)
    (t : Fin cfg1.N) (d) : dat.before 5 t d = blockAt V c 5 t :=
  (dat.before_in_eq_fetched 5 rfl (fun _ => rfl) (fun _ _ _ => rfl)
    (fun t => by rw [hafter]; unfold Dat.blockOf blockAt; rw [hA]; try rfl) t d).trans
    (by unfold Dat.fetched Dat.blockOf blockAt; rw [hA]; try rfl)
theorem staged6 {c : Dev nD} (dat : Dat τ (Elt F) Unit ℕ (UR sig nD τ) ℕ cfg1 c)
    (hA : dat.A 6 = V c (Pipeline.arrRef spec1 6)) (hafter : ∀ t, dat.after 6 t = blockAt V c 6 t)
    (t : Fin cfg1.N) (d) : dat.before 6 t d = blockAt V c 6 t :=
  (dat.before_in_eq_fetched 6 rfl (fun _ => rfl) (fun _ _ _ => rfl)
    (fun t => by rw [hafter]; unfold Dat.blockOf blockAt; rw [hA]; try rfl) t d).trans
    (by unfold Dat.fetched Dat.blockOf blockAt; rw [hA]; try rfl)
theorem staged7 {c : Dev nD} (dat : Dat τ (Elt F) Unit ℕ (UR sig nD τ) ℕ cfg1 c)
    (hA : dat.A 7 = V c (Pipeline.arrRef spec1 7)) (hafter : ∀ t, dat.after 7 t = blockAt V c 7 t)
    (t : Fin cfg1.N) (d) : dat.before 7 t d = blockAt V c 7 t :=
  (dat.before_in_eq_fetched 7 rfl (fun _ => rfl) (fun _ _ _ => rfl)
    (fun t => by rw [hafter]; unfold Dat.blockOf blockAt; rw [hA]; try rfl) t d).trans
    (by unfold Dat.fetched Dat.blockOf blockAt; rw [hA]; try rfl)
theorem staged8 {c : Dev nD} (dat : Dat τ (Elt F) Unit ℕ (UR sig nD τ) ℕ cfg1 c)
    (hA : dat.A 8 = V c (Pipeline.arrRef spec1 8)) (hafter : ∀ t, dat.after 8 t = blockAt V c 8 t)
    (t : Fin cfg1.N) (d) : dat.before 8 t d = blockAt V c 8 t :=
  (dat.before_in_eq_fetched 8 rfl (fun _ => rfl) (fun _ _ _ => rfl)
    (fun t => by rw [hafter]; unfold Dat.blockOf blockAt; rw [hA]; try rfl) t d).trans
    (by unfold Dat.fetched Dat.blockOf blockAt; rw [hA]; try rfl)
theorem staged9 {c : Dev nD} (dat : Dat τ (Elt F) Unit ℕ (UR sig nD τ) ℕ cfg1 c)
    (hA : dat.A 9 = V c (Pipeline.arrRef spec1 9)) (hafter : ∀ t, dat.after 9 t = blockAt V c 9 t)
    (t : Fin cfg1.N) (d) : dat.before 9 t d = blockAt V c 9 t :=
  (dat.before_in_eq_fetched 9 rfl (fun _ => rfl) (fun _ _ _ => rfl)
    (fun t => by rw [hafter]; unfold Dat.blockOf blockAt; rw [hA]; try rfl) t d).trans
    (by unfold Dat.fetched Dat.blockOf blockAt; rw [hA]; try rfl)
theorem staged10 {c : Dev nD} (dat : Dat τ (Elt F) Unit ℕ (UR sig nD τ) ℕ cfg1 c)
    (hA : dat.A 10 = V c (Pipeline.arrRef spec1 10)) (hafter : ∀ t, dat.after 10 t = blockAt V c 10 t)
    (t : Fin cfg1.N) (d) : dat.before 10 t d = blockAt V c 10 t :=
  (dat.before_in_eq_fetched 10 rfl (fun _ => rfl) (fun _ _ _ => rfl)
    (fun t => by rw [hafter]; unfold Dat.blockOf blockAt; rw [hA]; try rfl) t d).trans
    (by unfold Dat.fetched Dat.blockOf blockAt; rw [hA]; try rfl)
theorem staged11 {c : Dev nD} (dat : Dat τ (Elt F) Unit ℕ (UR sig nD τ) ℕ cfg1 c)
    (hA : dat.A 11 = V c (Pipeline.arrRef spec1 11)) (hafter : ∀ t, dat.after 11 t = blockAt V c 11 t)
    (t : Fin cfg1.N) (d) : dat.before 11 t d = blockAt V c 11 t :=
  (dat.before_in_eq_fetched 11 rfl (fun _ => rfl) (fun _ _ _ => rfl)
    (fun t => by rw [hafter]; unfold Dat.blockOf blockAt; rw [hA]; try rfl) t d).trans
    (by unfold Dat.fetched Dat.blockOf blockAt; rw [hA]; try rfl)
theorem staged12 {c : Dev nD} (dat : Dat τ (Elt F) Unit ℕ (UR sig nD τ) ℕ cfg1 c)
    (hA : dat.A 12 = V c (Pipeline.arrRef spec1 12)) (hafter : ∀ t, dat.after 12 t = blockAt V c 12 t)
    (t : Fin cfg1.N) (d) : dat.before 12 t d = blockAt V c 12 t :=
  (dat.before_in_eq_fetched 12 rfl (fun _ => rfl) (fun _ _ _ => rfl)
    (fun t => by rw [hafter]; unfold Dat.blockOf blockAt; rw [hA]; try rfl) t d).trans
    (by unfold Dat.fetched Dat.blockOf blockAt; rw [hA]; try rfl)
theorem staged13 {c : Dev nD} (dat : Dat τ (Elt F) Unit ℕ (UR sig nD τ) ℕ cfg1 c)
    (hA : dat.A 13 = V c (Pipeline.arrRef spec1 13)) (hafter : ∀ t, dat.after 13 t = blockAt V c 13 t)
    (t : Fin cfg1.N) (d) : dat.before 13 t d = blockAt V c 13 t :=
  (dat.before_in_eq_fetched 13 rfl (fun _ => rfl) (fun _ _ _ => rfl)
    (fun t => by rw [hafter]; unfold Dat.blockOf blockAt; rw [hA]; try rfl) t d).trans
    (by unfold Dat.fetched Dat.blockOf blockAt; rw [hA]; try rfl)
theorem staged14 {c : Dev nD} (dat : Dat τ (Elt F) Unit ℕ (UR sig nD τ) ℕ cfg1 c)
    (hA : dat.A 14 = V c (Pipeline.arrRef spec1 14)) (hafter : ∀ t, dat.after 14 t = blockAt V c 14 t)
    (t : Fin cfg1.N) (d) : dat.before 14 t d = blockAt V c 14 t :=
  (dat.before_in_eq_fetched 14 rfl (fun _ => rfl) (fun _ _ _ => rfl)
    (fun t => by rw [hafter]; unfold Dat.blockOf blockAt; rw [hA]; try rfl) t d).trans
    (by unfold Dat.fetched Dat.blockOf blockAt; rw [hA]; try rfl)

/-! ## One accumulation step per gate

Each gate's accumulator takes the product of the embedding block with the input-side weight block, then the
product of the hidden block with the hidden-side weight block, both accumulated in f32. The four differ only in
where the body casts shapes. -/

def stepF (e h wf uf : Vec F S512x512 .bf16) (a : Vec F S512x512 .f32) : Vec F S512x512 .f32 :=
  k1_pay12 h (k1_pay11 e a wf) uf
def stepI (e h wi ui : Vec F S512x512 .bf16) (a : Vec F S512x512 .f32) : Vec F S512x512 .f32 :=
  k1_pay15 (k1_pay10 h) (k1_pay14 (k1_pay13 e a wi)) ui
def stepC (e h wc uc : Vec F S512x512 .bf16) (a : Vec F S512x512 .f32) : Vec F S512x512 .f32 :=
  k1_pay17 (k1_pay10 h) (k1_pay16 (k1_pay9 e) a wc) uc
def stepO (e h wo uo : Vec F S512x512 .bf16) (a : Vec F S512x512 .f32) : Vec F S512x512 .f32 :=
  k1_pay2 (k1_pay10 h) (k1_pay1 (k1_pay9 e) a (k1_pay18 wo)) uo

/-- The whole [512, 512] tile and the whole [1, 512] row, as rectangles. -/
abbrev tileRect : Rect S512x512 := Rect.unit (s := S512x512) ![0, 0] S512x512.size inb_S512x512_S512x512_0_0
abbrev rowRect : Rect S1x512 := Rect.unit (s := S1x512) ![0, 0] S1x512.size inb_S1x512_S1x512_0_0

theorem hz2 : (![0, 0] : Fin 2 → ℕ) = fun _ => 0 := by
  funext a; match a with | ⟨0, _⟩ => rfl | ⟨1, _⟩ => rfl

/-- One store over the whole tile covers it. -/
theorem tile_covered {e : EltTy} (L : List (View.Piece (Elt F) S512x512 e)) (p : Vec F S512x512 e) (y : S512x512.Idx) :
    ∃ pc ∈ ((⟨Rect.unit (s := S512x512) ![0, 0] S512x512.size inb_S512x512_S512x512_0_0, p⟩ : View.Piece (Elt F) S512x512 e) :: L), y ∈ pc.1.set :=
  ⟨_, List.mem_cons_self, (View.cover_of_tiled [⟨Rect.unit (s := S512x512) ![0, 0] S512x512.size inb_S512x512_S512x512_0_0, p⟩] S512x512.size (by rfl) y).elim
    fun pc h => by
      obtain ⟨hm, hy⟩ := h
      rw [List.mem_singleton] at hm; subst hm; exact hy⟩

end Cert.Kernel.Gates

end
-- ==== Proof.KernelGatesLoads.lean ====
/-
  The gates region: reading an accumulator back, and what the last point of a run over k stores.

  A load through the whole tile of a buffer whose last store went through the whole tile reads that store's payload,
  whatever was stored before it. At the last point of a run over k the body adds each gate's bias row to its
  accumulator, applies the logistic function (the cell candidate: tanh), and stores the new cell
  f · cell + i · g and the new hidden o · tanh(new cell).
-/
import proofs.«125352_j18708877541498_2_alg».proof.Proof.KernelGatesBase
import Idealize.ShloMosaic.Lib.Pipeline.Value

set_option maxRecDepth 16384

noncomputable section

namespace Cert.Kernel.Gates

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load through the whole-shape rectangle of what a LAST store through it left reads that store's payload. -/
theorem readCov_cons_unit_zero {Val : EltTy → Type} [∀ e, Nonempty (Val e)] {S : Shape} {e : EltTy}
    {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The new cell tile from the three accumulators it reads, their bias rows and the cell tile. -/
def newC (aF aI aC : Vec F S512x512 .f32) (bf bi bc : Vec F S1x512 .f32) (cell : Vec F S512x512 .f32) :
    Vec F S512x512 .f32 :=
  k1_pay3 aF bf aI bi aC bc cell

/-- The new hidden tile from the four accumulators, their bias rows and the cell tile. -/
def newH (aF aI aC aO : Vec F S512x512 .f32) (bf bi bc bo : Vec F S1x512 .f32) (cell : Vec F S512x512 .f32) :
    Vec F S512x512 .f32 :=
  k1_pay4 aF bf aI bi aC bc aO bo cell

end Cert.Kernel.Gates

end
-- ==== Proof.KernelGatesRunA.lean ====
/-
  The gates body at the first point of a run over k (k = 0): the accumulators are zeroed first, so what they
  held does not matter.
-/
import proofs.«125352_j18708877541498_2_alg».proof.Proof.KernelGatesLoads

set_option maxRecDepth 16384

noncomputable section

namespace Cert.Kernel.Gates

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole staging buffers at the input blocks, the output tiles at anything named, and the accumulators at
    anything, the body returns with the inputs and the output tiles as they were and each accumulator one step on
    from zero. -/
theorem run_first (c : Dev nD) (E : Set ℕ) (i : grid1.Coords) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole)
    (hc1 : cond1 i) (hc2 : ¬cond2 i)
    (x0 : Vec F S512x512 .bf16) (x1 : Vec F S512x512 .bf16) (x2 : Vec F S512x512 .f32) (x3 : Vec F S512x512 .bf16) (x4 : Vec F S512x512 .bf16) (x5 : Vec F S512x512 .bf16) (x6 : Vec F S512x512 .bf16) (x7 : Vec F S512x512 .bf16) (x8 : Vec F S512x512 .bf16) (x9 : Vec F S512x512 .bf16) (x10 : Vec F S512x512 .bf16) (x11 : Vec F S1x512 .f32) (x12 : Vec F S1x512 .f32) (x13 : Vec F S1x512 .f32) (x14 : Vec F S1x512 .f32) (y15 y16 : Vec F S512x512 .f32) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare x6
        ∗ owns (c : Thread nD τ) arg10 fullShare x7
        ∗ owns (c : Thread nD τ) arg11 fullShare x8
        ∗ owns (c : Thread nD τ) arg12 fullShare x9
        ∗ owns (c : Thread nD τ) arg13 fullShare x10
        ∗ owns (c : Thread nD τ) arg14 fullShare x11
        ∗ owns (c : Thread nD τ) arg15 fullShare x12
        ∗ owns (c : Thread nD τ) arg16 fullShare x13
        ∗ owns (c : Thread nD τ) arg17 fullShare x14
        ∗ owns (c : Thread nD τ) arg18 fullShare y15
        ∗ owns (c : Thread nD τ) arg19 fullShare y16
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ owns (c : Thread nD τ) arg13 fullShare x10
            ∗ owns (c : Thread nD τ) arg14 fullShare x11
            ∗ owns (c : Thread nD τ) arg15 fullShare x12
            ∗ owns (c : Thread nD τ) arg16 fullShare x13
            ∗ owns (c : Thread nD τ) arg17 fullShare x14
            ∗ owns (c : Thread nD τ) arg18 fullShare y15
            ∗ owns (c : Thread nD τ) arg19 fullShare y16
            ∗ owns (c : Thread nD τ) arg20 fullShare (stepF x0 x1 x3 x7 k1_pay5)
            ∗ owns (c : Thread nD τ) arg21 fullShare (stepI x0 x1 x4 x8 k1_pay6)
            ∗ owns (c : Thread nD τ) arg22 fullShare (stepC x0 x1 x5 x9 k1_pay7)
            ∗ owns (c : Thread nD τ) arg23 fullShare (stepO x0 x1 x6 x10 k1_pay8)) -∗ K ⟨⟩))
      ⊢ wp frame (wpE (defs₀ (F := F)) Variants.none c none) E (cc1__gates_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc1__gates_kernel_eq_skeleton]; unfold cc1__gates_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d0, %g0, -, S0⟩, ⟨%d1, %g1, -, S1⟩, ⟨%d2, %g2, -, S2⟩, ⟨%d3, %g3, -, S3⟩, Hk⟩
  subst hf0; subst hf1; subst hf2; subst hf3; subst hf4; subst hf5; subst hf6; subst hf7; subst hf8; subst hf9; subst hf10; subst hf11; subst hf12; subst hf13; subst hf14;
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; exact hf15
    iexact H15
  isplitl [H16]
  · iexists f16; isplitr; · ipureintro; exact hf16
    iexact H16
  isplitl [S0]
  · iexists _; isplitr
    swap; · iexact S0
    ipureintro
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S1]
  · iexists _; isplitr
    swap; · iexact S1
    ipureintro
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S2]
  · iexists _; isplitr
    swap; · iexact S2
    ipureintro
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  iexists _; isplitr
  swap; · iexact S3
  ipureintro
  rw [View.read_writes_eq_canon _ _ _ (fun y => ⟨_, List.mem_cons_self, View.mem_set_unit_zero hz2 inb_S512x512_S512x512_0_0 y⟩), View.canon_cons_unit_zero hz2]
  sl_unfold_run_names
  simp only [readCov_cons_unit_zero (S := S512x512) _ hz2, View.readAt_eq_ld, View.ld_unit_zero (S := S512x512) hz2, View.ld_unit_zero (S := S1x512) hz2]
  rfl

end Cert.Kernel.Gates

end
-- ==== Proof.KernelGatesRunB.lean ====
/-
  The gates body at a point that neither starts nor ends a run over k (k = 1, 2): no branch is taken.
-/
import proofs.«125352_j18708877541498_2_alg».proof.Proof.KernelGatesLoads

set_option maxRecDepth 16384

noncomputable section

namespace Cert.Kernel.Gates

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole staging buffers at the input blocks, the output tiles at anything named, and the accumulators at
    `s0 … s3`, the body returns with the inputs and the output tiles as they were and each accumulator one step on. -/
theorem run_mid (c : Dev nD) (E : Set ℕ) (i : grid1.Coords) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole)
    (hc1 : ¬cond1 i) (hc2 : ¬cond2 i)
    (x0 : Vec F S512x512 .bf16) (x1 : Vec F S512x512 .bf16) (x2 : Vec F S512x512 .f32) (x3 : Vec F S512x512 .bf16) (x4 : Vec F S512x512 .bf16) (x5 : Vec F S512x512 .bf16) (x6 : Vec F S512x512 .bf16) (x7 : Vec F S512x512 .bf16) (x8 : Vec F S512x512 .bf16) (x9 : Vec F S512x512 .bf16) (x10 : Vec F S512x512 .bf16) (x11 : Vec F S1x512 .f32) (x12 : Vec F S1x512 .f32) (x13 : Vec F S1x512 .f32) (x14 : Vec F S1x512 .f32) (y15 y16 s0 s1 s2 s3 : Vec F S512x512 .f32) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare x6
        ∗ owns (c : Thread nD τ) arg10 fullShare x7
        ∗ owns (c : Thread nD τ) arg11 fullShare x8
        ∗ owns (c : Thread nD τ) arg12 fullShare x9
        ∗ owns (c : Thread nD τ) arg13 fullShare x10
        ∗ owns (c : Thread nD τ) arg14 fullShare x11
        ∗ owns (c : Thread nD τ) arg15 fullShare x12
        ∗ owns (c : Thread nD τ) arg16 fullShare x13
        ∗ owns (c : Thread nD τ) arg17 fullShare x14
        ∗ owns (c : Thread nD τ) arg18 fullShare y15
        ∗ owns (c : Thread nD τ) arg19 fullShare y16
        ∗ owns (c : Thread nD τ) arg20 fullShare s0
        ∗ owns (c : Thread nD τ) arg21 fullShare s1
        ∗ owns (c : Thread nD τ) arg22 fullShare s2
        ∗ owns (c : Thread nD τ) arg23 fullShare s3
        ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ owns (c : Thread nD τ) arg13 fullShare x10
            ∗ owns (c : Thread nD τ) arg14 fullShare x11
            ∗ owns (c : Thread nD τ) arg15 fullShare x12
            ∗ owns (c : Thread nD τ) arg16 fullShare x13
            ∗ owns (c : Thread nD τ) arg17 fullShare x14
            ∗ owns (c : Thread nD τ) arg18 fullShare y15
            ∗ owns (c : Thread nD τ) arg19 fullShare y16
            ∗ owns (c : Thread nD τ) arg20 fullShare (stepF x0 x1 x3 x7 s0)
            ∗ owns (c : Thread nD τ) arg21 fullShare (stepI x0 x1 x4 x8 s1)
            ∗ owns (c : Thread nD τ) arg22 fullShare (stepC x0 x1 x5 x9 s2)
            ∗ owns (c : Thread nD τ) arg23 fullShare (stepO x0 x1 x6 x10 s3)) -∗ K ⟨⟩))
      ⊢ wp frame (wpE (defs₀ (F := F)) Variants.none c none) E (cc1__gates_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc1__gates_kernel_eq_skeleton]; unfold cc1__gates_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%g0, %hg0, S0⟩, ⟨%g1, %hg1, S1⟩, ⟨%g2, %hg2, S2⟩, ⟨%g3, %hg3, S3⟩, Hk⟩
  subst hf0; subst hf1; subst hf2; subst hf3; subst hf4; subst hf5; subst hf6; subst hf7; subst hf8; subst hf9; subst hf10; subst hf11; subst hf12; subst hf13; subst hf14; subst hg0; subst hg1; subst hg2; subst hg3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; exact hf15
    iexact H15
  isplitl [H16]
  · iexists f16; isplitr; · ipureintro; exact hf16
    iexact H16
  isplitl [S0]
  · iexists _; isplitr
    swap; · iexact S0
    ipureintro
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S1]
  · iexists _; isplitr
    swap; · iexact S1
    ipureintro
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S2]
  · iexists _; isplitr
    swap; · iexact S2
    ipureintro
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  iexists _; isplitr
  swap; · iexact S3
  ipureintro
  rw [View.read_writes_eq_canon _ _ _ (fun y => ⟨_, List.mem_cons_self, View.mem_set_unit_zero hz2 inb_S512x512_S512x512_0_0 y⟩), View.canon_cons_unit_zero hz2]
  sl_unfold_run_names
  simp only [readCov_cons_unit_zero (S := S512x512) _ hz2, View.readAt_eq_ld, View.ld_unit_zero (S := S512x512) hz2, View.ld_unit_zero (S := S1x512) hz2]
  rfl

end Cert.Kernel.Gates

end
-- ==== Proof.KernelGatesRunC.lean ====
/-
  The gates body at the last point of a run over k (k = 3): after the accumulation step the new hidden and new
  cell tiles are stored over the whole output tiles, so what those held does not matter.
-/
import proofs.«125352_j18708877541498_2_alg».proof.Proof.KernelGatesLoads

set_option maxRecDepth 16384

noncomputable section

namespace Cert.Kernel.Gates

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole staging buffers at the input blocks, the output tiles at anything, and the accumulators at
    `s0 … s3`, the body returns with the inputs as they were, each accumulator one step on, and the output tiles at
    the new hidden and the new cell of the stepped accumulators. -/
theorem run_last (c : Dev nD) (E : Set ℕ) (i : grid1.Coords) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole)
    (hc1 : ¬cond1 i) (hc2 : cond2 i)
    (x0 : Vec F S512x512 .bf16) (x1 : Vec F S512x512 .bf16) (x2 : Vec F S512x512 .f32) (x3 : Vec F S512x512 .bf16) (x4 : Vec F S512x512 .bf16) (x5 : Vec F S512x512 .bf16) (x6 : Vec F S512x512 .bf16) (x7 : Vec F S512x512 .bf16) (x8 : Vec F S512x512 .bf16) (x9 : Vec F S512x512 .bf16) (x10 : Vec F S512x512 .bf16) (x11 : Vec F S1x512 .f32) (x12 : Vec F S1x512 .f32) (x13 : Vec F S1x512 .f32) (x14 : Vec F S1x512 .f32) (s0 s1 s2 s3 : Vec F S512x512 .f32) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare x6
        ∗ owns (c : Thread nD τ) arg10 fullShare x7
        ∗ owns (c : Thread nD τ) arg11 fullShare x8
        ∗ owns (c : Thread nD τ) arg12 fullShare x9
        ∗ owns (c : Thread nD τ) arg13 fullShare x10
        ∗ owns (c : Thread nD τ) arg14 fullShare x11
        ∗ owns (c : Thread nD τ) arg15 fullShare x12
        ∗ owns (c : Thread nD τ) arg16 fullShare x13
        ∗ owns (c : Thread nD τ) arg17 fullShare x14
        ∗ (∃ d, owns (c : Thread nD τ) arg18 fullShare d)
        ∗ (∃ d, owns (c : Thread nD τ) arg19 fullShare d)
        ∗ owns (c : Thread nD τ) arg20 fullShare s0
        ∗ owns (c : Thread nD τ) arg21 fullShare s1
        ∗ owns (c : Thread nD τ) arg22 fullShare s2
        ∗ owns (c : Thread nD τ) arg23 fullShare s3
        ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ owns (c : Thread nD τ) arg13 fullShare x10
            ∗ owns (c : Thread nD τ) arg14 fullShare x11
            ∗ owns (c : Thread nD τ) arg15 fullShare x12
            ∗ owns (c : Thread nD τ) arg16 fullShare x13
            ∗ owns (c : Thread nD τ) arg17 fullShare x14
            ∗ owns (c : Thread nD τ) arg18 fullShare (newH (stepF x0 x1 x3 x7 s0) (stepI x0 x1 x4 x8 s1) (stepC x0 x1 x5 x9 s2) (stepO x0 x1 x6 x10 s3) x11 x12 x13 x14 x2)
            ∗ owns (c : Thread nD τ) arg19 fullShare (newC (stepF x0 x1 x3 x7 s0) (stepI x0 x1 x4 x8 s1) (stepC x0 x1 x5 x9 s2) x11 x12 x13 x2)
            ∗ owns (c : Thread nD τ) arg20 fullShare (stepF x0 x1 x3 x7 s0)
            ∗ owns (c : Thread nD τ) arg21 fullShare (stepI x0 x1 x4 x8 s1)
            ∗ owns (c : Thread nD τ) arg22 fullShare (stepC x0 x1 x5 x9 s2)
            ∗ owns (c : Thread nD τ) arg23 fullShare (stepO x0 x1 x6 x10 s3)) -∗ K ⟨⟩))
      ⊢ wp frame (wpE (defs₀ (F := F)) Variants.none c none) E (cc1__gates_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc1__gates_kernel_eq_skeleton]; unfold cc1__gates_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%g0, %hg0, S0⟩, ⟨%g1, %hg1, S1⟩, ⟨%g2, %hg2, S2⟩, ⟨%g3, %hg3, S3⟩, Hk⟩
  subst hf0; subst hf1; subst hf2; subst hf3; subst hf4; subst hf5; subst hf6; subst hf7; subst hf8; subst hf9; subst hf10; subst hf11; subst hf12; subst hf13; subst hf14; subst hg0; subst hg1; subst hg2; subst hg3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_run_names
    sl_unfold_run_names
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [H16]
  · iexists _; isplitr
    swap; · iexact H16
    ipureintro
    sl_unfold_run_names
    sl_unfold_run_names
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S0]
  · iexists _; isplitr
    swap; · iexact S0
    ipureintro
    sl_unfold_run_names
    sl_unfold_run_names
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S1]
  · iexists _; isplitr
    swap; · iexact S1
    ipureintro
    sl_unfold_run_names
    sl_unfold_run_names
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S2]
  · iexists _; isplitr
    swap; · iexact S2
    ipureintro
    sl_unfold_run_names
    sl_unfold_run_names
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  iexists _; isplitr
  swap; · iexact S3
  ipureintro
  sl_unfold_run_names
  sl_unfold_run_names
  rw [View.read_writes_eq_canon _ _ _ (fun y => ⟨_, List.mem_cons_self, View.mem_set_unit_zero hz2 inb_S512x512_S512x512_0_0 y⟩), View.canon_cons_unit_zero hz2]
  sl_unfold_run_names
  simp only [readCov_cons_unit_zero (S := S512x512) _ hz2, View.readAt_eq_ld, View.ld_unit_zero (S := S512x512) hz2, View.ld_unit_zero (S := S1x512) hz2]
  rfl

end Cert.Kernel.Gates

end
-- ==== Proof.KernelGates.lean ====
/-
  The gates region: its proof data and its body obligation.

  The region keeps four [512, 512] accumulators from grid point to grid point. Their contents after point n are
  given by recursion on n: one accumulation step of that point's blocks, from zero where the point starts a run
  over k (n ≡ 0 mod 4) and from what the point before left otherwise. The invariant before a point that starts a
  run is the plain one (the accumulators at anything: they are zeroed first); before any other point it names the
  accumulators' contents. The two output tiles are stored only at the last point of a run (n ≡ 3 mod 4), from the
  accumulators after that point's step; at the other points their buffers are handed back untouched.
-/
import proofs.«125352_j18708877541498_2_alg».proof.Proof.KernelGatesRunA
import proofs.«125352_j18708877541498_2_alg».proof.Proof.KernelGatesRunB
import proofs.«125352_j18708877541498_2_alg».proof.Proof.KernelGatesRunC

set_option maxRecDepth 16384

noncomputable section

namespace Cert.Kernel.Gates

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The accumulators point by point -/

/-- The four accumulators (forget, input, cell candidate, output gate). -/
abbrev Acc (F : FTy → Type) [FloatOps F] : Type := Vec F S512x512 .f32 × Vec F S512x512 .f32 × Vec F S512x512 .f32 × Vec F S512x512 .f32

/-- Zeroed accumulators. -/
def zeros : Acc F := (k1_pay5, k1_pay6, k1_pay7, k1_pay8)

/-- One accumulation step of point `t`'s blocks on all four accumulators. -/
def stepAll (c : Dev nD) (t : Fin cfg1.N) (a : Acc F) : Acc F :=
  (stepF (blockAt V c 0 t) (blockAt V c 1 t) (blockAt V c 3 t) (blockAt V c 7 t) a.1,
   stepI (blockAt V c 0 t) (blockAt V c 1 t) (blockAt V c 4 t) (blockAt V c 8 t) a.2.1,
   stepC (blockAt V c 0 t) (blockAt V c 1 t) (blockAt V c 5 t) (blockAt V c 9 t) a.2.2.1,
   stepO (blockAt V c 0 t) (blockAt V c 1 t) (blockAt V c 6 t) (blockAt V c 10 t) a.2.2.2)

/-- What the accumulators hold after the body at point `n`. -/
def accAt (c : Dev nD) : (n : ℕ) → n < cfg1.N → Acc F
  | 0, hn => stepAll V c ⟨0, hn⟩ zeros
  | n + 1, hn => stepAll V c ⟨n + 1, hn⟩ (if (n + 1) % 4 = 0 then zeros else accAt c n (Nat.lt_of_succ_lt hn))

theorem accAt_congr (c : Dev nD) {n m : ℕ} (h : n = m) (hn : n < cfg1.N) (hm : m < cfg1.N) :
    accAt V c n hn = accAt V c m hm := by subst h; rfl

/-- At a point that starts a run over k: one step from zero. -/
theorem accAt_first (c : Dev nD) (t : Fin cfg1.N) (h : t.val % 4 = 0) :
    accAt V c t.val t.isLt = stepAll V c t zeros := by
  obtain ⟨n, hn⟩ := t
  cases n with
  | zero => rfl
  | succ n => show stepAll V c ⟨n + 1, hn⟩ (if (n + 1) % 4 = 0 then zeros else accAt V c n _) = _; rw [if_pos h]

/-- At any other point: one step from what the point before left. -/
theorem accAt_next (c : Dev nD) (t : Fin cfg1.N) (h : ¬t.val % 4 = 0) :
    accAt V c t.val t.isLt = stepAll V c t (accAt V c (t.val - 1) (Nat.lt_of_le_of_lt (Nat.sub_le _ _) t.isLt)) := by
  obtain ⟨n, hn⟩ := t
  cases n with
  | zero => exact absurd (Nat.zero_mod _) h
  | succ n => show stepAll V c ⟨n + 1, hn⟩ (if (n + 1) % 4 = 0 then zeros else accAt V c n _) = _; rw [if_neg h]; rfl

/-- The new hidden tile point `t` would store from the accumulators after its step. -/
def outH (c : Dev nD) (t : Fin cfg1.N) : Vec F S512x512 .f32 :=
  newH (accAt V c t.val t.isLt).1 (accAt V c t.val t.isLt).2.1 (accAt V c t.val t.isLt).2.2.1 (accAt V c t.val t.isLt).2.2.2
    (blockAt V c 11 t) (blockAt V c 12 t) (blockAt V c 13 t) (blockAt V c 14 t) (blockAt V c 2 t)

/-- The new cell tile likewise. -/
def outC (c : Dev nD) (t : Fin cfg1.N) : Vec F S512x512 .f32 :=
  newC (accAt V c t.val t.isLt).1 (accAt V c t.val t.isLt).2.1 (accAt V c t.val t.isLt).2.2.1
    (blockAt V c 11 t) (blockAt V c 12 t) (blockAt V c 13 t) (blockAt V c 2 t)

/-! ## The invariant -/

/-- The accumulators at named contents beside the rest of the scoped buffers and the generator register. -/
def named (c : Dev nD) (a : Acc F) : sProp 𝕄 :=
  iprop(iprop(iprop(owns (c : Thread nD τ) scM0 fullShare a.1 ∗ owns (c : Thread nD τ) scM1 fullShare a.2.1
        ∗ owns (c : Thread nD τ) scM2 fullShare a.2.2.1 ∗ owns (c : Thread nD τ) scM3 fullShare a.2.2.2)
      ∗ restBut (F := F) c) ∗ (∃ r, prngReg c r))

/-- Before a point that starts a run over k (and after the last point): the plain invariant. Before any other
    point: the accumulators at what the point before left. -/
def Phi (c : Dev nD) (t : Fin (cfg1.N + 1)) : sProp 𝕄 :=
  if h : t.val % 4 = 0 then Pipeline.ΦA spec1 c
  else named c (accAt V c (t.val - 1) (by have := t.isLt; omega))

/-! ## The proof data -/

/-- The region's proof data on core `c`: the arrays as found; after a point's body each input's buffer at its
    block and the two outputs' at the new hidden and new cell of the accumulators after that point; the invariant
    `Phi`; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => blockAt V c 7 t
    | ⟨8, _⟩ => blockAt V c 8 t
    | ⟨9, _⟩ => blockAt V c 9 t
    | ⟨10, _⟩ => blockAt V c 10 t
    | ⟨11, _⟩ => blockAt V c 11 t
    | ⟨12, _⟩ => blockAt V c 12 t
    | ⟨13, _⟩ => blockAt V c 13 t
    | ⟨14, _⟩ => blockAt V c 14 t
    | ⟨15, _⟩ => outH V c t
    | ⟨16, _⟩ => outC V c t
    | ⟨_ + 17, h⟩ => absurd h (Nat.not_lt.2 (Nat.le_add_left _ _))
  Φ t := Phi V c t
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = blockAt V c 3 t := by dsimp only [dat]
theorem after4 (c : Dev nD) (t : Fin cfg1.N) : (dat V c).after 4 t = blockAt V c 4 t := by dsimp only [dat]
theorem after5 (c : Dev nD) (t : Fin cfg1.N) : (dat V c).after 5 t = blockAt V c 5 t := by dsimp only [dat]
theorem after6 (c : Dev nD) (t : Fin cfg1.N) : (dat V c).after 6 t = blockAt V c 6 t := by dsimp only [dat]
theorem after7 (c : Dev nD) (t : Fin cfg1.N) : (dat V c).after 7 t = blockAt V c 7 t := by dsimp only [dat]
theorem after8 (c : Dev nD) (t : Fin cfg1.N) : (dat V c).after 8 t = blockAt V c 8 t := by dsimp only [dat]
theorem after9 (c : Dev nD) (t : Fin cfg1.N) : (dat V c).after 9 t = blockAt V c 9 t := by dsimp only [dat]
theorem after10 (c : Dev nD) (t : Fin cfg1.N) : (dat V c).after 10 t = blockAt V c 10 t := by dsimp only [dat]
theorem after11 (c : Dev nD) (t : Fin cfg1.N) : (dat V c).after 11 t = blockAt V c 11 t := by dsimp only [dat]
theorem after12 (c : Dev nD) (t : Fin cfg1.N) : (dat V c).after 12 t = blockAt V c 12 t := by dsimp only [dat]
theorem after13 (c : Dev nD) (t : Fin cfg1.N) : (dat V c).after 13 t = blockAt V c 13 t := by dsimp only [dat]
theorem after14 (c : Dev nD) (t : Fin cfg1.N) : (dat V c).after 14 t = blockAt V c 14 t := by dsimp only [dat]
theorem after15 (c : Dev nD) (t : Fin cfg1.N) : (dat V c).after 15 t = outH V c t := by dsimp only [dat]
theorem after16 (c : Dev nD) (t : Fin cfg1.N) : (dat V c).after 16 t = outC V c t := by dsimp only [dat]

theorem before0 (c : Dev nD) (t : Fin cfg1.N) (d) : (dat V c).before 0 t d = blockAt V c 0 t :=
  staged0 V (dat V c) (dat_A V c 0) (after0 V c) t d
theorem before1 (c : Dev nD) (t : Fin cfg1.N) (d) : (dat V c).before 1 t d = blockAt V c 1 t :=
  staged1 V (dat V c) (dat_A V c 1) (after1 V c) t d
theorem before2 (c : Dev nD) (t : Fin cfg1.N) (d) : (dat V c).before 2 t d = blockAt V c 2 t :=
  staged2 V (dat V c) (dat_A V c 2) (after2 V c) t d
theorem before3 (c : Dev nD) (t : Fin cfg1.N) (d) : (dat V c).before 3 t d = blockAt V c 3 t :=
  staged3 V (dat V c) (dat_A V c 3) (after3 V c) t d
theorem before4 (c : Dev nD) (t : Fin cfg1.N) (d) : (dat V c).before 4 t d = blockAt V c 4 t :=
  staged4 V (dat V c) (dat_A V c 4) (after4 V c) t d
theorem before5 (c : Dev nD) (t : Fin cfg1.N) (d) : (dat V c).before 5 t d = blockAt V c 5 t :=
  staged5 V (dat V c) (dat_A V c 5) (after5 V c) t d
theorem before6 (c : Dev nD) (t : Fin cfg1.N) (d) : (dat V c).before 6 t d = blockAt V c 6 t :=
  staged6 V (dat V c) (dat_A V c 6) (after6 V c) t d
theorem before7 (c : Dev nD) (t : Fin cfg1.N) (d) : (dat V c).before 7 t d = blockAt V c 7 t :=
  staged7 V (dat V c) (dat_A V c 7) (after7 V c) t d
theorem before8 (c : Dev nD) (t : Fin cfg1.N) (d) : (dat V c).before 8 t d = blockAt V c 8 t :=
  staged8 V (dat V c) (dat_A V c 8) (after8 V c) t d
theorem before9 (c : Dev nD) (t : Fin cfg1.N) (d) : (dat V c).before 9 t d = blockAt V c 9 t :=
  staged9 V (dat V c) (dat_A V c 9) (after9 V c) t d
theorem before10 (c : Dev nD) (t : Fin cfg1.N) (d) : (dat V c).before 10 t d = blockAt V c 10 t :=
  staged10 V (dat V c) (dat_A V c 10) (after10 V c) t d
theorem before11 (c : Dev nD) (t : Fin cfg1.N) (d) : (dat V c).before 11 t d = blockAt V c 11 t :=
  staged11 V (dat V c) (dat_A V c 11) (after11 V c) t d
theorem before12 (c : Dev nD) (t : Fin cfg1.N) (d) : (dat V c).before 12 t d = blockAt V c 12 t :=
  staged12 V (dat V c) (dat_A V c 12) (after12 V c) t d
theorem before13 (c : Dev nD) (t : Fin cfg1.N) (d) : (dat V c).before 13 t d = blockAt V c 13 t :=
  staged13 V (dat V c) (dat_A V c 13) (after13 V c) t d
theorem before14 (c : Dev nD) (t : Fin cfg1.N) (d) : (dat V c).before 14 t d = blockAt V c 14 t :=
  staged14 V (dat V c) (dat_A V c 14) (after14 V c) t d

theorem Phi_first (c : Dev nD) (t : Fin cfg1.N) (h : t.val % 4 = 0) :
    (dat V c).Φ t.castSucc = Pipeline.ΦA spec1 c := by
  show Phi V c t.castSucc = _
  unfold Phi; rw [dif_pos (by simpa using h)]

theorem Phi_next (c : Dev nD) (t : Fin cfg1.N) (h : ¬t.val % 4 = 0) :
    (dat V c).Φ t.castSucc
      = named c (accAt V c (t.val - 1) (Nat.lt_of_le_of_lt (Nat.sub_le _ _) t.isLt)) := by
  show Phi V c t.castSucc = _
  unfold Phi; rw [dif_neg (by simpa using h)]
  exact congrArg (named c) (accAt_congr V c (by simp) _ _)

theorem Phi_succ_named (c : Dev nD) (t : Fin cfg1.N) (h : ¬(t.val + 1) % 4 = 0) :
    (dat V c).Φ t.succ = named c (accAt V c t.val t.isLt) := by
  show Phi V c t.succ = _
  unfold Phi; rw [dif_neg (by simpa using h)]
  exact congrArg (named c) (accAt_congr V c (by simp) _ _)

theorem Phi_succ_plain (c : Dev nD) (t : Fin cfg1.N) (h : (t.val + 1) % 4 = 0) :
    (dat V c).Φ t.succ = Pipeline.ΦA spec1 c := by
  show Phi V c t.succ = _
  unfold Phi; rw [dif_pos (by simpa using h)]

/-! ## The body obligation -/

/-- What the body is entered with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d)))

/-- and what it returns with. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ (dat V c).leavesExact 15 t
    ∗ (dat V c).leavesExact 16 t)

set_option maxHeartbeats 8000000 in
/-- The body at any point, by the point's place in its run over k. -/
theorem body_at_point (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, before8, before9, before10, before11, before12, before13, before14]
  rw [show (dat V c).owesAt () t.succ = (dat V c).owesAt () t.castSucc from rfl]
  simp only [after0, after1, after2, after3, after4, after5, after6, after7, after8, after9, after10, after11, after12, after13, after14]
  by_cases h0 : t.val % 4 = 0
  · -- the point starts a run over k
    have hc1 : cond1 (grid1.coords t) := (hcond1 t).mpr h0
    have hc2 : ¬cond2 (grid1.coords t) := fun h => by have := (hcond2 t).mp h; omega
    rw [Dat.leavesExact_idle (dat V c) 15 t (idle15 t hc2) (noFlush15 t hc2),
      Dat.leavesExact_idle (dat V c) 16 t (idle16 t hc2) (noFlush16 t hc2)]
    rw [Phi_first V c t h0, Phi_succ_named V c t (by omega), accAt_first V c t h0, PhiA_eq]
    unfold named stepAll zeros; dsimp only
    iintro ⟨⟨⟨⟨S0, S1, S2, S3⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (run_first c Set.univ (grid1.coords t) _ _ _ _ _ _ _ _ _ _ _ _ _ _ _ _ _ _ _ _ _ _ _ _ _ _ _ _ _ _ _ _ _ _ _ _ _ _ _ _ _ _ hc1 hc2 (blockAt V c 0 t) (blockAt V c 1 t) (blockAt V c 2 t) (blockAt V c 3 t) (blockAt V c 4 t) (blockAt V c 5 t) (blockAt V c 6 t) (blockAt V c 7 t) (blockAt V c 8 t) (blockAt V c 9 t) (blockAt V c 10 t) (blockAt V c 11 t) (blockAt V c 12 t) (blockAt V c 13 t) (blockAt V c 14 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, H16, S0, S1, S2, S3⟩
    isplitl [S0 S1 S2 S3 Hr Hg]
    · isplitl [S0 S1 S2 S3 Hr]
      · isplitl [S0 S1 S2 S3]
        · isplitl [S0]; · iexact S0
          isplitl [S1]; · iexact S1
          isplitl [S2]; · iexact S2
          iexact S3
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    iexists _; iexact H16
  · by_cases h3 : t.val % 4 = 3
    · -- the point ends a run over k
      have hc1 : ¬cond1 (grid1.coords t) := fun h => h0 ((hcond1 t).mp h)
      have hc2 : cond2 (grid1.coords t) := (hcond2 t).mpr h3
      rw [show (dat V c).leavesExact 15 t = owns (c : Thread nD τ) (st1_15 t) fullShare ((dat V c).after 15 t) from by
        unfold Dat.leavesExact; rw [live15 t hc2]]
      rw [show (dat V c).leavesExact 16 t = owns (c : Thread nD τ) (st1_16 t) fullShare ((dat V c).after 16 t) from by
        unfold Dat.leavesExact; rw [live16 t hc2]]
      rw [after15, after16]
      unfold outH outC
      rw [Phi_next V c t h0, Phi_succ_plain V c t (by omega), accAt_next V c t h0, PhiA_eq]
      unfold named stepAll; dsimp only
      iintro ⟨⟨⟨⟨S0, S1, S2, S3⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (run_last c Set.univ (grid1.coords t) _ _ _ _ _ _ _ _ _ _ _ _ _ _ _ _ _ _ _ _ _ _ _ _ _ _ _ _ _ _ _ _ _ _ _ _ _ _ _ _ _ _ hc1 hc2 (blockAt V c 0 t) (blockAt V c 1 t) (blockAt V c 2 t) (blockAt V c 3 t) (blockAt V c 4 t) (blockAt V c 5 t) (blockAt V c 6 t) (blockAt V c 7 t) (blockAt V c 8 t) (blockAt V c 9 t) (blockAt V c 10 t) (blockAt V c 11 t) (blockAt V c 12 t) (blockAt V c 13 t) (blockAt V c 14 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [S0]; · iexact S0
      isplitl [S1]; · iexact S1
      isplitl [S2]; · iexact S2
      isplitl [S3]; · iexact S3
      iintro ⟨H0, H1, H2, H3, H4, H5, H6, H7, H8, H9, H10, H11, H12, H13, H14, H15, H16, S0, S1, S2, S3⟩
      isplitl [S0 S1 S2 S3 Hr Hg]
      · isplitl [S0 S1 S2 S3 Hr]
        · isplitl [S0 S1 S2 S3]
          · isplitl [S0]; · iexists _; iexact S0
            isplitl [S1]; · iexists _; iexact S1
            isplitl [S2]; · iexists _; iexact S2
            iexists _; iexact S3
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · -- the point is inside a run over k
      have hc1 : ¬cond1 (grid1.coords t) := fun h => h0 ((hcond1 t).mp h)
      have hc2 : ¬cond2 (grid1.coords t) := fun h => h3 ((hcond2 t).mp h)
      rw [Dat.leavesExact_idle (dat V c) 15 t (idle15 t hc2) (noFlush15 t hc2),
        Dat.leavesExact_idle (dat V c) 16 t (idle16 t hc2) (noFlush16 t hc2)]
      rw [Phi_next V c t h0, Phi_succ_named V c t (by omega), accAt_next V c t h0]
      unfold named stepAll; dsimp only
      iintro ⟨⟨⟨⟨S0, S1, S2, S3⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (run_mid c Set.univ (grid1.coords t) _ _ _ _ _ _ _ _ _ _ _ _ _ _ _ _ _ _ _ _ _ _ _ _ _ _ _ _ _ _ _ _ _ _ _ _ _ _ _ _ _ _ hc1 hc2 (blockAt V c 0 t) (blockAt V c 1 t) (blockAt V c 2 t) (blockAt V c 3 t) (blockAt V c 4 t) (blockAt V c 5 t) (blockAt V c 6 t) (blockAt V c 7 t) (blockAt V c 8 t) (blockAt V c 9 t) (blockAt V c 10 t) (blockAt V c 11 t) (blockAt V c 12 t) (blockAt V c 13 t) (blockAt V c 14 t) _ _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [S0]; · iexact S0
      isplitl [S1]; · iexact S1
      isplitl [S2]; · iexact S2
      isplitl [S3]; · iexact S3
      iintro ⟨H0, H1, H2, H3, H4, H5, H6, H7, H8, H9, H10, H11, H12, H13, H14, H15, H16, S0, S1, S2, S3⟩
      isplitl [S0 S1 S2 S3 Hr Hg]
      · isplitl [S0 S1 S2 S3 Hr]
        · isplitl [S0 S1 S2 S3]
          · isplitl [S0]; · iexact S0
            isplitl [S1]; · iexact S1
            isplitl [S2]; · iexact S2
            iexact S3
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

/-- The body obligation of the region, at every point. -/
theorem body_obligation (c : Dev nD) :
    BodyObligation (dat (F := F) V c) (defs₀ (F := F)) Variants.none () Set.univ := fun t => by
  rw [bigSep_W1, bigSep_W1]
  exact body_at_point V c t

/-- What the launch hands the region is the invariant before the first point. -/
theorem phi_in (c : Dev nD) : Pipeline.ΦA spec1 c ⊢ (dat V c).Φ 0 := by
  show _ ⊢ Phi V c 0
  unfold Phi; rw [dif_pos (by simp)]
  try exact Idealize.SL.BI.Entails.refl _

/-- After the last point (which ends a run over k) the invariant is the plain one again. -/
theorem phi_out (c : Dev nD) : (dat V c).Φ (Fin.last cfg1.N) ⊢ Pipeline.ΦA spec1 c := by
  show Phi V c (Fin.last cfg1.N) ⊢ _
  unfold Phi; rw [dif_pos (by rw [Fin.val_last]; show grid1.N % 4 = 0; rw [N_1])]
  try exact Idealize.SL.BI.Entails.refl _

end Cert.Kernel.Gates

end
-- ==== Proof.KernelRun.lean ====
/-
  @main's run, region by region.

  @main is: two host lines (the hidden state recast, the embedding bias reshaped), the embedding region, seventeen
  host lines (the weights recast, the gate biases added pairwise and reshaped), the gates region, three host lines
  (the new hidden state and the head weights recast, the head bias reshaped), the head region, the normalising
  region. Between two items every unscoped buffer of a core is held whole at a named valuation: the launch
  memory, then each host stretch folded over it, then — after a region — the region's window arrays at what the
  pipeline leaves in them and every other buffer as it was. A region is entered from the valuation before it and
  left at the one after it; beside the buffers ride the generator register at some state and the core's dues at
  nothing. The run ends with every unscoped buffer at the last valuation, which names the three results and, no
  item writing an argument, the arguments as launched.
-/
import proofs.«125352_j18708877541498_2_alg».proof.Proof.Gen.Kernel.Points
import proofs.«125352_j18708877541498_2_alg».proof.Proof.Gen.Kernel.Skeleton
import proofs.«125352_j18708877541498_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«125352_j18708877541498_2_alg».proof.Proof.Gen.Kernel.Regions
import proofs.«125352_j18708877541498_2_alg».proof.Proof.KernelNorm
import proofs.«125352_j18708877541498_2_alg».proof.Proof.KernelEmb
import proofs.«125352_j18708877541498_2_alg».proof.Proof.KernelHead
import proofs.«125352_j18708877541498_2_alg».proof.Proof.KernelGates

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between two items -/

/-- At launch. -/
abbrev st0 : Dev nD → Valuation τ sig (Elt F) := fun c b => (s₀ m ρ).mem ((c : Dev nD), b)
/-- After the first host stretch: the embedding region's entry. -/
abbrev st1 : Dev nD → Valuation τ sig (Elt F) := fun c => StableHlo.after hostOps0 (st0 m ρ c)
abbrev ent0 : (c : Dev nD) → (b : Ref sig .tc) → Buf (Elt F) ((c : Thread nD τ).loc b) := fun c b => st1 m ρ c b
/-- After the embedding region. -/
def st2 (c : Dev nD) : Valuation τ sig (Elt F) :=
  Pipeline.withArrays spec0 c (st1 m ρ c) fun w => (Emb.dat (ent0 m ρ) c).arrAt w cfg0.N
theorem st2_arr (c : Dev nD) (w : Fin cfg0.W) :
    st2 m ρ c (Proc.devRef .tc (Pipeline.arrRef spec0 w)) = (Emb.dat (ent0 m ρ) c).arrAt w cfg0.N := by
  unfold st2; exact Pipeline.withArrays_arr spec0 launch0.win.arr_inj c _ _ w
theorem st2_of_ne (c : Dev nD) (b : Ref sig .tc) (hb : ∀ w, Pipeline.arrRef spec0 w ≠ b) :
    st2 m ρ c (Proc.devRef .tc b) = st1 m ρ c (Proc.devRef .tc b) := by
  unfold st2; exact Pipeline.withArrays_of_ne spec0 c _ _ b hb
abbrev ex0 : (c : Dev nD) → (b : Ref sig .tc) → Buf (Elt F) ((c : Thread nD τ).loc b) := fun c b => st2 m ρ c b
theorem arrs0 (c : Dev nD) (w : Fin cfg0.W) : (Emb.dat (ent0 m ρ) c).arrAt w cfg0.N = ex0 m ρ c (Pipeline.arrRef spec0 w) :=
  (st2_arr m ρ c w).symm
theorem rest0 (c : Dev nD) : ∀ b, b ∉ Finset.univ.image (Pipeline.arrRef spec0) → ex0 m ρ c b = ent0 m ρ c b :=
  fun b hb => st2_of_ne m ρ c b fun w e => hb (Finset.mem_image.mpr ⟨w, Finset.mem_univ _, e⟩)

/-- After the second host stretch: the gates region's entry. -/
abbrev st3 : Dev nD → Valuation τ sig (Elt F) := fun c => StableHlo.after hostOps1 (st2 m ρ c)
abbrev ent1 : (c : Dev nD) → (b : Ref sig .tc) → Buf (Elt F) ((c : Thread nD τ).loc b) := fun c b => st3 m ρ c b
/-- After the gates region. -/
def st4 (c : Dev nD) : Valuation τ sig (Elt F) :=
  Pipeline.withArrays spec1 c (st3 m ρ c) fun w => (Gates.dat (ent1 m ρ) c).arrAt w cfg1.N
theorem st4_arr (c : Dev nD) (w : Fin cfg1.W) :
    st4 m ρ c (Proc.devRef .tc (Pipeline.arrRef spec1 w)) = (Gates.dat (ent1 m ρ) c).arrAt w cfg1.N := by
  unfold st4; exact Pipeline.withArrays_arr spec1 launch1.win.arr_inj c _ _ w
theorem st4_of_ne (c : Dev nD) (b : Ref sig .tc) (hb : ∀ w, Pipeline.arrRef spec1 w ≠ b) :
    st4 m ρ c (Proc.devRef .tc b) = st3 m ρ c (Proc.devRef .tc b) := by
  unfold st4; exact Pipeline.withArrays_of_ne spec1 c _ _ b hb
abbrev ex1 : (c : Dev nD) → (b : Ref sig .tc) → Buf (Elt F) ((c : Thread nD τ).loc b) := fun c b => st4 m ρ c b
theorem arrs1 (c : Dev nD) (w : Fin cfg1.W) : (Gates.dat (ent1 m ρ) c).arrAt w cfg1.N = ex1 m ρ c (Pipeline.arrRef spec1 w) :=
  (st4_arr m ρ c w).symm
theorem rest1 (c : Dev nD) : ∀ b, b ∉ Finset.univ.image (Pipeline.arrRef spec1) → ex1 m ρ c b = ent1 m ρ c b :=
  fun b hb => st4_of_ne m ρ c b fun w e => hb (Finset.mem_image.mpr ⟨w, Finset.mem_univ _, e⟩)

/-- After the third host stretch: the head region's entry. -/
abbrev st5 : Dev nD → Valuation τ sig (Elt F) := fun c => StableHlo.after hostOps2 (st4 m ρ c)
abbrev ent2 : (c : Dev nD) → (b : Ref sig .tc) → Buf (Elt F) ((c : Thread nD τ).loc b) := fun c b => st5 m ρ c b
/-- After the head region: the normalising region's entry. -/
def st6 (c : Dev nD) : Valuation τ sig (Elt F) :=
  Pipeline.withArrays spec2 c (st5 m ρ c) fun w => (Head.dat (ent2 m ρ) c).arrAt w cfg2.N
theorem st6_arr (c : Dev nD) (w : Fin cfg2.W) :
    st6 m ρ c (Proc.devRef .tc (Pipeline.arrRef spec2 w)) = (Head.dat (ent2 m ρ) c).arrAt w cfg2.N := by
  unfold st6; exact Pipeline.withArrays_arr spec2 launch2.win.arr_inj c _ _ w
theorem st6_of_ne (c : Dev nD) (b : Ref sig .tc) (hb : ∀ w, Pipeline.arrRef spec2 w ≠ b) :
    st6 m ρ c (Proc.devRef .tc b) = st5 m ρ c (Proc.devRef .tc b) := by
  unfold st6; exact Pipeline.withArrays_of_ne spec2 c _ _ b hb
abbrev ex2 : (c : Dev nD) → (b : Ref sig .tc) → Buf (Elt F) ((c : Thread nD τ).loc b) := fun c b => st6 m ρ c b
theorem arrs2 (c : Dev nD) (w : Fin cfg2.W) : (Head.dat (ent2 m ρ) c).arrAt w cfg2.N = ex2 m ρ c (Pipeline.arrRef spec2 w) :=
  (st6_arr m ρ c w).symm
theorem rest2 (c : Dev nD) : ∀ b, b ∉ Finset.univ.image (Pipeline.arrRef spec2) → ex2 m ρ c b = ent2 m ρ c b :=
  fun b hb => st6_of_ne m ρ c b fun w e => hb (Finset.mem_image.mpr ⟨w, Finset.mem_univ _, e⟩)

/-- After the normalising region: the end. -/
def st7 (c : Dev nD) : Valuation τ sig (Elt F) :=
  Pipeline.withArrays spec3 c (st6 m ρ c) fun w => (Norm.dat (ex2 m ρ) c).arrAt w cfg3.N
theorem st7_arr (c : Dev nD) (w : Fin cfg3.W) :
    st7 m ρ c (Proc.devRef .tc (Pipeline.arrRef spec3 w)) = (Norm.dat (ex2 m ρ) c).arrAt w cfg3.N := by
  unfold st7; exact Pipeline.withArrays_arr spec3 launch3.win.arr_inj c _ _ w
theorem st7_of_ne (c : Dev nD) (b : Ref sig .tc) (hb : ∀ w, Pipeline.arrRef spec3 w ≠ b) :
    st7 m ρ c (Proc.devRef .tc b) = st6 m ρ c (Proc.devRef .tc b) := by
  unfold st7; exact Pipeline.withArrays_of_ne spec3 c _ _ b hb
abbrev ex3 : (c : Dev nD) → (b : Ref sig .tc) → Buf (Elt F) ((c : Thread nD τ).loc b) := fun c b => st7 m ρ c b
theorem arrs3 (c : Dev nD) (w : Fin cfg3.W) : (Norm.dat (ex2 m ρ) c).arrAt w cfg3.N = ex3 m ρ c (Pipeline.arrRef spec3 w) :=
  (st7_arr m ρ c w).symm
theorem rest3 (c : Dev nD) : ∀ b, b ∉ Finset.univ.image (Pipeline.arrRef spec3) → ex3 m ρ c b = ex2 m ρ c b :=
  fun b hb => st7_of_ne m ρ c b fun w e => hb (Finset.mem_image.mpr ⟨w, Finset.mem_univ _, e⟩)

/-! ## The proof data family and what rides beside the buffers -/

/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => Emb.dat (ent0 m ρ) c
  | ⟨1, _⟩ => fun c => Gates.dat (ent1 m ρ) c
  | ⟨2, _⟩ => fun c => Head.dat (ent2 m ρ) c
  | ⟨3, _⟩ => fun c => Norm.dat (ex2 m ρ) c
abbrev 𝒱ₙ : Variants := Variants.none
/-- No core owes another anything: no level is assigned. -/
abbrev Lₙ : GSem nD τ sig → Finset Unit := fun _ => ∅
abbrev lvₙ : GSem nD τ sig → Unit → ℕ := fun _ _ => 0
/-- Beside the buffers: the generator register at some state and the core's dues, at nothing. -/
abbrev Rd (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The embedding region: entered with every unscoped buffer at `st1`, left at `st2`. -/
def reg0 : Pipeline.RegionSeg (pcfgs (F := F)) adm (pdats m ρ) () defs₀ 𝒱ₙ Lₙ lvₙ 0 where
  win := launch0.win.to₀
  block_pos := launch0.block_pos
  stage_whole := launch0.stage_whole
  K := PEmpty
  osem k := k.elim
  ho := Pipeline.OwnSemFacts.none _
  hbody c := (Emb.body_obligation (ent0 m ρ) c).loose
  hwaits := Pipeline.hwaits_of_owed_zero _ _ _ _ Lₙ lvₙ 0 fun _ _ => rfl
  pre c := iprop(StableHlo.held (c : Thread nD τ) (Pipeline.ucRefs τ sig) (st1 m ρ c) ∗ Rd c)
  post c := iprop(StableHlo.held (c : Thread nD τ) (Pipeline.ucRefs τ sig) (st2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (Emb.phi_in (ent0 m ρ) c)
    unfold Pipeline.ΦA
    iintro ⟨Hp, -, Hr⟩
    isplitl [Hr]; · iexact Hr
    iexact Hp
  hout c := by
    refine (show (pdats m ρ 0 c).Φ (Fin.last _) ⊢ Pipeline.ΦA spec0 c from Emb.phi_out (ent0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (ent0 m ρ c) (ex0 m ρ c) ((pdats m ρ 0 c).arrAt · cfg0.N) (arrs0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gates region: entered with every unscoped buffer at `st3`, left at `st4`. -/
def reg1 : Pipeline.RegionSeg (pcfgs (F := F)) adm (pdats m ρ) () defs₀ 𝒱ₙ Lₙ lvₙ 1 where
  win := launch1.win.to₀
  block_pos := launch1.block_pos
  stage_whole := launch1.stage_whole
  K := PEmpty
  osem k := k.elim
  ho := Pipeline.OwnSemFacts.none _
  hbody c := (Gates.body_obligation (ent1 m ρ) c).loose
  hwaits := Pipeline.hwaits_of_owed_zero _ _ _ _ Lₙ lvₙ 1 fun _ _ => rfl
  pre c := iprop(StableHlo.held (c : Thread nD τ) (Pipeline.ucRefs τ sig) (st3 m ρ c) ∗ Rd c)
  post c := iprop(StableHlo.held (c : Thread nD τ) (Pipeline.ucRefs τ sig) (st4 m ρ c) ∗ Rd c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Gates.phi_in (ent1 m ρ) c)
    unfold Pipeline.ΦA
    iintro ⟨Hp, -, Hr⟩
    isplitl [Hr]; · iexact Hr
    iexact Hp
  hout c := by
    refine (show (pdats m ρ 1 c).Φ (Fin.last _) ⊢ Pipeline.ΦA spec1 c from Gates.phi_out (ent1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (ent1 m ρ c) (ex1 m ρ c) ((pdats m ρ 1 c).arrAt · cfg1.N) (arrs1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The head region: entered with every unscoped buffer at `st5`, left at `st6`. -/
def reg2 : Pipeline.RegionSeg (pcfgs (F := F)) adm (pdats m ρ) () defs₀ 𝒱ₙ Lₙ lvₙ 2 where
  win := launch2.win.to₀
  block_pos := launch2.block_pos
  stage_whole := launch2.stage_whole
  K := PEmpty
  osem k := k.elim
  ho := Pipeline.OwnSemFacts.none _
  hbody c := (Head.body_obligation (ent2 m ρ) c).loose
  hwaits := Pipeline.hwaits_of_owed_zero _ _ _ _ Lₙ lvₙ 2 fun _ _ => rfl
  pre c := iprop(StableHlo.held (c : Thread nD τ) (Pipeline.ucRefs τ sig) (st5 m ρ c) ∗ Rd c)
  post c := iprop(StableHlo.held (c : Thread nD τ) (Pipeline.ucRefs τ sig) (st6 m ρ c) ∗ Rd c)
  X c := iprop(∃ r, prngReg c r)
  Y c := iprop(∃ r, prngReg c r)
  Z c := Pipeline.unscopedRest (Ix := Unit) (Name := ℕ) (U := UR sig nD τ) (Lvl := ℕ) spec2 c (ent2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (ent2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (Head.phi_in (ent2 m ρ) c)
    unfold Pipeline.ΦA
    iintro ⟨Hp, -, Hr⟩
    isplitl [Hr]; · iexact Hr
    iexact Hp
  hout c := by
    refine (show (pdats m ρ 2 c).Φ (Fin.last _) ⊢ Pipeline.ΦA spec2 c from Head.phi_out (ent2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (ent2 m ρ c) (ex2 m ρ c) ((pdats m ρ 2 c).arrAt · cfg2.N) (arrs2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region: entered with every unscoped buffer at `st6`, left at `st7`; its invariant is the plain
    one at every point. -/
def reg3 : Pipeline.RegionSeg (pcfgs (F := F)) adm (pdats m ρ) () defs₀ 𝒱ₙ Lₙ lvₙ 3 where
  win := launch3.win.to₀
  block_pos := launch3.block_pos
  stage_whole := launch3.stage_whole
  K := PEmpty
  osem k := k.elim
  ho := Pipeline.OwnSemFacts.none _
  hbody c := (Norm.body_obligation (ex2 m ρ) c).loose
  hwaits := Pipeline.hwaits_of_owed_zero _ _ _ _ Lₙ lvₙ 3 fun _ _ => rfl
  pre c := iprop(StableHlo.held (c : Thread nD τ) (Pipeline.ucRefs τ sig) (st6 m ρ c) ∗ Rd c)
  post c := iprop(StableHlo.held (c : Thread nD τ) (Pipeline.ucRefs τ sig) (st7 m ρ c) ∗ Rd c)
  X c := iprop(∃ r, prngReg c r)
  Y c := iprop(∃ r, prngReg c r)
  Z c := Pipeline.unscopedRest (Ix := Unit) (Name := ℕ) (U := UR sig nD τ) (Lvl := ℕ) spec3 c (ex2 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (ex2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (ex2 m ρ c) (ex3 m ρ c) ((pdats m ρ 3 c).arrAt · cfg3.N) (arrs3 m ρ c) (rest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m ρ) () defs₀ 𝒱ₙ Lₙ lvₙ) :=
  [ .host (hseg hostOps0 hostOps0_sub hostOps0_fresh (st0 m ρ)),
    .region (reg0 m ρ),
    .host (hseg hostOps1 hostOps1_sub hostOps1_fresh (st2 m ρ)),
    .region (reg1 m ρ),
    .host (hseg hostOps2 hostOps2_sub hostOps2_fresh (st4 m ρ)),
    .region (reg2 m ρ),
    .region (reg3 m ρ) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faults, and
    the final memory holds every unscoped buffer of every core at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = st7 m ρ c b) :=
  Pipeline.θ_run_regions_kit (pcfgs (F := F)) adm (pdats m ρ) () cellOf_inj emb₁ defs₀ 𝒱ₙ Lₙ lvₙ m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (st0 m ρ c) ∗ Rd c))
    (Tₙ := fun c => iprop(StableHlo.held (c : Thread nD τ) (Pipeline.ucRefs τ sig) (st7 m ρ c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (st7 m ρ c) ∗ Rd c) ⊢ _
      iintro ⟨Hh, Hp, HO⟩
      isplitl [Hh Hp]
      · isplitl [Hh]; · iexact Hh
        iexact Hp
      iexact HO⟩)
    (hinit := by
      refine Pipeline.initEach Lₙ lvₙ fun c => ?_
      rw [show unscopedBufs c (fun b => m ((c : Thread nD τ).loc b)) = StableHlo.held (c : Thread nD τ) (Pipeline.ucRefs τ sig) (st0 m ρ c)
        from Pipeline.unscopedBufs_held c (st0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = st7 m ρ c b)
    (hfin := fun c s' => by
      iintro ⟨⟨Hh, -⟩, HSI⟩
      unfold StableHlo.held
      imodintro
      iapply (pointsTo_read_all (Pipeline.ucRefs τ sig) (fun b => (((c : Thread nD τ)).1, b)) (st7 m ρ c) s')
      isplitl [Hh] <;> iassumption)
    (hQ := fun s h c => h c)

end Cert.Kernel.Run

end
-- ==== Proof.KernelFrame.lean ====
/-
  What the run's last valuation holds.

  No host line writes an argument and no region has an argument among its output windows: a region either stages
  an argument through an input window — whose array the pipeline leaves as it found it — or does not touch it.
  So every argument ends at its launch contents. The three results are output windows: the normalised logits are
  what the last region leaves in its output array; the new hidden state and the new cell are what the gates region
  leaves in its two output arrays, which nothing after it writes.
-/
import proofs.«125352_j18708877541498_2_alg».proof.Proof.KernelRun

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## A region leaves every array that is not one of its outputs -/

theorem inputs0 : ∀ w : Fin cfg0.W, Pipeline.arrRef spec0 w ∉ ([main_call0_v2] : List (Ref sig .tc)) → (cfg0.win w).isOut = false := by decide
theorem inputs1 : ∀ w : Fin cfg1.W, Pipeline.arrRef spec1 w ∉ ([main_v0_1, main_v0_2] : List (Ref sig .tc)) → (cfg1.win w).isOut = false := by decide
theorem inputs2 : ∀ w : Fin cfg2.W, Pipeline.arrRef spec2 w ∉ ([main_call0_v24_0, main_call0_v24_1] : List (Ref sig .tc)) → (cfg2.win w).isOut = false := by decide
theorem inputs3 : ∀ w : Fin cfg3.W, Pipeline.arrRef spec3 w ∉ ([main_v0_0] : List (Ref sig .tc)) → (cfg3.win w).isOut = false := by decide

theorem keep0 (c : Dev nD) (b : Ref sig .tc) (h : b ∉ ([main_call0_v2] : List (Ref sig .tc))) :
    st2 m ρ c (Proc.devRef .tc b) = st1 m ρ c (Proc.devRef .tc b) := by
  by_cases hw : ∃ w, Pipeline.arrRef spec0 w = b
  · obtain ⟨w, rfl⟩ := hw
    exact (st2_arr m ρ c w).trans (((Emb.dat (ent0 m ρ) c).arrAt_in w (inputs0 w h) _).trans (Emb.dat_A (ent0 m ρ) c w))
  · exact st2_of_ne m ρ c b (fun w e => hw ⟨w, e⟩)

theorem keep1 (c : Dev nD) (b : Ref sig .tc) (h : b ∉ ([main_v0_1, main_v0_2] : List (Ref sig .tc))) :
    st4 m ρ c (Proc.devRef .tc b) = st3 m ρ c (Proc.devRef .tc b) := by
  by_cases hw : ∃ w, Pipeline.arrRef spec1 w = b
  · obtain ⟨w, rfl⟩ := hw
    exact (st4_arr m ρ c w).trans (((Gates.dat (ent1 m ρ) c).arrAt_in w (inputs1 w h) _).trans (Gates.dat_A (ent1 m ρ) c w))
  · exact st4_of_ne m ρ c b (fun w e => hw ⟨w, e⟩)

theorem keep2 (c : Dev nD) (b : Ref sig .tc) (h : b ∉ ([main_call0_v24_0, main_call0_v24_1] : List (Ref sig .tc))) :
    st6 m ρ c (Proc.devRef .tc b) = st5 m ρ c (Proc.devRef .tc b) := by
  by_cases hw : ∃ w, Pipeline.arrRef spec2 w = b
  · obtain ⟨w, rfl⟩ := hw
    exact (st6_arr m ρ c w).trans (((Head.dat (ent2 m ρ) c).arrAt_in w (inputs2 w h) _).trans (Head.dat_A (ent2 m ρ) c w))
  · exact st6_of_ne m ρ c b (fun w e => hw ⟨w, e⟩)

theorem keep3 (c : Dev nD) (b : Ref sig .tc) (h : b ∉ ([main_v0_0] : List (Ref sig .tc))) :
    st7 m ρ c (Proc.devRef .tc b) = st6 m ρ c (Proc.devRef .tc b) := by
  by_cases hw : ∃ w, Pipeline.arrRef spec3 w = b
  · obtain ⟨w, rfl⟩ := hw
    exact (st7_arr m ρ c w).trans (((Norm.dat (ex2 m ρ) c).arrAt_in w (inputs3 w h) _).trans (Norm.dat_A (ex2 m ρ) c w))
  · exact st7_of_ne m ρ c b (fun w e => hw ⟨w, e⟩)

/-! ## The arguments end as launched -/

/-- A reference that no host stretch writes and that is no region's output holds at the end what it held at launch. -/
theorem untouched (c : Dev nD) (b : Ref sig .tc) (h0 : b ∉ hostOps0_W) (h1 : b ∉ ([main_call0_v2] : List (Ref sig .tc)))
    (h2 : b ∉ hostOps1_W) (h3 : b ∉ ([main_v0_1, main_v0_2] : List (Ref sig .tc))) (h4 : b ∉ hostOps2_W)
    (h5 : b ∉ ([main_call0_v24_0, main_call0_v24_1] : List (Ref sig .tc))) (h6 : b ∉ ([main_v0_0] : List (Ref sig .tc))) :
    st7 m ρ c (Proc.devRef .tc b) = m ((c : Thread nD τ).loc b) :=
  (keep3 m ρ c b h6).trans <| (keep2 m ρ c b h5).trans <|
  (StableHlo.after_of_writes_sub hostOps2 _ hostOps2_writes h4).trans <| (keep1 m ρ c b h3).trans <|
  (StableHlo.after_of_writes_sub hostOps1 _ hostOps1_writes h2).trans <| (keep0 m ρ c b h1).trans <|
  (StableHlo.after_of_writes_sub hostOps0 _ hostOps0_writes h0).trans rfl

/-- The same read off a final memory that holds every unscoped buffer at the last valuation. -/
theorem arg_end (c : Dev nD) (b : Ref sig .tc) (hs : ¬ (Proc.devRef .tc b : DevRef τ sig).isScoped) (h0 : b ∉ hostOps0_W)
    (h1 : b ∉ ([main_call0_v2] : List (Ref sig .tc))) (h2 : b ∉ hostOps1_W) (h3 : b ∉ ([main_v0_1, main_v0_2] : List (Ref sig .tc)))
    (h4 : b ∉ hostOps2_W) (h5 : b ∉ ([main_call0_v24_0, main_call0_v24_1] : List (Ref sig .tc))) (h6 : b ∉ ([main_v0_0] : List (Ref sig .tc)))
    (s : (ℓ : Loc nD τ sig) → Buf (Elt F) ℓ)
    (h : ∀ b ∈ Pipeline.ucRefs τ sig, s (((c : Thread nD τ)).1, b) = st7 m ρ c b) :
    s ((c.tc : Thread nD τ).loc b) = m ((c.tc : Thread nD τ).loc b) :=
  (h _ (mem_uc b hs)).trans (untouched m ρ c b h0 h1 h2 h3 h4 h5 h6)

/-! ## The results -/

/-- The normalised logits are what the last region leaves in its output array. -/
theorem out_end (c : Dev nD) : st7 m ρ c (Proc.devRef .tc main_v0_0) = (Norm.dat (ex2 m ρ) c).arrAt 2 cfg3.N :=
  st7_arr m ρ c 2

/-- The new hidden state is what the gates region leaves in its first output array. -/
theorem hidden_end (c : Dev nD) : st7 m ρ c (Proc.devRef .tc main_v0_1) = (Gates.dat (ent1 m ρ) c).arrAt 15 cfg1.N :=
  (keep3 m ρ c main_v0_1 (by decide)).trans <| (keep2 m ρ c main_v0_1 (by decide)).trans <|
  (StableHlo.after_of_writes_sub hostOps2 _ hostOps2_writes (by decide)).trans (st4_arr m ρ c 15)

/-- The new cell is what the gates region leaves in its second output array. -/
theorem cell_end (c : Dev nD) : st7 m ρ c (Proc.devRef .tc main_v0_2) = (Gates.dat (ent1 m ρ) c).arrAt 16 cfg1.N :=
  (keep3 m ρ c main_v0_2 (by decide)).trans <| (keep2 m ρ c main_v0_2 (by decide)).trans <|
  (StableHlo.after_of_writes_sub hostOps2 _ hostOps2_writes (by decide)).trans (st4_arr m ρ c 16)

/-! ## All the arguments at once -/

section AllArguments

variable (c : Dev nD) (s : (ℓ : Loc nD τ sig) → Buf (Elt F) ℓ)

/-- The argument `b` holds in `s` what it held at launch. -/
def Kept (b : Ref sig .tc) : Prop := s ((c.tc : Thread nD τ).loc b) = m ((c.tc : Thread nD τ).loc b)

/-- Every argument array holds, in a final memory that has every unscoped buffer at the last valuation, what it held
    at launch. -/
theorem args_end (h : ∀ b ∈ Pipeline.ucRefs τ sig, s (((c : Thread nD τ)).1, b) = st7 m ρ c b) :
    Kept m c s main_arg0 ∧ Kept m c s main_arg1 ∧ Kept m c s main_arg2 ∧ Kept m c s main_arg3 ∧ Kept m c s main_arg4 ∧ Kept m c s main_arg5
      ∧ Kept m c s main_arg6 ∧ Kept m c s main_arg7 ∧ Kept m c s main_arg8 ∧ Kept m c s main_arg9 ∧ Kept m c s main_arg10 ∧ Kept m c s main_arg11
      ∧ Kept m c s main_arg12 ∧ Kept m c s main_arg13 ∧ Kept m c s main_arg14 ∧ Kept m c s main_arg15 ∧ Kept m c s main_arg16 ∧ Kept m c s main_arg17
      ∧ Kept m c s main_arg18 ∧ Kept m c s main_arg19 ∧ Kept m c s main_arg20 ∧ Kept m c s main_arg21 ∧ Kept m c s main_arg22 :=
  ⟨arg_end m ρ c main_arg0 (by decide) (by decide) (by decide) (by decide) (by decide) (by decide) (by decide) (by decide) s h,
   arg_end m ρ c main_arg1 (by decide) (by decide) (by decide) (by decide) (by decide) (by decide) (by decide) (by decide) s h,
   arg_end m ρ c main_arg2 (by decide) (by decide) (by decide) (by decide) (by decide) (by decide) (by decide) (by decide) s h,
   arg_end m ρ c main_arg3 (by decide) (by decide) (by decide) (by decide) (by decide) (by decide) (by decide) (by decide) s h,
   arg_end m ρ c main_arg4 (by decide) (by decide) (by decide) (by decide) (by decide) (by decide) (by decide) (by decide) s h,
   arg_end m ρ c main_arg5 (by decide) (by decide) (by decide) (by decide) (by decide) (by decide) (by decide) (by decide) s h,
   arg_end m ρ c main_arg6 (by decide) (by decide) (by decide) (by decide) (by decide) (by decide) (by decide) (by decide) s h,
   arg_end m ρ c main_arg7 (by decide) (by decide) (by decide) (by decide) (by decide) (by decide) (by decide) (by decide) s h,
   arg_end m ρ c main_arg8 (by decide) (by decide) (by decide) (by decide) (by decide) (by decide) (by decide) (by decide) s h,
   arg_end m ρ c main_arg9 (by decide) (by decide) (by decide) (by decide) (by decide) (by decide) (by decide) (by decide) s h,
   arg_end m ρ c main_arg10 (by decide) (by decide) (by decide) (by decide) (by decide) (by decide) (by decide) (by decide) s h,
   arg_end m ρ c main_arg11 (by decide) (by decide) (by decide) (by decide) (by decide) (by decide) (by decide) (by decide) s h,
   arg_end m ρ c main_arg12 (by decide) (by decide) (by decide) (by decide) (by decide) (by decide) (by decide) (by decide) s h,
   arg_end m ρ c main_arg13 (by decide) (by decide) (by decide) (by decide) (by decide) (by decide) (by decide) (by decide) s h,
   arg_end m ρ c main_arg14 (by decide) (by decide) (by decide) (by decide) (by decide) (by decide) (by decide) (by decide) s h,
   arg_end m ρ c main_arg15 (by decide) (by decide) (by decide) (by decide) (by decide) (by decide) (by decide) (by decide) s h,
   arg_end m ρ c main_arg16 (by decide) (by decide) (by decide) (by decide) (by decide) (by decide) (by decide) (by decide) s h,
   arg_end m ρ c main_arg17 (by decide) (by decide) (by decide) (by decide) (by decide) (by decide) (by decide) (by decide) s h,
   arg_end m ρ c main_arg18 (by decide) (by decide) (by decide) (by decide) (by decide) (by decide) (by decide) (by decide) s h,
   arg_end m ρ c main_arg19 (by decide) (by decide) (by decide) (by decide) (by decide) (by decide) (by decide) (by decide) s h,
   arg_end m ρ c main_arg20 (by decide) (by decide) (by decide) (by decide) (by decide) (by decide) (by decide) (by decide) s h,
   arg_end m ρ c main_arg21 (by decide) (by decide) (by decide) (by decide) (by decide) (by decide) (by decide) (by decide) s h,
   arg_end m ρ c main_arg22 (by decide) (by decide) (by decide) (by decide) (by decide) (by decide) (by decide) (by decide) s h⟩

end AllArguments

end Cert.Kernel.Run

end
-- ==== Proof.KernelIdealNorm.lean ====
/-
  The last kernel region: every [1024, 1280] tile of the logits less its rows' log-sum-exp column.

  A grid point's body reads the logits tile and the [1024, 1] column of the rows' log-sum-exp, subtracts the column
  (broadcast along the rows) from the tile, and stores the difference over the whole output tile. The output tile is
  loaded once before that store and the loaded value is dropped, so what the tile held before does not matter.
  Nothing is kept from one grid point to the next, so the region's invariant is the plain one: the buffers the
  region does not stage at some contents, and the generator register at some state.
-/
import proofs.«125352_j18708877541498_2_alg».proof.Proof.Gen.KernelIdeal.Points
import proofs.«125352_j18708877541498_2_alg».proof.Proof.Gen.KernelIdeal.Skeleton
import proofs.«125352_j18708877541498_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, cut out of its array as the region finds it. -/
def blockAt (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The logits tile is in its staging buffer at every point: an input window, never idle, never clipped, left in
    place by the body. -/
theorem logits_staged {c : Dev nD} (dat : Dat τ (Elt F) Unit ℕ (UR sig nD τ) ℕ cfg3 c)
    (hA : dat.A 0 = V c (Pipeline.arrRef spec3 0)) (hafter : ∀ t, dat.after 0 t = blockAt V c 0 t)
    (t : Fin cfg3.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- So is the log-sum-exp column, which is fetched only when the row block changes. -/
theorem column_staged {c : Dev nD} (dat : Dat τ (Elt F) Unit ℕ (UR sig nD τ) ℕ cfg3 c)
    (hA : dat.A 1 = V c (Pipeline.arrRef spec3 1)) (hafter : ∀ t, dat.after 1 t = blockAt V c 1 t)
    (t : Fin cfg3.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- The whole [1024, 1280] tile and the whole [1024, 1] column, as rectangles. -/
abbrev tileRect : Rect S1024x1280 := Rect.unit (s := S1024x1280) ![0, 0] S1024x1280.size inb_S1024x1280_S1024x1280_0_0
abbrev colRect : Rect S1024x1 := Rect.unit (s := S1024x1) ![0, 0] S1024x1.size inb_S1024x1_S1024x1_0_0

/-- What a point leaves in the output tile: one store, over the whole tile, of the logits less the column. -/
def normTile (x : Vec F S1024x1280 .f32) (l : Vec F S1024x1 .f32) : Vec F S1024x1280 .f32 :=
  View.canon [⟨tileRect, k3_pay1 (View.ld x tileRect) (View.ld l colRect)⟩]

/-- That one store covers the tile. -/
theorem tile_covered (p : Vec F S1024x1280 .f32) (y : S1024x1280.Idx) :
    ∃ pc ∈ ([⟨tileRect, p⟩] : List (View.Piece (Elt F) S1024x1280 .f32)), y ∈ pc.1.set :=
  View.cover_of_tiled [⟨tileRect, p⟩] S1024x1280.size (by rfl) y

set_option maxHeartbeats 1000000 in
/-- The body on whole staging buffers: the logits tile at `x`, the column at `l`, the output tile at anything; it
    returns with the two inputs as they were and the output tile at `normTile x l`. -/
theorem body_runs (c : Dev nD) (E : Set ℕ) (i : grid3.Coords)
    (arg2 : Memref sig .tc .vmem S1024x1280 .f32) (harg2 : arg2.IsWhole)
    (arg3 : Memref sig .tc .vmem S1024x1 .f32) (harg3 : arg3.IsWhole)
    (arg4 : Memref sig .tc .vmem S1024x1280 .f32) (harg4 : arg4.IsWhole)
    (x : Vec F S1024x1280 .f32) (l : Vec F S1024x1 .f32) (K : PUnit → sProp 𝕄) :
    iprop(owns (c : Thread nD τ) arg2 fullShare x ∗ owns (c : Thread nD τ) arg3 fullShare l
        ∗ (∃ d, owns (c : Thread nD τ) arg4 fullShare d)
        ∗ (iprop(owns (c : Thread nD τ) arg2 fullShare x ∗ owns (c : Thread nD τ) arg3 fullShare l
            ∗ owns (c : Thread nD τ) arg4 fullShare (normTile x l)) -∗ K ⟨⟩))
      ⊢ wp frame (wpE (defs₀ (F := F)) Variants.none c none) E (cc3__norm_kernel i arg2 harg2 arg3 harg3 arg4 harg4) K := by
  simp only [cc3__norm_kernel_eq_skeleton]; unfold cc3__norm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

/-- The region's proof data on core `c`: the arrays as found; after a point's body the two inputs' buffers at their
    blocks and the output's at `normTile` of them; the plain invariant; nothing owed; full shares. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => normTile (blockAt V c 0 t) (blockAt V c 1 t)
  Φ _ := Pipeline.ΦA spec3 c
  q _ := fullShare
  owed _ := 0

theorem dat_A (c : Dev nD) (w : Fin cfg3.W) : (dat V c).A w = V c (Pipeline.arrRef spec3 w) := by
  dsimp only [dat]

theorem after_logits (c : Dev nD) (t : Fin cfg3.N) : (dat V c).after 0 t = blockAt V c 0 t := by dsimp only [dat]
theorem after_column (c : Dev nD) (t : Fin cfg3.N) : (dat V c).after 1 t = blockAt V c 1 t := by dsimp only [dat]
theorem after_out (c : Dev nD) (t : Fin cfg3.N) :
    (dat V c).after 2 t = normTile (blockAt V c 0 t) (blockAt V c 1 t) := by dsimp only [dat]

theorem before_logits (c : Dev nD) (t : Fin cfg3.N) (d) : (dat V c).before 0 t d = blockAt V c 0 t :=
  logits_staged V (dat V c) (dat_A V c 0) (after_logits V c) t d
theorem before_column (c : Dev nD) (t : Fin cfg3.N) (d) : (dat V c).before 1 t d = blockAt V c 1 t :=
  column_staged V (dat V c) (dat_A V c 1) (after_column V c) t d

/-- What the body is entered with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns with. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

theorem body_at_point (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_logits, before_column]
  rw [show (dat V c).Φ t.succ = (dat V c).Φ t.castSucc from rfl,
    show (dat V c).owesAt () t.succ = (dat V c).owesAt () t.castSucc from rfl,
    after_logits, after_column, after_out]
  iintro ⟨HΦ, Ho, ⟨%d0, H0⟩, ⟨%d1, H1⟩, ⟨%d2, H2⟩⟩
  iapply (body_runs c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation (c : Dev nD) :
    BodyObligation (dat (F := F) V c) (defs₀ (F := F)) Variants.none () Set.univ := fun t => by
  rw [bigSep_W3, bigSep_W3]
  exact body_at_point V c t

end Cert.KernelIdeal.Norm

end
-- ==== Proof.KernelIdealEmbBase.lean ====
/-
  The first kernel region: emb = input · We + be, accumulated block by block along the contracted axis.

  The grid is 8 row blocks by 8 blocks of the contracted axis, the latter innermost. A grid point's body adds the
  product of a [512, 512] tile of the input (rounded to bf16) and a [512, 2048] tile of the weights into a
  [512, 2048] f32 accumulator that lives in a scratch buffer carried from point to point. At the first point of a
  run along the contracted axis the accumulator is zeroed before the addition; at the last point of the run the
  accumulator plus the bias row, rounded to bf16, is stored over the whole output tile. At every other point the
  output tile is left as found, and the pipeline does not write it back there.

  This module holds what the three control cases share: the blocks, the rectangles, the contents each store
  leaves in closed form, and the two branch conditions decided over the grid.
-/
import proofs.«125352_j18708877541498_2_alg».proof.Proof.Gen.KernelIdeal.Points
import proofs.«125352_j18708877541498_2_alg».proof.Proof.Gen.KernelIdeal.Skeleton
import proofs.«125352_j18708877541498_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The condition of the first conditional (the accumulator is zeroed), from the grid coordinates. -/
abbrev condFirst (i : grid0.Coords) : Prop :=
  (Scalar.cmpi .ne (Scalar.extui (Scalar.cmpi .eq (BitVec.ofNat 32 (i 1).val) 0#32)) 0#32) = 1#1
/-- It holds at the first point of each run of 8 along the contracted axis. -/
theorem condFirst_iff : ∀ t : Fin cfg0.N, condFirst (grid0.coords t) ↔ t.val % 8 = 0 :=
  (by decide +kernel : ∀ t : Fin grid0.N, condFirst (grid0.coords t) ↔ t.val % 8 = 0)

/-- The condition of the second conditional (the output tile is stored). -/
abbrev condLast (i : grid0.Coords) : Prop := k0_cond2 i = 1#1
/-- It holds at the last point of each run. -/
theorem condLast_iff : ∀ t : Fin cfg0.N, condLast (grid0.coords t) ↔ t.val % 8 = 7 :=
  (by decide +kernel : ∀ t : Fin grid0.N, condLast (grid0.coords t) ↔ t.val % 8 = 7)

/-! ## Where the windows are idle -/

theorem live_x : ∀ t : Fin cfg0.N, cfg0.idle 0 (grid0.coords t) = false := by decide +kernel
theorem live_w : ∀ t : Fin cfg0.N, cfg0.idle 1 (grid0.coords t) = false := by decide +kernel
theorem live_b : ∀ t : Fin cfg0.N, cfg0.idle 2 (grid0.coords t) = false := by decide +kernel
/-- Off the last point of a run the output window is idle and is not written back. -/
theorem idle_out : ∀ t : Fin cfg0.N, ¬condLast (grid0.coords t) → cfg0.idle 3 (grid0.coords t) = true := by decide +kernel
theorem noFlush_out : ∀ t : Fin cfg0.N, ¬condLast (grid0.coords t) → (cfg0.win 3).flush t = false := by decide +kernel
/-- At the last point of a run it is live. -/
theorem live_out : ∀ t : Fin cfg0.N, condLast (grid0.coords t) → cfg0.idle 3 (grid0.coords t) = false := by decide +kernel

/-! ## The rectangles and what the stores leave -/

/-- The whole input tile, the whole [512, 2048] tile (weights, accumulator, output) and the whole bias row. -/
abbrev xRect : Rect S512x512 := Rect.unit (s := S512x512) ![0, 0] S512x512.size inb_S512x512_S512x512_0_0
abbrev tRect : Rect S512x2048 := Rect.unit (s := S512x2048) ![0, 0] S512x2048.size inb_S512x2048_S512x2048_0_0
abbrev bRect : Rect S1x2048 := Rect.unit (s := S1x2048) ![0, 0] S1x2048.size inb_S1x2048_S1x2048_0_0

/-- The accumulator after the zeroing store. -/
def accZero : Vec F S512x2048 .f32 := View.canon [⟨tRect, k0_pay1 (F := F)⟩]

/-- The accumulator after the accumulating store: what it held plus the product of the two tiles. -/
def accStep (x : Vec F S512x512 .f32) (a : Vec F S512x2048 .f32) (w : Vec F S512x2048 .bf16) : Vec F S512x2048 .f32 :=
  View.canon [⟨tRect, k0_pay2 (View.ld x xRect) (View.ld a tRect) (View.ld w tRect)⟩]

/-- The output tile after its store: the accumulator plus the bias row, rounded. -/
def outTile (a : Vec F S512x2048 .f32) (b : Vec F S1x2048 .f32) : Vec F S512x2048 .bf16 :=
  View.canon [⟨tRect, k0_pay3 (View.ld a tRect) (View.ld b bRect)⟩]

/-- One store over the whole tile covers it, -/
theorem tile_covered {e : EltTy} (p : Vec F S512x2048 e) (y : S512x2048.Idx) :
    ∃ pc ∈ ([⟨tRect, p⟩] : List (View.Piece (Elt F) S512x2048 e)), y ∈ pc.1.set :=
  View.cover_of_tiled [⟨tRect, p⟩] S512x2048.size (by rfl) y

/-- and so do two. -/
theorem tile_covered₂ {e : EltTy} (p q : Vec F S512x2048 e) (y : S512x2048.Idx) :
    ∃ pc ∈ ([⟨tRect, p⟩, ⟨tRect, q⟩] : List (View.Piece (Elt F) S512x2048 e)), y ∈ pc.1.set := by
  obtain ⟨pc, hm, hy⟩ := tile_covered p y
  exact ⟨pc, List.mem_cons.mpr (Or.inl (List.mem_singleton.mp hm)), hy⟩

/-- A store over the whole tile hides every earlier one. -/
theorem canon_whole_cons {e : EltTy} (p : Vec F S512x2048 e) (L : List (View.Piece (Elt F) S512x2048 e)) :
    View.canon (⟨tRect, p⟩ :: L) = View.canon [⟨tRect, p⟩] := by
  funext y
  obtain ⟨pc, hm, hy⟩ := tile_covered p y
  simp only [List.mem_cons, List.mem_nil_iff, or_false] at hm
  subst hm
  obtain ⟨x, rfl⟩ : ∃ x, (tRect).emb x = y := (tRect).exists_idx_of_mem hy
  rw [View.canon_cons_emb, View.canon_cons_emb]

end Cert.KernelIdeal.Emb

end
-- ==== Proof.KernelIdealEmbFirst.lean ====
/-
  The first kernel region, the first point of a run along the contracted axis: the first conditional is taken, the
  second is not. The accumulator, whatever the scratch buffer held, is zeroed and then receives the product of the
  two tiles; the bias row and the output tile are left as found.
-/
import proofs.«125352_j18708877541498_2_alg».proof.Proof.KernelIdealEmbBase

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on whole buffers at a point where only the first conditional is taken: the input tile at `x`, the
    weights tile at `w`, the bias row at `b`, the output tile at `o`, the accumulator at anything; it returns with
    all as they were but the accumulator, which is at `accStep x accZero w`. -/
theorem body_runs_first (c : Dev nD) (E : Set ℕ) (i : grid0.Coords)
    (arg2 : Memref sig .tc .vmem S512x512 .f32) (harg2 : arg2.IsWhole)
    (arg3 : Memref sig .tc .vmem S512x2048 .bf16) (harg3 : arg3.IsWhole)
    (arg4 : Memref sig .tc .vmem S1x2048 .f32) (harg4 : arg4.IsWhole)
    (arg5 : Memref sig .tc .vmem S512x2048 .bf16) (harg5 : arg5.IsWhole)
    (arg6 : Memref sig .tc .vmem S512x2048 .f32) (harg6 : arg6.IsWhole)
    (hc0 : condFirst i) (hc1 : ¬condLast i)
    (x : Vec F S512x512 .f32) (w : Vec F S512x2048 .bf16) (b : Vec F S1x2048 .f32) (o : Vec F S512x2048 .bf16)
    (K : PUnit → sProp 𝕄) :
    iprop(owns (c : Thread nD τ) arg2 fullShare x ∗ owns (c : Thread nD τ) arg3 fullShare w
        ∗ owns (c : Thread nD τ) arg4 fullShare b ∗ owns (c : Thread nD τ) arg5 fullShare o
        ∗ (∃ d, owns (c : Thread nD τ) arg6 fullShare d)
        ∗ (iprop(owns (c : Thread nD τ) arg2 fullShare x ∗ owns (c : Thread nD τ) arg3 fullShare w
            ∗ owns (c : Thread nD τ) arg4 fullShare b ∗ owns (c : Thread nD τ) arg5 fullShare o
            ∗ owns (c : Thread nD τ) arg6 fullShare (accStep x (accZero (F := F)) w)) -∗ K ⟨⟩))
      ⊢ wp frame (wpE (defs₀ (F := F)) Variants.none c none) E
          (cc0__emb_kernel i arg2 harg2 arg3 harg3 arg4 harg4 arg5 harg5 arg6 harg6) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (tile_covered₂ _ _)).trans ?_
  rw [canon_whole_cons]
  unfold accStep accZero body_runs_first.sl.v5 body_runs_first.sl.H4_1
  rw [View.readCov_eq_canon_ld _ _ _ (tile_covered _)]
  rfl

end Cert.KernelIdeal.Emb

end
-- ==== Proof.KernelIdealEmbMid.lean ====
/-
  The first kernel region, a middle point of a run along the contracted axis: neither conditional is taken. The
  accumulator, carried in the scratch buffer from the point before, receives the product of the two tiles; the
  bias row and the output tile are left as found.
-/
import proofs.«125352_j18708877541498_2_alg».proof.Proof.KernelIdealEmbBase

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on whole buffers at a point where neither conditional is taken: the input tile at `x`, the weights
    tile at `w`, the bias row at `b`, the output tile at `o`, the accumulator at `a`; it returns with all as they
    were but the accumulator, which is at `accStep x a w`. -/
theorem body_runs_mid (c : Dev nD) (E : Set ℕ) (i : grid0.Coords)
    (arg2 : Memref sig .tc .vmem S512x512 .f32) (harg2 : arg2.IsWhole)
    (arg3 : Memref sig .tc .vmem S512x2048 .bf16) (harg3 : arg3.IsWhole)
    (arg4 : Memref sig .tc .vmem S1x2048 .f32) (harg4 : arg4.IsWhole)
    (arg5 : Memref sig .tc .vmem S512x2048 .bf16) (harg5 : arg5.IsWhole)
    (arg6 : Memref sig .tc .vmem S512x2048 .f32) (harg6 : arg6.IsWhole)
    (hc0 : ¬condFirst i) (hc1 : ¬condLast i)
    (x : Vec F S512x512 .f32) (w : Vec F S512x2048 .bf16) (b : Vec F S1x2048 .f32) (o : Vec F S512x2048 .bf16)
    (a : Vec F S512x2048 .f32) (K : PUnit → sProp 𝕄) :
    iprop(owns (c : Thread nD τ) arg2 fullShare x ∗ owns (c : Thread nD τ) arg3 fullShare w
        ∗ owns (c : Thread nD τ) arg4 fullShare b ∗ owns (c : Thread nD τ) arg5 fullShare o
        ∗ owns (c : Thread nD τ) arg6 fullShare a
        ∗ (iprop(owns (c : Thread nD τ) arg2 fullShare x ∗ owns (c : Thread nD τ) arg3 fullShare w
            ∗ owns (c : Thread nD τ) arg4 fullShare b ∗ owns (c : Thread nD τ) arg5 fullShare o
            ∗ owns (c : Thread nD τ) arg6 fullShare (accStep x a w)) -∗ K ⟨⟩))
      ⊢ wp frame (wpE (defs₀ (F := F)) Variants.none c none) E
          (cc0__emb_kernel i arg2 harg2 arg3 harg3 arg4 harg4 arg5 harg5 arg6 harg6) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_covered _)

end Cert.KernelIdeal.Emb

end
-- ==== Proof.KernelIdealEmbLast.lean ====
/-
  The first kernel region, the last point of a run along the contracted axis: the first conditional is not taken,
  the second is. The accumulator, carried in the scratch buffer from the point before, receives the product of the
  two tiles; then the accumulator plus the bias row, rounded, is stored over the whole output tile.
-/
import proofs.«125352_j18708877541498_2_alg».proof.Proof.KernelIdealEmbBase

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on whole buffers at a point where only the second conditional is taken: the input tile at `x`, the
    weights tile at `w`, the bias row at `b`, the output tile at anything, the accumulator at `a`; it returns with
    the inputs as they were, the accumulator at `accStep x a w` and the output tile at `outTile` of that and `b`. -/
theorem body_runs_last (c : Dev nD) (E : Set ℕ) (i : grid0.Coords)
    (arg2 : Memref sig .tc .vmem S512x512 .f32) (harg2 : arg2.IsWhole)
    (arg3 : Memref sig .tc .vmem S512x2048 .bf16) (harg3 : arg3.IsWhole)
    (arg4 : Memref sig .tc .vmem S1x2048 .f32) (harg4 : arg4.IsWhole)
    (arg5 : Memref sig .tc .vmem S512x2048 .bf16) (harg5 : arg5.IsWhole)
    (arg6 : Memref sig .tc .vmem S512x2048 .f32) (harg6 : arg6.IsWhole)
    (hc0 : ¬condFirst i) (hc1 : condLast i)
    (x : Vec F S512x512 .f32) (w : Vec F S512x2048 .bf16) (b : Vec F S1x2048 .f32)
    (a : Vec F S512x2048 .f32) (K : PUnit → sProp 𝕄) :
    iprop(owns (c : Thread nD τ) arg2 fullShare x ∗ owns (c : Thread nD τ) arg3 fullShare w
        ∗ owns (c : Thread nD τ) arg4 fullShare b ∗ (∃ d, owns (c : Thread nD τ) arg5 fullShare d)
        ∗ owns (c : Thread nD τ) arg6 fullShare a
        ∗ (iprop(owns (c : Thread nD τ) arg2 fullShare x ∗ owns (c : Thread nD τ) arg3 fullShare w
            ∗ owns (c : Thread nD τ) arg4 fullShare b
            ∗ owns (c : Thread nD τ) arg5 fullShare (outTile (accStep x a w) b)
            ∗ owns (c : Thread nD τ) arg6 fullShare (accStep x a w)) -∗ K ⟨⟩))
      ⊢ wp frame (wpE (defs₀ (F := F)) Variants.none c none) E
          (cc0__emb_kernel i arg2 harg2 arg3 harg3 arg4 harg4 arg5 harg5 arg6 harg6) K := by
  simp only [cc0__emb_kernel_eq_skeleton]; unfold cc0__emb_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (tile_covered _)).trans ?_
    unfold outTile accStep body_runs_last.sl.v16 body_runs_last.sl.H4_1
    rw [View.readCov_eq_canon_ld _ _ _ (tile_covered _)]
    rfl
  iexists _; isplitr
  swap; · iexact H4
  ipureintro
  exact View.read_writes_eq_canon _ _ _ (tile_covered _)

end Cert.KernelIdeal.Emb

end
-- ==== Proof.KernelIdealEmb.lean ====
/-
  The first kernel region: emb = input · We + be, accumulated block by block along the contracted axis — the region's
  proof data, its body obligation, and the invariant at the region's two ends.

  The accumulator lives in a scratch buffer the kernel carries from grid point to grid point, so the region's
  invariant names its contents: before the first point the plain invariant (the scratch at anything); after point
  `n` the scratch at `accAt n`, the running sum of the products of the tiles met since the last zeroing. The
  output tile's contents after a point are the rounding of that sum plus the bias row; they are consulted only at
  the last point of a run along the contracted axis, the only one where the tile is stored and written back.
-/
import proofs.«125352_j18708877541498_2_alg».proof.Proof.KernelIdealEmbFirst
import proofs.«125352_j18708877541498_2_alg».proof.Proof.KernelIdealEmbMid
import proofs.«125352_j18708877541498_2_alg».proof.Proof.KernelIdealEmbLast

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, cut out of its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The input tile is in its staging buffer at every point: an input window, never idle, never clipped, left in
    place by the body. -/
theorem x_staged {c : Dev nD} (dat : Dat τ (Elt F) Unit ℕ (UR sig nD τ) ℕ cfg0 c)
    (hA : dat.A 0 = V c (Pipeline.arrRef spec0 0)) (hafter : ∀ t, dat.after 0 t = blockAt V c 0 t)
    (t : Fin cfg0.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- So is the weights tile, -/
theorem w_staged {c : Dev nD} (dat : Dat τ (Elt F) Unit ℕ (UR sig nD τ) ℕ cfg0 c)
    (hA : dat.A 1 = V c (Pipeline.arrRef spec0 1)) (hafter : ∀ t, dat.after 1 t = blockAt V c 1 t)
    (t : Fin cfg0.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- and the bias row, which is fetched at the first point only. -/
theorem b_staged {c : Dev nD} (dat : Dat τ (Elt F) Unit ℕ (UR sig nD τ) ℕ cfg0 c)
    (hA : dat.A 2 = V c (Pipeline.arrRef spec0 2)) (hafter : ∀ t, dat.after 2 t = blockAt V c 2 t)
    (t : Fin cfg0.N) (d) : dat.before 2 t d = blockAt V c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)

/-! ## The accumulator, point by point -/

/-- The scratch buffer that holds the accumulator, as a memref. -/
abbrev accM : Memref sig .tc .vmem S512x2048 .f32 := Memref.whole cc0_scratch0

/-- What the accumulator holds after the body at position `n`: at the first point of a run along the contracted
    axis the product of that point's tiles added to zero, at any other the product added to what the point before
    left. -/
def accAt (c : Dev nD) : (n : ℕ) → n < cfg0.N → Vec F S512x2048 .f32
  | 0, hn => accStep (blockAt V c 0 ⟨0, hn⟩) (accZero (F := F)) (blockAt V c 1 ⟨0, hn⟩)
  | n + 1, hn =>
    if (n + 1) % 8 = 0 then accStep (blockAt V c 0 ⟨n + 1, hn⟩) (accZero (F := F)) (blockAt V c 1 ⟨n + 1, hn⟩)
    else accStep (blockAt V c 0 ⟨n + 1, hn⟩) (accAt c n (Nat.lt_of_succ_lt hn)) (blockAt V c 1 ⟨n + 1, hn⟩)

theorem accAt_first (c : Dev nD) (t : Fin cfg0.N) (h : t.val % 8 = 0) :
    accAt V c t.val t.isLt = accStep (blockAt V c 0 t) (accZero (F := F)) (blockAt V c 1 t) := by
  obtain ⟨n, hn⟩ := t
  cases n with
  | zero => rfl
  | succ n => exact (if_pos h).trans rfl

theorem accAt_next (c : Dev nD) (t : Fin cfg0.N) (h : ¬t.val % 8 = 0) :
    accAt V c t.val t.isLt
      = accStep (blockAt V c 0 t) (accAt V c (t.val - 1) (Nat.lt_of_le_of_lt (Nat.sub_le _ _) t.isLt)) (blockAt V c 1 t) := by
  obtain ⟨n, hn⟩ := t
  cases n with
  | zero => exact absurd (Nat.zero_mod _) h
  | succ n => exact (if_neg h).trans rfl

/-! ## The invariant -/

/-- The region's invariant before position `n`: before the first point the plain one; afterwards the accumulator at
    what the point before left, the other scoped buffers at anything, the generator register at some state. -/
def PhiS (c : Dev nD) : (n : ℕ) → n ≤ cfg0.N → sProp 𝕄
  | 0, _ => Pipeline.ΦA spec0 c
  | n + 1, hn => iprop((owns (c : Thread nD τ) accM fullShare (accAt V c n hn) ∗ Pipeline.scopedRestBut (Ix := Unit) (Name := ℕ) (U := UR sig nD τ) (Lvl := ℕ) (Val := Elt F) spec0 c [cc0_scratch0]) ∗ (∃ r, prngReg c r))

theorem PhiS_succ (c : Dev nD) (n : ℕ) (hn : n < cfg0.N) :
    PhiS V c (n + 1) hn
      = iprop((owns (c : Thread nD τ) accM fullShare (accAt V c n hn) ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h
      = iprop((owns (c : Thread nD τ) accM fullShare (accAt V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The plain invariant with the accumulator's buffer taken out of the scoped rest. -/
theorem PhiA_eq (c : Dev nD) :
    (Pipeline.ΦA spec0 c : sProp 𝕄)
      = iprop(((∃ d, owns (c : Thread nD τ) accM fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [accM, owns_whole]; try rfl

/-- At any position the invariant gives the plain one: the accumulator's named contents are forgotten. -/
theorem PhiS_forget (c : Dev nD) (n : ℕ) (h : n ≤ cfg0.N) :
    PhiS V c n h ⊢ iprop(((∃ d, owns (c : Thread nD τ) accM fullShare d) ∗ Pipeline.scopedRestBut (Ix := Unit) (Name := ℕ) (U := UR sig nD τ) (Lvl := ℕ) (Val := Elt F) spec0 c [cc0_scratch0]) ∗ (∃ r, prngReg c r)) := by
  cases n with
  | zero => exact Entails.of_eq (PhiA_eq c)
  | succ n =>
    rw [PhiS_succ]
    iintro ⟨⟨HS, HR⟩, Hg⟩
    isplitl [HS HR]
    · isplitl [HS]
      · iexists _; iexact HS
      iexact HR
    iexact Hg

/-! ## The proof data -/

/-- The region's proof data on core `c`: the arrays as found; after a point's body the three inputs' buffers at their
    blocks and the output's at the rounding of the accumulator plus the bias row; the invariant `PhiS`; nothing owed;
    full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => outTile (accAt V c t.val t.isLt) (blockAt V c 2 t)
  Φ t := PhiS V c t.val (Nat.le_of_lt_succ t.isLt)
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blockAt V c 0 t := by dsimp only [dat]
theorem after_w (c : Dev nD) (t : Fin cfg0.N) : (dat V c).after 1 t = blockAt V c 1 t := by dsimp only [dat]
theorem after_b (c : Dev nD) (t : Fin cfg0.N) : (dat V c).after 2 t = blockAt V c 2 t := by dsimp only [dat]
theorem after_out (c : Dev nD) (t : Fin cfg0.N) :
    (dat V c).after 3 t = outTile (accAt V c t.val t.isLt) (blockAt V c 2 t) := by dsimp only [dat]

theorem before_x (c : Dev nD) (t : Fin cfg0.N) (d) : (dat V c).before 0 t d = blockAt V c 0 t :=
  x_staged V (dat V c) (dat_A V c 0) (after_x V c) t d
theorem before_w (c : Dev nD) (t : Fin cfg0.N) (d) : (dat V c).before 1 t d = blockAt V c 1 t :=
  w_staged V (dat V c) (dat_A V c 1) (after_w V c) t d
theorem before_b (c : Dev nD) (t : Fin cfg0.N) (d) : (dat V c).before 2 t d = blockAt V c 2 t :=
  b_staged V (dat V c) (dat_A V c 2) (after_b V c) t d

theorem Phi_castSucc (c : Dev nD) (t : Fin cfg0.N) :
    (dat V c).Φ t.castSucc = PhiS V c t.val (Nat.le_of_lt t.isLt) := by
  dsimp only [dat]; simp only [Fin.coe_castSucc]

/-! ## The body obligation -/

/-- What the body is entered with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns with. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_x (c : Dev nD) (t : Fin cfg0.N) :
    (dat V c).leavesExact 0 t = owns (c : Thread nD τ) (st0_0 t) fullShare (blockAt V c 0 t) := by
  unfold Dat.leavesExact; rw [live_x t, after_x]
theorem leaves_w (c : Dev nD) (t : Fin cfg0.N) :
    (dat V c).leavesExact 1 t = owns (c : Thread nD τ) (st0_1 t) fullShare (blockAt V c 1 t) := by
  unfold Dat.leavesExact; rw [live_w t, after_w]
theorem leaves_b (c : Dev nD) (t : Fin cfg0.N) :
    (dat V c).leavesExact 2 t = owns (c : Thread nD τ) (st0_2 t) fullShare (blockAt V c 2 t) := by
  unfold Dat.leavesExact; rw [live_b t, after_b]
theorem leaves_out_idle (c : Dev nD) (t : Fin cfg0.N) (h : ¬t.val % 8 = 7) :
    (dat V c).leavesExact 3 t = iprop(∃ d, owns (c : Thread nD τ) (st0_3 t) fullShare ((dat V c).before 3 t d)) :=
  Dat.leavesExact_idle (dat V c) 3 t (idle_out t fun hc => h ((condLast_iff t).mp hc))
    (noFlush_out t fun hc => h ((condLast_iff t).mp hc))
theorem leaves_out_live (c : Dev nD) (t : Fin cfg0.N) (h : t.val % 8 = 7) :
    (dat V c).leavesExact 3 t
      = owns (c : Thread nD τ) (st0_3 t) fullShare (outTile (accAt V c t.val t.isLt) (blockAt V c 2 t)) := by
  unfold Dat.leavesExact; rw [live_out t ((condLast_iff t).mpr h), after_out]

set_option maxHeartbeats 4000000 in
/-- The body at any point, by the three control cases. -/
theorem body_at_point (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).owesAt () t.succ = (dat V c).owesAt () t.castSucc from rfl,
    show (dat V c).Φ t.succ = PhiS V c (t.val + 1) t.isLt from rfl, PhiS_succ,
    leaves_x, leaves_w, leaves_b, Phi_castSucc]
  have hN : t.val < 64 := lt_of_lt_of_eq t.isLt (show cfg0.N = 64 from N_0)
  by_cases h0 : t.val % 8 = 0
  · have h1 : ¬t.val % 8 = 7 := by omega
    rw [leaves_out_idle V c t h1, accAt_first V c t h0]
    iintro ⟨HP, Ho, ⟨%d0, H0⟩, ⟨%d1, H1⟩, ⟨%d2, H2⟩, ⟨%d3, H3⟩⟩
    ihave HQ := (PhiS_forget V c t.val (Nat.le_of_lt t.isLt)) $$ HP
    icases HQ with ⟨⟨⟨%ds, HS⟩, HR⟩, Hg⟩
    iapply (body_runs_first c Set.univ (grid0.coords t) _ _ _ _ _ _ _ _ _ _ ((condFirst_iff t).mpr h0)
      (fun hc => h1 ((condLast_iff t).mp hc)) (blockAt V c 0 t) (blockAt V c 1 t) (blockAt V c 2 t) _ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · have hz : t.val ≠ 0 := fun h => h0 (by rw [h])
    rw [PhiS_pos V c _ _ hz, accAt_next V c t h0]
    by_cases h1 : t.val % 8 = 7
    · rw [leaves_out_live V c t h1, accAt_next V c t h0]
      iintro ⟨⟨⟨HS, HR⟩, Hg⟩, Ho, ⟨%d0, H0⟩, ⟨%d1, H1⟩, ⟨%d2, H2⟩, ⟨%d3, H3⟩⟩
      iapply (body_runs_last c Set.univ (grid0.coords t) _ _ _ _ _ _ _ _ _ _ (fun hc => h0 ((condFirst_iff t).mp hc))
        ((condLast_iff t).mpr h1) (blockAt V c 0 t) (blockAt V c 1 t) (blockAt V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [leaves_out_idle V c t h1]
      iintro ⟨⟨⟨HS, HR⟩, Hg⟩, Ho, ⟨%d0, H0⟩, ⟨%d1, H1⟩, ⟨%d2, H2⟩, ⟨%d3, H3⟩⟩
      iapply (body_runs_mid c Set.univ (grid0.coords t) _ _ _ _ _ _ _ _ _ _ (fun hc => h0 ((condFirst_iff t).mp hc))
        (fun hc => h1 ((condLast_iff t).mp hc)) (blockAt V c 0 t) (blockAt V c 1 t) (blockAt V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation of the region, at every point. -/
theorem body_obligation (c : Dev nD) :
    BodyObligation (dat (F := F) V c) (defs₀ (F := F)) Variants.none () Set.univ := fun t => by
  rw [bigSep_W0, bigSep_W0]
  exact body_at_point V c t

/-! ## The invariant at the region's two ends -/

/-- What the launch hands the region is the invariant before the first point. -/
theorem phi_in (c : Dev nD) : Pipeline.ΦA spec0 c ⊢ (dat V c).Φ 0 := by
  exact Entails.of_eq (show Pipeline.ΦA spec0 c = (dat V c).Φ 0 from rfl)

/-- After the last point the invariant gives the plain one back. -/
theorem phi_out (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiA_eq]
  exact PhiS_forget V c _ _

end Cert.KernelIdeal.Emb

end
-- ==== Proof.KernelIdealHeadDefs.lean ====
/-
  The head region, shared definitions: what one grid point computes from its three input blocks and the two carried
  columns, as functions of whole blocks; the two branch conditions of the body in closed form over the grid.

  A grid point (i, j) takes the [1024, 2048] block of hidden rows, the [2048, 1280] tile of head weights and the
  [1, 1280] tile of the bias row, and forms the [1024, 1280] logits tile (matrix product plus the bias row broadcast
  along the rows). Beside the tile it keeps, per row, a running maximum and a running sum of exponentials over the
  column tiles seen so far in two [1024, 1] columns that survive from one point to the next: at the first column
  tile they are reset to -infinity and 0, at every tile they are updated, and at the last column tile the rows'
  log-sum-exp (maximum plus logarithm of the sum) is stored.
-/
import proofs.«125352_j18708877541498_2_alg».proof.Proof.Gen.KernelIdeal.Points
import proofs.«125352_j18708877541498_2_alg».proof.Proof.Gen.KernelIdeal.Skeleton
import proofs.«125352_j18708877541498_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles through which the body loads and stores. -/
abbrev rH : Rect S1024x2048 := Rect.unit (s := S1024x2048) ![0, 0] S1024x2048.size inb_S1024x2048_S1024x2048_0_0
abbrev rW : Rect S2048x1280 := Rect.unit (s := S2048x1280) ![0, 0] S2048x1280.size inb_S2048x1280_S2048x1280_0_0
abbrev rB : Rect S1x1280 := Rect.unit (s := S1x1280) ![0, 0] S1x1280.size inb_S1x1280_S1x1280_0_0
abbrev rT : Rect S1024x1280 := Rect.unit (s := S1024x1280) ![0, 0] S1024x1280.size inb_S1024x1280_S1024x1280_0_0
abbrev rC : Rect S1024x1 := Rect.unit (s := S1024x1) ![0, 0] S1024x1.size inb_S1024x1_S1024x1_0_0

/-- The logits tile of a point: hidden block times weight tile, plus the bias tile along the rows. -/
def tileOf (x0 : Vec F S1024x2048 .bf16) (x1 : Vec F S2048x1280 .bf16) (x2 : Vec F S1x1280 .f32) : Vec F S1024x1280 .f32 :=
  k2_pay5 (View.ld x0 rH) (View.ld x1 rW) (View.ld x2 rB)

/-- The rows' running maximum after the point, from the running maximum `m` before it. -/
def maxOf (x0 : Vec F S1024x2048 .bf16) (x1 : Vec F S2048x1280 .bf16) (x2 : Vec F S1x1280 .f32)
    (m : Vec F S1024x1 .f32) : Vec F S1024x1 .f32 :=
  k2_pay1 (k2_pay6 (View.ld x0 rH) (View.ld x1 rW) (View.ld x2 rB) m)

/-- The rows' running sum of exponentials after the point, from the running maximum `m` and sum `l` before it. -/
def sumOf (x0 : Vec F S1024x2048 .bf16) (x1 : Vec F S2048x1280 .bf16) (x2 : Vec F S1x1280 .f32)
    (m l : Vec F S1024x1 .f32) : Vec F S1024x1 .f32 :=
  k2_pay7 (View.ld x0 rH) (View.ld x1 rW) (View.ld x2 rB) m m l

/-- The rows' log-sum-exp from a running maximum and sum. -/
def lseOf (m l : Vec F S1024x1 .f32) : Vec F S1024x1 .f32 := k2_pay2 m l

/-- The columns a first column tile starts from: -infinity and 0. -/
def maxInit : Vec F S1024x1 .f32 := k2_pay3 (F := F)
def sumInit : Vec F S1024x1 .f32 := k2_pay4 (F := F)

/-- The body's first branch condition (reset the two columns), from the grid coordinates. -/
abbrev cond1 (i : grid2.Coords) : Prop :=
  (Scalar.cmpi .ne (Scalar.extui (Scalar.cmpi .eq (BitVec.ofNat 32 (i 1).val) 0#32)) 0#32) = 1#1
/-- It holds at the first column tile of each row block. -/
theorem hcond1 : ∀ t : Fin cfg2.N, cond1 (grid2.coords t) ↔ t.val % 25 = 0 :=
  (by decide +kernel : ∀ t : Fin grid2.N, cond1 (grid2.coords t) ↔ t.val % 25 = 0)

/-- The body's second branch condition (store the log-sum-exp). -/
abbrev cond2 (i : grid2.Coords) : Prop := k2_cond2 i = 1#1
/-- It holds at the last column tile of each row block. -/
theorem hcond2 : ∀ t : Fin cfg2.N, cond2 (grid2.coords t) ↔ t.val % 25 = 24 :=
  (by decide +kernel : ∀ t : Fin grid2.N, cond2 (grid2.coords t) ↔ t.val % 25 = 24)

/-- The inputs and the logits tile are never idle; the log-sum-exp column is idle, and not written back, off the
    last column tile, and live at it. -/
theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem idle4 : ∀ t : Fin cfg2.N, ¬cond2 (grid2.coords t) → cfg2.idle 4 (grid2.coords t) = true := by decide +kernel
theorem noFlush4 : ∀ t : Fin cfg2.N, ¬cond2 (grid2.coords t) → (cfg2.win 4).flush t = false := by decide +kernel
theorem live4 : ∀ t : Fin cfg2.N, cond2 (grid2.coords t) → cfg2.idle 4 (grid2.coords t) = false := by decide +kernel

/-- The two carried columns as whole memrefs. -/
abbrev scM : Memref sig .tc .vmem S1024x1 .f32 := Memref.whole cc2_scratch0
abbrev scL : Memref sig .tc .vmem S1024x1 .f32 := Memref.whole cc2_scratch1

/-- Zero offsets, however spelt. -/
theorem hz : (![0, 0] : Fin 2 → Nat) = fun _ => 0 := funext fun a => by fin_cases a <;> rfl

/-- One whole-block store covers its block. -/
theorem tile_covered (p : Vec F S1024x1280 .f32) (y : S1024x1280.Idx) :
    ∃ pc ∈ ([⟨rT, p⟩] : List (View.Piece (Elt F) S1024x1280 .f32)), y ∈ pc.1.set :=
  ⟨_, List.mem_singleton_self _, View.mem_set_unit_zero hz inb_S1024x1280_S1024x1280_0_0 y⟩

/-- A list of whole-column stores covers the column. -/
theorem col_covered (p : Vec F S1024x1 .f32) (L : List (View.Piece (Elt F) S1024x1 .f32)) (y : S1024x1.Idx) :
    ∃ pc ∈ ((⟨rC, p⟩ : View.Piece (Elt F) S1024x1 .f32) :: L), y ∈ pc.1.set :=
  ⟨_, List.mem_cons_self, View.mem_set_unit_zero hz inb_S1024x1_S1024x1_0_0 y⟩

end Cert.KernelIdeal.Head

end
-- ==== Proof.KernelIdealHeadRunA.lean ====
/-
  The head region's body at the first column tile of a row block: the reset branch taken, the final one not.
-/
import proofs.«125352_j18708877541498_2_alg».proof.Proof.KernelIdealHeadDefs

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first column tile of a row block, on whole buffers — the three inputs at `x0`, `x1`, `x2`, the logits
    tile and the two carried columns at anything, the log-sum-exp column at `xi` (untouched) — the body resets the
    carried columns and returns with the inputs as they were, the logits tile computed, and the carried columns
    updated from their reset values. -/
theorem run_first (c : Dev nD) (E : Set ℕ) (i : grid2.Coords)
    (arg2 : Memref sig .tc .vmem S1024x2048 .bf16) (harg2 : arg2.IsWhole)
    (arg3 : Memref sig .tc .vmem S2048x1280 .bf16) (harg3 : arg3.IsWhole)
    (arg4 : Memref sig .tc .vmem S1x1280 .f32) (harg4 : arg4.IsWhole)
    (arg5 : Memref sig .tc .vmem S1024x1280 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole)
    (hc1 : cond1 i) (hc2 : ¬cond2 i)
    (x0 : Vec F S1024x2048 .bf16) (x1 : Vec F S2048x1280 .bf16) (x2 : Vec F S1x1280 .f32)
    (xi : Vec F S1024x1 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d)
        ∗ owns (c : Thread nD τ) arg6 fullShare xi
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (tileOf x0 x1 x2)
            ∗ owns (c : Thread nD τ) arg6 fullShare xi
            ∗ owns (c : Thread nD τ) arg7 fullShare (maxOf x0 x1 x2 maxInit)
            ∗ owns (c : Thread nD τ) arg8 fullShare (sumOf x0 x1 x2 maxInit sumInit)) -∗ K ⟨⟩))
      ⊢ wp frame (wpE (defs₀ (F := F)) Variants.none c none) E (cc2__out_kernel i arg2 harg2 arg3 harg3 arg4 harg4 arg5 harg5 arg6 harg6 arg7 harg7 arg8 harg8) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%d6, %f6, -, H6⟩, Hk⟩
  subst hf0; subst hf1; subst hf2; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (tile_covered _)).trans (View.canon_unit_zero hz _ _)
  isplitl [H4]
  · iexists f4; isplitr; · ipureintro; rfl
    iexact H4
  isplitl [H5]
  · iexists _; isplitr
    swap; · iexact H5
    ipureintro
    refine (View.read_writes_eq_canon _ _ _ (col_covered _ _)).trans ((View.canon_cons_unit_zero hz _ _ _).trans ?_)
    (try sl_unfold_words)
    simp only [maxOf, sumOf, lseOf, maxInit, sumInit, View.readCov_cons_toLoadRect, View.readAt_eq_ld, View.ld_unit_zero (S := S1024x1) hz]
  iexists _; isplitr
  swap; · iexact H6
  ipureintro
  refine (View.read_writes_eq_canon _ _ _ (col_covered _ _)).trans ((View.canon_cons_unit_zero hz _ _ _).trans ?_)
  (try sl_unfold_words)
  simp only [maxOf, sumOf, lseOf, maxInit, sumInit, View.readCov_cons_toLoadRect, View.readAt_eq_ld, View.ld_unit_zero (S := S1024x1) hz]

end Cert.KernelIdeal.Head

end
-- ==== Proof.KernelIdealHeadRunB.lean ====
/-
  The head region's body at a middle column tile: neither branch taken.
-/
import proofs.«125352_j18708877541498_2_alg».proof.Proof.KernelIdealHeadDefs

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a column tile that is neither the first nor the last of its row block, on whole buffers — the three inputs at
    `x0`, `x1`, `x2`, the logits tile at anything, the log-sum-exp column at `xi` (untouched), the two carried
    columns at `m` and `l` — the body returns with the inputs as they were, the logits tile computed, and the carried
    columns updated. -/
theorem run_mid (c : Dev nD) (E : Set ℕ) (i : grid2.Coords)
    (arg2 : Memref sig .tc .vmem S1024x2048 .bf16) (harg2 : arg2.IsWhole)
    (arg3 : Memref sig .tc .vmem S2048x1280 .bf16) (harg3 : arg3.IsWhole)
    (arg4 : Memref sig .tc .vmem S1x1280 .f32) (harg4 : arg4.IsWhole)
    (arg5 : Memref sig .tc .vmem S1024x1280 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole)
    (hc1 : ¬cond1 i) (hc2 : ¬cond2 i)
    (x0 : Vec F S1024x2048 .bf16) (x1 : Vec F S2048x1280 .bf16) (x2 : Vec F S1x1280 .f32)
    (xi m l : Vec F S1024x1 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d)
        ∗ owns (c : Thread nD τ) arg6 fullShare xi
        ∗ owns (c : Thread nD τ) arg7 fullShare m ∗ owns (c : Thread nD τ) arg8 fullShare l
        ∗ (iprop(owns (c : Thread nD τ) arg2 fullShare x0 ∗ owns (c : Thread nD τ) arg3 fullShare x1
            ∗ owns (c : Thread nD τ) arg4 fullShare x2
            ∗ owns (c : Thread nD τ) arg5 fullShare (tileOf x0 x1 x2)
            ∗ owns (c : Thread nD τ) arg6 fullShare xi
            ∗ owns (c : Thread nD τ) arg7 fullShare (maxOf x0 x1 x2 m)
            ∗ owns (c : Thread nD τ) arg8 fullShare (sumOf x0 x1 x2 m l)) -∗ K ⟨⟩))
      ⊢ wp frame (wpE (defs₀ (F := F)) Variants.none c none) E (cc2__out_kernel i arg2 harg2 arg3 harg3 arg4 harg4 arg5 harg5 arg6 harg6 arg7 harg7 arg8 harg8) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
  subst hf0; subst hf1; subst hf2; subst hf4; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (tile_covered _)).trans (View.canon_unit_zero hz _ _)
  isplitl [H4]
  · iexists f4; isplitr; · ipureintro; rfl
    iexact H4
  isplitl [H5]
  · iexists _; isplitr
    swap; · iexact H5
    ipureintro
    refine (View.read_writes_eq_canon _ _ _ (col_covered _ _)).trans ((View.canon_cons_unit_zero hz _ _ _).trans ?_)
    (try sl_unfold_words)
    simp only [maxOf, sumOf, lseOf, maxInit, sumInit, View.readCov_cons_toLoadRect, View.readAt_eq_ld, View.ld_unit_zero (S := S1024x1) hz]
  iexists _; isplitr
  swap; · iexact H6
  ipureintro
  refine (View.read_writes_eq_canon _ _ _ (col_covered _ _)).trans ((View.canon_cons_unit_zero hz _ _ _).trans ?_)
  (try sl_unfold_words)
  simp only [maxOf, sumOf, lseOf, maxInit, sumInit, View.readCov_cons_toLoadRect, View.readAt_eq_ld, View.ld_unit_zero (S := S1024x1) hz]

end Cert.KernelIdeal.Head

end
-- ==== Proof.KernelIdealHeadRunC.lean ====
/-
  The head region's body at the last column tile of a row block: the reset branch not taken, the final one taken.
-/
import proofs.«125352_j18708877541498_2_alg».proof.Proof.KernelIdealHeadDefs

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last column tile of a row block, on whole buffers — the three inputs at `x0`, `x1`, `x2`, the logits
    tile and the log-sum-exp column at anything, the two carried columns at `m` and `l` — the body returns with
    the inputs as they were, the logits tile computed, the carried columns updated, and the log-sum-exp column
    computed from the updated columns. -/
theorem run_last (c : Dev nD) (E : Set ℕ) (i : grid2.Coords)
    (arg2 : Memref sig .tc .vmem S1024x2048 .bf16) (harg2 : arg2.IsWhole)
    (arg3 : Memref sig .tc .vmem S2048x1280 .bf16) (harg3 : arg3.IsWhole)
    (arg4 : Memref sig .tc .vmem S1x1280 .f32) (harg4 : arg4.IsWhole)
    (arg5 : Memref sig .tc .vmem S1024x1280 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole)
    (hc1 : ¬cond1 i) (hc2 : cond2 i)
    (x0 : Vec F S1024x2048 .bf16) (x1 : Vec F S2048x1280 .bf16) (x2 : Vec F S1x1280 .f32)
    (m l : Vec F S1024x1 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d)
        ∗ (∃ d, owns (c : Thread nD τ) arg6 fullShare d)
        ∗ owns (c : Thread nD τ) arg7 fullShare m ∗ owns (c : Thread nD τ) arg8 fullShare l
        ∗ (iprop(owns (c : Thread nD τ) arg2 fullShare x0 ∗ owns (c : Thread nD τ) arg3 fullShare x1
            ∗ owns (c : Thread nD τ) arg4 fullShare x2
            ∗ owns (c : Thread nD τ) arg5 fullShare (tileOf x0 x1 x2)
            ∗ owns (c : Thread nD τ) arg6 fullShare (lseOf (maxOf x0 x1 x2 m) (sumOf x0 x1 x2 m l))
            ∗ owns (c : Thread nD τ) arg7 fullShare (maxOf x0 x1 x2 m)
            ∗ owns (c : Thread nD τ) arg8 fullShare (sumOf x0 x1 x2 m l)) -∗ K ⟨⟩))
      ⊢ wp frame (wpE (defs₀ (F := F)) Variants.none c none) E (cc2__out_kernel i arg2 harg2 arg3 harg3 arg4 harg4 arg5 harg5 arg6 harg6 arg7 harg7 arg8 harg8) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf0; subst hf1; subst hf2; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (tile_covered _)).trans (View.canon_unit_zero hz _ _)
  isplitl [H4]
  · iexists _; isplitr
    swap; · iexact H4
    ipureintro
    refine (View.read_writes_eq_canon _ _ _ (col_covered _ _)).trans ((View.canon_cons_unit_zero hz _ _ _).trans ?_)
    (try sl_unfold_words)
    simp only [maxOf, sumOf, lseOf, maxInit, sumInit, View.readCov_cons_toLoadRect, View.readAt_eq_ld, View.ld_unit_zero (S := S1024x1) hz]
  isplitl [H5]
  · iexists _; isplitr
    swap; · iexact H5
    ipureintro
    refine (View.read_writes_eq_canon _ _ _ (col_covered _ _)).trans ((View.canon_cons_unit_zero hz _ _ _).trans ?_)
    (try sl_unfold_words)
    simp only [maxOf, sumOf, lseOf, maxInit, sumInit, View.readCov_cons_toLoadRect, View.readAt_eq_ld, View.ld_unit_zero (S := S1024x1) hz]
  iexists _; isplitr
  swap; · iexact H6
  ipureintro
  refine (View.read_writes_eq_canon _ _ _ (col_covered _ _)).trans ((View.canon_cons_unit_zero hz _ _ _).trans ?_)
  (try sl_unfold_words)
  simp only [maxOf, sumOf, lseOf, maxInit, sumInit, View.readCov_cons_toLoadRect, View.readAt_eq_ld, View.ld_unit_zero (S := S1024x1) hz]

end Cert.KernelIdeal.Head

end
-- ==== Proof.KernelIdealHead.lean ====
/-
  The head region: every [1024, 1280] tile of the logits, and the rows' log-sum-exp over all column tiles.

  The grid is 4 row blocks by 25 column tiles. A point's body forms its logits tile and stores it; beside it the
  body keeps, per row, a running maximum and a running sum of exponentials over the column tiles of the row block
  seen so far, in two columns that are carried from one point to the next: reset at the first column tile, updated
  at every tile, and turned into the rows' log-sum-exp at the last. So the region's invariant names what the two
  columns hold after each point (`carried`, by recursion on the point), the log-sum-exp column is idle except at
  the last column tile of each row block, and the body's triple is taken by cases on the point's column tile: first,
  middle, last.
-/
import proofs.«125352_j18708877541498_2_alg».proof.Proof.KernelIdealHeadRunA
import proofs.«125352_j18708877541498_2_alg».proof.Proof.KernelIdealHeadRunB
import proofs.«125352_j18708877541498_2_alg».proof.Proof.KernelIdealHeadRunC

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, cut out of its array as the region finds it. -/
def blockAt (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The three input blocks of a point at their own shapes: hidden rows, weight tile, bias tile. -/
def blk0 (c : Dev nD) (t : Fin cfg2.N) : Vec F S1024x2048 .bf16 := blockAt V c 0 t
def blk1 (c : Dev nD) (t : Fin cfg2.N) : Vec F S2048x1280 .bf16 := blockAt V c 1 t
def blk2 (c : Dev nD) (t : Fin cfg2.N) : Vec F S1x1280 .f32 := blockAt V c 2 t

/-- The hidden block is in its staging buffer at every point, fetched there or not: an input window, never idle, never
    clipped, left in place by the body. -/
theorem hidden_staged {c : Dev nD} (dat : Dat τ (Elt F) Unit ℕ (UR sig nD τ) ℕ cfg2 c)
    (hA : dat.A 0 = V c (Pipeline.arrRef spec2 0)) (hafter : ∀ t, dat.after 0 t = blockAt V c 0 t)
    (t : Fin cfg2.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- So is the weight tile, -/
theorem weights_staged {c : Dev nD} (dat : Dat τ (Elt F) Unit ℕ (UR sig nD τ) ℕ cfg2 c)
    (hA : dat.A 1 = V c (Pipeline.arrRef spec2 1)) (hafter : ∀ t, dat.after 1 t = blockAt V c 1 t)
    (t : Fin cfg2.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- and the bias tile. -/
theorem bias_staged {c : Dev nD} (dat : Dat τ (Elt F) Unit ℕ (UR sig nD τ) ℕ cfg2 c)
    (hA : dat.A 2 = V c (Pipeline.arrRef spec2 2)) (hafter : ∀ t, dat.after 2 t = blockAt V c 2 t)
    (t : Fin cfg2.N) (d) : dat.before 2 t d = blockAt V c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)

/-- One grid point's update of the carried pair (running maximum, running sum). -/
def step (x0 : Vec F S1024x2048 .bf16) (x1 : Vec F S2048x1280 .bf16) (x2 : Vec F S1x1280 .f32)
    (s : Vec F S1024x1 .f32 × Vec F S1024x1 .f32) : Vec F S1024x1 .f32 × Vec F S1024x1 .f32 :=
  (maxOf x0 x1 x2 s.1, sumOf x0 x1 x2 s.1 s.2)

/-- What the two carried columns hold after the body at position `n`: the point's update of what the point before
    left, or of the reset values at the first column tile of a row block. -/
def carried (c : Dev nD) : (n : ℕ) → n < cfg2.N → Vec F S1024x1 .f32 × Vec F S1024x1 .f32
  | 0, hn => step (blk0 V c ⟨0, hn⟩) (blk1 V c ⟨0, hn⟩) (blk2 V c ⟨0, hn⟩) (maxInit, sumInit)
  | n + 1, hn => step (blk0 V c ⟨n + 1, hn⟩) (blk1 V c ⟨n + 1, hn⟩) (blk2 V c ⟨n + 1, hn⟩)
      (if (n + 1) % 25 = 0 then (maxInit, sumInit) else carried c n (Nat.lt_of_succ_lt hn))

theorem carried_first (c : Dev nD) (t : Fin cfg2.N) (h : t.val % 25 = 0) :
    carried V c t.val t.isLt = step (blk0 V c t) (blk1 V c t) (blk2 V c t) (maxInit, sumInit) := by
  obtain ⟨n, hn⟩ := t
  cases n with
  | zero => rfl
  | succ n =>
    show step _ _ _ (if (n + 1) % 25 = 0 then _ else _) = _
    rw [if_pos h]

theorem carried_next (c : Dev nD) (t : Fin cfg2.N) (h : ¬t.val % 25 = 0) :
    carried V c t.val t.isLt = step (blk0 V c t) (blk1 V c t) (blk2 V c t)
      (carried V c (t.val - 1) (Nat.lt_of_le_of_lt (Nat.sub_le _ _) t.isLt)) := by
  obtain ⟨n, hn⟩ := t
  cases n with
  | zero => exact absurd (Nat.zero_mod _) h
  | succ n =>
    show step _ _ _ (if (n + 1) % 25 = 0 then _ else _) = _
    rw [if_neg h]; rfl

/-- The region's invariant with the two carried columns named: the scoped buffers other than the two columns, and
    the generator register, as the launch hands them over. -/
theorem PhiA_eq (c : Dev nD) :
    (Pipeline.ΦA spec2 c : sProp 𝕄)
      = iprop(iprop(iprop((∃ d, owns (c : Thread nD τ) scM fullShare d) ∗ (∃ d, owns (c : Thread nD τ) scL fullShare d))
          ∗ Pipeline.scopedRestBut spec2 c [cc2_scratch0, cc2_scratch1]) ∗ (∃ r, prngReg c r)) := by
  unfold Pipeline.ΦA; rw [scopedRest2_split]; simp only [scM, scL, owns_whole]; try rfl

/-- The invariant before position `n`: before the first point what the launch hands over; afterwards the same with the
    two carried columns at what the point before left. -/
def PhiS (c : Dev nD) : (n : ℕ) → n ≤ cfg2.N → sProp 𝕄
  | 0, _ => Pipeline.ΦA spec2 c
  | n + 1, hn => iprop(iprop(iprop(owns (c : Thread nD τ) scM fullShare (carried V c n hn).1 ∗ owns (c : Thread nD τ) scL fullShare (carried V c n hn).2)
      ∗ Pipeline.scopedRestBut spec2 c [cc2_scratch0, cc2_scratch1]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM fullShare (carried V c n hn).1 ∗ owns (c : Thread nD τ) scL fullShare (carried V c n hn).2)
      ∗ Pipeline.scopedRestBut spec2 c [cc2_scratch0, cc2_scratch1]) ∗ (∃ r, prngReg c r)) := rfl

theorem PhiS_pos (c : Dev nD) (n : ℕ) (h : n ≤ cfg2.N) (hz : n ≠ 0) :
    PhiS V c n h = iprop(iprop(iprop(owns (c : Thread nD τ) scM fullShare (carried V c (n - 1) (by omega)).1 ∗ owns (c : Thread nD τ) scL fullShare (carried V c (n - 1) (by omega)).2)
      ∗ Pipeline.scopedRestBut spec2 c [cc2_scratch0, cc2_scratch1]) ∗ (∃ r, prngReg c r)) := by
  cases n with
  | zero => exact absurd rfl hz
  | succ n => rfl

/-- The region's proof data on core `c`: the arrays as found; after a point's body the three inputs' buffers at their
    blocks, the logits tile computed from them, the log-sum-exp column from the carried pair after the point; the
    invariant `PhiS`; nothing owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => tileOf (blk0 V c t) (blk1 V c t) (blk2 V c t)
    | ⟨4, _⟩ => lseOf (carried V c t.val t.isLt).1 (carried V c t.val t.isLt).2
  Φ t := PhiS V c t.val (Nat.le_of_lt_succ t.isLt)
  q _ := fullShare
  owed _ := 0

theorem dat_A (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_hidden' (c : Dev nD) (t : Fin cfg2.N) : (dat V c).after 0 t = blockAt V c 0 t := by dsimp only [dat]
theorem after_weights' (c : Dev nD) (t : Fin cfg2.N) : (dat V c).after 1 t = blockAt V c 1 t := by dsimp only [dat]
theorem after_bias' (c : Dev nD) (t : Fin cfg2.N) : (dat V c).after 2 t = blockAt V c 2 t := by dsimp only [dat]
theorem after_hidden (c : Dev nD) (t : Fin cfg2.N) : (dat V c).after 0 t = blk0 V c t := after_hidden' V c t
theorem after_weights (c : Dev nD) (t : Fin cfg2.N) : (dat V c).after 1 t = blk1 V c t := after_weights' V c t
theorem after_bias (c : Dev nD) (t : Fin cfg2.N) : (dat V c).after 2 t = blk2 V c t := after_bias' V c t
theorem after_tile (c : Dev nD) (t : Fin cfg2.N) :
    (dat V c).after 3 t = tileOf (blk0 V c t) (blk1 V c t) (blk2 V c t) := by dsimp only [dat]
theorem after_lse (c : Dev nD) (t : Fin cfg2.N) :
    (dat V c).after 4 t = lseOf (carried V c t.val t.isLt).1 (carried V c t.val t.isLt).2 := by dsimp only [dat]

theorem before_hidden (c : Dev nD) (t : Fin cfg2.N) (d) : (dat V c).before 0 t d = blk0 V c t :=
  hidden_staged V (dat V c) (dat_A V c 0) (after_hidden' V c) t d
theorem before_weights (c : Dev nD) (t : Fin cfg2.N) (d) : (dat V c).before 1 t d = blk1 V c t :=
  weights_staged V (dat V c) (dat_A V c 1) (after_weights' V c) t d
theorem before_bias (c : Dev nD) (t : Fin cfg2.N) (d) : (dat V c).before 2 t d = blk2 V c t :=
  bias_staged V (dat V c) (dat_A V c 2) (after_bias' V c) t d

/-- What the body is entered with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- and what it returns with: the log-sum-exp column's buffer as it was found where the point is idle for it. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ (dat V c).leavesExact 4 t)

/-- Before any point the invariant gives the two carried columns at some contents. -/
theorem Phi_weak (c : Dev nD) (n : ℕ) (h : n ≤ cfg2.N) :
    PhiS V c n h ⊢ iprop(iprop(iprop((∃ d, owns (c : Thread nD τ) scM fullShare d) ∗ (∃ d, owns (c : Thread nD τ) scL fullShare d))
          ∗ Pipeline.scopedRestBut spec2 c [cc2_scratch0, cc2_scratch1]) ∗ (∃ r, prngReg c r)) := by
  by_cases hz : n = 0
  · rw [PhiS_zero V c n h hz, PhiA_eq]; try exact Idealize.SL.BI.Entails.refl _
  · rw [PhiS_pos V c n h hz]
    iintro ⟨⟨⟨HM, HL⟩, HR⟩, Hg⟩
    isplitl [HM HL HR]
    · isplitl [HM HL]
      · isplitl [HM]; · iexists _; iexact HM
        iexists _; iexact HL
      iexact HR
    iexact Hg

set_option maxHeartbeats 4000000 in
/-- The body at any point: the inputs' buffers hold their blocks; the point is the first, a middle or the last column
    tile of its row block, and that case's run applies; the invariant hands the body the carried columns at what
    the point before left (at anything at a first column tile, where they are reset) and takes them back at this
    point's contents. -/
theorem body_at_point (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_hidden, before_weights, before_bias]
  rw [show (dat V c).owesAt () t.succ = (dat V c).owesAt () t.castSucc from rfl,
    show (dat V c).Φ t.succ = PhiS V c (t.val + 1) t.isLt from rfl, PhiS_succ,
    after_hidden, after_weights, after_bias, after_tile, PhiS_castSucc V c t]
  have hN : t.val < 100 := lt_of_lt_of_eq t.isLt (show cfg2.N = 100 from N_2)
  by_cases h0 : t.val % 25 = 0
  · have h24 : ¬t.val % 25 = 24 := by omega
    have hc1 : cond1 (grid2.coords t) := (hcond1 t).mpr h0
    have hc2 : ¬cond2 (grid2.coords t) := fun h => h24 ((hcond2 t).mp h)
    rw [Dat.leavesExact_idle (dat V c) 4 t (idle4 t hc2) (noFlush4 t hc2), carried_first V c t h0]
    unfold step; dsimp only
    iintro ⟨HΦ, Ho, ⟨%d0, H0⟩, ⟨%d1, H1⟩, ⟨%d2, H2⟩, ⟨%d3, H3⟩, ⟨%d4, H4⟩⟩
    ihave HΦ' := (Phi_weak V c t.val (Nat.le_of_lt t.isLt)) $$ HΦ
    icases HΦ' with ⟨⟨⟨⟨%dm, HM⟩, ⟨%dl, HL⟩⟩, HR⟩, Hg⟩
    iapply (run_first c Set.univ (grid2.coords t) _ _ _ _ _ _ _ _ _ _ _ _ _ _ hc1 hc2 (blk0 V c t) (blk1 V c t) (blk2 V c t) ((dat V c).before 4 t d4) _)
    isplitl [H0]; · iexact H0
    isplitl [H1]; · iexact H1
    isplitl [H2]; · iexact H2
    isplitl [H3]; · iexists _; iexact H3
    isplitl [H4]; · iexact H4
    isplitl [HM]; · iexists _; iexact HM
    isplitl [HL]; · iexists _; iexact HL
    iintro ⟨H0, H1, H2, H3, H4, HM, HL⟩
    isplitl [HM HL HR Hg]
    · isplitl [HM HL HR]
      · isplitl [HM HL]
        · isplitl [HM]; · iexact HM
          iexact HL
        iexact HR
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc1 : ¬cond1 (grid2.coords t) := fun h => h0 ((hcond1 t).mp h)
    rw [PhiS_pos V c _ _ hz, carried_next V c t h0]
    unfold step; dsimp only
    by_cases h24 : t.val % 25 = 24
    · have hc2 : cond2 (grid2.coords t) := (hcond2 t).mpr h24
      rw [show (dat V c).leavesExact 4 t = owns (c : Thread nD τ) (st2_4 t) fullShare ((dat V c).after 4 t) from by
        unfold Dat.leavesExact; rw [live4 t hc2], after_lse, carried_next V c t h0]
      unfold step; dsimp only
      iintro ⟨⟨⟨⟨HM, HL⟩, HR⟩, Hg⟩, Ho, ⟨%d0, H0⟩, ⟨%d1, H1⟩, ⟨%d2, H2⟩, ⟨%d3, H3⟩, ⟨%d4, H4⟩⟩
      iapply (run_last c Set.univ (grid2.coords t) _ _ _ _ _ _ _ _ _ _ _ _ _ _ hc1 hc2 (blk0 V c t) (blk1 V c t) (blk2 V c t) _ _ _)
      isplitl [H0]; · iexact H0
      isplitl [H1]; · iexact H1
      isplitl [H2]; · iexact H2
      isplitl [H3]; · iexists _; iexact H3
      isplitl [H4]; · iexists _; iexact H4
      isplitl [HM]; · iexact HM
      isplitl [HL]; · iexact HL
      iintro ⟨H0, H1, H2, H3, H4, HM, HL⟩
      isplitl [HM HL HR Hg]
      · isplitl [HM HL HR]
        · isplitl [HM HL]
          · isplitl [HM]; · iexact HM
            iexact HL
          iexact HR
        iexact Hg
      isplitl [Ho]; · iexact Ho
      isplitl [H0]; · iexact H0
      isplitl [H1]; · iexact H1
      isplitl [H2]; · iexact H2
      isplitl [H3]; · iexact H3
      iexact H4
    · have hc2 : ¬cond2 (grid2.coords t) := fun h => h24 ((hcond2 t).mp h)
      rw [Dat.leavesExact_idle (dat V c) 4 t (idle4 t hc2) (noFlush4 t hc2)]
      iintro ⟨⟨⟨⟨HM, HL⟩, HR⟩, Hg⟩, Ho, ⟨%d0, H0⟩, ⟨%d1, H1⟩, ⟨%d2, H2⟩, ⟨%d3, H3⟩, ⟨%d4, H4⟩⟩
      iapply (run_mid c Set.univ (grid2.coords t) _ _ _ _ _ _ _ _ _ _ _ _ _ _ hc1 hc2 (blk0 V c t) (blk1 V c t) (blk2 V c t) ((dat V c).before 4 t d4) _ _ _)
      isplitl [H0]; · iexact H0
      isplitl [H1]; · iexact H1
      isplitl [H2]; · iexact H2
      isplitl [H3]; · iexists _; iexact H3
      isplitl [H4]; · iexact H4
      isplitl [HM]; · iexact HM
      isplitl [HL]; · iexact HL
      iintro ⟨H0, H1, H2, H3, H4, HM, HL⟩
      isplitl [HM HL HR Hg]
      · isplitl [HM HL HR]
        · isplitl [HM HL]
          · isplitl [HM]; · iexact HM
            iexact HL
          iexact HR
        iexact Hg
      isplitl [Ho]; · iexact Ho
      isplitl [H0]; · iexact H0
      isplitl [H1]; · iexact H1
      isplitl [H2]; · iexact H2
      isplitl [H3]; · iexact H3
      iexists _; iexact H4

/-- The body obligation of the region, at every point. -/
theorem body_obligation (c : Dev nD) :
    BodyObligation (dat (F := F) V c) (defs₀ (F := F)) Variants.none () Set.univ := fun t => by
  rw [bigSep_W2, bigSep_W2]
  exact body_at_point V c t

/-- What the launch hands the region is the invariant before the first point. -/
theorem phi_in (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives it back: what the carried columns hold is forgotten. -/
theorem phi_out (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl, PhiA_eq]
  exact Phi_weak V c _ _

end Cert.KernelIdeal.Head

end
-- ==== Proof.KernelIdealGatesBase.lean ====
/-
  The gates region: what its proofs share.

  A grid point (i, j, k) of the 8 × 4 × 4 grid adds, into four [512, 512] accumulators kept from point to point,
  the products of the k-th [512, 512] blocks of the embedding and hidden rows with the k-th blocks of the eight
  weight matrices; the accumulators are zeroed where k = 0, and where k = 3 the gate nonlinearities and the
  cell/hidden update are stored into the two output tiles. This module holds the two branch conditions in closed
  form over the grid, where the output windows are idle, the accumulator memrefs, the invariant the region is
  entered with restated over them, the input blocks, and one accumulation step per gate as a pure function.
-/
import proofs.«125352_j18708877541498_2_alg».proof.Proof.Gen.KernelIdeal.Points
import proofs.«125352_j18708877541498_2_alg».proof.Proof.Gen.KernelIdeal.Skeleton
import proofs.«125352_j18708877541498_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gates

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The condition under which the accumulators are zeroed (k = 0), from the grid coordinates. -/
abbrev cond1 (i : grid1.Coords) : Prop :=
  (Scalar.cmpi .ne (Scalar.extui (Scalar.cmpi .eq (BitVec.ofNat 32 (i 2).val) 0#32)) 0#32) = 1#1
/-- It holds at the points ≡ 0 (mod 4). -/
theorem hcond1 : ∀ t : Fin cfg1.N, cond1 (grid1.coords t) ↔ t.val % 4 = 0 :=
  (by decide +kernel : ∀ t : Fin grid1.N, cond1 (grid1.coords t) ↔ t.val % 4 = 0)

/-- The condition under which the outputs are stored (k = 3). -/
abbrev cond2 (i : grid1.Coords) : Prop := k1_cond2 i = 1#1
/-- It holds at the points ≡ 3 (mod 4). -/
theorem hcond2 : ∀ t : Fin cfg1.N, cond2 (grid1.coords t) ↔ t.val % 4 = 3 :=
  (by decide +kernel : ∀ t : Fin grid1.N, cond2 (grid1.coords t) ↔ t.val % 4 = 3)

/-! ## Where the output windows are idle -/

theorem idle15 : ∀ t : Fin cfg1.N, ¬cond2 (grid1.coords t) → cfg1.idle 15 (grid1.coords t) = true := by decide +kernel
theorem idle16 : ∀ t : Fin cfg1.N, ¬cond2 (grid1.coords t) → cfg1.idle 16 (grid1.coords t) = true := by decide +kernel
theorem noFlush15 : ∀ t : Fin cfg1.N, ¬cond2 (grid1.coords t) → (cfg1.win 15).flush t = false := by decide +kernel
theorem noFlush16 : ∀ t : Fin cfg1.N, ¬cond2 (grid1.coords t) → (cfg1.win 16).flush t = false := by decide +kernel
theorem live15 : ∀ t : Fin cfg1.N, cond2 (grid1.coords t) → cfg1.idle 15 (grid1.coords t) = false := by decide +kernel
theorem live16 : ∀ t : Fin cfg1.N, cond2 (grid1.coords t) → cfg1.idle 16 (grid1.coords t) = false := by decide +kernel

/-! ## The accumulators -/

/-- The four accumulators: whole scoped buffers of the kernel's own, passed beside the windows. -/
abbrev scM0 : Memref sig .tc .vmem S512x512 .f32 := Memref.whole cc1_scratch0
abbrev scM1 : Memref sig .tc .vmem S512x512 .f32 := Memref.whole cc1_scratch1
abbrev scM2 : Memref sig .tc .vmem S512x512 .f32 := Memref.whole cc1_scratch2
abbrev scM3 : Memref sig .tc .vmem S512x512 .f32 := Memref.whole cc1_scratch3

/-- The scoped buffers of the region other than its staging buffers and its four accumulators. -/
abbrev restBut (c : Dev nD) : sProp 𝕄 :=
  Pipeline.scopedRestBut (Ix := Unit) (Name := ℕ) (U := UR sig nD τ) (Lvl := ℕ) (Val := Elt F) spec1 c
    [cc1_scratch0, cc1_scratch1, cc1_scratch2, cc1_scratch3]

/-- What the region is entered with, the accumulators as memrefs owned at some contents. -/
theorem PhiA_eq (c : Dev nD) :
    (Pipeline.ΦA spec1 c : sProp 𝕄)
      = iprop(iprop(iprop((∃ d, owns (c : Thread nD τ) scM0 fullShare d) ∗ (∃ d, owns (c : Thread nD τ) scM1 fullShare d)
            ∗ (∃ d, owns (c : Thread nD τ) scM2 fullShare d) ∗ (∃ d, owns (c : Thread nD τ) scM3 fullShare d))
          ∗ restBut (F := F) c) ∗ (∃ r, prngReg c r)) := by
  unfold Pipeline.ΦA; rw [scopedRest1_split]; simp only [scM0, scM1, scM2, scM3, owns_whole]; try rfl

/-! ## The input blocks -/

-- the buffers' contents when the region is entered
variable (V : (c : Dev nD) → (b : Ref sig .tc) → Buf (Elt F) ((c : Thread nD τ).loc b))

/-- Window `w`'s block at grid point `t`, cut out of its array as the region finds it. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! Each input window's current staging buffer holds its block at every point, fetched there or not: an input
    window, never idle, never clipped, left in place by the body. -/
theorem staged0 {c : Dev nD} (dat : Dat τ (Elt F) Unit ℕ (UR sig nD τ) ℕ cfg1 c)
    (hA : dat.A 0 = V c (Pipeline.arrRef spec1 0)) (hafter : ∀ t, dat.after 0 t = blockAt V c 0 t)
    (t : Fin cfg1.N) (d) : dat.before 0 t d = blockAt V c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem staged1 {c : Dev nD} (dat : Dat τ (Elt F) Unit ℕ (UR sig nD τ) ℕ cfg1 c)
    (hA : dat.A 1 = V c (Pipeline.arrRef spec1 1)) (hafter : ∀ t, dat.after 1 t = blockAt V c 1 t)
    (t : Fin cfg1.N) (d) : dat.before 1 t d = blockAt V c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem staged2 {c : Dev nD} (dat : Dat τ (Elt F) Unit ℕ (UR sig nD τ) ℕ cfg1 c)
    (hA : dat.A 2 = V c (Pipeline.arrRef spec1 2)) (hafter : ∀ t, dat.after 2 t = blockAt V c 2 t)
    (t : Fin cfg1.N) (d) : dat.before 2 t d = blockAt V c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
theorem staged3 {c : Dev nD} (dat : Dat τ (Elt F) Unit ℕ (UR sig nD τ) ℕ cfg1 c)
    (hA : dat.A 3 = V c (Pipeline.arrRef spec1 3)) (hafter : ∀ t, dat.after 3 t = blockAt V c 3 t)
    (t : Fin cfg1.N) (d) : dat.before 3 t d = blockAt V c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)
theorem staged4 {c : Dev nD} (dat : Dat τ (Elt F) Unit ℕ (UR sig nD τ) ℕ cfg1 c)
    (hA : dat.A 4 = V c (Pipeline.arrRef spec1 4)) (hafter : ∀ t, dat.after 4 t = blockAt V c 4 t)
    (t : Fin cfg1.N) (d) : dat.before 4 t d = blockAt V c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)
theorem staged5 {c : Dev nD} (dat : Dat τ (Elt F) Unit ℕ (UR sig nD τ) ℕ cfg1 c)
    (hA : dat.A 5 = V c (Pipeline.arrRef spec1 5)) (hafter : ∀ t, dat.after 5 t = blockAt V c 5 t)
    (t : Fin cfg1.N) (d) : dat.before 5 t d = blockAt V c 5 t :=
  (dat.before_in_eq_fetched 5 rfl (fun _ => rfl) (fun _ _ _ => rfl)
    (fun t => by rw [hafter]; unfold Dat.blockOf blockAt; rw [hA]; try rfl) t d).trans
    (by unfold Dat.fetched Dat.blockOf blockAt; rw [hA]; try rfl)
theorem staged6 {c : Dev nD} (dat : Dat τ (Elt F) Unit ℕ (UR sig nD τ) ℕ cfg1 c)
    (hA : dat.A 6 = V c (Pipeline.arrRef spec1 6)) (hafter : ∀ t, dat.after 6 t = blockAt V c 6 t)
    (t : Fin cfg1.N) (d) : dat.before 6 t d = blockAt V c 6 t :=
  (dat.before_in_eq_fetched 6 rfl (fun _ => rfl) (fun _ _ _ => rfl)
    (fun t => by rw [hafter]; unfold Dat.blockOf blockAt; rw [hA]; try rfl) t d).trans
    (by unfold Dat.fetched Dat.blockOf blockAt; rw [hA]; try rfl)
theorem staged7 {c : Dev nD} (dat : Dat τ (Elt F) Unit ℕ (UR sig nD τ) ℕ cfg1 c)
    (hA : dat.A 7 = V c (Pipeline.arrRef spec1 7)) (hafter : ∀ t, dat.after 7 t = blockAt V c 7 t)
    (t : Fin cfg1.N) (d) : dat.before 7 t d = blockAt V c 7 t :=
  (dat.before_in_eq_fetched 7 rfl (fun _ => rfl) (fun _ _ _ => rfl)
    (fun t => by rw [hafter]; unfold Dat.blockOf blockAt; rw [hA]; try rfl) t d).trans
    (by unfold Dat.fetched Dat.blockOf blockAt; rw [hA]; try rfl)
theorem staged8 {c : Dev nD} (dat : Dat τ (Elt F) Unit ℕ (UR sig nD τ) ℕ cfg1 c)
    (hA : dat.A 8 = V c (Pipeline.arrRef spec1 8)) (hafter : ∀ t, dat.after 8 t = blockAt V c 8 t)
    (t : Fin cfg1.N) (d) : dat.before 8 t d = blockAt V c 8 t :=
  (dat.before_in_eq_fetched 8 rfl (fun _ => rfl) (fun _ _ _ => rfl)
    (fun t => by rw [hafter]; unfold Dat.blockOf blockAt; rw [hA]; try rfl) t d).trans
    (by unfold Dat.fetched Dat.blockOf blockAt; rw [hA]; try rfl)
theorem staged9 {c : Dev nD} (dat : Dat τ (Elt F) Unit ℕ (UR sig nD τ) ℕ cfg1 c)
    (hA : dat.A 9 = V c (Pipeline.arrRef spec1 9)) (hafter : ∀ t, dat.after 9 t = blockAt V c 9 t)
    (t : Fin cfg1.N) (d) : dat.before 9 t d = blockAt V c 9 t :=
  (dat.before_in_eq_fetched 9 rfl (fun _ => rfl) (fun _ _ _ => rfl)
    (fun t => by rw [hafter]; unfold Dat.blockOf blockAt; rw [hA]; try rfl) t d).trans
    (by unfold Dat.fetched Dat.blockOf blockAt; rw [hA]; try rfl)
theorem staged10 {c : Dev nD} (dat : Dat τ (Elt F) Unit ℕ (UR sig nD τ) ℕ cfg1 c)
    (hA : dat.A 10 = V c (Pipeline.arrRef spec1 10)) (hafter : ∀ t, dat.after 10 t = blockAt V c 10 t)
    (t : Fin cfg1.N) (d) : dat.before 10 t d = blockAt V c 10 t :=
  (dat.before_in_eq_fetched 10 rfl (fun _ => rfl) (fun _ _ _ => rfl)
    (fun t => by rw [hafter]; unfold Dat.blockOf blockAt; rw [hA]; try rfl) t d).trans
    (by unfold Dat.fetched Dat.blockOf blockAt; rw [hA]; try rfl)
theorem staged11 {c : Dev nD} (dat : Dat τ (Elt F) Unit ℕ (UR sig nD τ) ℕ cfg1 c)
    (hA : dat.A 11 = V c (Pipeline.arrRef spec1 11)) (hafter : ∀ t, dat.after 11 t = blockAt V c 11 t)
    (t : Fin cfg1.N) (d) : dat.before 11 t d = blockAt V c 11 t :=
  (dat.before_in_eq_fetched 11 rfl (fun _ => rfl) (fun _ _ _ => rfl)
    (fun t => by rw [hafter]; unfold Dat.blockOf blockAt; rw [hA]; try rfl) t d).trans
    (by unfold Dat.fetched Dat.blockOf blockAt; rw [hA]; try rfl)
theorem staged12 {c : Dev nD} (dat : Dat τ (Elt F) Unit ℕ (UR sig nD τ) ℕ cfg1 c)
    (hA : dat.A 12 = V c (Pipeline.arrRef spec1 12)) (hafter : ∀ t, dat.after 12 t = blockAt V c 12 t)
    (t : Fin cfg1.N) (d) : dat.before 12 t d = blockAt V c 12 t :=
  (dat.before_in_eq_fetched 12 rfl (fun _ => rfl) (fun _ _ _ => rfl)
    (fun t => by rw [hafter]; unfold Dat.blockOf blockAt; rw [hA]; try rfl) t d).trans
    (by unfold Dat.fetched Dat.blockOf blockAt; rw [hA]; try rfl)
theorem staged13 {c : Dev nD} (dat : Dat τ (Elt F) Unit ℕ (UR sig nD τ) ℕ cfg1 c)
    (hA : dat.A 13 = V c (Pipeline.arrRef spec1 13)) (hafter : ∀ t, dat.after 13 t = blockAt V c 13 t)
    (t : Fin cfg1.N) (d) : dat.before 13 t d = blockAt V c 13 t :=
  (dat.before_in_eq_fetched 13 rfl (fun _ => rfl) (fun _ _ _ => rfl)
    (fun t => by rw [hafter]; unfold Dat.blockOf blockAt; rw [hA]; try rfl) t d).trans
    (by unfold Dat.fetched Dat.blockOf blockAt; rw [hA]; try rfl)
theorem staged14 {c : Dev nD} (dat : Dat τ (Elt F) Unit ℕ (UR sig nD τ) ℕ cfg1 c)
    (hA : dat.A 14 = V c (Pipeline.arrRef spec1 14)) (hafter : ∀ t, dat.after 14 t = blockAt V c 14 t)
    (t : Fin cfg1.N) (d) : dat.before 14 t d = blockAt V c 14 t :=
  (dat.before_in_eq_fetched 14 rfl (fun _ => rfl) (fun _ _ _ => rfl)
    (fun t => by rw [hafter]; unfold Dat.blockOf blockAt; rw [hA]; try rfl) t d).trans
    (by unfold Dat.fetched Dat.blockOf blockAt; rw [hA]; try rfl)

/-! ## One accumulation step per gate

Each gate's accumulator takes the product of the embedding block with the input-side weight block, then the
product of the hidden block with the hidden-side weight block, both accumulated in f32. The four differ only in
where the body casts shapes. -/

def stepF (e h wf uf : Vec F S512x512 .bf16) (a : Vec F S512x512 .f32) : Vec F S512x512 .f32 :=
  k1_pay12 h (k1_pay11 e a wf) uf
def stepI (e h wi ui : Vec F S512x512 .bf16) (a : Vec F S512x512 .f32) : Vec F S512x512 .f32 :=
  k1_pay15 (k1_pay10 h) (k1_pay14 (k1_pay13 e a wi)) ui
def stepC (e h wc uc : Vec F S512x512 .bf16) (a : Vec F S512x512 .f32) : Vec F S512x512 .f32 :=
  k1_pay17 (k1_pay10 h) (k1_pay16 (k1_pay9 e) a wc) uc
def stepO (e h wo uo : Vec F S512x512 .bf16) (a : Vec F S512x512 .f32) : Vec F S512x512 .f32 :=
  k1_pay2 (k1_pay10 h) (k1_pay1 (k1_pay9 e) a (k1_pay18 wo)) uo

/-- The whole [512, 512] tile and the whole [1, 512] row, as rectangles. -/
abbrev tileRect : Rect S512x512 := Rect.unit (s := S512x512) ![0, 0] S512x512.size inb_S512x512_S512x512_0_0
abbrev rowRect : Rect S1x512 := Rect.unit (s := S1x512) ![0, 0] S1x512.size inb_S1x512_S1x512_0_0

theorem hz2 : (![0, 0] : Fin 2 → ℕ) = fun _ => 0 := by
  funext a; match a with | ⟨0, _⟩ => rfl | ⟨1, _⟩ => rfl

/-- One store over the whole tile covers it. -/
theorem tile_covered {e : EltTy} (L : List (View.Piece (Elt F) S512x512 e)) (p : Vec F S512x512 e) (y : S512x512.Idx) :
    ∃ pc ∈ ((⟨Rect.unit (s := S512x512) ![0, 0] S512x512.size inb_S512x512_S512x512_0_0, p⟩ : View.Piece (Elt F) S512x512 e) :: L), y ∈ pc.1.set :=
  ⟨_, List.mem_cons_self, (View.cover_of_tiled [⟨Rect.unit (s := S512x512) ![0, 0] S512x512.size inb_S512x512_S512x512_0_0, p⟩] S512x512.size (by rfl) y).elim
    fun pc h => by
      obtain ⟨hm, hy⟩ := h
      rw [List.mem_singleton] at hm; subst hm; exact hy⟩

end Cert.KernelIdeal.Gates

end
-- ==== Proof.KernelIdealGatesLoads.lean ====
/-
  The gates region: reading an accumulator back, and what the last point of a run over k stores.

  A load through the whole tile of a buffer whose last store went through the whole tile reads that store's payload,
  whatever was stored before it. At the last point of a run over k the body adds each gate's bias row to its
  accumulator, applies the logistic function (the cell candidate: tanh), and stores the new cell
  f · cell + i · g and the new hidden o · tanh(new cell).
-/
import proofs.«125352_j18708877541498_2_alg».proof.Proof.KernelIdealGatesBase
import Idealize.ShloMosaic.Lib.Pipeline.Value

set_option maxRecDepth 16384

noncomputable section

namespace Cert.KernelIdeal.Gates

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load through the whole-shape rectangle of what a LAST store through it left reads that store's payload. -/
theorem readCov_cons_unit_zero {Val : EltTy → Type} [∀ e, Nonempty (Val e)] {S : Shape} {e : EltTy}
    {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The new cell tile from the three accumulators it reads, their bias rows and the cell tile. -/
def newC (aF aI aC : Vec F S512x512 .f32) (bf bi bc : Vec F S1x512 .f32) (cell : Vec F S512x512 .f32) :
    Vec F S512x512 .f32 :=
  k1_pay3 aF bf aI bi aC bc cell

/-- The new hidden tile from the four accumulators, their bias rows and the cell tile. -/
def newH (aF aI aC aO : Vec F S512x512 .f32) (bf bi bc bo : Vec F S1x512 .f32) (cell : Vec F S512x512 .f32) :
    Vec F S512x512 .f32 :=
  k1_pay4 aF bf aI bi aC bc aO bo cell

end Cert.KernelIdeal.Gates

end
-- ==== Proof.KernelIdealGatesRunA.lean ====
/-
  The gates body at the first point of a run over k (k = 0): the accumulators are zeroed first, so what they
  held does not matter.
-/
import proofs.«125352_j18708877541498_2_alg».proof.Proof.KernelIdealGatesLoads

set_option maxRecDepth 16384

noncomputable section

namespace Cert.KernelIdeal.Gates

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole staging buffers at the input blocks, the output tiles at anything named, and the accumulators at
    anything, the body returns with the inputs and the output tiles as they were and each accumulator one step on
    from zero. -/
theorem run_first (c : Dev nD) (E : Set ℕ) (i : grid1.Coords) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole)
    (hc1 : cond1 i) (hc2 : ¬cond2 i)
    (x0 : Vec F S512x512 .bf16) (x1 : Vec F S512x512 .bf16) (x2 : Vec F S512x512 .f32) (x3 : Vec F S512x512 .bf16) (x4 : Vec F S512x512 .bf16) (x5 : Vec F S512x512 .bf16) (x6 : Vec F S512x512 .bf16) (x7 : Vec F S512x512 .bf16) (x8 : Vec F S512x512 .bf16) (x9 : Vec F S512x512 .bf16) (x10 : Vec F S512x512 .bf16) (x11 : Vec F S1x512 .f32) (x12 : Vec F S1x512 .f32) (x13 : Vec F S1x512 .f32) (x14 : Vec F S1x512 .f32) (y15 y16 : Vec F S512x512 .f32) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare x6
        ∗ owns (c : Thread nD τ) arg10 fullShare x7
        ∗ owns (c : Thread nD τ) arg11 fullShare x8
        ∗ owns (c : Thread nD τ) arg12 fullShare x9
        ∗ owns (c : Thread nD τ) arg13 fullShare x10
        ∗ owns (c : Thread nD τ) arg14 fullShare x11
        ∗ owns (c : Thread nD τ) arg15 fullShare x12
        ∗ owns (c : Thread nD τ) arg16 fullShare x13
        ∗ owns (c : Thread nD τ) arg17 fullShare x14
        ∗ owns (c : Thread nD τ) arg18 fullShare y15
        ∗ owns (c : Thread nD τ) arg19 fullShare y16
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ owns (c : Thread nD τ) arg13 fullShare x10
            ∗ owns (c : Thread nD τ) arg14 fullShare x11
            ∗ owns (c : Thread nD τ) arg15 fullShare x12
            ∗ owns (c : Thread nD τ) arg16 fullShare x13
            ∗ owns (c : Thread nD τ) arg17 fullShare x14
            ∗ owns (c : Thread nD τ) arg18 fullShare y15
            ∗ owns (c : Thread nD τ) arg19 fullShare y16
            ∗ owns (c : Thread nD τ) arg20 fullShare (stepF x0 x1 x3 x7 k1_pay5)
            ∗ owns (c : Thread nD τ) arg21 fullShare (stepI x0 x1 x4 x8 k1_pay6)
            ∗ owns (c : Thread nD τ) arg22 fullShare (stepC x0 x1 x5 x9 k1_pay7)
            ∗ owns (c : Thread nD τ) arg23 fullShare (stepO x0 x1 x6 x10 k1_pay8)) -∗ K ⟨⟩))
      ⊢ wp frame (wpE (defs₀ (F := F)) Variants.none c none) E (cc1__gates_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc1__gates_kernel_eq_skeleton]; unfold cc1__gates_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d0, %g0, -, S0⟩, ⟨%d1, %g1, -, S1⟩, ⟨%d2, %g2, -, S2⟩, ⟨%d3, %g3, -, S3⟩, Hk⟩
  subst hf0; subst hf1; subst hf2; subst hf3; subst hf4; subst hf5; subst hf6; subst hf7; subst hf8; subst hf9; subst hf10; subst hf11; subst hf12; subst hf13; subst hf14;
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; exact hf15
    iexact H15
  isplitl [H16]
  · iexists f16; isplitr; · ipureintro; exact hf16
    iexact H16
  isplitl [S0]
  · iexists _; isplitr
    swap; · iexact S0
    ipureintro
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S1]
  · iexists _; isplitr
    swap; · iexact S1
    ipureintro
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S2]
  · iexists _; isplitr
    swap; · iexact S2
    ipureintro
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  iexists _; isplitr
  swap; · iexact S3
  ipureintro
  rw [View.read_writes_eq_canon _ _ _ (fun y => ⟨_, List.mem_cons_self, View.mem_set_unit_zero hz2 inb_S512x512_S512x512_0_0 y⟩), View.canon_cons_unit_zero hz2]
  sl_unfold_run_names
  simp only [readCov_cons_unit_zero (S := S512x512) _ hz2, View.readAt_eq_ld, View.ld_unit_zero (S := S512x512) hz2, View.ld_unit_zero (S := S1x512) hz2]
  rfl

end Cert.KernelIdeal.Gates

end
-- ==== Proof.KernelIdealGatesRunB.lean ====
/-
  The gates body at a point that neither starts nor ends a run over k (k = 1, 2): no branch is taken.
-/
import proofs.«125352_j18708877541498_2_alg».proof.Proof.KernelIdealGatesLoads

set_option maxRecDepth 16384

noncomputable section

namespace Cert.KernelIdeal.Gates

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole staging buffers at the input blocks, the output tiles at anything named, and the accumulators at
    `s0 … s3`, the body returns with the inputs and the output tiles as they were and each accumulator one step on. -/
theorem run_mid (c : Dev nD) (E : Set ℕ) (i : grid1.Coords) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole)
    (hc1 : ¬cond1 i) (hc2 : ¬cond2 i)
    (x0 : Vec F S512x512 .bf16) (x1 : Vec F S512x512 .bf16) (x2 : Vec F S512x512 .f32) (x3 : Vec F S512x512 .bf16) (x4 : Vec F S512x512 .bf16) (x5 : Vec F S512x512 .bf16) (x6 : Vec F S512x512 .bf16) (x7 : Vec F S512x512 .bf16) (x8 : Vec F S512x512 .bf16) (x9 : Vec F S512x512 .bf16) (x10 : Vec F S512x512 .bf16) (x11 : Vec F S1x512 .f32) (x12 : Vec F S1x512 .f32) (x13 : Vec F S1x512 .f32) (x14 : Vec F S1x512 .f32) (y15 y16 s0 s1 s2 s3 : Vec F S512x512 .f32) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare x6
        ∗ owns (c : Thread nD τ) arg10 fullShare x7
        ∗ owns (c : Thread nD τ) arg11 fullShare x8
        ∗ owns (c : Thread nD τ) arg12 fullShare x9
        ∗ owns (c : Thread nD τ) arg13 fullShare x10
        ∗ owns (c : Thread nD τ) arg14 fullShare x11
        ∗ owns (c : Thread nD τ) arg15 fullShare x12
        ∗ owns (c : Thread nD τ) arg16 fullShare x13
        ∗ owns (c : Thread nD τ) arg17 fullShare x14
        ∗ owns (c : Thread nD τ) arg18 fullShare y15
        ∗ owns (c : Thread nD τ) arg19 fullShare y16
        ∗ owns (c : Thread nD τ) arg20 fullShare s0
        ∗ owns (c : Thread nD τ) arg21 fullShare s1
        ∗ owns (c : Thread nD τ) arg22 fullShare s2
        ∗ owns (c : Thread nD τ) arg23 fullShare s3
        ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ owns (c : Thread nD τ) arg13 fullShare x10
            ∗ owns (c : Thread nD τ) arg14 fullShare x11
            ∗ owns (c : Thread nD τ) arg15 fullShare x12
            ∗ owns (c : Thread nD τ) arg16 fullShare x13
            ∗ owns (c : Thread nD τ) arg17 fullShare x14
            ∗ owns (c : Thread nD τ) arg18 fullShare y15
            ∗ owns (c : Thread nD τ) arg19 fullShare y16
            ∗ owns (c : Thread nD τ) arg20 fullShare (stepF x0 x1 x3 x7 s0)
            ∗ owns (c : Thread nD τ) arg21 fullShare (stepI x0 x1 x4 x8 s1)
            ∗ owns (c : Thread nD τ) arg22 fullShare (stepC x0 x1 x5 x9 s2)
            ∗ owns (c : Thread nD τ) arg23 fullShare (stepO x0 x1 x6 x10 s3)) -∗ K ⟨⟩))
      ⊢ wp frame (wpE (defs₀ (F := F)) Variants.none c none) E (cc1__gates_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc1__gates_kernel_eq_skeleton]; unfold cc1__gates_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%g0, %hg0, S0⟩, ⟨%g1, %hg1, S1⟩, ⟨%g2, %hg2, S2⟩, ⟨%g3, %hg3, S3⟩, Hk⟩
  subst hf0; subst hf1; subst hf2; subst hf3; subst hf4; subst hf5; subst hf6; subst hf7; subst hf8; subst hf9; subst hf10; subst hf11; subst hf12; subst hf13; subst hf14; subst hg0; subst hg1; subst hg2; subst hg3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; exact hf15
    iexact H15
  isplitl [H16]
  · iexists f16; isplitr; · ipureintro; exact hf16
    iexact H16
  isplitl [S0]
  · iexists _; isplitr
    swap; · iexact S0
    ipureintro
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S1]
  · iexists _; isplitr
    swap; · iexact S1
    ipureintro
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S2]
  · iexists _; isplitr
    swap; · iexact S2
    ipureintro
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  iexists _; isplitr
  swap; · iexact S3
  ipureintro
  rw [View.read_writes_eq_canon _ _ _ (fun y => ⟨_, List.mem_cons_self, View.mem_set_unit_zero hz2 inb_S512x512_S512x512_0_0 y⟩), View.canon_cons_unit_zero hz2]
  sl_unfold_run_names
  simp only [readCov_cons_unit_zero (S := S512x512) _ hz2, View.readAt_eq_ld, View.ld_unit_zero (S := S512x512) hz2, View.ld_unit_zero (S := S1x512) hz2]
  rfl

end Cert.KernelIdeal.Gates

end
-- ==== Proof.KernelIdealGatesRunC.lean ====
/-
  The gates body at the last point of a run over k (k = 3): after the accumulation step the new hidden and new
  cell tiles are stored over the whole output tiles, so what those held does not matter.
-/
import proofs.«125352_j18708877541498_2_alg».proof.Proof.KernelIdealGatesLoads

set_option maxRecDepth 16384

noncomputable section

namespace Cert.KernelIdeal.Gates

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole staging buffers at the input blocks, the output tiles at anything, and the accumulators at
    `s0 … s3`, the body returns with the inputs as they were, each accumulator one step on, and the output tiles at
    the new hidden and the new cell of the stepped accumulators. -/
theorem run_last (c : Dev nD) (E : Set ℕ) (i : grid1.Coords) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole)
    (hc1 : ¬cond1 i) (hc2 : cond2 i)
    (x0 : Vec F S512x512 .bf16) (x1 : Vec F S512x512 .bf16) (x2 : Vec F S512x512 .f32) (x3 : Vec F S512x512 .bf16) (x4 : Vec F S512x512 .bf16) (x5 : Vec F S512x512 .bf16) (x6 : Vec F S512x512 .bf16) (x7 : Vec F S512x512 .bf16) (x8 : Vec F S512x512 .bf16) (x9 : Vec F S512x512 .bf16) (x10 : Vec F S512x512 .bf16) (x11 : Vec F S1x512 .f32) (x12 : Vec F S1x512 .f32) (x13 : Vec F S1x512 .f32) (x14 : Vec F S1x512 .f32) (s0 s1 s2 s3 : Vec F S512x512 .f32) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare x6
        ∗ owns (c : Thread nD τ) arg10 fullShare x7
        ∗ owns (c : Thread nD τ) arg11 fullShare x8
        ∗ owns (c : Thread nD τ) arg12 fullShare x9
        ∗ owns (c : Thread nD τ) arg13 fullShare x10
        ∗ owns (c : Thread nD τ) arg14 fullShare x11
        ∗ owns (c : Thread nD τ) arg15 fullShare x12
        ∗ owns (c : Thread nD τ) arg16 fullShare x13
        ∗ owns (c : Thread nD τ) arg17 fullShare x14
        ∗ (∃ d, owns (c : Thread nD τ) arg18 fullShare d)
        ∗ (∃ d, owns (c : Thread nD τ) arg19 fullShare d)
        ∗ owns (c : Thread nD τ) arg20 fullShare s0
        ∗ owns (c : Thread nD τ) arg21 fullShare s1
        ∗ owns (c : Thread nD τ) arg22 fullShare s2
        ∗ owns (c : Thread nD τ) arg23 fullShare s3
        ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ owns (c : Thread nD τ) arg13 fullShare x10
            ∗ owns (c : Thread nD τ) arg14 fullShare x11
            ∗ owns (c : Thread nD τ) arg15 fullShare x12
            ∗ owns (c : Thread nD τ) arg16 fullShare x13
            ∗ owns (c : Thread nD τ) arg17 fullShare x14
            ∗ owns (c : Thread nD τ) arg18 fullShare (newH (stepF x0 x1 x3 x7 s0) (stepI x0 x1 x4 x8 s1) (stepC x0 x1 x5 x9 s2) (stepO x0 x1 x6 x10 s3) x11 x12 x13 x14 x2)
            ∗ owns (c : Thread nD τ) arg19 fullShare (newC (stepF x0 x1 x3 x7 s0) (stepI x0 x1 x4 x8 s1) (stepC x0 x1 x5 x9 s2) x11 x12 x13 x2)
            ∗ owns (c : Thread nD τ) arg20 fullShare (stepF x0 x1 x3 x7 s0)
            ∗ owns (c : Thread nD τ) arg21 fullShare (stepI x0 x1 x4 x8 s1)
            ∗ owns (c : Thread nD τ) arg22 fullShare (stepC x0 x1 x5 x9 s2)
            ∗ owns (c : Thread nD τ) arg23 fullShare (stepO x0 x1 x6 x10 s3)) -∗ K ⟨⟩))
      ⊢ wp frame (wpE (defs₀ (F := F)) Variants.none c none) E (cc1__gates_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc1__gates_kernel_eq_skeleton]; unfold cc1__gates_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%g0, %hg0, S0⟩, ⟨%g1, %hg1, S1⟩, ⟨%g2, %hg2, S2⟩, ⟨%g3, %hg3, S3⟩, Hk⟩
  subst hf0; subst hf1; subst hf2; subst hf3; subst hf4; subst hf5; subst hf6; subst hf7; subst hf8; subst hf9; subst hf10; subst hf11; subst hf12; subst hf13; subst hf14; subst hg0; subst hg1; subst hg2; subst hg3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_run_names
    sl_unfold_run_names
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [H16]
  · iexists _; isplitr
    swap; · iexact H16
    ipureintro
    sl_unfold_run_names
    sl_unfold_run_names
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S0]
  · iexists _; isplitr
    swap; · iexact S0
    ipureintro
    sl_unfold_run_names
    sl_unfold_run_names
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S1]
  · iexists _; isplitr
    swap; · iexact S1
    ipureintro
    sl_unfold_run_names
    sl_unfold_run_names
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  isplitl [S2]
  · iexists _; isplitr
    swap; · iexact S2
    ipureintro
    sl_unfold_run_names
    sl_unfold_run_names
    rw [View.read_writes_eq_canon _ _ _ (fun y => ⟨_, List.mem_cons_self, View.mem_set_unit_zero hz2 inb_S512x512_S512x512_0_0 y⟩), View.canon_cons_unit_zero hz2]
    sl_unfold_run_names
    simp only [readCov_cons_unit_zero (S := S512x512) _ hz2, View.readAt_eq_ld, View.ld_unit_zero (S := S512x512) hz2, View.ld_unit_zero (S := S1x512) hz2]
    rfl
  iexists _; isplitr
  swap; · iexact S3
  ipureintro
  sl_unfold_run_names
  sl_unfold_run_names
  rw [View.read_writes_eq_canon _ _ _ (fun y => ⟨_, List.mem_cons_self, View.mem_set_unit_zero hz2 inb_S512x512_S512x512_0_0 y⟩), View.canon_cons_unit_zero hz2]
  sl_unfold_run_names
  simp only [readCov_cons_unit_zero (S := S512x512) _ hz2, View.readAt_eq_ld, View.ld_unit_zero (S := S512x512) hz2, View.ld_unit_zero (S := S1x512) hz2]
  rfl

end Cert.KernelIdeal.Gates

end
-- ==== Proof.KernelIdealGates.lean ====
/-
  The gates region: its proof data and its body obligation.

  The region keeps four [512, 512] accumulators from grid point to grid point. Their contents after point n are
  given by recursion on n: one accumulation step of that point's blocks, from zero where the point starts a run
  over k (n ≡ 0 mod 4) and from what the point before left otherwise. The invariant before a point that starts a
  run is the plain one (the accumulators at anything: they are zeroed first); before any other point it names the
  accumulators' contents. The two output tiles are stored only at the last point of a run (n ≡ 3 mod 4), from the
  accumulators after that point's step; at the other points their buffers are handed back untouched.
-/
import proofs.«125352_j18708877541498_2_alg».proof.Proof.KernelIdealGatesRunA
import proofs.«125352_j18708877541498_2_alg».proof.Proof.KernelIdealGatesRunB
import proofs.«125352_j18708877541498_2_alg».proof.Proof.KernelIdealGatesRunC

set_option maxRecDepth 16384

noncomputable section

namespace Cert.KernelIdeal.Gates

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The accumulators point by point -/

/-- The four accumulators (forget, input, cell candidate, output gate). -/
abbrev Acc (F : FTy → Type) [FloatOps F] : Type := Vec F S512x512 .f32 × Vec F S512x512 .f32 × Vec F S512x512 .f32 × Vec F S512x512 .f32

/-- Zeroed accumulators. -/
def zeros : Acc F := (k1_pay5, k1_pay6, k1_pay7, k1_pay8)

/-- One accumulation step of point `t`'s blocks on all four accumulators. -/
def stepAll (c : Dev nD) (t : Fin cfg1.N) (a : Acc F) : Acc F :=
  (stepF (blockAt V c 0 t) (blockAt V c 1 t) (blockAt V c 3 t) (blockAt V c 7 t) a.1,
   stepI (blockAt V c 0 t) (blockAt V c 1 t) (blockAt V c 4 t) (blockAt V c 8 t) a.2.1,
   stepC (blockAt V c 0 t) (blockAt V c 1 t) (blockAt V c 5 t) (blockAt V c 9 t) a.2.2.1,
   stepO (blockAt V c 0 t) (blockAt V c 1 t) (blockAt V c 6 t) (blockAt V c 10 t) a.2.2.2)

/-- What the accumulators hold after the body at point `n`. -/
def accAt (c : Dev nD) : (n : ℕ) → n < cfg1.N → Acc F
  | 0, hn => stepAll V c ⟨0, hn⟩ zeros
  | n + 1, hn => stepAll V c ⟨n + 1, hn⟩ (if (n + 1) % 4 = 0 then zeros else accAt c n (Nat.lt_of_succ_lt hn))

theorem accAt_congr (c : Dev nD) {n m : ℕ} (h : n = m) (hn : n < cfg1.N) (hm : m < cfg1.N) :
    accAt V c n hn = accAt V c m hm := by subst h; rfl

/-- At a point that starts a run over k: one step from zero. -/
theorem accAt_first (c : Dev nD) (t : Fin cfg1.N) (h : t.val % 4 = 0) :
    accAt V c t.val t.isLt = stepAll V c t zeros := by
  obtain ⟨n, hn⟩ := t
  cases n with
  | zero => rfl
  | succ n => show stepAll V c ⟨n + 1, hn⟩ (if (n + 1) % 4 = 0 then zeros else accAt V c n _) = _; rw [if_pos h]

/-- At any other point: one step from what the point before left. -/
theorem accAt_next (c : Dev nD) (t : Fin cfg1.N) (h : ¬t.val % 4 = 0) :
    accAt V c t.val t.isLt = stepAll V c t (accAt V c (t.val - 1) (Nat.lt_of_le_of_lt (Nat.sub_le _ _) t.isLt)) := by
  obtain ⟨n, hn⟩ := t
  cases n with
  | zero => exact absurd (Nat.zero_mod _) h
  | succ n => show stepAll V c ⟨n + 1, hn⟩ (if (n + 1) % 4 = 0 then zeros else accAt V c n _) = _; rw [if_neg h]; rfl

/-- The new hidden tile point `t` would store from the accumulators after its step. -/
def outH (c : Dev nD) (t : Fin cfg1.N) : Vec F S512x512 .f32 :=
  newH (accAt V c t.val t.isLt).1 (accAt V c t.val t.isLt).2.1 (accAt V c t.val t.isLt).2.2.1 (accAt V c t.val t.isLt).2.2.2
    (blockAt V c 11 t) (blockAt V c 12 t) (blockAt V c 13 t) (blockAt V c 14 t) (blockAt V c 2 t)

/-- The new cell tile likewise. -/
def outC (c : Dev nD) (t : Fin cfg1.N) : Vec F S512x512 .f32 :=
  newC (accAt V c t.val t.isLt).1 (accAt V c t.val t.isLt).2.1 (accAt V c t.val t.isLt).2.2.1
    (blockAt V c 11 t) (blockAt V c 12 t) (blockAt V c 13 t) (blockAt V c 2 t)

/-! ## The invariant -/

/-- The accumulators at named contents beside the rest of the scoped buffers and the generator register. -/
def named (c : Dev nD) (a : Acc F) : sProp 𝕄 :=
  iprop(iprop(iprop(owns (c : Thread nD τ) scM0 fullShare a.1 ∗ owns (c : Thread nD τ) scM1 fullShare a.2.1
        ∗ owns (c : Thread nD τ) scM2 fullShare a.2.2.1 ∗ owns (c : Thread nD τ) scM3 fullShare a.2.2.2)
      ∗ restBut (F := F) c) ∗ (∃ r, prngReg c r))

/-- Before a point that starts a run over k (and after the last point): the plain invariant. Before any other
    point: the accumulators at what the point before left. -/
def Phi (c : Dev nD) (t : Fin (cfg1.N + 1)) : sProp 𝕄 :=
  if h : t.val % 4 = 0 then Pipeline.ΦA spec1 c
  else named c (accAt V c (t.val - 1) (by have := t.isLt; omega))

/-! ## The proof data -/

/-- The region's proof data on core `c`: the arrays as found; after a point's body each input's buffer at its
    block and the two outputs' at the new hidden and new cell of the accumulators after that point; the invariant
    `Phi`; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => blockAt V c 7 t
    | ⟨8, _⟩ => blockAt V c 8 t
    | ⟨9, _⟩ => blockAt V c 9 t
    | ⟨10, _⟩ => blockAt V c 10 t
    | ⟨11, _⟩ => blockAt V c 11 t
    | ⟨12, _⟩ => blockAt V c 12 t
    | ⟨13, _⟩ => blockAt V c 13 t
    | ⟨14, _⟩ => blockAt V c 14 t
    | ⟨15, _⟩ => outH V c t
    | ⟨16, _⟩ => outC V c t
    | ⟨_ + 17, h⟩ => absurd h (Nat.not_lt.2 (Nat.le_add_left _ _))
  Φ t := Phi V c t
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = blockAt V c 3 t := by dsimp only [dat]
theorem after4 (c : Dev nD) (t : Fin cfg1.N) : (dat V c).after 4 t = blockAt V c 4 t := by dsimp only [dat]
theorem after5 (c : Dev nD) (t : Fin cfg1.N) : (dat V c).after 5 t = blockAt V c 5 t := by dsimp only [dat]
theorem after6 (c : Dev nD) (t : Fin cfg1.N) : (dat V c).after 6 t = blockAt V c 6 t := by dsimp only [dat]
theorem after7 (c : Dev nD) (t : Fin cfg1.N) : (dat V c).after 7 t = blockAt V c 7 t := by dsimp only [dat]
theorem after8 (c : Dev nD) (t : Fin cfg1.N) : (dat V c).after 8 t = blockAt V c 8 t := by dsimp only [dat]
theorem after9 (c : Dev nD) (t : Fin cfg1.N) : (dat V c).after 9 t = blockAt V c 9 t := by dsimp only [dat]
theorem after10 (c : Dev nD) (t : Fin cfg1.N) : (dat V c).after 10 t = blockAt V c 10 t := by dsimp only [dat]
theorem after11 (c : Dev nD) (t : Fin cfg1.N) : (dat V c).after 11 t = blockAt V c 11 t := by dsimp only [dat]
theorem after12 (c : Dev nD) (t : Fin cfg1.N) : (dat V c).after 12 t = blockAt V c 12 t := by dsimp only [dat]
theorem after13 (c : Dev nD) (t : Fin cfg1.N) : (dat V c).after 13 t = blockAt V c 13 t := by dsimp only [dat]
theorem after14 (c : Dev nD) (t : Fin cfg1.N) : (dat V c).after 14 t = blockAt V c 14 t := by dsimp only [dat]
theorem after15 (c : Dev nD) (t : Fin cfg1.N) : (dat V c).after 15 t = outH V c t := by dsimp only [dat]
theorem after16 (c : Dev nD) (t : Fin cfg1.N) : (dat V c).after 16 t = outC V c t := by dsimp only [dat]

theorem before0 (c : Dev nD) (t : Fin cfg1.N) (d) : (dat V c).before 0 t d = blockAt V c 0 t :=
  staged0 V (dat V c) (dat_A V c 0) (after0 V c) t d
theorem before1 (c : Dev nD) (t : Fin cfg1.N) (d) : (dat V c).before 1 t d = blockAt V c 1 t :=
  staged1 V (dat V c) (dat_A V c 1) (after1 V c) t d
theorem before2 (c : Dev nD) (t : Fin cfg1.N) (d) : (dat V c).before 2 t d = blockAt V c 2 t :=
  staged2 V (dat V c) (dat_A V c 2) (after2 V c) t d
theorem before3 (c : Dev nD) (t : Fin cfg1.N) (d) : (dat V c).before 3 t d = blockAt V c 3 t :=
  staged3 V (dat V c) (dat_A V c 3) (after3 V c) t d
theorem before4 (c : Dev nD) (t : Fin cfg1.N) (d) : (dat V c).before 4 t d = blockAt V c 4 t :=
  staged4 V (dat V c) (dat_A V c 4) (after4 V c) t d
theorem before5 (c : Dev nD) (t : Fin cfg1.N) (d) : (dat V c).before 5 t d = blockAt V c 5 t :=
  staged5 V (dat V c) (dat_A V c 5) (after5 V c) t d
theorem before6 (c : Dev nD) (t : Fin cfg1.N) (d) : (dat V c).before 6 t d = blockAt V c 6 t :=
  staged6 V (dat V c) (dat_A V c 6) (after6 V c) t d
theorem before7 (c : Dev nD) (t : Fin cfg1.N) (d) : (dat V c).before 7 t d = blockAt V c 7 t :=
  staged7 V (dat V c) (dat_A V c 7) (after7 V c) t d
theorem before8 (c : Dev nD) (t : Fin cfg1.N) (d) : (dat V c).before 8 t d = blockAt V c 8 t :=
  staged8 V (dat V c) (dat_A V c 8) (after8 V c) t d
theorem before9 (c : Dev nD) (t : Fin cfg1.N) (d) : (dat V c).before 9 t d = blockAt V c 9 t :=
  staged9 V (dat V c) (dat_A V c 9) (after9 V c) t d
theorem before10 (c : Dev nD) (t : Fin cfg1.N) (d) : (dat V c).before 10 t d = blockAt V c 10 t :=
  staged10 V (dat V c) (dat_A V c 10) (after10 V c) t d
theorem before11 (c : Dev nD) (t : Fin cfg1.N) (d) : (dat V c).before 11 t d = blockAt V c 11 t :=
  staged11 V (dat V c) (dat_A V c 11) (after11 V c) t d
theorem before12 (c : Dev nD) (t : Fin cfg1.N) (d) : (dat V c).before 12 t d = blockAt V c 12 t :=
  staged12 V (dat V c) (dat_A V c 12) (after12 V c) t d
theorem before13 (c : Dev nD) (t : Fin cfg1.N) (d) : (dat V c).before 13 t d = blockAt V c 13 t :=
  staged13 V (dat V c) (dat_A V c 13) (after13 V c) t d
theorem before14 (c : Dev nD) (t : Fin cfg1.N) (d) : (dat V c).before 14 t d = blockAt V c 14 t :=
  staged14 V (dat V c) (dat_A V c 14) (after14 V c) t d

theorem Phi_first (c : Dev nD) (t : Fin cfg1.N) (h : t.val % 4 = 0) :
    (dat V c).Φ t.castSucc = Pipeline.ΦA spec1 c := by
  show Phi V c t.castSucc = _
  unfold Phi; rw [dif_pos (by simpa using h)]

theorem Phi_next (c : Dev nD) (t : Fin cfg1.N) (h : ¬t.val % 4 = 0) :
    (dat V c).Φ t.castSucc
      = named c (accAt V c (t.val - 1) (Nat.lt_of_le_of_lt (Nat.sub_le _ _) t.isLt)) := by
  show Phi V c t.castSucc = _
  unfold Phi; rw [dif_neg (by simpa using h)]
  exact congrArg (named c) (accAt_congr V c (by simp) _ _)

theorem Phi_succ_named (c : Dev nD) (t : Fin cfg1.N) (h : ¬(t.val + 1) % 4 = 0) :
    (dat V c).Φ t.succ = named c (accAt V c t.val t.isLt) := by
  show Phi V c t.succ = _
  unfold Phi; rw [dif_neg (by simpa using h)]
  exact congrArg (named c) (accAt_congr V c (by simp) _ _)

theorem Phi_succ_plain (c : Dev nD) (t : Fin cfg1.N) (h : (t.val + 1) % 4 = 0) :
    (dat V c).Φ t.succ = Pipeline.ΦA spec1 c := by
  show Phi V c t.succ = _
  unfold Phi; rw [dif_pos (by simpa using h)]

/-! ## The body obligation -/

/-- What the body is entered with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d)))

/-- and what it returns with. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ (dat V c).leavesExact 15 t
    ∗ (dat V c).leavesExact 16 t)

set_option maxHeartbeats 8000000 in
/-- The body at any point, by the point's place in its run over k. -/
theorem body_at_point (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, before8, before9, before10, before11, before12, before13, before14]
  rw [show (dat V c).owesAt () t.succ = (dat V c).owesAt () t.castSucc from rfl]
  simp only [after0, after1, after2, after3, after4, after5, after6, after7, after8, after9, after10, after11, after12, after13, after14]
  by_cases h0 : t.val % 4 = 0
  · -- the point starts a run over k
    have hc1 : cond1 (grid1.coords t) := (hcond1 t).mpr h0
    have hc2 : ¬cond2 (grid1.coords t) := fun h => by have := (hcond2 t).mp h; omega
    rw [Dat.leavesExact_idle (dat V c) 15 t (idle15 t hc2) (noFlush15 t hc2),
      Dat.leavesExact_idle (dat V c) 16 t (idle16 t hc2) (noFlush16 t hc2)]
    rw [Phi_first V c t h0, Phi_succ_named V c t (by omega), accAt_first V c t h0, PhiA_eq]
    unfold named stepAll zeros; dsimp only
    iintro ⟨⟨⟨⟨S0, S1, S2, S3⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (run_first c Set.univ (grid1.coords t) _ _ _ _ _ _ _ _ _ _ _ _ _ _ _ _ _ _ _ _ _ _ _ _ _ _ _ _ _ _ _ _ _ _ _ _ _ _ _ _ _ _ hc1 hc2 (blockAt V c 0 t) (blockAt V c 1 t) (blockAt V c 2 t) (blockAt V c 3 t) (blockAt V c 4 t) (blockAt V c 5 t) (blockAt V c 6 t) (blockAt V c 7 t) (blockAt V c 8 t) (blockAt V c 9 t) (blockAt V c 10 t) (blockAt V c 11 t) (blockAt V c 12 t) (blockAt V c 13 t) (blockAt V c 14 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, H16, S0, S1, S2, S3⟩
    isplitl [S0 S1 S2 S3 Hr Hg]
    · isplitl [S0 S1 S2 S3 Hr]
      · isplitl [S0 S1 S2 S3]
        · isplitl [S0]; · iexact S0
          isplitl [S1]; · iexact S1
          isplitl [S2]; · iexact S2
          iexact S3
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    iexists _; iexact H16
  · by_cases h3 : t.val % 4 = 3
    · -- the point ends a run over k
      have hc1 : ¬cond1 (grid1.coords t) := fun h => h0 ((hcond1 t).mp h)
      have hc2 : cond2 (grid1.coords t) := (hcond2 t).mpr h3
      rw [show (dat V c).leavesExact 15 t = owns (c : Thread nD τ) (st1_15 t) fullShare ((dat V c).after 15 t) from by
        unfold Dat.leavesExact; rw [live15 t hc2]]
      rw [show (dat V c).leavesExact 16 t = owns (c : Thread nD τ) (st1_16 t) fullShare ((dat V c).after 16 t) from by
        unfold Dat.leavesExact; rw [live16 t hc2]]
      rw [after15, after16]
      unfold outH outC
      rw [Phi_next V c t h0, Phi_succ_plain V c t (by omega), accAt_next V c t h0, PhiA_eq]
      unfold named stepAll; dsimp only
      iintro ⟨⟨⟨⟨S0, S1, S2, S3⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (run_last c Set.univ (grid1.coords t) _ _ _ _ _ _ _ _ _ _ _ _ _ _ _ _ _ _ _ _ _ _ _ _ _ _ _ _ _ _ _ _ _ _ _ _ _ _ _ _ _ _ hc1 hc2 (blockAt V c 0 t) (blockAt V c 1 t) (blockAt V c 2 t) (blockAt V c 3 t) (blockAt V c 4 t) (blockAt V c 5 t) (blockAt V c 6 t) (blockAt V c 7 t) (blockAt V c 8 t) (blockAt V c 9 t) (blockAt V c 10 t) (blockAt V c 11 t) (blockAt V c 12 t) (blockAt V c 13 t) (blockAt V c 14 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [S0]; · iexact S0
      isplitl [S1]; · iexact S1
      isplitl [S2]; · iexact S2
      isplitl [S3]; · iexact S3
      iintro ⟨H0, H1, H2, H3, H4, H5, H6, H7, H8, H9, H10, H11, H12, H13, H14, H15, H16, S0, S1, S2, S3⟩
      isplitl [S0 S1 S2 S3 Hr Hg]
      · isplitl [S0 S1 S2 S3 Hr]
        · isplitl [S0 S1 S2 S3]
          · isplitl [S0]; · iexists _; iexact S0
            isplitl [S1]; · iexists _; iexact S1
            isplitl [S2]; · iexists _; iexact S2
            iexists _; iexact S3
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · -- the point is inside a run over k
      have hc1 : ¬cond1 (grid1.coords t) := fun h => h0 ((hcond1 t).mp h)
      have hc2 : ¬cond2 (grid1.coords t) := fun h => h3 ((hcond2 t).mp h)
      rw [Dat.leavesExact_idle (dat V c) 15 t (idle15 t hc2) (noFlush15 t hc2),
        Dat.leavesExact_idle (dat V c) 16 t (idle16 t hc2) (noFlush16 t hc2)]
      rw [Phi_next V c t h0, Phi_succ_named V c t (by omega), accAt_next V c t h0]
      unfold named stepAll; dsimp only
      iintro ⟨⟨⟨⟨S0, S1, S2, S3⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (run_mid c Set.univ (grid1.coords t) _ _ _ _ _ _ _ _ _ _ _ _ _ _ _ _ _ _ _ _ _ _ _ _ _ _ _ _ _ _ _ _ _ _ _ _ _ _ _ _ _ _ hc1 hc2 (blockAt V c 0 t) (blockAt V c 1 t) (blockAt V c 2 t) (blockAt V c 3 t) (blockAt V c 4 t) (blockAt V c 5 t) (blockAt V c 6 t) (blockAt V c 7 t) (blockAt V c 8 t) (blockAt V c 9 t) (blockAt V c 10 t) (blockAt V c 11 t) (blockAt V c 12 t) (blockAt V c 13 t) (blockAt V c 14 t) _ _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [S0]; · iexact S0
      isplitl [S1]; · iexact S1
      isplitl [S2]; · iexact S2
      isplitl [S3]; · iexact S3
      iintro ⟨H0, H1, H2, H3, H4, H5, H6, H7, H8, H9, H10, H11, H12, H13, H14, H15, H16, S0, S1, S2, S3⟩
      isplitl [S0 S1 S2 S3 Hr Hg]
      · isplitl [S0 S1 S2 S3 Hr]
        · isplitl [S0 S1 S2 S3]
          · isplitl [S0]; · iexact S0
            isplitl [S1]; · iexact S1
            isplitl [S2]; · iexact S2
            iexact S3
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

/-- The body obligation of the region, at every point. -/
theorem body_obligation (c : Dev nD) :
    BodyObligation (dat (F := F) V c) (defs₀ (F := F)) Variants.none () Set.univ := fun t => by
  rw [bigSep_W1, bigSep_W1]
  exact body_at_point V c t

/-- What the launch hands the region is the invariant before the first point. -/
theorem phi_in (c : Dev nD) : Pipeline.ΦA spec1 c ⊢ (dat V c).Φ 0 := by
  show _ ⊢ Phi V c 0
  unfold Phi; rw [dif_pos (by simp)]
  try exact Idealize.SL.BI.Entails.refl _

/-- After the last point (which ends a run over k) the invariant is the plain one again. -/
theorem phi_out (c : Dev nD) : (dat V c).Φ (Fin.last cfg1.N) ⊢ Pipeline.ΦA spec1 c := by
  show Phi V c (Fin.last cfg1.N) ⊢ _
  unfold Phi; rw [dif_pos (by rw [Fin.val_last]; show grid1.N % 4 = 0; rw [N_1])]
  try exact Idealize.SL.BI.Entails.refl _

end Cert.KernelIdeal.Gates

end
-- ==== Proof.KernelIdealRun.lean ====
/-
  @main's run, region by region.

  @main is: two host lines (the hidden state recast, the embedding bias reshaped), the embedding region, seventeen
  host lines (the weights recast, the gate biases added pairwise and reshaped), the gates region, three host lines
  (the new hidden state and the head weights recast, the head bias reshaped), the head region, the normalising
  region. Between two items every unscoped buffer of a core is held whole at a named valuation: the launch
  memory, then each host stretch folded over it, then — after a region — the region's window arrays at what the
  pipeline leaves in them and every other buffer as it was. A region is entered from the valuation before it and
  left at the one after it; beside the buffers ride the generator register at some state and the core's dues at
  nothing. The run ends with every unscoped buffer at the last valuation, which names the three results and, no
  item writing an argument, the arguments as launched.
-/
import proofs.«125352_j18708877541498_2_alg».proof.Proof.Gen.KernelIdeal.Points
import proofs.«125352_j18708877541498_2_alg».proof.Proof.Gen.KernelIdeal.Skeleton
import proofs.«125352_j18708877541498_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«125352_j18708877541498_2_alg».proof.Proof.Gen.KernelIdeal.Regions
import proofs.«125352_j18708877541498_2_alg».proof.Proof.KernelIdealNorm
import proofs.«125352_j18708877541498_2_alg».proof.Proof.KernelIdealEmb
import proofs.«125352_j18708877541498_2_alg».proof.Proof.KernelIdealHead
import proofs.«125352_j18708877541498_2_alg».proof.Proof.KernelIdealGates

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between two items -/

/-- At launch. -/
abbrev st0 : Dev nD → Valuation τ sig (Elt F) := fun c b => (s₀ m ρ).mem ((c : Dev nD), b)
/-- After the first host stretch: the embedding region's entry. -/
abbrev st1 : Dev nD → Valuation τ sig (Elt F) := fun c => StableHlo.after hostOps0 (st0 m ρ c)
abbrev ent0 : (c : Dev nD) → (b : Ref sig .tc) → Buf (Elt F) ((c : Thread nD τ).loc b) := fun c b => st1 m ρ c b
/-- After the embedding region. -/
def st2 (c : Dev nD) : Valuation τ sig (Elt F) :=
  Pipeline.withArrays spec0 c (st1 m ρ c) fun w => (Emb.dat (ent0 m ρ) c).arrAt w cfg0.N
theorem st2_arr (c : Dev nD) (w : Fin cfg0.W) :
    st2 m ρ c (Proc.devRef .tc (Pipeline.arrRef spec0 w)) = (Emb.dat (ent0 m ρ) c).arrAt w cfg0.N := by
  unfold st2; exact Pipeline.withArrays_arr spec0 launch0.win.arr_inj c _ _ w
theorem st2_of_ne (c : Dev nD) (b : Ref sig .tc) (hb : ∀ w, Pipeline.arrRef spec0 w ≠ b) :
    st2 m ρ c (Proc.devRef .tc b) = st1 m ρ c (Proc.devRef .tc b) := by
  unfold st2; exact Pipeline.withArrays_of_ne spec0 c _ _ b hb
abbrev ex0 : (c : Dev nD) → (b : Ref sig .tc) → Buf (Elt F) ((c : Thread nD τ).loc b) := fun c b => st2 m ρ c b
theorem arrs0 (c : Dev nD) (w : Fin cfg0.W) : (Emb.dat (ent0 m ρ) c).arrAt w cfg0.N = ex0 m ρ c (Pipeline.arrRef spec0 w) :=
  (st2_arr m ρ c w).symm
theorem rest0 (c : Dev nD) : ∀ b, b ∉ Finset.univ.image (Pipeline.arrRef spec0) → ex0 m ρ c b = ent0 m ρ c b :=
  fun b hb => st2_of_ne m ρ c b fun w e => hb (Finset.mem_image.mpr ⟨w, Finset.mem_univ _, e⟩)

/-- After the second host stretch: the gates region's entry. -/
abbrev st3 : Dev nD → Valuation τ sig (Elt F) := fun c => StableHlo.after hostOps1 (st2 m ρ c)
abbrev ent1 : (c : Dev nD) → (b : Ref sig .tc) → Buf (Elt F) ((c : Thread nD τ).loc b) := fun c b => st3 m ρ c b
/-- After the gates region. -/
def st4 (c : Dev nD) : Valuation τ sig (Elt F) :=
  Pipeline.withArrays spec1 c (st3 m ρ c) fun w => (Gates.dat (ent1 m ρ) c).arrAt w cfg1.N
theorem st4_arr (c : Dev nD) (w : Fin cfg1.W) :
    st4 m ρ c (Proc.devRef .tc (Pipeline.arrRef spec1 w)) = (Gates.dat (ent1 m ρ) c).arrAt w cfg1.N := by
  unfold st4; exact Pipeline.withArrays_arr spec1 launch1.win.arr_inj c _ _ w
theorem st4_of_ne (c : Dev nD) (b : Ref sig .tc) (hb : ∀ w, Pipeline.arrRef spec1 w ≠ b) :
    st4 m ρ c (Proc.devRef .tc b) = st3 m ρ c (Proc.devRef .tc b) := by
  unfold st4; exact Pipeline.withArrays_of_ne spec1 c _ _ b hb
abbrev ex1 : (c : Dev nD) → (b : Ref sig .tc) → Buf (Elt F) ((c : Thread nD τ).loc b) := fun c b => st4 m ρ c b
theorem arrs1 (c : Dev nD) (w : Fin cfg1.W) : (Gates.dat (ent1 m ρ) c).arrAt w cfg1.N = ex1 m ρ c (Pipeline.arrRef spec1 w) :=
  (st4_arr m ρ c w).symm
theorem rest1 (c : Dev nD) : ∀ b, b ∉ Finset.univ.image (Pipeline.arrRef spec1) → ex1 m ρ c b = ent1 m ρ c b :=
  fun b hb => st4_of_ne m ρ c b fun w e => hb (Finset.mem_image.mpr ⟨w, Finset.mem_univ _, e⟩)

/-- After the third host stretch: the head region's entry. -/
abbrev st5 : Dev nD → Valuation τ sig (Elt F) := fun c => StableHlo.after hostOps2 (st4 m ρ c)
abbrev ent2 : (c : Dev nD) → (b : Ref sig .tc) → Buf (Elt F) ((c : Thread nD τ).loc b) := fun c b => st5 m ρ c b
/-- After the head region: the normalising region's entry. -/
def st6 (c : Dev nD) : Valuation τ sig (Elt F) :=
  Pipeline.withArrays spec2 c (st5 m ρ c) fun w => (Head.dat (ent2 m ρ) c).arrAt w cfg2.N
theorem st6_arr (c : Dev nD) (w : Fin cfg2.W) :
    st6 m ρ c (Proc.devRef .tc (Pipeline.arrRef spec2 w)) = (Head.dat (ent2 m ρ) c).arrAt w cfg2.N := by
  unfold st6; exact Pipeline.withArrays_arr spec2 launch2.win.arr_inj c _ _ w
theorem st6_of_ne (c : Dev nD) (b : Ref sig .tc) (hb : ∀ w, Pipeline.arrRef spec2 w ≠ b) :
    st6 m ρ c (Proc.devRef .tc b) = st5 m ρ c (Proc.devRef .tc b) := by
  unfold st6; exact Pipeline.withArrays_of_ne spec2 c _ _ b hb
abbrev ex2 : (c : Dev nD) → (b : Ref sig .tc) → Buf (Elt F) ((c : Thread nD τ).loc b) := fun c b => st6 m ρ c b
theorem arrs2 (c : Dev nD) (w : Fin cfg2.W) : (Head.dat (ent2 m ρ) c).arrAt w cfg2.N = ex2 m ρ c (Pipeline.arrRef spec2 w) :=
  (st6_arr m ρ c w).symm
theorem rest2 (c : Dev nD) : ∀ b, b ∉ Finset.univ.image (Pipeline.arrRef spec2) → ex2 m ρ c b = ent2 m ρ c b :=
  fun b hb => st6_of_ne m ρ c b fun w e => hb (Finset.mem_image.mpr ⟨w, Finset.mem_univ _, e⟩)

/-- After the normalising region: the end. -/
def st7 (c : Dev nD) : Valuation τ sig (Elt F) :=
  Pipeline.withArrays spec3 c (st6 m ρ c) fun w => (Norm.dat (ex2 m ρ) c).arrAt w cfg3.N
theorem st7_arr (c : Dev nD) (w : Fin cfg3.W) :
    st7 m ρ c (Proc.devRef .tc (Pipeline.arrRef spec3 w)) = (Norm.dat (ex2 m ρ) c).arrAt w cfg3.N := by
  unfold st7; exact Pipeline.withArrays_arr spec3 launch3.win.arr_inj c _ _ w
theorem st7_of_ne (c : Dev nD) (b : Ref sig .tc) (hb : ∀ w, Pipeline.arrRef spec3 w ≠ b) :
    st7 m ρ c (Proc.devRef .tc b) = st6 m ρ c (Proc.devRef .tc b) := by
  unfold st7; exact Pipeline.withArrays_of_ne spec3 c _ _ b hb
abbrev ex3 : (c : Dev nD) → (b : Ref sig .tc) → Buf (Elt F) ((c : Thread nD τ).loc b) := fun c b => st7 m ρ c b
theorem arrs3 (c : Dev nD) (w : Fin cfg3.W) : (Norm.dat (ex2 m ρ) c).arrAt w cfg3.N = ex3 m ρ c (Pipeline.arrRef spec3 w) :=
  (st7_arr m ρ c w).symm
theorem rest3 (c : Dev nD) : ∀ b, b ∉ Finset.univ.image (Pipeline.arrRef spec3) → ex3 m ρ c b = ex2 m ρ c b :=
  fun b hb => st7_of_ne m ρ c b fun w e => hb (Finset.mem_image.mpr ⟨w, Finset.mem_univ _, e⟩)

/-! ## The proof data family and what rides beside the buffers -/

/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => Emb.dat (ent0 m ρ) c
  | ⟨1, _⟩ => fun c => Gates.dat (ent1 m ρ) c
  | ⟨2, _⟩ => fun c => Head.dat (ent2 m ρ) c
  | ⟨3, _⟩ => fun c => Norm.dat (ex2 m ρ) c
abbrev 𝒱ₙ : Variants := Variants.none
/-- No core owes another anything: no level is assigned. -/
abbrev Lₙ : GSem nD τ sig → Finset Unit := fun _ => ∅
abbrev lvₙ : GSem nD τ sig → Unit → ℕ := fun _ _ => 0
/-- Beside the buffers: the generator register at some state and the core's dues, at nothing. -/
abbrev Rd (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The embedding region: entered with every unscoped buffer at `st1`, left at `st2`. -/
def reg0 : Pipeline.RegionSeg (pcfgs (F := F)) adm (pdats m ρ) () defs₀ 𝒱ₙ Lₙ lvₙ 0 where
  win := launch0.win.to₀
  block_pos := launch0.block_pos
  stage_whole := launch0.stage_whole
  K := PEmpty
  osem k := k.elim
  ho := Pipeline.OwnSemFacts.none _
  hbody c := (Emb.body_obligation (ent0 m ρ) c).loose
  hwaits := Pipeline.hwaits_of_owed_zero _ _ _ _ Lₙ lvₙ 0 fun _ _ => rfl
  pre c := iprop(StableHlo.held (c : Thread nD τ) (Pipeline.ucRefs τ sig) (st1 m ρ c) ∗ Rd c)
  post c := iprop(StableHlo.held (c : Thread nD τ) (Pipeline.ucRefs τ sig) (st2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (Emb.phi_in (ent0 m ρ) c)
    unfold Pipeline.ΦA
    iintro ⟨Hp, -, Hr⟩
    isplitl [Hr]; · iexact Hr
    iexact Hp
  hout c := by
    refine (show (pdats m ρ 0 c).Φ (Fin.last _) ⊢ Pipeline.ΦA spec0 c from Emb.phi_out (ent0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (ent0 m ρ c) (ex0 m ρ c) ((pdats m ρ 0 c).arrAt · cfg0.N) (arrs0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gates region: entered with every unscoped buffer at `st3`, left at `st4`. -/
def reg1 : Pipeline.RegionSeg (pcfgs (F := F)) adm (pdats m ρ) () defs₀ 𝒱ₙ Lₙ lvₙ 1 where
  win := launch1.win.to₀
  block_pos := launch1.block_pos
  stage_whole := launch1.stage_whole
  K := PEmpty
  osem k := k.elim
  ho := Pipeline.OwnSemFacts.none _
  hbody c := (Gates.body_obligation (ent1 m ρ) c).loose
  hwaits := Pipeline.hwaits_of_owed_zero _ _ _ _ Lₙ lvₙ 1 fun _ _ => rfl
  pre c := iprop(StableHlo.held (c : Thread nD τ) (Pipeline.ucRefs τ sig) (st3 m ρ c) ∗ Rd c)
  post c := iprop(StableHlo.held (c : Thread nD τ) (Pipeline.ucRefs τ sig) (st4 m ρ c) ∗ Rd c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Gates.phi_in (ent1 m ρ) c)
    unfold Pipeline.ΦA
    iintro ⟨Hp, -, Hr⟩
    isplitl [Hr]; · iexact Hr
    iexact Hp
  hout c := by
    refine (show (pdats m ρ 1 c).Φ (Fin.last _) ⊢ Pipeline.ΦA spec1 c from Gates.phi_out (ent1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (ent1 m ρ c) (ex1 m ρ c) ((pdats m ρ 1 c).arrAt · cfg1.N) (arrs1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The head region: entered with every unscoped buffer at `st5`, left at `st6`. -/
def reg2 : Pipeline.RegionSeg (pcfgs (F := F)) adm (pdats m ρ) () defs₀ 𝒱ₙ Lₙ lvₙ 2 where
  win := launch2.win.to₀
  block_pos := launch2.block_pos
  stage_whole := launch2.stage_whole
  K := PEmpty
  osem k := k.elim
  ho := Pipeline.OwnSemFacts.none _
  hbody c := (Head.body_obligation (ent2 m ρ) c).loose
  hwaits := Pipeline.hwaits_of_owed_zero _ _ _ _ Lₙ lvₙ 2 fun _ _ => rfl
  pre c := iprop(StableHlo.held (c : Thread nD τ) (Pipeline.ucRefs τ sig) (st5 m ρ c) ∗ Rd c)
  post c := iprop(StableHlo.held (c : Thread nD τ) (Pipeline.ucRefs τ sig) (st6 m ρ c) ∗ Rd c)
  X c := iprop(∃ r, prngReg c r)
  Y c := iprop(∃ r, prngReg c r)
  Z c := Pipeline.unscopedRest (Ix := Unit) (Name := ℕ) (U := UR sig nD τ) (Lvl := ℕ) spec2 c (ent2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (ent2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (Head.phi_in (ent2 m ρ) c)
    unfold Pipeline.ΦA
    iintro ⟨Hp, -, Hr⟩
    isplitl [Hr]; · iexact Hr
    iexact Hp
  hout c := by
    refine (show (pdats m ρ 2 c).Φ (Fin.last _) ⊢ Pipeline.ΦA spec2 c from Head.phi_out (ent2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (ent2 m ρ c) (ex2 m ρ c) ((pdats m ρ 2 c).arrAt · cfg2.N) (arrs2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region: entered with every unscoped buffer at `st6`, left at `st7`; its invariant is the plain
    one at every point. -/
def reg3 : Pipeline.RegionSeg (pcfgs (F := F)) adm (pdats m ρ) () defs₀ 𝒱ₙ Lₙ lvₙ 3 where
  win := launch3.win.to₀
  block_pos := launch3.block_pos
  stage_whole := launch3.stage_whole
  K := PEmpty
  osem k := k.elim
  ho := Pipeline.OwnSemFacts.none _
  hbody c := (Norm.body_obligation (ex2 m ρ) c).loose
  hwaits := Pipeline.hwaits_of_owed_zero _ _ _ _ Lₙ lvₙ 3 fun _ _ => rfl
  pre c := iprop(StableHlo.held (c : Thread nD τ) (Pipeline.ucRefs τ sig) (st6 m ρ c) ∗ Rd c)
  post c := iprop(StableHlo.held (c : Thread nD τ) (Pipeline.ucRefs τ sig) (st7 m ρ c) ∗ Rd c)
  X c := iprop(∃ r, prngReg c r)
  Y c := iprop(∃ r, prngReg c r)
  Z c := Pipeline.unscopedRest (Ix := Unit) (Name := ℕ) (U := UR sig nD τ) (Lvl := ℕ) spec3 c (ex2 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (ex2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (ex2 m ρ c) (ex3 m ρ c) ((pdats m ρ 3 c).arrAt · cfg3.N) (arrs3 m ρ c) (rest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m ρ) () defs₀ 𝒱ₙ Lₙ lvₙ) :=
  [ .host (hseg hostOps0 hostOps0_sub hostOps0_fresh (st0 m ρ)),
    .region (reg0 m ρ),
    .host (hseg hostOps1 hostOps1_sub hostOps1_fresh (st2 m ρ)),
    .region (reg1 m ρ),
    .host (hseg hostOps2 hostOps2_sub hostOps2_fresh (st4 m ρ)),
    .region (reg2 m ρ),
    .region (reg3 m ρ) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faults, and
    the final memory holds every unscoped buffer of every core at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = st7 m ρ c b) :=
  Pipeline.θ_run_regions_kit (pcfgs (F := F)) adm (pdats m ρ) () cellOf_inj emb₁ defs₀ 𝒱ₙ Lₙ lvₙ m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (st0 m ρ c) ∗ Rd c))
    (Tₙ := fun c => iprop(StableHlo.held (c : Thread nD τ) (Pipeline.ucRefs τ sig) (st7 m ρ c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (st7 m ρ c) ∗ Rd c) ⊢ _
      iintro ⟨Hh, Hp, HO⟩
      isplitl [Hh Hp]
      · isplitl [Hh]; · iexact Hh
        iexact Hp
      iexact HO⟩)
    (hinit := by
      refine Pipeline.initEach Lₙ lvₙ fun c => ?_
      rw [show unscopedBufs c (fun b => m ((c : Thread nD τ).loc b)) = StableHlo.held (c : Thread nD τ) (Pipeline.ucRefs τ sig) (st0 m ρ c)
        from Pipeline.unscopedBufs_held c (st0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = st7 m ρ c b)
    (hfin := fun c s' => by
      iintro ⟨⟨Hh, -⟩, HSI⟩
      unfold StableHlo.held
      imodintro
      iapply (pointsTo_read_all (Pipeline.ucRefs τ sig) (fun b => (((c : Thread nD τ)).1, b)) (st7 m ρ c) s')
      isplitl [Hh] <;> iassumption)
    (hQ := fun s h c => h c)

end Cert.KernelIdeal.Run

end
-- ==== Proof.KernelIdealFrame.lean ====
/-
  What the run's last valuation holds.

  No host line writes an argument and no region has an argument among its output windows: a region either stages
  an argument through an input window — whose array the pipeline leaves as it found it — or does not touch it.
  So every argument ends at its launch contents. The three results are output windows: the normalised logits are
  what the last region leaves in its output array; the new hidden state and the new cell are what the gates region
  leaves in its two output arrays, which nothing after it writes.
-/
import proofs.«125352_j18708877541498_2_alg».proof.Proof.KernelIdealRun

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## A region leaves every array that is not one of its outputs -/

theorem inputs0 : ∀ w : Fin cfg0.W, Pipeline.arrRef spec0 w ∉ ([main_call0_v2] : List (Ref sig .tc)) → (cfg0.win w).isOut = false := by decide
theorem inputs1 : ∀ w : Fin cfg1.W, Pipeline.arrRef spec1 w ∉ ([main_v0_1, main_v0_2] : List (Ref sig .tc)) → (cfg1.win w).isOut = false := by decide
theorem inputs2 : ∀ w : Fin cfg2.W, Pipeline.arrRef spec2 w ∉ ([main_call0_v24_0, main_call0_v24_1] : List (Ref sig .tc)) → (cfg2.win w).isOut = false := by decide
theorem inputs3 : ∀ w : Fin cfg3.W, Pipeline.arrRef spec3 w ∉ ([main_v0_0] : List (Ref sig .tc)) → (cfg3.win w).isOut = false := by decide

theorem keep0 (c : Dev nD) (b : Ref sig .tc) (h : b ∉ ([main_call0_v2] : List (Ref sig .tc))) :
    st2 m ρ c (Proc.devRef .tc b) = st1 m ρ c (Proc.devRef .tc b) := by
  by_cases hw : ∃ w, Pipeline.arrRef spec0 w = b
  · obtain ⟨w, rfl⟩ := hw
    exact (st2_arr m ρ c w).trans (((Emb.dat (ent0 m ρ) c).arrAt_in w (inputs0 w h) _).trans (Emb.dat_A (ent0 m ρ) c w))
  · exact st2_of_ne m ρ c b (fun w e => hw ⟨w, e⟩)

theorem keep1 (c : Dev nD) (b : Ref sig .tc) (h : b ∉ ([main_v0_1, main_v0_2] : List (Ref sig .tc))) :
    st4 m ρ c (Proc.devRef .tc b) = st3 m ρ c (Proc.devRef .tc b) := by
  by_cases hw : ∃ w, Pipeline.arrRef spec1 w = b
  · obtain ⟨w, rfl⟩ := hw
    exact (st4_arr m ρ c w).trans (((Gates.dat (ent1 m ρ) c).arrAt_in w (inputs1 w h) _).trans (Gates.dat_A (ent1 m ρ) c w))
  · exact st4_of_ne m ρ c b (fun w e => hw ⟨w, e⟩)

theorem keep2 (c : Dev nD) (b : Ref sig .tc) (h : b ∉ ([main_call0_v24_0, main_call0_v24_1] : List (Ref sig .tc))) :
    st6 m ρ c (Proc.devRef .tc b) = st5 m ρ c (Proc.devRef .tc b) := by
  by_cases hw : ∃ w, Pipeline.arrRef spec2 w = b
  · obtain ⟨w, rfl⟩ := hw
    exact (st6_arr m ρ c w).trans (((Head.dat (ent2 m ρ) c).arrAt_in w (inputs2 w h) _).trans (Head.dat_A (ent2 m ρ) c w))
  · exact st6_of_ne m ρ c b (fun w e => hw ⟨w, e⟩)

theorem keep3 (c : Dev nD) (b : Ref sig .tc) (h : b ∉ ([main_v0_0] : List (Ref sig .tc))) :
    st7 m ρ c (Proc.devRef .tc b) = st6 m ρ c (Proc.devRef .tc b) := by
  by_cases hw : ∃ w, Pipeline.arrRef spec3 w = b
  · obtain ⟨w, rfl⟩ := hw
    exact (st7_arr m ρ c w).trans (((Norm.dat (ex2 m ρ) c).arrAt_in w (inputs3 w h) _).trans (Norm.dat_A (ex2 m ρ) c w))
  · exact st7_of_ne m ρ c b (fun w e => hw ⟨w, e⟩)

/-! ## The arguments end as launched -/

/-- A reference that no host stretch writes and that is no region's output holds at the end what it held at launch. -/
theorem untouched (c : Dev nD) (b : Ref sig .tc) (h0 : b ∉ hostOps0_W) (h1 : b ∉ ([main_call0_v2] : List (Ref sig .tc)))
    (h2 : b ∉ hostOps1_W) (h3 : b ∉ ([main_v0_1, main_v0_2] : List (Ref sig .tc))) (h4 : b ∉ hostOps2_W)
    (h5 : b ∉ ([main_call0_v24_0, main_call0_v24_1] : List (Ref sig .tc))) (h6 : b ∉ ([main_v0_0] : List (Ref sig .tc))) :
    st7 m ρ c (Proc.devRef .tc b) = m ((c : Thread nD τ).loc b) :=
  (keep3 m ρ c b h6).trans <| (keep2 m ρ c b h5).trans <|
  (StableHlo.after_of_writes_sub hostOps2 _ hostOps2_writes h4).trans <| (keep1 m ρ c b h3).trans <|
  (StableHlo.after_of_writes_sub hostOps1 _ hostOps1_writes h2).trans <| (keep0 m ρ c b h1).trans <|
  (StableHlo.after_of_writes_sub hostOps0 _ hostOps0_writes h0).trans rfl

/-- The same read off a final memory that holds every unscoped buffer at the last valuation. -/
theorem arg_end (c : Dev nD) (b : Ref sig .tc) (hs : ¬ (Proc.devRef .tc b : DevRef τ sig).isScoped) (h0 : b ∉ hostOps0_W)
    (h1 : b ∉ ([main_call0_v2] : List (Ref sig .tc))) (h2 : b ∉ hostOps1_W) (h3 : b ∉ ([main_v0_1, main_v0_2] : List (Ref sig .tc)))
    (h4 : b ∉ hostOps2_W) (h5 : b ∉ ([main_call0_v24_0, main_call0_v24_1] : List (Ref sig .tc))) (h6 : b ∉ ([main_v0_0] : List (Ref sig .tc)))
    (s : (ℓ : Loc nD τ sig) → Buf (Elt F) ℓ)
    (h : ∀ b ∈ Pipeline.ucRefs τ sig, s (((c : Thread nD τ)).1, b) = st7 m ρ c b) :
    s ((c.tc : Thread nD τ).loc b) = m ((c.tc : Thread nD τ).loc b) :=
  (h _ (mem_uc b hs)).trans (untouched m ρ c b h0 h1 h2 h3 h4 h5 h6)

/-! ## The results -/

/-- The normalised logits are what the last region leaves in its output array. -/
theorem out_end (c : Dev nD) : st7 m ρ c (Proc.devRef .tc main_v0_0) = (Norm.dat (ex2 m ρ) c).arrAt 2 cfg3.N :=
  st7_arr m ρ c 2

/-- The new hidden state is what the gates region leaves in its first output array. -/
theorem hidden_end (c : Dev nD) : st7 m ρ c (Proc.devRef .tc main_v0_1) = (Gates.dat (ent1 m ρ) c).arrAt 15 cfg1.N :=
  (keep3 m ρ c main_v0_1 (by decide)).trans <| (keep2 m ρ c main_v0_1 (by decide)).trans <|
  (StableHlo.after_of_writes_sub hostOps2 _ hostOps2_writes (by decide)).trans (st4_arr m ρ c 15)

/-- The new cell is what the gates region leaves in its second output array. -/
theorem cell_end (c : Dev nD) : st7 m ρ c (Proc.devRef .tc main_v0_2) = (Gates.dat (ent1 m ρ) c).arrAt 16 cfg1.N :=
  (keep3 m ρ c main_v0_2 (by decide)).trans <| (keep2 m ρ c main_v0_2 (by decide)).trans <|
  (StableHlo.after_of_writes_sub hostOps2 _ hostOps2_writes (by decide)).trans (st4_arr m ρ c 16)

/-! ## All the arguments at once -/

section AllArguments

variable (c : Dev nD) (s : (ℓ : Loc nD τ sig) → Buf (Elt F) ℓ)

/-- The argument `b` holds in `s` what it held at launch. -/
def Kept (b : Ref sig .tc) : Prop := s ((c.tc : Thread nD τ).loc b) = m ((c.tc : Thread nD τ).loc b)

/-- Every argument array holds, in a final memory that has every unscoped buffer at the last valuation, what it held
    at launch. -/
theorem args_end (h : ∀ b ∈ Pipeline.ucRefs τ sig, s (((c : Thread nD τ)).1, b) = st7 m ρ c b) :
    Kept m c s main_arg0 ∧ Kept m c s main_arg1 ∧ Kept m c s main_arg2 ∧ Kept m c s main_arg3 ∧ Kept m c s main_arg4 ∧ Kept m c s main_arg5
      ∧ Kept m c s main_arg6 ∧ Kept m c s main_arg7 ∧ Kept m c s main_arg8 ∧ Kept m c s main_arg9 ∧ Kept m c s main_arg10 ∧ Kept m c s main_arg11
      ∧ Kept m c s main_arg12 ∧ Kept m c s main_arg13 ∧ Kept m c s main_arg14 ∧ Kept m c s main_arg15 ∧ Kept m c s main_arg16 ∧ Kept m c s main_arg17
      ∧ Kept m c s main_arg18 ∧ Kept m c s main_arg19 ∧ Kept m c s main_arg20 ∧ Kept m c s main_arg21 ∧ Kept m c s main_arg22 :=
  ⟨arg_end m ρ c main_arg0 (by decide) (by decide) (by decide) (by decide) (by decide) (by decide) (by decide) (by decide) s h,
   arg_end m ρ c main_arg1 (by decide) (by decide) (by decide) (by decide) (by decide) (by decide) (by decide) (by decide) s h,
   arg_end m ρ c main_arg2 (by decide) (by decide) (by decide) (by decide) (by decide) (by decide) (by decide) (by decide) s h,
   arg_end m ρ c main_arg3 (by decide) (by decide) (by decide) (by decide) (by decide) (by decide) (by decide) (by decide) s h,
   arg_end m ρ c main_arg4 (by decide) (by decide) (by decide) (by decide) (by decide) (by decide) (by decide) (by decide) s h,
   arg_end m ρ c main_arg5 (by decide) (by decide) (by decide) (by decide) (by decide) (by decide) (by decide) (by decide) s h,
   arg_end m ρ c main_arg6 (by decide) (by decide) (by decide) (by decide) (by decide) (by decide) (by decide) (by decide) s h,
   arg_end m ρ c main_arg7 (by decide) (by decide) (by decide) (by decide) (by decide) (by decide) (by decide) (by decide) s h,
   arg_end m ρ c main_arg8 (by decide) (by decide) (by decide) (by decide) (by decide) (by decide) (by decide) (by decide) s h,
   arg_end m ρ c main_arg9 (by decide) (by decide) (by decide) (by decide) (by decide) (by decide) (by decide) (by decide) s h,
   arg_end m ρ c main_arg10 (by decide) (by decide) (by decide) (by decide) (by decide) (by decide) (by decide) (by decide) s h,
   arg_end m ρ c main_arg11 (by decide) (by decide) (by decide) (by decide) (by decide) (by decide) (by decide) (by decide) s h,
   arg_end m ρ c main_arg12 (by decide) (by decide) (by decide) (by decide) (by decide) (by decide) (by decide) (by decide) s h,
   arg_end m ρ c main_arg13 (by decide) (by decide) (by decide) (by decide) (by decide) (by decide) (by decide) (by decide) s h,
   arg_end m ρ c main_arg14 (by decide) (by decide) (by decide) (by decide) (by decide) (by decide) (by decide) (by decide) s h,
   arg_end m ρ c main_arg15 (by decide) (by decide) (by decide) (by decide) (by decide) (by decide) (by decide) (by decide) s h,
   arg_end m ρ c main_arg16 (by decide) (by decide) (by decide) (by decide) (by decide) (by decide) (by decide) (by decide) s h,
   arg_end m ρ c main_arg17 (by decide) (by decide) (by decide) (by decide) (by decide) (by decide) (by decide) (by decide) s h,
   arg_end m ρ c main_arg18 (by decide) (by decide) (by decide) (by decide) (by decide) (by decide) (by decide) (by decide) s h,
   arg_end m ρ c main_arg19 (by decide) (by decide) (by decide) (by decide) (by decide) (by decide) (by decide) (by decide) s h,
   arg_end m ρ c main_arg20 (by decide) (by decide) (by decide) (by decide) (by decide) (by decide) (by decide) (by decide) s h,
   arg_end m ρ c main_arg21 (by decide) (by decide) (by decide) (by decide) (by decide) (by decide) (by decide) (by decide) s h,
   arg_end m ρ c main_arg22 (by decide) (by decide) (by decide) (by decide) (by decide) (by decide) (by decide) (by decide) s h⟩

end AllArguments

end Cert.KernelIdeal.Run

end
-- ==== Proof.LstmSpec.lean ====
/-
  One step of a long short-term memory cell with an embedding layer in front and a log-softmax head behind, as
  functions of the argument arrays on the extended reals.

  emb     = input · We + be
  pre_g   = (emb · Wg + hidden · Ug) + (bg + bhg)            for each gate g ∈ {f, i, c, o}
  cell'   = σ(pre_f) · cell + σ(pre_i) · tanh(pre_c)          σ the logistic function
  hidden' = σ(pre_o) · tanh(cell')
  logit   = hidden' · Wend + bend
  out     = (logit − max_v logit) − log(0 + Σ_v exp(logit − max_v logit))      along each row

  Every product is a plain sum over the whole contracted axis. Arrays enter as functions of coordinates, so the
  same definitions serve the kernel's blocks and the reference's whole arrays.
-/
import Idealize.ShloMosaic.PureOps.Ideal
import Idealize.ShloMosaic.Lib.ValueIdx

noncomputable section

namespace Cert.LstmSpec

open Idealize.ShloMosaic Idealize.ShloMosaic.ValueIdx

/-- An [a, b] array, an [n] vector and a [1, n] row as functions of coordinates. -/
abbrev mat {a b : ℕ} (x : (⟨2, ![a, b]⟩ : Shape).Idx → EReal) (p : Fin a) (q : Fin b) : EReal := x (ix2 p q)
abbrev vec {n : ℕ} (x : (⟨1, ![n]⟩ : Shape).Idx → EReal) (p : Fin n) : EReal := x (ix1 p)
abbrev row {n : ℕ} (x : (⟨2, ![1, n]⟩ : Shape).Idx → EReal) (p : Fin n) : EReal := x (ix2 (0 : Fin 1) p)

/-- rows · weights + bias: Σ_k x(r,k) · w(k,e) + b(e). -/
def affine {K N : ℕ} (x : Fin 4096 → Fin K → EReal) (w : Fin K → Fin N → EReal) (b : Fin N → EReal)
    (r : Fin 4096) (e : Fin N) : EReal :=
  (∑ k : Fin K, x r k * w k e) + b e

/-- A gate's pre-activation: the two products added, then the two biases' sum. -/
def pre (E H : Fin 4096 → Fin 2048 → EReal) (W U : Fin 2048 → Fin 2048 → EReal) (b bh : Fin 2048 → EReal)
    (r : Fin 4096) (j : Fin 2048) : EReal :=
  ((∑ k : Fin 2048, E r k * W k j) + (∑ k : Fin 2048, H r k * U k j)) + (b j + bh j)

/-- The new cell from the three gates' pre-activations and the old cell. -/
def cellOf (pf pi pc c : EReal) : EReal := Ideal.logistic pf * c + Ideal.logistic pi * Ideal.tanh pc

/-- The new hidden state from the output gate's pre-activation and the new cell. -/
def hiddenOf (po c' : EReal) : EReal := Ideal.logistic po * Ideal.tanh c'

/-- The one-shot logarithm of the softmax of a row L at the value x of one of its entries. -/
def logSoftmaxAt {n : ℕ} (L : Fin n → EReal) (x : EReal) : EReal :=
  (x - (Finset.univ : Finset (Fin n)).fold max ⊥ L)
    - Ideal.log (0 + ∑ v : Fin n, Ideal.exp (L v - (Finset.univ : Finset (Fin n)).fold max ⊥ L))

/-- An extended real that is a real number. -/
def IsReal (a : EReal) : Prop := ∃ x : ℝ, a = (x : EReal)

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.zero : IsReal 0 := ⟨0, rfl⟩

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

end Cert.LstmSpec

end
-- ==== Proof.KernelIdealEntries.lean ====
/-
  What each region finds in its window arrays, at the ideal instance.

  The host lines between the regions only recast to bf16 (the identity on extended reals), reshape a vector [n] to
  the row [1, n], and add two bias vectors. So: the embedding region reads the input, the embedding weights and the
  embedding bias as a row; the gates region reads the embedding region's result, the hidden state, the cell, the
  eight weight matrices and the four pairwise sums of biases as rows; the head region reads the gates region's new
  hidden state, the head weights and the head bias as a row; the normalising region reads the head region's two
  results.
-/
import proofs.«125352_j18708877541498_2_alg».proof.Proof.KernelIdealFrame
import proofs.«125352_j18708877541498_2_alg».proof.Proof.LstmSpec
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.Entries

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Run Idealize.ShloMosaic.ValueIdx Cert.LstmSpec

variable (m : (ℓ : Loc nD τ sig) → Buf (Elt Ideal) ℓ) (ρ : Dev nD → PrngReg)

/-! ## A reference nothing has written yet holds its launch contents -/

theorem at1 (c : Dev nD) (b : Ref sig .tc) (h0 : b ∉ hostOps0_W) :
    st1 m ρ c (Proc.devRef .tc b) = m ((c : Thread nD τ).loc b) :=
  (StableHlo.after_of_writes_sub hostOps0 _ hostOps0_writes h0).trans rfl

theorem at2 (c : Dev nD) (b : Ref sig .tc) (h0 : b ∉ hostOps0_W) (h1 : b ∉ ([main_call0_v2] : List (Ref sig .tc))) :
    st2 m ρ c (Proc.devRef .tc b) = m ((c : Thread nD τ).loc b) :=
  (keep0 m ρ c b h1).trans (at1 m ρ c b h0)

theorem at3 (c : Dev nD) (b : Ref sig .tc) (h0 : b ∉ hostOps0_W) (h1 : b ∉ ([main_call0_v2] : List (Ref sig .tc)))
    (h2 : b ∉ hostOps1_W) : st3 m ρ c (Proc.devRef .tc b) = m ((c : Thread nD τ).loc b) :=
  (StableHlo.after_of_writes_sub hostOps1 _ hostOps1_writes h2).trans (at2 m ρ c b h0 h1)

theorem at4 (c : Dev nD) (b : Ref sig .tc) (h0 : b ∉ hostOps0_W) (h1 : b ∉ ([main_call0_v2] : List (Ref sig .tc)))
    (h2 : b ∉ hostOps1_W) (h3 : b ∉ ([main_v0_1, main_v0_2] : List (Ref sig .tc))) :
    st4 m ρ c (Proc.devRef .tc b) = m ((c : Thread nD τ).loc b) :=
  (keep1 m ρ c b h3).trans (at3 m ρ c b h0 h1 h2)

/-! ## The embedding region's inputs -/

theorem emb_input (c : Dev nD) (i : S4096x4096.Idx) :
    st1 m ρ c (Proc.devRef .tc main_arg0) i = m ((c : Thread nD τ).loc main_arg0) i :=
  congrFun (at1 m ρ c main_arg0 (by decide)) i

theorem emb_weights (c : Dev nD) (i : S4096x2048.Idx) :
    st1 m ρ c (Proc.devRef .tc main_call0_v0) i = m ((c : Thread nD τ).loc main_arg3) i := by
  show StableHlo.after hostOps0 (fun b => m (c, b)) (Proc.devRef .tc main_call0_v0) i = _
  after_results
  rfl

theorem emb_bias (c : Dev nD) (e : Fin 2048) :
    st1 m ρ c (Proc.devRef .tc main_call0_v1) (ix2 (0 : Fin 1) e) = m ((c : Thread nD τ).loc main_arg4) (ix1 e) := by
  show StableHlo.after hostOps0 (fun b => m (c, b)) (Proc.devRef .tc main_call0_v1) (ix2 (0 : Fin 1) e) = _
  after_results
  show shapeCast S1x2048 (m ((c : Thread nD τ).loc main_arg4) : FVec Ideal S2048 .f32) shapeCasts_S2048_S1x2048 (ix2 (0 : Fin 1) e) = _
  exact shapeCast_a_1a_apply _ _ (0 : Fin 1) e

/-! ## The gates region's inputs -/

/-- The embedding it reads is what the embedding region left. -/
theorem gates_emb (c : Dev nD) :
    st3 m ρ c (Proc.devRef .tc main_call0_v2) = (Emb.dat (ent0 m ρ) c).arrAt 3 cfg0.N :=
  (StableHlo.after_of_writes_sub hostOps1 _ hostOps1_writes (by decide)).trans (st2_arr m ρ c 3)

theorem gates_cell (c : Dev nD) (i : S4096x2048.Idx) :
    st3 m ρ c (Proc.devRef .tc main_arg2) i = m ((c : Thread nD τ).loc main_arg2) i :=
  congrFun (at3 m ρ c main_arg2 (by decide) (by decide) (by decide)) i

/-- A matrix recast to bf16 by the second host stretch is the argument it was recast from. -/
theorem gates_hidden (c : Dev nD) (i : S4096x2048.Idx) :
    st3 m ρ c (Proc.devRef .tc main_call0_v11) i = m ((c : Thread nD τ).loc main_arg1) i := by
  have h : st3 m ρ c (Proc.devRef .tc main_call0_v11) i = st2 m ρ c (Proc.devRef .tc main_arg1) i := by
    show StableHlo.after hostOps1 (st2 m ρ c) (Proc.devRef .tc main_call0_v11) i = _
    after_results
    rfl
  rw [h, at2 m ρ c main_arg1 (by decide) (by decide)]

theorem gates_wf (c : Dev nD) (i : S2048x2048.Idx) :
    st3 m ρ c (Proc.devRef .tc main_call0_v12) i = m ((c : Thread nD τ).loc main_arg5) i := by
  have h : st3 m ρ c (Proc.devRef .tc main_call0_v12) i = st2 m ρ c (Proc.devRef .tc main_arg5) i := by
    show StableHlo.after hostOps1 (st2 m ρ c) (Proc.devRef .tc main_call0_v12) i = _
    after_results
    rfl
  rw [h, at2 m ρ c main_arg5 (by decide) (by decide)]

/-- A bias row: two bias vectors added, then reshaped to a row. -/
theorem gates_bf (c : Dev nD) (j : Fin 2048) :
    row (st3 m ρ c (Proc.devRef .tc main_call0_v4)) j
      = vec (m ((c : Thread nD τ).loc main_arg6)) j + vec (m ((c : Thread nD τ).loc main_arg14)) j := by
  have h : row (st3 m ρ c (Proc.devRef .tc main_call0_v4)) j
      = vec (st2 m ρ c (Proc.devRef .tc main_arg6)) j + vec (st2 m ρ c (Proc.devRef .tc main_arg14)) j := by
    show StableHlo.after hostOps1 (st2 m ρ c) (Proc.devRef .tc main_call0_v4) (ix2 (0 : Fin 1) j) = _
    after_results
    let A : FVec Ideal S2048 .f32 := st2 m ρ c (Proc.devRef .tc main_arg6)
    let B : FVec Ideal S2048 .f32 := st2 m ρ c (Proc.devRef .tc main_arg14)
    show shapeCast S1x2048 (addf A B) shapeCasts_S2048_S1x2048 (ix2 (0 : Fin 1) j) = _
    exact (shapeCast_a_1a_apply (addf A B) shapeCasts_S2048_S1x2048 (0 : Fin 1) j).trans rfl
  rw [h, at2 m ρ c main_arg6 (by decide) (by decide), at2 m ρ c main_arg14 (by decide) (by decide)]

theorem gates_bi (c : Dev nD) (j : Fin 2048) :
    row (st3 m ρ c (Proc.devRef .tc main_call0_v6)) j
      = vec (m ((c : Thread nD τ).loc main_arg8)) j + vec (m ((c : Thread nD τ).loc main_arg16)) j := by
  have h : row (st3 m ρ c (Proc.devRef .tc main_call0_v6)) j
      = vec (st2 m ρ c (Proc.devRef .tc main_arg8)) j + vec (st2 m ρ c (Proc.devRef .tc main_arg16)) j := by
    show StableHlo.after hostOps1 (st2 m ρ c) (Proc.devRef .tc main_call0_v6) (ix2 (0 : Fin 1) j) = _
    after_results
    let A : FVec Ideal S2048 .f32 := st2 m ρ c (Proc.devRef .tc main_arg8)
    let B : FVec Ideal S2048 .f32 := st2 m ρ c (Proc.devRef .tc main_arg16)
    show shapeCast S1x2048 (addf A B) shapeCasts_S2048_S1x2048 (ix2 (0 : Fin 1) j) = _
    exact (shapeCast_a_1a_apply (addf A B) shapeCasts_S2048_S1x2048 (0 : Fin 1) j).trans rfl
  rw [h, at2 m ρ c main_arg8 (by decide) (by decide), at2 m ρ c main_arg16 (by decide) (by decide)]

theorem gates_bc (c : Dev nD) (j : Fin 2048) :
    row (st3 m ρ c (Proc.devRef .tc main_call0_v8)) j
      = vec (m ((c : Thread nD τ).loc main_arg10)) j + vec (m ((c : Thread nD τ).loc main_arg18)) j := by
  have h : row (st3 m ρ c (Proc.devRef .tc main_call0_v8)) j
      = vec (st2 m ρ c (Proc.devRef .tc main_arg10)) j + vec (st2 m ρ c (Proc.devRef .tc main_arg18)) j := by
    show StableHlo.after hostOps1 (st2 m ρ c) (Proc.devRef .tc main_call0_v8) (ix2 (0 : Fin 1) j) = _
    after_results
    let A : FVec Ideal S2048 .f32 := st2 m ρ c (Proc.devRef .tc main_arg10)
    let B : FVec Ideal S2048 .f32 := st2 m ρ c (Proc.devRef .tc main_arg18)
    show shapeCast S1x2048 (addf A B) shapeCasts_S2048_S1x2048 (ix2 (0 : Fin 1) j) = _
    exact (shapeCast_a_1a_apply (addf A B) shapeCasts_S2048_S1x2048 (0 : Fin 1) j).trans rfl
  rw [h, at2 m ρ c main_arg10 (by decide) (by decide), at2 m ρ c main_arg18 (by decide) (by decide)]

theorem gates_bo (c : Dev nD) (j : Fin 2048) :
    row (st3 m ρ c (Proc.devRef .tc main_call0_v10)) j
      = vec (m ((c : Thread nD τ).loc main_arg12)) j + vec (m ((c : Thread nD τ).loc main_arg20)) j := by
  have h : row (st3 m ρ c (Proc.devRef .tc main_call0_v10)) j
      = vec (st2 m ρ c (Proc.devRef .tc main_arg12)) j + vec (st2 m ρ c (Proc.devRef .tc main_arg20)) j := by
    show StableHlo.after hostOps1 (st2 m ρ c) (Proc.devRef .tc main_call0_v10) (ix2 (0 : Fin 1) j) = _
    after_results
    let A : FVec Ideal S2048 .f32 := st2 m ρ c (Proc.devRef .tc main_arg12)
    let B : FVec Ideal S2048 .f32 := st2 m ρ c (Proc.devRef .tc main_arg20)
    show shapeCast S1x2048 (addf A B) shapeCasts_S2048_S1x2048 (ix2 (0 : Fin 1) j) = _
    exact (shapeCast_a_1a_apply (addf A B) shapeCasts_S2048_S1x2048 (0 : Fin 1) j).trans rfl
  rw [h, at2 m ρ c main_arg12 (by decide) (by decide), at2 m ρ c main_arg20 (by decide) (by decide)]

/-- The other seven weight matrices, each recast from its argument. -/
theorem gates_wi (c : Dev nD) (i : S2048x2048.Idx) :
    st3 m ρ c (Proc.devRef .tc main_call0_v13) i = m ((c : Thread nD τ).loc main_arg7) i := by
  have h : st3 m ρ c (Proc.devRef .tc main_call0_v13) i = st2 m ρ c (Proc.devRef .tc main_arg7) i := by
    show StableHlo.after hostOps1 (st2 m ρ c) (Proc.devRef .tc main_call0_v13) i = _
    after_results
    rfl
  rw [h, at2 m ρ c main_arg7 (by decide) (by decide)]

theorem gates_wc (c : Dev nD) (i : S2048x2048.Idx) :
    st3 m ρ c (Proc.devRef .tc main_call0_v14) i = m ((c : Thread nD τ).loc main_arg9) i := by
  have h : st3 m ρ c (Proc.devRef .tc main_call0_v14) i = st2 m ρ c (Proc.devRef .tc main_arg9) i := by
    show StableHlo.after hostOps1 (st2 m ρ c) (Proc.devRef .tc main_call0_v14) i = _
    after_results
    rfl
  rw [h, at2 m ρ c main_arg9 (by decide) (by decide)]

theorem gates_wo (c : Dev nD) (i : S2048x2048.Idx) :
    st3 m ρ c (Proc.devRef .tc main_call0_v15) i = m ((c : Thread nD τ).loc main_arg11) i := by
  have h : st3 m ρ c (Proc.devRef .tc main_call0_v15) i = st2 m ρ c (Proc.devRef .tc main_arg11) i := by
    show StableHlo.after hostOps1 (st2 m ρ c) (Proc.devRef .tc main_call0_v15) i = _
    after_results
    rfl
  rw [h, at2 m ρ c main_arg11 (by decide) (by decide)]

theorem gates_uf (c : Dev nD) (i : S2048x2048.Idx) :
    st3 m ρ c (Proc.devRef .tc main_call0_v16) i = m ((c : Thread nD τ).loc main_arg13) i := by
  have h : st3 m ρ c (Proc.devRef .tc main_call0_v16) i = st2 m ρ c (Proc.devRef .tc main_arg13) i := by
    show StableHlo.after hostOps1 (st2 m ρ c) (Proc.devRef .tc main_call0_v16) i = _
    after_results
    rfl
  rw [h, at2 m ρ c main_arg13 (by decide) (by decide)]

theorem gates_ui (c : Dev nD) (i : S2048x2048.Idx) :
    st3 m ρ c (Proc.devRef .tc main_call0_v17) i = m ((c : Thread nD τ).loc main_arg15) i := by
  have h : st3 m ρ c (Proc.devRef .tc main_call0_v17) i = st2 m ρ c (Proc.devRef .tc main_arg15) i := by
    show StableHlo.after hostOps1 (st2 m ρ c) (Proc.devRef .tc main_call0_v17) i = _
    after_results
    rfl
  rw [h, at2 m ρ c main_arg15 (by decide) (by decide)]

theorem gates_uc (c : Dev nD) (i : S2048x2048.Idx) :
    st3 m ρ c (Proc.devRef .tc main_call0_v18) i = m ((c : Thread nD τ).loc main_arg17) i := by
  have h : st3 m ρ c (Proc.devRef .tc main_call0_v18) i = st2 m ρ c (Proc.devRef .tc main_arg17) i := by
    show StableHlo.after hostOps1 (st2 m ρ c) (Proc.devRef .tc main_call0_v18) i = _
    after_results
    rfl
  rw [h, at2 m ρ c main_arg17 (by decide) (by decide)]

theorem gates_uo (c : Dev nD) (i : S2048x2048.Idx) :
    st3 m ρ c (Proc.devRef .tc main_call0_v19) i = m ((c : Thread nD τ).loc main_arg19) i := by
  have h : st3 m ρ c (Proc.devRef .tc main_call0_v19) i = st2 m ρ c (Proc.devRef .tc main_arg19) i := by
    show StableHlo.after hostOps1 (st2 m ρ c) (Proc.devRef .tc main_call0_v19) i = _
    after_results
    rfl
  rw [h, at2 m ρ c main_arg19 (by decide) (by decide)]

/-! ## The head region's inputs -/

/-- The hidden state it reads is the gates region's first result, recast. -/
theorem head_hidden (c : Dev nD) (i : S4096x2048.Idx) :
    st5 m ρ c (Proc.devRef .tc main_call0_v21) i = (Gates.dat (ent1 m ρ) c).arrAt 15 cfg1.N i := by
  have h : st5 m ρ c (Proc.devRef .tc main_call0_v21) i = st4 m ρ c (Proc.devRef .tc main_v0_1) i := by
    show StableHlo.after hostOps2 (st4 m ρ c) (Proc.devRef .tc main_call0_v21) i = _
    after_results
    rfl
  rw [h]
  exact congrFun (st4_arr m ρ c 15) i

theorem head_weights (c : Dev nD) (i : S2048x32000.Idx) :
    st5 m ρ c (Proc.devRef .tc main_call0_v22) i = m ((c : Thread nD τ).loc main_arg21) i := by
  have h : st5 m ρ c (Proc.devRef .tc main_call0_v22) i = st4 m ρ c (Proc.devRef .tc main_arg21) i := by
    show StableHlo.after hostOps2 (st4 m ρ c) (Proc.devRef .tc main_call0_v22) i = _
    after_results
    rfl
  rw [h, at4 m ρ c main_arg21 (by decide) (by decide) (by decide) (by decide)]

theorem head_bias (c : Dev nD) (v : Fin 32000) :
    row (st5 m ρ c (Proc.devRef .tc main_call0_v23)) v = vec (m ((c : Thread nD τ).loc main_arg22)) v := by
  have h : row (st5 m ρ c (Proc.devRef .tc main_call0_v23)) v = vec (st4 m ρ c (Proc.devRef .tc main_arg22)) v := by
    show StableHlo.after hostOps2 (st4 m ρ c) (Proc.devRef .tc main_call0_v23) (ix2 (0 : Fin 1) v) = _
    after_results
    let A : FVec Ideal S32000 .f32 := st4 m ρ c (Proc.devRef .tc main_arg22)
    show shapeCast S1x32000 A shapeCasts_S32000_S1x32000 (ix2 (0 : Fin 1) v) = _
    exact (shapeCast_a_1a_apply A shapeCasts_S32000_S1x32000 (0 : Fin 1) v).trans rfl
  rw [h, at4 m ρ c main_arg22 (by decide) (by decide) (by decide) (by decide)]

/-! ## The normalising region's inputs -/

/-- The logits and the rows' log-sum-exp column it reads are the head region's two results. -/
theorem norm_logits (c : Dev nD) :
    st6 m ρ c (Proc.devRef .tc main_call0_v24_0) = (Head.dat (ent2 m ρ) c).arrAt 3 cfg2.N :=
  st6_arr m ρ c 3

theorem norm_lse (c : Dev nD) :
    st6 m ρ c (Proc.devRef .tc main_call0_v24_1) = (Head.dat (ent2 m ρ) c).arrAt 4 cfg2.N :=
  st6_arr m ρ c 4

end Cert.KernelIdeal.Entries

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibBlockedSum.lean ====
/-
  A finite sum over `n · B` consecutive positions, cut into `n` runs of `B` positions each: in any commutative additive
  monoid (the extended reals among them: no subtraction, no finiteness)

      Σ_{k < n·B} g k  =  Σ_{s < n} Σ_{j < B} g (B·s + j).

  This is the law by which a contraction accumulated run by run — a matrix product whose contracted axis is walked in
  blocks, each block's partial product added to a running total — is the one whole contraction.
-/
import Mathlib.Algebra.BigOperators.Fin
import Mathlib.Algebra.BigOperators.Intervals

namespace Idealize.ShloMosaic.BlockedSum

variable {M : Type*} [AddCommMonoid M]

/-- Over `Finset.range`: the first `n · B` positions are `n` runs of `B`. -/
theorem sum_range_blocks (B : ℕ) (g : ℕ → M) : ∀ n : ℕ,
    ∑ k ∈ Finset.range (n * B), g k = ∑ s ∈ Finset.range n, ∑ j ∈ Finset.range B, g (B * s + j)
  | 0 => by simp
  | n + 1 => by
    rw [Nat.succ_mul, Finset.sum_range_add, sum_range_blocks B g n, Finset.sum_range_succ, Nat.mul_comm n B]

/-- The same with the positions and the positions inside a run as `Fin` indices: the form a contraction over a
    coordinate of a shape takes. -/
theorem sum_fin_blocks (n B : ℕ) (g : ℕ → M) :
    ∑ k : Fin (n * B), g k.val = ∑ s ∈ Finset.range n, ∑ j : Fin B, g (B * s + j.val) := by
  rw [Fin.sum_univ_eq_sum_range (fun k => g k) (n * B), sum_range_blocks B g n]
  refine Finset.sum_congr rfl fun s _ => ?_
  exact (Fin.sum_univ_eq_sum_range (fun j => g (B * s + j)) B).symm

end Idealize.ShloMosaic.BlockedSum
-- ==== Proof.KernelIdealEmbValue.lean ====
/-
  The first kernel region's value, over the extended reals: the output array ends holding input · We + be.

  Over the extended reals the roundings are the identity. A grid point's accumulating store adds to the accumulator
  the product of the point's [512, 512] input tile and [512, 2048] weights tile; the zeroing store makes it 0. So
  after the k-th point of a run along the contracted axis the accumulator holds, at row p and column q, the sum over
  the first k + 1 blocks of 512 contracted positions of input (row, position) · weights (position, q): by induction
  on the point. After the run's last point that is the sum over all 4096 positions (a sum over 8 · 512 positions is
  8 sums over 512), and the output tile stored there is that sum plus the bias row's entry. The output tiles
  written back at the last points of the 8 runs tile the output array.
-/
import proofs.«125352_j18708877541498_2_alg».proof.Proof.KernelIdealEmb
import proofs.«125352_j18708877541498_2_alg».proof.Proof.LibPlainDot
import proofs.«125352_j18708877541498_2_alg».proof.Proof.LibBlockedSum
import Idealize.ShloMosaic.Lib.Pipeline.Value
import Idealize.ShloMosaic.Lib.ValueIdx

set_option maxRecDepth 16384

noncomputable section

namespace Cert.KernelIdeal.EmbValue

open Cert.KernelIdeal Cert.KernelIdeal.Gen Cert.KernelIdeal.Emb
open Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-! ## The three stores at an index -/

/-- The zeroing store leaves 0. -/
theorem accZero_apply (p : Fin 512) (q : Fin 2048) : accZero (F := Ideal) (ix2 p q) = 0 := by
  unfold accZero
  rw [View.canon_unit_zero hz]
  unfold k0_pay1
  simp only [shapeCast_self]
  exact Ideal.ofBits_zero_f32

/-- The accumulating store leaves what the accumulator held plus the product of the tiles. -/
theorem accStep_apply (x : Vec Ideal S512x512 .f32) (a : Vec Ideal S512x2048 .f32) (w : Vec Ideal S512x2048 .bf16)
    (p : Fin 512) (q : Fin 2048) :
    accStep x a w (ix2 p q) = a (ix2 p q) + ∑ k : Fin 512, x (ix2 p k) * w (ix2 k q) := by
  unfold accStep
  rw [View.canon_unit_zero hz]
  simp only [View.ld_unit_zero (S := S512x512) hz, View.ld_unit_zero (S := S512x2048) hz]
  unfold k0_pay2
  simp only [shapeCast_self]
  refine (addf_apply _ _ _).trans ?_
  refine congrArg (a (ix2 p q) + ·) ?_
  exact PlainDot.matmul_apply_ix2 (M := 512) (K := 512) (N := 2048) none _ _ p q

/-- The output's store leaves the accumulator plus the bias row's entry. -/
theorem outTile_apply (a : Vec Ideal S512x2048 .f32) (b : Vec Ideal S1x2048 .f32) (p : Fin 512) (q : Fin 2048) :
    outTile a b (ix2 p q) = a (ix2 p q) + b (ix2 0 q) := by
  unfold outTile
  rw [View.canon_unit_zero hz]
  simp only [View.ld_unit_zero (S := S512x2048) hz, View.ld_unit_zero (S := S1x2048) hz]
  unfold k0_pay3
  simp only [shapeCast_self]
  show a (ix2 p q) + broadcastTo S512x2048 b broadcasts_S1x2048_S512x2048 (ix2 p q) = _
  refine congrArg (a (ix2 p q) + ·) ?_
  exact broadcastTo_apply b _ (ix2 p q) (ix2 0 q) (fun d => by
    match d with
    | ⟨0, _⟩ => rfl
    | ⟨1, _⟩ => rfl)

/-! ## The blocks, as parts of the arrays -/

/-- The printed index maps over the grid: point `t = 8 i + k` reads input block `(i, k)`, weights block `(k, 0)`
    and the bias row, and its output block is `(i, 0)`. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

-- the buffers' contents when the region is entered
variable (V : (c : Dev nD) → (b : Ref sig .tc) → Buf (Elt Ideal) ((c : Thread nD τ).loc b))

/-- The input, the weights and the bias row as the region finds them. -/
abbrev inp (c : Dev nD) : S4096x4096.Idx → EReal := V c (Pipeline.arrRef spec0 0)
abbrev wts (c : Dev nD) : S4096x2048.Idx → EReal := V c (Pipeline.arrRef spec0 1)
abbrev bias (c : Dev nD) : S1x2048.Idx → EReal := V c (Pipeline.arrRef spec0 2)

/-- The three input tiles at point `t`, at their literal shapes. -/
def xTile (c : Dev nD) (t : Fin cfg0.N) : Vec Ideal S512x512 .f32 := blockAt V c 0 t
def wTile (c : Dev nD) (t : Fin cfg0.N) : Vec Ideal S512x2048 .bf16 := blockAt V c 1 t
def bTile (c : Dev nD) (t : Fin cfg0.N) : Vec Ideal S1x2048 .f32 := blockAt V c 2 t

/-- The input tile at point `t` holds rows `512 (t / 8) + ·`, columns `512 (t % 8) + ·` of the input. -/
theorem x_block (c : Dev nD) (t : Fin cfg0.N) (p k : Fin 512) (r k' : Fin 4096)
    (hr : r.val = 512 * (t.val / 8) + p.val) (hk : k'.val = 512 * (t.val % 8) + k.val) :
    xTile V c t (ix2 p k) = inp V c (ix2 r k') := by
  obtain ⟨e0, e1, -⟩ := idx_facts t
  unfold xTile blockAt
  rw [View.read_apply]
  show V c (Pipeline.arrRef spec0 0) _ = V c (Pipeline.arrRef spec0 0) _
  congr 1
  funext a
  apply Fin.ext
  match a with
  | ⟨0, _⟩ => show win0_0.index t (0 : Fin 2) * 512 + 1 * p.val = r.val; omega
  | ⟨1, _⟩ => show win0_0.index t (1 : Fin 2) * 512 + 1 * k.val = k'.val; omega

/-- The weights tile at point `t` holds rows `512 (t % 8) + ·` of the weights. -/
theorem w_block (c : Dev nD) (t : Fin cfg0.N) (k : Fin 512) (q : Fin 2048) (k' : Fin 4096)
    (hk : k'.val = 512 * (t.val % 8) + k.val) :
    wTile V c t (ix2 k q) = wts V c (ix2 k' q) := by
  obtain ⟨-, -, e2, e3, -⟩ := idx_facts t
  unfold wTile blockAt
  rw [View.read_apply]
  show V c (Pipeline.arrRef spec0 1) _ = V c (Pipeline.arrRef spec0 1) _
  congr 1
  funext a
  apply Fin.ext
  match a with
  | ⟨0, _⟩ => show win0_1.index t (0 : Fin 2) * 512 + 1 * k.val = k'.val; omega
  | ⟨1, _⟩ => show win0_1.index t (1 : Fin 2) * 2048 + 1 * q.val = q.val; omega

/-- The bias tile is the bias row at every point. -/
theorem b_block (c : Dev nD) (t : Fin cfg0.N) (q : Fin 2048) :
    bTile V c t (ix2 0 q) = bias V c (ix2 0 q) := by
  obtain ⟨-, -, -, -, e4, e5, -⟩ := idx_facts t
  unfold bTile blockAt
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * 0 = 0; omega
  | ⟨1, _⟩ => show win0_2.index t (1 : Fin 2) * 2048 + 1 * q.val = q.val; omega

/-! ## The accumulator -/

/-- The product of the input's entry `(r, k)` and the weights' entry `(k, q)`; 0 past the contracted axis. -/
def term (c : Dev nD) (r : Fin 4096) (q : Fin 2048) (k : ℕ) : EReal :=
  if h : k < 4096 then inp V c (ix2 r ⟨k, h⟩) * wts V c (ix2 ⟨k, h⟩ q) else 0

/-- The product of the two tiles at point `t`, at row `p` and column `q`, is the sum of the terms over the point's
    block of contracted positions. -/
theorem tiles_product (c : Dev nD) (t : Fin cfg0.N) (p : Fin 512) (q : Fin 2048) (r : Fin 4096)
    (hr : r.val = 512 * (t.val / 8) + p.val) :
    ∑ k : Fin 512, xTile V c t (ix2 p k) * wTile V c t (ix2 k q)
      = ∑ j : Fin 512, term V c r q (512 * (t.val % 8) + j.val) := by
  refine Finset.sum_congr rfl fun k _ => ?_
  have hN : t.val < 64 := lt_of_lt_of_eq t.isLt (show cfg0.N = 64 from N_0)
  have hk : 512 * (t.val % 8) + k.val < 4096 := by have := k.isLt; omega
  rw [x_block V c t p k r ⟨_, hk⟩ hr rfl, w_block V c t k q ⟨_, hk⟩ rfl]
  unfold term
  rw [dif_pos hk]

/-- After position `n` the accumulator holds, at row `p` and column `q`, the sum of the terms over the first
    `n % 8 + 1` blocks of contracted positions: by induction on the position. -/
theorem accAt_apply (c : Dev nD) : ∀ (n : ℕ) (hn : n < cfg0.N) (p : Fin 512) (q : Fin 2048) (r : Fin 4096),
    r.val = 512 * (n / 8) + p.val →
    accAt V c n hn (ix2 p q) = ∑ s ∈ Finset.range (n % 8 + 1), ∑ j : Fin 512, term V c r q (512 * s + j.val) := by
  intro n
  induction n with
  | zero =>
    intro hn p q r hr
    refine (congrFun (accAt_first V c ⟨0, hn⟩ rfl) (ix2 p q)).trans ?_
    refine (accStep_apply (xTile V c ⟨0, hn⟩) (accZero (F := Ideal)) (wTile V c ⟨0, hn⟩) p q).trans ?_
    refine (congrArg₂ (· + ·) (accZero_apply p q) (tiles_product V c ⟨0, hn⟩ p q r hr)).trans ?_
    show 0 + ∑ j : Fin 512, term V c r q (512 * 0 + j.val) = ∑ s ∈ Finset.range 1, _
    rw [zero_add, Finset.sum_range_one]
  | succ n ih =>
    intro hn p q r hr
    have hN : n + 1 < 64 := lt_of_lt_of_eq hn (show cfg0.N = 64 from N_0)
    by_cases h : (n + 1) % 8 = 0
    · refine (congrFun (accAt_first V c ⟨n + 1, hn⟩ h) (ix2 p q)).trans ?_
      refine (accStep_apply (xTile V c ⟨n + 1, hn⟩) (accZero (F := Ideal)) (wTile V c ⟨n + 1, hn⟩) p q).trans ?_
      refine (congrArg₂ (· + ·) (accZero_apply p q) (tiles_product V c ⟨n + 1, hn⟩ p q r hr)).trans ?_
      show 0 + ∑ j : Fin 512, term V c r q (512 * ((n + 1) % 8) + j.val) = _
      simp only [h, zero_add, Finset.sum_range_one]
    · refine (congrFun (accAt_next V c ⟨n + 1, hn⟩ h) (ix2 p q)).trans ?_
      refine (accStep_apply (xTile V c ⟨n + 1, hn⟩) (accAt V c n (Nat.lt_of_succ_lt hn)) (wTile V c ⟨n + 1, hn⟩) p q).trans ?_
      refine (congrArg₂ (· + ·) (ih (Nat.lt_of_succ_lt hn) p q r (by omega)) (tiles_product V c ⟨n + 1, hn⟩ p q r hr)).trans ?_
      show _ + ∑ j : Fin 512, term V c r q (512 * ((n + 1) % 8) + j.val) = _
      rw [show (n + 1) % 8 = n % 8 + 1 by omega]
      exact (Finset.sum_range_succ (fun s => ∑ j : Fin 512, term V c r q (512 * s + j.val)) (n % 8 + 1)).symm

/-- After the last point of a run the accumulator holds the whole contraction. -/
theorem accAt_last (c : Dev nD) (t : Fin cfg0.N) (h7 : t.val % 8 = 7) (p : Fin 512) (q : Fin 2048) (r : Fin 4096)
    (hr : r.val = 512 * (t.val / 8) + p.val) :
    accAt V c t.val t.isLt (ix2 p q) = ∑ k : Fin 4096, inp V c (ix2 r k) * wts V c (ix2 k q) := by
  rw [accAt_apply V c t.val t.isLt p q r hr, h7]
  refine (BlockedSum.sum_fin_blocks 8 512 (term V c r q)).symm.trans ?_
  refine Finset.sum_congr rfl fun k _ => ?_
  unfold term
  rw [dif_pos k.isLt]

/-! ## From the tiles to the array -/

/-- What the output array ends holding: at row `r` and column `e` the whole contraction plus the bias row's entry. -/
def embArr (c : Dev nD) : S4096x2048.Idx → EReal :=
  fun i => (∑ k : Fin 4096, inp V c (ix2 (i 0 : Fin 4096) k) * wts V c (ix2 k (i 1 : Fin 2048))) + bias V c (ix2 0 (i 1 : Fin 2048))

/-- The output tile a run's last point leaves, at row `p` and column `q`. -/
theorem out_apply (c : Dev nD) (t : Fin cfg0.N) (h7 : t.val % 8 = 7) (p : Fin 512) (q : Fin 2048) (r : Fin 4096)
    (hr : r.val = 512 * (t.val / 8) + p.val) :
    outTile (accAt V c t.val t.isLt) (bTile V c t) (ix2 p q) = embArr V c (ix2 r q) := by
  refine (outTile_apply (accAt V c t.val t.isLt) (bTile V c t) p q).trans ?_
  exact congrArg₂ (· + ·) (accAt_last V c t h7 p q r hr) (b_block V c t q)

/-- What a flushing point writes back is its block of `embArr`. -/
theorem flushed_eq (c : Dev nD) (t : Fin cfg0.N) (hf : (cfg0.win 3).flush t = true) :
    (dat V c).flushed 3 t = ((cfg0.win 3).blk t).view.read (Elt Ideal) (embArr V c) := by
  have h7 : t.val % 8 = 7 := (flush0_3 t).mp hf
  have hN : t.val < 64 := lt_of_lt_of_eq t.isLt (show cfg0.N = 64 from N_0)
  obtain ⟨-, -, -, -, -, -, e6, e7⟩ := idx_facts t
  show (cfg0.win 3).cut (grid0.coords t) ((dat V c).after 3 t) = _
  rw [after_out]
  funext j
  rw [View.read_apply]
  have hr : 512 * (t.val / 8) + (j 0).val < 4096 := by have : (j 0).val < 512 := (j 0).isLt; omega
  have he : ((cfg0.win 3).blk t).view.emb j = ix2 (⟨512 * (t.val / 8) + (j 0).val, hr⟩ : Fin 4096) (⟨(j 1).val, (j 1).isLt⟩ : Fin 2048) := by
    funext a; apply Fin.ext
    match a with
    | ⟨0, _⟩ => show win0_3.index t (0 : Fin 2) * 512 + 1 * (j 0).val = 512 * (t.val / 8) + (j 0).val; omega
    | ⟨1, _⟩ => show win0_3.index t (1 : Fin 2) * 2048 + 1 * (j 1).val = (j 1).val; omega
  rw [he]
  refine Eq.trans ?_ (out_apply V c t h7 ⟨(j 0).val, (j 0).isLt⟩ ⟨(j 1).val, (j 1).isLt⟩ ⟨_, hr⟩ rfl)
  exact congrArg (outTile (accAt V c t.val t.isLt) (blockAt V c 2 t)) (eq_ix2 j)

/-- An index of the array is in point `t`'s output block iff each coordinate is in the block's range on its axis. -/
theorem mem_blk (t : Fin cfg0.N) (i : S4096x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_call0_v2).slice (win0_3.rect t)).set ↔ _
  rw [View.set_slice_whole, Rect.mem_set_unit]
  exact Iff.rfl

/-- The output tiles written back tile the array: row `r` is in the block of the last point of run `r / 512`. -/
theorem covered (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  have hN : cfg0.N = 64 := N_0
  obtain ⟨t, ht⟩ : ∃ t : Fin cfg0.N, t.val = 8 * ((i 0).val / 512) + 7 := ⟨⟨8 * ((i 0).val / 512) + 7, by rw [hN]; omega⟩, rfl⟩
  obtain ⟨-, -, -, -, -, -, e6, e7⟩ := idx_facts t
  refine ⟨t, (flush0_3 t).mpr (by omega), ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- The output array after the region. -/
theorem final (c : Dev nD) : (dat V c).arrAt 3 cfg0.N = embArr V c :=
  (dat V c).arrAt_eq_of_cover 3 (embArr V c) (flushed_eq V c) (fun i => covered i)

/-- THE VALUE: the output array ends holding, at row `r` and column `e`, the contraction of the input's row `r` with
    the weights' column `e` over all 4096 positions, plus the bias row's entry `e`. -/
theorem result (c : Dev nD) (r : Fin 4096) (e : Fin 2048) :
    (Emb.dat V c).arrAt 3 cfg0.N (ix2 r e)
      = (∑ k : Fin 4096, inp V c (ix2 r k) * wts V c (ix2 k e)) + bias V c (ix2 0 e) :=
  congrFun (final V c) (ix2 r e)

end Cert.KernelIdeal.EmbValue

end
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«125352_j18708877541498_2_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.LibOnlineLse.lean ====
/-
  The online computation of a row's log-sum-exp, tile by tile, on the extended reals.

  A row of logits is walked in tiles of B columns. Two running quantities are kept: the maximum m of the
  entries seen so far (−∞ before the first tile) and the sum l of exp(x − m) over the entries seen so far
  (0 before the first tile). A tile with entries s_0, …, s_{B−1} and maximum c updates them to

      m' = max m c,      l' = exp(m − m') · l + Σ_j exp(s_j − m').

  When every entry is a real number the pair after k ≥ 1 tiles is exactly (M, Σ exp(x − M)), the sums over
  all the entries seen and M their maximum: exp(m − m') · exp(x − m) = exp(x − m') for real x, m, m', and a
  real factor distributes over a finite sum of reals. On the first tile the old maximum is −∞, exp(−∞) = 0
  and the old sum is 0, so the rescaled old sum contributes 0. Both laws used (the exponential of a sum, and
  distributivity) fail at the infinities, which is why the entries are taken real.
-/
import Idealize.ShloMosaic.PureOps.Ideal
import proofs.«125352_j18708877541498_2_alg».proof.Proof.LibERealSum

open scoped BigOperators

namespace Idealize.ShloMosaic.OnlineLse

/-- One tile's update of the running pair (maximum, shifted sum of exponentials): with c the maximum of the
    tile's entries (the fold of max from −∞), the new maximum is m' = max m c and the new sum is
    exp(m − m') · l + Σ_j exp(s_j − m'). -/
noncomputable def step {B : ℕ} (st : EReal × EReal) (s : Fin B → EReal) : EReal × EReal :=
  (max st.1 ((Finset.univ : Finset (Fin B)).fold max ⊥ s),
   Ideal.exp (st.1 - max st.1 ((Finset.univ : Finset (Fin B)).fold max ⊥ s)) * st.2
     + ∑ j, Ideal.exp (s j - max st.1 ((Finset.univ : Finset (Fin B)).fold max ⊥ s)))

/-- The running pair after the first k tiles, from (−∞, 0): tile t has the entries s t 0, …, s t (B−1). -/
noncomputable def run {B : ℕ} (s : ℕ → Fin B → EReal) : ℕ → EReal × EReal
  | 0 => (⊥, 0)
  | k + 1 => step (run s k) (s k)

/-- The coercion of the reals into the extended reals commutes with the maximum of two (it is monotone). -/
theorem coe_max (a b : ℝ) : ((max a b : ℝ) : EReal) = max ((a : ℝ) : EReal) ((b : ℝ) : EReal) :=
  EReal.coe_strictMono.monotone.map_max

/-- A real upper bound of a family of reals that one member attains is the fold of max from −∞ over the
    family: the fold is below every upper bound of the members and of −∞, and above every member. -/
theorem fold_max_coe_eq {n : ℕ} (L : Fin n → ℝ) (M : ℝ) (hle : ∀ j, L j ≤ M) (hat : ∃ j, L j = M) :
    (Finset.univ : Finset (Fin n)).fold max ⊥ (fun j => ((L j : ℝ) : EReal)) = ((M : ℝ) : EReal) := by
  obtain ⟨j, hj⟩ := hat
  apply le_antisymm
  · exact (Finset.fold_max_le _).mpr ⟨bot_le, fun x _ => EReal.coe_le_coe_iff.mpr (hle x)⟩
  · exact (Finset.le_fold_max _).mpr (Or.inr ⟨j, Finset.mem_univ j, by rw [hj]⟩)

/-- The fold of max from −∞ over a nonempty finite family of reals is a real: the greatest member, an upper
    bound of the family that one member attains. -/
theorem fold_max_coe {n : ℕ} (hn : 0 < n) (L : Fin n → ℝ) :
    ∃ M : ℝ, (∀ j, L j ≤ M) ∧ (∃ j, L j = M)
      ∧ (Finset.univ : Finset (Fin n)).fold max ⊥ (fun j => ((L j : ℝ) : EReal)) = ((M : ℝ) : EReal) := by
  have hne : (Finset.univ : Finset (Fin n)).Nonempty := ⟨⟨0, hn⟩, Finset.mem_univ _⟩
  obtain ⟨j, _, hj⟩ := Finset.exists_mem_eq_sup' hne L
  have hle : ∀ i, L i ≤ Finset.univ.sup' hne L := fun i => Finset.le_sup' L (Finset.mem_univ i)
  exact ⟨_, hle, ⟨j, hj.symm⟩, fold_max_coe_eq L _ hle ⟨j, hj.symm⟩⟩

/-- A finite sum of exponentials of differences of reals, computed on the extended reals, is the coerced
    real sum: the difference of two reals is real, its exponential is the real exponential, and the coercion
    commutes with finite sums. -/
theorem sum_exp_coe {ι : Type*} [Fintype ι] (f : ι → ℝ) (M : ℝ) :
    ∑ j, Ideal.exp (((f j : ℝ) : EReal) - ((M : ℝ) : EReal)) = ((∑ j, Real.exp (f j - M) : ℝ) : EReal) := by
  rw [ERealSum.coe_finset_sum]
  exact Finset.sum_congr rfl fun j _ => by rw [← EReal.coe_sub, Ideal.exp_coe]

/-- The first tile, from (−∞, 0): the new maximum is the tile's maximum c, and the new sum is Σ_j exp(s_j − c),
    since −∞ − c = −∞, exp(−∞) = 0 and 0 · 0 = 0. -/
theorem step_init {B : ℕ} (c : ℝ) (s : Fin B → ℝ)
    (hc : (Finset.univ : Finset (Fin B)).fold max ⊥ (fun j => ((s j : ℝ) : EReal)) = ((c : ℝ) : EReal)) :
    step ((⊥ : EReal), (0 : EReal)) (fun j => ((s j : ℝ) : EReal))
      = (((c : ℝ) : EReal), ((∑ j, Real.exp (s j - c) : ℝ) : EReal)) := by
  unfold step
  simp only [hc, bot_le, max_eq_right, EReal.bot_sub, Ideal.exp_bot, mul_zero, zero_add]
  rw [sum_exp_coe]

/-- A later tile, from a real pair (m, l): every operation stays in the reals, so the new pair is
    (max m c, exp(m − max m c) · l + Σ_j exp(s_j − max m c)) computed in the reals. -/
theorem step_coe {B : ℕ} (m l c : ℝ) (s : Fin B → ℝ)
    (hc : (Finset.univ : Finset (Fin B)).fold max ⊥ (fun j => ((s j : ℝ) : EReal)) = ((c : ℝ) : EReal)) :
    step (((m : ℝ) : EReal), ((l : ℝ) : EReal)) (fun j => ((s j : ℝ) : EReal))
      = (((max m c : ℝ) : EReal),
         ((Real.exp (m - max m c) * l + ∑ j, Real.exp (s j - max m c) : ℝ) : EReal)) := by
  unfold step
  simp only [hc, ← coe_max]
  rw [sum_exp_coe, ← EReal.coe_sub, Ideal.exp_coe, ← EReal.coe_mul, ← EReal.coe_add]

/-- Moving the shift of a sum of exponentials from M₀ to M: exp(M₀ − M) · Σ exp(x − M₀) = Σ exp(x − M),
    because exp(M₀ − M) · exp(x − M₀) = exp(x − M) and a real factor distributes over a finite sum. -/
theorem rescale_sum {B : ℕ} (s : ℕ → Fin B → ℝ) (n : ℕ) (M₀ M : ℝ) :
    Real.exp (M₀ - M) * ∑ t ∈ Finset.range n, ∑ j, Real.exp (s t j - M₀)
      = ∑ t ∈ Finset.range n, ∑ j, Real.exp (s t j - M) := by
  rw [Finset.mul_sum]
  refine Finset.sum_congr rfl fun t _ => ?_
  rw [Finset.mul_sum]
  refine Finset.sum_congr rfl fun j _ => ?_
  rw [← Real.exp_add]
  congr 1
  ring

/-- The running pair after k ≥ 1 tiles of real entries is (M, Σ_{t<k} Σ_j exp(s t j − M)), with M the maximum
    of all the entries seen: a real upper bound of them that one of them attains. By induction on k: the first
    tile by step_init; a later tile by step_coe, the new maximum being max M₀ c (attained by the old maximiser
    or by the tile's), and the old sum moved to the new shift by rescale_sum. -/
theorem run_real {B : ℕ} (hB : 0 < B) (s : ℕ → Fin B → ℝ) (k : ℕ) (hk : 0 < k) :
    ∃ M : ℝ, (∀ t, t < k → ∀ j, s t j ≤ M) ∧ (∃ t, t < k ∧ ∃ j, s t j = M)
      ∧ run (fun t j => ((s t j : ℝ) : EReal)) k
          = (((M : ℝ) : EReal), ((∑ t ∈ Finset.range k, ∑ j, Real.exp (s t j - M) : ℝ) : EReal)) := by
  obtain ⟨k, rfl⟩ : ∃ k' : ℕ, k = k' + 1 := ⟨k - 1, by omega⟩
  clear hk
  induction k with
  | zero =>
    obtain ⟨c, hle, ⟨j, hj⟩, hc⟩ := fold_max_coe hB (s 0)
    refine ⟨c, ?_, ⟨0, Nat.one_pos, j, hj⟩, ?_⟩
    · intro t ht i
      obtain rfl : t = 0 := by omega
      exact hle i
    · show step ((⊥ : EReal), (0 : EReal)) (fun j => ((s 0 j : ℝ) : EReal)) = _
      rw [step_init c (s 0) hc, Finset.sum_range_one]
  | succ k ih =>
    obtain ⟨M₀, hle₀, ⟨t₀, ht₀, j₀, hj₀⟩, hrun⟩ := ih
    obtain ⟨c, hlec, ⟨jc, hjc⟩, hc⟩ := fold_max_coe hB (s (k + 1))
    refine ⟨max M₀ c, ?_, ?_, ?_⟩
    · intro t ht i
      rcases Nat.lt_succ_iff_lt_or_eq.mp ht with h | rfl
      · exact le_trans (hle₀ t h i) (le_max_left _ _)
      · exact le_trans (hlec i) (le_max_right _ _)
    · rcases le_total M₀ c with h | h
      · exact ⟨k + 1, by omega, jc, by rw [hjc, max_eq_right h]⟩
      · exact ⟨t₀, by omega, j₀, by rw [hj₀, max_eq_left h]⟩
    · show step (run (fun t j => ((s t j : ℝ) : EReal)) (k + 1)) (fun j => ((s (k + 1) j : ℝ) : EReal)) = _
      rw [hrun, step_coe M₀ _ c (s (k + 1)) hc, rescale_sum, ← Finset.sum_range_succ]

end Idealize.ShloMosaic.OnlineLse
-- ==== Proof.KernelIdealHeadValuePay.lean ====
/-
  The head region's arithmetic read at an index, over the extended reals.

  At row p of a grid point's block: the logits tile's entry (p, q) is the contraction of hidden row p with weight
  column q plus the bias entry q; the new running maximum is the larger of the old one and the tile's row maximum;
  the new running sum is the old sum times exp(old maximum - new maximum) plus the row sum of exp(entry - new
  maximum); the log-sum-exp is the maximum plus the logarithm of the sum. The two carried columns start from
  -infinity and 0. So one point's update of the pair at row p is one step of the online log-sum-exp recurrence on
  the tile's row p.
-/
import proofs.«125352_j18708877541498_2_alg».proof.Proof.KernelIdealHeadDefs
import proofs.«125352_j18708877541498_2_alg».proof.Proof.LibPlainDot
import proofs.«125352_j18708877541498_2_alg».proof.Proof.LibRowReduce
import proofs.«125352_j18708877541498_2_alg».proof.Proof.LibColumn
import proofs.«125352_j18708877541498_2_alg».proof.Proof.LibRowColumn
import proofs.«125352_j18708877541498_2_alg».proof.Proof.LibOnlineLse
import Idealize.ShloMosaic.Lib.ValueLayout
import Idealize.ShloMosaic.Lib.ValueIdx

set_option maxRecDepth 16384

noncomputable section

open scoped BigOperators

namespace Cert.KernelIdeal.HeadValue

open Cert.KernelIdeal Cert.KernelIdeal.Gen
open Idealize.ShloMosaic Idealize.ShloMosaic.TcCoe Idealize.ShloMosaic.ValueIdx
open Idealize.ShloMosaic.Pipeline (Dat)

/-- The printed contraction record is the plain two-dimensional one. -/
theorem dot_plain : dot_S1024x2048_S2048x1280_S1024x1280_1_0_0_1_n_n = DotDims.plain 1024 2048 1280 := rfl

/-- The logits tile at row `p`, column `q`: hidden row `p` against weight column `q`, plus the bias entry `q`. -/
theorem tileOf_apply (x0 : Vec Ideal S1024x2048 .bf16) (x1 : Vec Ideal S2048x1280 .bf16) (x2 : Vec Ideal S1x1280 .f32)
    (p : Fin 1024) (q : Fin 1280) :
    Head.tileOf x0 x1 x2 (ix2 p q) = (∑ k : Fin 2048, x0 (ix2 p k) * x1 (ix2 k q)) + x2 (ix2 (0 : Fin 1) q) := by
  unfold Head.tileOf k2_pay5
  simp only [View.ld_unit_zero (S := S1024x2048) Head.hz, View.ld_unit_zero (S := S2048x1280) Head.hz,
    View.ld_unit_zero (S := S1x1280) Head.hz, shapeCast_self]
  refine (addf_apply _ _ _).trans ?_
  refine congrArg₂ (· + ·) ?_ ?_
  · rw [dot_plain]
    exact PlainDot.matmul_apply_ix2 none x0 x1 p q
  · exact broadcastTo_1b_ab_apply x2 _ p q

/-- The new running maximum at row `p`: the larger of the old one and the tile's row maximum. -/
theorem maxOf_apply (x0 : Vec Ideal S1024x2048 .bf16) (x1 : Vec Ideal S2048x1280 .bf16) (x2 : Vec Ideal S1x1280 .f32)
    (m : Vec Ideal S1024x1 .f32) (p : Fin 1024) :
    Head.maxOf x0 x1 x2 m (ix2 p (0 : Fin 1))
      = max (m (ix2 p (0 : Fin 1))) ((Finset.univ : Finset (Fin 1280)).fold max ⊥ (fun q => Head.tileOf x0 x1 x2 (ix2 p q))) := by
  unfold Head.maxOf k2_pay1 k2_pay6
  simp only [shapeCast_self]
  refine (maximumf_apply _ _ _).trans ?_
  refine congrArg (max (m (ix2 p (0 : Fin 1)))) ?_
  refine (Column.shapeCast_a_a1_apply _ _ p (0 : Fin 1)).trans ?_
  refine (RowReduce.multiReduction_maximumf_cols _ _ _ _ _ p).trans ?_
  rw [RowColumn.ofBits_negInf]
  rfl

/-- The new running sum at row `p`: the old sum rescaled to the new maximum, plus the tile's row sum of
    exponentials taken from the new maximum. -/
theorem sumOf_apply (x0 : Vec Ideal S1024x2048 .bf16) (x1 : Vec Ideal S2048x1280 .bf16) (x2 : Vec Ideal S1x1280 .f32)
    (m l : Vec Ideal S1024x1 .f32) (p : Fin 1024) :
    Head.sumOf x0 x1 x2 m l (ix2 p (0 : Fin 1))
      = l (ix2 p (0 : Fin 1)) * Ideal.exp (m (ix2 p (0 : Fin 1)) - Head.maxOf x0 x1 x2 m (ix2 p (0 : Fin 1)))
        + ∑ q : Fin 1280, Ideal.exp (Head.tileOf x0 x1 x2 (ix2 p q) - Head.maxOf x0 x1 x2 m (ix2 p (0 : Fin 1))) := by
  have hM : Head.maxOf x0 x1 x2 m = k2_pay6 (View.ld x0 Head.rH) (View.ld x1 Head.rW) (View.ld x2 Head.rB) m := by
    unfold Head.maxOf k2_pay1; exact shapeCast_self _ _
  rw [hM]
  unfold Head.sumOf Head.tileOf k2_pay7
  simp only [shapeCast_self]
  refine (addf_apply _ _ _).trans ?_
  refine congrArg₂ (· + ·) rfl ?_
  refine (Column.shapeCast_a_a1_apply _ _ p (0 : Fin 1)).trans ?_
  refine (RowReduce.multiReduction_add_cols _ _ _ _ _ p).trans ?_
  refine Finset.sum_congr rfl fun q _ => ?_
  show Ideal.exp (_ - broadcastTo S1024x1280 _ _ (ix2 p q)) = _
  rw [Column.broadcastTo_a1_ab_apply]

/-- The log-sum-exp at row `p` from a running maximum and sum: the maximum plus the logarithm of the sum. -/
theorem lseOf_apply (m l : Vec Ideal S1024x1 .f32) (p : Fin 1024) :
    Head.lseOf m l (ix2 p (0 : Fin 1)) = m (ix2 p (0 : Fin 1)) + Ideal.log (l (ix2 p (0 : Fin 1))) := rfl

/-- The running maximum starts from -infinity, -/
theorem maxInit_apply (p : Fin 1024) : Head.maxInit (F := Ideal) (ix2 p (0 : Fin 1)) = (⊥ : EReal) := by
  unfold Head.maxInit k2_pay3
  simp only [shapeCast_self]
  exact RowColumn.ofBits_negInf

/-- and the running sum from 0. -/
theorem sumInit_apply (p : Fin 1024) : Head.sumInit (F := Ideal) (ix2 p (0 : Fin 1)) = (0 : EReal) := by
  unfold Head.sumInit k2_pay4
  simp only [shapeCast_self]
  exact Ideal.ofBits_zero_f32

/-- ONE POINT'S UPDATE at row `p` is one step of the online recurrence on row `p` of the point's logits tile. -/
theorem update_row (x0 : Vec Ideal S1024x2048 .bf16) (x1 : Vec Ideal S2048x1280 .bf16) (x2 : Vec Ideal S1x1280 .f32)
    (m l : Vec Ideal S1024x1 .f32) (p : Fin 1024) :
    (Head.maxOf x0 x1 x2 m (ix2 p (0 : Fin 1)), Head.sumOf x0 x1 x2 m l (ix2 p (0 : Fin 1)))
      = OnlineLse.step (m (ix2 p (0 : Fin 1)), l (ix2 p (0 : Fin 1))) (fun q : Fin 1280 => Head.tileOf x0 x1 x2 (ix2 p q)) := by
  rw [sumOf_apply, maxOf_apply]
  unfold OnlineLse.step
  dsimp only
  rw [mul_comm (l (ix2 p (0 : Fin 1))) _]

end Cert.KernelIdeal.HeadValue

end
-- ==== Proof.LibOnlineLseBridge.lean ====
/-
  The online log-sum-exp of a row against the one-shot form, on the extended reals.

  A row of T·B real logits is read in T tiles of B columns, tile t holding the columns B·t, …, B·t + B − 1.
  The online computation ends with the pair (m, l): m the maximum of the row and l = Σ_c exp(L_c − m). The
  one-shot form takes the maximum of the whole row first, then the sum of exp(L_c − max), then the logarithm.
  Both give x − max − log Σ_c exp(L_c − max):

  * the two maxima are the same real number, each being an upper bound of the row that an entry attains
    (every column c is the column c mod B of the tile c div B, and every column of a tile t < T is a column of
    the row);
  * the sum over the T·B columns is the sum over the tiles of the sums over their columns;
  * the sum of exponentials is a positive real, so its logarithm is a real;
  * x − (b + c) = (x − b) − c for real b, c and ANY extended real x (at x = ±∞ both sides are x).
-/
import proofs.«125352_j18708877541498_2_alg».proof.Proof.LibOnlineLse
import proofs.«125352_j18708877541498_2_alg».proof.Proof.LibBlockedSum

open scoped BigOperators

namespace Idealize.ShloMosaic.OnlineLse

/-- Subtracting a sum of two reals from an extended real is subtracting them one after the other:
    x − (b + c) = (x − b) − c. For real x this is the law of the reals; at x = −∞ both sides are −∞ and at
    x = +∞ both are +∞, because b, c and b + c are finite. -/
theorem sub_add_coe (x : EReal) (b c : ℝ) :
    x - (((b : ℝ) : EReal) + ((c : ℝ) : EReal)) = (x - ((b : ℝ) : EReal)) - ((c : ℝ) : EReal) := by
  induction x using EReal.rec with
  | bot => rw [EReal.bot_sub, EReal.bot_sub, EReal.bot_sub]
  | coe r =>
    rw [← EReal.coe_add, ← EReal.coe_sub, ← EReal.coe_sub, ← EReal.coe_sub]
    congr 1
    ring
  | top => rw [← EReal.coe_add, EReal.top_sub_coe, EReal.top_sub_coe, EReal.top_sub_coe]

/-- The entry of tile t at column j of a row of T·B reals: the row's entry at position B·t + j (and 0 past
    the end of the row, which no tile t < T reaches). -/
def tile {T B : ℕ} (L : Fin (T * B) → ℝ) (t : ℕ) (j : Fin B) : ℝ :=
  if h : B * t + j.val < T * B then L ⟨B * t + j.val, h⟩ else 0

/-- The tiles read on the extended reals are the coerced real tiles. -/
theorem tile_coe {T B : ℕ} (L : Fin (T * B) → ℝ) :
    (fun (t : ℕ) (j : Fin B) =>
        if h : B * t + j.val < T * B then ((L ⟨B * t + j.val, h⟩ : ℝ) : EReal) else 0)
      = fun t j => ((tile L t j : ℝ) : EReal) := by
  funext t j
  unfold tile
  by_cases h : B * t + j.val < T * B
  · rw [dif_pos h, dif_pos h]
  · rw [dif_neg h, dif_neg h, EReal.coe_zero]

/-- Column j < B of tile t < T is inside the row: B·t + j < B·(t + 1) ≤ B·T. -/
theorem pos_lt {T B t j : ℕ} (ht : t < T) (hj : j < B) : B * t + j < T * B :=
  calc B * t + j < B * t + B := by omega
    _ = B * (t + 1) := by ring
    _ ≤ B * T := Nat.mul_le_mul_left _ (by omega)
    _ = T * B := Nat.mul_comm _ _

/-- Every column c of the row is column c mod B of tile c div B. -/
theorem tile_div_mod {T B : ℕ} (hB : 0 < B) (L : Fin (T * B) → ℝ) (c : Fin (T * B)) :
    tile L (c.val / B) ⟨c.val % B, Nat.mod_lt _ hB⟩ = L c := by
  have h : B * (c.val / B) + c.val % B = c.val := Nat.div_add_mod _ _
  rw [tile, dif_pos (show B * (c.val / B) + c.val % B < T * B by rw [h]; exact c.isLt)]
  congr 1
  exact Fin.ext h

/-- An upper bound of all the tiles' entries is an upper bound of the row. -/
theorem le_of_tiles {T B : ℕ} (hB : 0 < B) (L : Fin (T * B) → ℝ) (M : ℝ)
    (hle : ∀ t, t < T → ∀ j, tile L t j ≤ M) (c : Fin (T * B)) : L c ≤ M := by
  rw [← tile_div_mod hB L c]
  exact hle _ ((Nat.div_lt_iff_lt_mul hB).mpr c.isLt) _

/-- A value one of the tiles' entries takes is a value an entry of the row takes. -/
theorem attained_of_tiles {T B : ℕ} (L : Fin (T * B) → ℝ) (M : ℝ)
    (hat : ∃ t, t < T ∧ ∃ j, tile L t j = M) : ∃ c, L c = M := by
  obtain ⟨t, ht, j, hj⟩ := hat
  refine ⟨⟨B * t + j.val, pos_lt ht j.isLt⟩, ?_⟩
  rw [← hj, tile, dif_pos (pos_lt ht j.isLt)]

/-- The sum of exp(L_c − M) over the T·B columns of the row is the sum over the tiles of the sums over their
    columns. -/
theorem sum_exp_tiles {T B : ℕ} (L : Fin (T * B) → ℝ) (M : ℝ) :
    ∑ c, Real.exp (L c - M) = ∑ t ∈ Finset.range T, ∑ j, Real.exp (tile L t j - M) := by
  have h := BlockedSum.sum_fin_blocks T B
    (fun k => Real.exp ((if h : k < T * B then L ⟨k, h⟩ else 0) - M))
  refine Eq.trans (Finset.sum_congr rfl fun c _ => ?_) h
  rw [dif_pos c.isLt]

/-- THE BRIDGE. For a row of T·B real logits (T ≥ 1 tiles of B ≥ 1 columns) and any extended real x, the
    online form x − (m + log l), with (m, l) the running pair after the T tiles, is the one-shot form
    (x − max) − log(0 + Σ_c exp(L_c − max)), the maximum taken over the whole row at once. -/
theorem online_eq_oneshot {T B : ℕ} (hT : 0 < T) (hB : 0 < B) (L : Fin (T * B) → ℝ) (x : EReal) :
    x - ((run (fun (t : ℕ) (j : Fin B) => if h : B * t + j.val < T * B then ((L ⟨B * t + j.val, h⟩ : ℝ) : EReal) else 0) T).1
          + Ideal.log (run (fun (t : ℕ) (j : Fin B) => if h : B * t + j.val < T * B then ((L ⟨B * t + j.val, h⟩ : ℝ) : EReal) else 0) T).2)
      = (x - (Finset.univ : Finset (Fin (T * B))).fold max ⊥ (fun c => ((L c : ℝ) : EReal)))
          - Ideal.log (0 + ∑ c, Ideal.exp (((L c : ℝ) : EReal)
              - (Finset.univ : Finset (Fin (T * B))).fold max ⊥ (fun c => ((L c : ℝ) : EReal)))) := by
  rw [tile_coe L]
  obtain ⟨M, hle, hat, hrun⟩ := run_real hB (tile L) T hT
  have hfold := fold_max_coe_eq L M (le_of_tiles hB L M hle) (attained_of_tiles L M hat)
  have hpos : 0 < ∑ t ∈ Finset.range T, ∑ j, Real.exp (tile L t j - M) :=
    Finset.sum_pos (fun t _ => Finset.sum_pos (fun j _ => Real.exp_pos _) ⟨⟨0, hB⟩, Finset.mem_univ _⟩)
      ⟨0, Finset.mem_range.mpr hT⟩
  rw [hrun, hfold, sum_exp_coe, zero_add, sum_exp_tiles L M]
  simp only [Ideal.log_coe, if_neg (not_le.mpr hpos)]
  exact sub_add_coe x M _

end Idealize.ShloMosaic.OnlineLse
-- ==== Proof.KernelIdealHeadValue.lean ====
/-
  The head region's two result arrays, entry by entry, over the extended reals.

  With logit r v = sum_k h(r,k) * W(k,v) + b(0,v): the logits array ends holding logit r v at (r, v), and the
  log-sum-exp column ends holding, at row r, m + log l for (m, l) the online log-sum-exp pair of row r's logits
  walked in 25 tiles of 1280 columns from (-infinity, 0). Grid point t = 25 i + j handles rows 1024 i .. 1024 i +
  1023 and columns 1280 j .. 1280 j + 1279; the carried pair after point t, at row p of the block, is the online
  pair after j + 1 tiles of row 1024 i + p (by induction on the point); the column is written at j = 24. When row
  r's logits are all real the online form of x - lse is the one-shot form (x - max) - log (sum of exp (. - max)).
-/
import proofs.«125352_j18708877541498_2_alg».proof.Proof.KernelIdealHead
import proofs.«125352_j18708877541498_2_alg».proof.Proof.KernelIdealHeadValuePay
import proofs.«125352_j18708877541498_2_alg».proof.Proof.LibOnlineLseBridge

set_option maxRecDepth 16384

noncomputable section

open scoped BigOperators

namespace Cert.KernelIdeal.HeadValue

open Cert.KernelIdeal Cert.KernelIdeal.Gen
open Idealize.ShloMosaic Idealize.ShloMosaic.TcCoe Idealize.ShloMosaic.ValueIdx
open Idealize.ShloMosaic.Pipeline (Dat)

-- the buffers' contents when the region is entered
variable (V : (c : Dev nD) → (b : Ref sig .tc) → Buf (Elt Ideal) ((c : Thread nD τ).loc b))

/-- The three input arrays as the region finds them: hidden rows, head weights, bias row. -/
def hid (c : Dev nD) : S4096x2048.Idx → EReal := V c (Pipeline.arrRef spec2 0)
def wts (c : Dev nD) : S2048x32000.Idx → EReal := V c (Pipeline.arrRef spec2 1)
def bia (c : Dev nD) : S1x32000.Idx → EReal := V c (Pipeline.arrRef spec2 2)

/-- The logit of row `r`, column `v`. -/
def logit (c : Dev nD) (r : Fin 4096) (v : Fin 32000) : EReal :=
  (∑ k : Fin 2048, hid V c (ix2 r k) * wts V c (ix2 k v)) + bia V c (ix2 (0 : Fin 1) v)

/-- The windows' block indices at point t = 25 i + j: row block i for the hidden rows, the logits and the
    log-sum-exp column; column tile j for the weights, the bias and the logits. Decided over the grid. -/
theorem idx_facts : ∀ t : Fin cfg2.N,
    win2_0.index t (0 : Fin 2) = t.val / 25 ∧ win2_0.index t (1 : Fin 2) = 0
    ∧ win2_1.index t (0 : Fin 2) = 0 ∧ win2_1.index t (1 : Fin 2) = t.val % 25
    ∧ win2_2.index t (0 : Fin 2) = 0 ∧ win2_2.index t (1 : Fin 2) = t.val % 25
    ∧ win2_3.index t (0 : Fin 2) = t.val / 25 ∧ win2_3.index t (1 : Fin 2) = t.val % 25
    ∧ win2_4.index t (0 : Fin 2) = t.val / 25 ∧ win2_4.index t (1 : Fin 2) = 0 :=
  (by decide +kernel : ∀ t : Fin grid2.N, _)

/-- Row `p` of a point's hidden block is row 1024 i + p of the array. -/
theorem blk0_apply (c : Dev nD) (t : Fin cfg2.N) (p : Fin 1024) (k : Fin 2048) (r : Fin 4096) (hr : r.val = 1024 * (t.val / 25) + p.val) :
    Head.blk0 V c t (ix2 p k) = hid V c (ix2 r k) := by
  obtain ⟨e00, e01, e10, e11, e20, e21, e30, e31, e40, e41⟩ := idx_facts t
  show V c (Pipeline.arrRef spec2 0) (((cfg2.win 0).blk t).view.emb (ix2 p k)) = V c (Pipeline.arrRef spec2 0) (ix2 r k)
  refine congrArg _ ?_
  funext a; apply Fin.ext
  match a with
  | ⟨0, _⟩ => show win2_0.index t (0 : Fin 2) * 1024 + 1 * (p).val = (r).val; omega
  | ⟨1, _⟩ => show win2_0.index t (1 : Fin 2) * 2048 + 1 * (k).val = (k).val; omega

/-- Column `q` of a point's weight tile is column 1280 j + q of the array. -/
theorem blk1_apply (c : Dev nD) (t : Fin cfg2.N) (k : Fin 2048) (q : Fin 1280) (v : Fin 32000) (hv : v.val = 1280 * (t.val % 25) + q.val) :
    Head.blk1 V c t (ix2 k q) = wts V c (ix2 k v) := by
  obtain ⟨e00, e01, e10, e11, e20, e21, e30, e31, e40, e41⟩ := idx_facts t
  show V c (Pipeline.arrRef spec2 1) (((cfg2.win 1).blk t).view.emb (ix2 k q)) = V c (Pipeline.arrRef spec2 1) (ix2 k v)
  refine congrArg _ ?_
  funext a; apply Fin.ext
  match a with
  | ⟨0, _⟩ => show win2_1.index t (0 : Fin 2) * 2048 + 1 * (k).val = (k).val; omega
  | ⟨1, _⟩ => show win2_1.index t (1 : Fin 2) * 1280 + 1 * (q).val = (v).val; omega

/-- Entry `q` of a point's bias tile is entry 1280 j + q of the bias row. -/
theorem blk2_apply (c : Dev nD) (t : Fin cfg2.N) (q : Fin 1280) (v : Fin 32000) (hv : v.val = 1280 * (t.val % 25) + q.val) :
    Head.blk2 V c t (ix2 (0 : Fin 1) q) = bia V c (ix2 (0 : Fin 1) v) := by
  obtain ⟨e00, e01, e10, e11, e20, e21, e30, e31, e40, e41⟩ := idx_facts t
  show V c (Pipeline.arrRef spec2 2) (((cfg2.win 2).blk t).view.emb (ix2 (0 : Fin 1) q)) = V c (Pipeline.arrRef spec2 2) (ix2 (0 : Fin 1) v)
  refine congrArg _ ?_
  funext a; apply Fin.ext
  match a with
  | ⟨0, _⟩ => show win2_2.index t (0 : Fin 2) * 1 + 1 * ((0 : Fin 1)).val = ((0 : Fin 1)).val; omega
  | ⟨1, _⟩ => show win2_2.index t (1 : Fin 2) * 1280 + 1 * (q).val = (v).val; omega

/-- THE TILE: entry (p, q) of the logits tile of point t = 25 i + j is the logit of row 1024 i + p, column
    1280 j + q. -/
theorem tile_at (c : Dev nD) (t : Fin cfg2.N) (p : Fin 1024) (q : Fin 1280) (r : Fin 4096) (v : Fin 32000)
    (hr : r.val = 1024 * (t.val / 25) + p.val) (hv : v.val = 1280 * (t.val % 25) + q.val) :
    Head.tileOf (Head.blk0 V c t) (Head.blk1 V c t) (Head.blk2 V c t) (ix2 p q) = logit V c r v := by
  refine (tileOf_apply (Head.blk0 V c t) (Head.blk1 V c t) (Head.blk2 V c t) p q).trans ?_
  unfold logit
  rw [blk2_apply V c t q v hv]
  refine congrArg₂ (· + ·) (Finset.sum_congr rfl fun k _ => ?_) rfl
  rw [blk0_apply V c t p k r hr, blk1_apply V c t k q v hv]

/-- Row `r`'s logits cut into tiles of 1280 columns: entry `q` of tile `t'` (0 past the row's end, which no tile
    below 25 reaches). -/
def rowTiles (c : Dev nD) (r : Fin 4096) : ℕ → Fin 1280 → EReal :=
  fun t' q => if h : 1280 * t' + q.val < 25 * 1280 then logit V c r ⟨1280 * t' + q.val, h⟩ else 0

/-- Row `p` of the logits tile of point t = 25 i + j is tile j of row 1024 i + p. -/
theorem tile_row (c : Dev nD) (t : Fin cfg2.N) (p : Fin 1024) (r : Fin 4096) (hr : r.val = 1024 * (t.val / 25) + p.val) :
    (fun q : Fin 1280 => Head.tileOf (Head.blk0 V c t) (Head.blk1 V c t) (Head.blk2 V c t) (ix2 p q))
      = rowTiles V c r (t.val % 25) := by
  funext q
  have hN : t.val < 100 := lt_of_lt_of_eq t.isLt (show cfg2.N = 100 from N_2)
  have hq := q.isLt
  have h : 1280 * (t.val % 25) + q.val < 25 * 1280 := by omega
  show _ = (if h : 1280 * (t.val % 25) + q.val < 25 * 1280 then logit V c r ⟨1280 * (t.val % 25) + q.val, h⟩ else 0)
  rw [dif_pos h]
  exact tile_at V c t p q r ⟨1280 * (t.val % 25) + q.val, h⟩ hr rfl

/-- One point's update of a carried pair, at row `p`: one step of the online recurrence on tile j of row 1024 i + p. -/
theorem step_row (c : Dev nD) (t : Fin cfg2.N) (p : Fin 1024) (r : Fin 4096) (hr : r.val = 1024 * (t.val / 25) + p.val)
    (s : Vec Ideal S1024x1 .f32 × Vec Ideal S1024x1 .f32) :
    ((Head.step (Head.blk0 V c t) (Head.blk1 V c t) (Head.blk2 V c t) s).1 (ix2 p (0 : Fin 1)),
     (Head.step (Head.blk0 V c t) (Head.blk1 V c t) (Head.blk2 V c t) s).2 (ix2 p (0 : Fin 1)))
      = OnlineLse.step (s.1 (ix2 p (0 : Fin 1)), s.2 (ix2 p (0 : Fin 1))) (rowTiles V c r (t.val % 25)) := by
  rw [← tile_row V c t p r hr]
  exact update_row (Head.blk0 V c t) (Head.blk1 V c t) (Head.blk2 V c t) s.1 s.2 p

/-- THE CARRIED PAIR: after point n = 25 i + j, at row `p` of the block, the two carried columns hold the online pair
    of row 1024 i + p after its first j + 1 tiles. By induction on the point: a first column tile starts from
    (-infinity, 0); any other continues from what the point before left, which is in the same row block. -/
theorem carried_row (c : Dev nD) : ∀ (n : ℕ) (hn : n < cfg2.N) (p : Fin 1024) (r : Fin 4096),
    r.val = 1024 * (n / 25) + p.val →
    ((Head.carried V c n hn).1 (ix2 p (0 : Fin 1)), (Head.carried V c n hn).2 (ix2 p (0 : Fin 1)))
      = OnlineLse.run (rowTiles V c r) (n % 25 + 1)
  | 0, hn, p, r, hr => by
    have e : Head.carried V c 0 hn = Head.step (Head.blk0 V c ⟨0, hn⟩) (Head.blk1 V c ⟨0, hn⟩) (Head.blk2 V c ⟨0, hn⟩)
        (Head.maxInit, Head.sumInit) := rfl
    rw [e, step_row V c ⟨0, hn⟩ p r hr (Head.maxInit, Head.sumInit)]
    dsimp only
    rw [maxInit_apply, sumInit_apply]
    rfl
  | n + 1, hn, p, r, hr => by
    by_cases h0 : (n + 1) % 25 = 0
    · have e : Head.carried V c (n + 1) hn = Head.step (Head.blk0 V c ⟨n + 1, hn⟩) (Head.blk1 V c ⟨n + 1, hn⟩)
          (Head.blk2 V c ⟨n + 1, hn⟩) (Head.maxInit, Head.sumInit) := Head.carried_first V c ⟨n + 1, hn⟩ h0
      rw [e, step_row V c ⟨n + 1, hn⟩ p r hr (Head.maxInit, Head.sumInit)]
      dsimp only
      rw [maxInit_apply, sumInit_apply, h0]
      rfl
    · have e : Head.carried V c (n + 1) hn = Head.step (Head.blk0 V c ⟨n + 1, hn⟩) (Head.blk1 V c ⟨n + 1, hn⟩)
          (Head.blk2 V c ⟨n + 1, hn⟩) (Head.carried V c n (Nat.lt_of_succ_lt hn)) := Head.carried_next V c ⟨n + 1, hn⟩ h0
      have hr' : r.val = 1024 * (n / 25) + p.val := by omega
      have ih := carried_row c n (Nat.lt_of_succ_lt hn) p r hr'
      rw [e, step_row V c ⟨n + 1, hn⟩ p r hr _]
      dsimp only
      rw [ih]
      have e2 : (n + 1) % 25 = n % 25 + 1 := by omega
      rw [e2]
      rfl

/-- Row `r`'s log-sum-exp by the online recurrence: maximum plus logarithm of the sum, after all 25 tiles. -/
def lseRow (c : Dev nD) (r : Fin 4096) : EReal :=
  (OnlineLse.run (rowTiles V c r) 25).1 + Ideal.log (OnlineLse.run (rowTiles V c r) 25).2

/-- What the two result arrays end holding, as functions of the whole-array index. -/
def logitsArr (c : Dev nD) : S4096x32000.Idx → EReal := fun i => logit V c ⟨(i 0).val, idx2_lt0 i⟩ ⟨(i 1).val, idx2_lt1 i⟩
def lseArr (c : Dev nD) : S4096x1.Idx → EReal := fun i => lseRow V c ⟨(i 0).val, idx2_lt0 i⟩

/-- What point `t` writes back into the logits array is block `t` of `logitsArr`. -/
theorem flushed_logits (c : Dev nD) (t : Fin cfg2.N) :
    (Head.dat V c).flushed 3 t = ((cfg2.win 3).blk t).view.read (Elt Ideal) (logitsArr V c) := by
  show (cfg2.win 3).cut (grid2.coords t) ((Head.dat V c).after 3 t) = _
  rw [Head.after_tile]
  obtain ⟨e00, e01, e10, e11, e20, e21, e30, e31, e40, e41⟩ := idx_facts t
  have hN : t.val < 100 := lt_of_lt_of_eq t.isLt (show cfg2.N = 100 from N_2)
  funext j
  obtain ⟨p, q, rfl⟩ : ∃ (p : Fin 1024) (q : Fin 1280), j = ix2 p q := ⟨j 0, j 1, eq_ix2 j⟩
  show Head.tileOf (Head.blk0 V c t) (Head.blk1 V c t) (Head.blk2 V c t) (ix2 p q)
    = logitsArr V c (((cfg2.win 3).blk t).view.emb (ix2 p q))
  have hp := p.isLt
  have hq := q.isLt
  refine (tile_at V c t p q ⟨1024 * (t.val / 25) + p.val, by omega⟩ ⟨1280 * (t.val % 25) + q.val, by omega⟩ rfl rfl).trans ?_
  unfold logitsArr
  refine congrArg₂ (logit V c) (Fin.ext ?_) (Fin.ext ?_)
  · show 1024 * (t.val / 25) + p.val = win2_3.index t (0 : Fin 2) * 1024 + 1 * p.val; omega
  · show 1280 * (t.val % 25) + q.val = win2_3.index t (1 : Fin 2) * 1280 + 1 * q.val; omega

/-- An index of the logits array is in point `t`'s block iff each coordinate is in the block's range. -/
theorem mem_blk3 (t : Fin cfg2.N) (i : S4096x32000.Idx) :
    i ∈ ((cfg2.win 3).blk t).view.set ↔ ∀ a : Fin 2, win2_3.index t a * S1024x1280.size a ≤ (i a).val
      ∧ (i a).val < win2_3.index t a * S1024x1280.size a + S1024x1280.size a := by
  show i ∈ ((View.whole main_call0_v24_0).slice (win2_3.rect t)).set ↔ _
  rw [View.set_slice_whole, Rect.mem_set_unit]
  exact Iff.rfl

/-- Every entry (r, v) of the logits array is in the block of point 25 (r / 1024) + v / 1280. -/
theorem covered_logits (i : S4096x32000.Idx) :
    ∃ t : Fin cfg2.N, (cfg2.win 3).flush t = true ∧ i ∈ ((cfg2.win 3).blk t).view.set := by
  have hi0 : (i 0).val < 4096 := (i 0).isLt
  have hi1 : (i 1).val < 32000 := (i 1).isLt
  have hN : cfg2.N = 100 := N_2
  obtain ⟨t, ht⟩ : ∃ t : Fin cfg2.N, t.val = 25 * ((i 0).val / 1024) + (i 1).val / 1280 :=
    ⟨⟨25 * ((i 0).val / 1024) + (i 1).val / 1280, by rw [hN]; omega⟩, rfl⟩
  obtain ⟨e00, e01, e10, e11, e20, e21, e30, e31, e40, e41⟩ := idx_facts t
  refine ⟨t, flush2_3 t, ?_⟩
  rw [mem_blk3]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1280 ≤ (i 1).val ∧ (i 1).val < win2_3.index t (1 : Fin 2) * 1280 + 1280; omega

/-- The logits array after the region. -/
theorem logits_arr (c : Dev nD) : (Head.dat V c).arrAt 3 cfg2.N = logitsArr V c :=
  (Head.dat V c).arrAt_eq_of_cover 3 (logitsArr V c) (fun t _ => flushed_logits V c t) covered_logits

/-- THE LOGITS: entry (r, v) of the logits array after the region. No finiteness is needed. -/
theorem logits (c : Dev nD) (r : Fin 4096) (v : Fin 32000) :
    (Head.dat V c).arrAt 3 cfg2.N (ix2 r v) = logit V c r v := by
  rw [logits_arr]; rfl

/-- What a last column tile writes back into the log-sum-exp column is its block of `lseArr`. -/
theorem flushed_lse (c : Dev nD) (t : Fin cfg2.N) (hf : (cfg2.win 4).flush t = true) :
    (Head.dat V c).flushed 4 t = ((cfg2.win 4).blk t).view.read (Elt Ideal) (lseArr V c) := by
  have h24 : t.val % 25 = 24 := (flush2_4 t).mp hf
  show (cfg2.win 4).cut (grid2.coords t) ((Head.dat V c).after 4 t) = _
  rw [Head.after_lse]
  obtain ⟨e00, e01, e10, e11, e20, e21, e30, e31, e40, e41⟩ := idx_facts t
  have hN : t.val < 100 := lt_of_lt_of_eq t.isLt (show cfg2.N = 100 from N_2)
  funext j
  obtain ⟨p, u, rfl⟩ : ∃ (p : Fin 1024) (u : Fin 1), j = ix2 p u := ⟨j 0, j 1, eq_ix2 j⟩
  obtain rfl : u = 0 := Subsingleton.elim _ _
  have hp := p.isLt
  have hrow := carried_row V c t.val t.isLt p ⟨1024 * (t.val / 25) + p.val, by omega⟩ rfl
  rw [h24] at hrow
  have h1 := congrArg Prod.fst hrow
  have h2 := congrArg Prod.snd hrow
  dsimp only at h1 h2
  show Head.lseOf (Head.carried V c t.val t.isLt).1 (Head.carried V c t.val t.isLt).2 (ix2 p (0 : Fin 1))
    = lseRow V c ⟨((((cfg2.win 4).blk t).view.emb (ix2 p (0 : Fin 1))) 0).val, _⟩
  refine (lseOf_apply _ _ p).trans ?_
  rw [h1, h2]
  refine congrArg (lseRow V c) (Fin.ext ?_)
  show 1024 * (t.val / 25) + p.val = win2_4.index t (0 : Fin 2) * 1024 + 1 * p.val
  omega

/-- An index of the log-sum-exp column is in point `t`'s block iff each coordinate is in the block's range. -/
theorem mem_blk4 (t : Fin cfg2.N) (i : S4096x1.Idx) :
    i ∈ ((cfg2.win 4).blk t).view.set ↔ ∀ a : Fin 2, win2_4.index t a * S1024x1.size a ≤ (i a).val
      ∧ (i a).val < win2_4.index t a * S1024x1.size a + S1024x1.size a := by
  show i ∈ ((View.whole main_call0_v24_1).slice (win2_4.rect t)).set ↔ _
  rw [View.set_slice_whole, Rect.mem_set_unit]
  exact Iff.rfl

/-- Every row r of the column is in the block the last column tile of row block r / 1024 writes back. -/
theorem covered_lse (i : S4096x1.Idx) :
    ∃ t : Fin cfg2.N, (cfg2.win 4).flush t = true ∧ i ∈ ((cfg2.win 4).blk t).view.set := by
  have hi0 : (i 0).val < 4096 := (i 0).isLt
  have hi1 : (i 1).val < 1 := (i 1).isLt
  have hN : cfg2.N = 100 := N_2
  obtain ⟨t, ht⟩ : ∃ t : Fin cfg2.N, t.val = 25 * ((i 0).val / 1024) + 24 :=
    ⟨⟨25 * ((i 0).val / 1024) + 24, by rw [hN]; omega⟩, rfl⟩
  obtain ⟨e00, e01, e10, e11, e20, e21, e30, e31, e40, e41⟩ := idx_facts t
  refine ⟨t, (flush2_4 t).mpr (by omega), ?_⟩
  rw [mem_blk4]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 1 ≤ (i 1).val ∧ (i 1).val < win2_4.index t (1 : Fin 2) * 1 + 1; omega

/-- The log-sum-exp column after the region. -/
theorem lse_arr (c : Dev nD) : (Head.dat V c).arrAt 4 cfg2.N = lseArr V c :=
  (Head.dat V c).arrAt_eq_of_cover 4 (lseArr V c) (flushed_lse V c) covered_lse

/-- THE LOG-SUM-EXP: when row `r`'s logits are all real, subtracting the column's entry at row `r` from any `x` is the
    one-shot form: `x` less the row's maximum, less the logarithm of the row's sum of exponentials taken from the
    maximum. -/
theorem lse (c : Dev nD) (r : Fin 4096) (hreal : ∀ v : Fin 32000, ∃ x : ℝ, logit V c r v = (x : EReal)) (x : EReal) :
    x - (Head.dat V c).arrAt 4 cfg2.N (ix2 r (0 : Fin 1))
      = (x - (Finset.univ : Finset (Fin 32000)).fold max ⊥ (fun v => logit V c r v))
        - Ideal.log (0 + ∑ v : Fin 32000, Ideal.exp (logit V c r v
            - (Finset.univ : Finset (Fin 32000)).fold max ⊥ (fun v => logit V c r v))) := by
  rw [lse_arr]
  show x - lseRow V c r = _
  choose L hL using hreal
  unfold lseRow rowTiles
  simp only [hL]
  exact OnlineLse.online_eq_oneshot (T := 25) (B := 1280) (by norm_num) (by norm_num) L x

end Cert.KernelIdeal.HeadValue

end
-- ==== Proof.KernelIdealNormValue.lean ====
/-
  What the normalising region leaves in its output array: at (r, v) the logit at (r, v) less the log-sum-exp of
  row r.

  The grid is 4 row blocks by 25 column tiles; the point over row block a and column tile b reads the
  [1024, 1280] tile (a, b) of the logits and the [1024, 1] block a of the column, and writes back the tile (a, b)
  of the result. The tiles fill the [4096, 32000] array, so the array ends as ONE function of the two input arrays.
-/
import proofs.«125352_j18708877541498_2_alg».proof.Proof.KernelIdealNorm
import proofs.«125352_j18708877541498_2_alg».proof.Proof.LibColumn
import Idealize.ShloMosaic.Lib.Pipeline.Value
import Idealize.ShloMosaic.Lib.ValueIdx

set_option maxRecDepth 16384

noncomputable section

namespace Cert.KernelIdeal.NormValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal.Norm

variable {F : FTy → Type} [FloatOps F]

variable (V : (c : Dev nD) → (b : Ref sig .tc) → Buf (Elt F) ((c : Thread nD τ).loc b))

/-- The whole result: each logit less its row's entry of the column. -/
def normAll (x : S4096x32000.Idx → Elt F .f32) (l : S4096x1.Idx → Elt F .f32) : S4096x32000.Idx → Elt F .f32 :=
  fun i => FloatOps.subf (x i) (l (ix2 (⟨(i 0).val, (i 0).isLt⟩ : Fin 4096) (0 : Fin 1)))

theorem zero_offsets : (![0, 0] : Fin 2 → Nat) = fun _ => 0 := funext fun a => by fin_cases a <;> rfl

/-- The body's stored value at an entry of the tile: the logit there less the column's entry of that row. -/
theorem stored_apply (x : Vec F S1024x1280 .f32) (l : Vec F S1024x1 .f32) (p : Fin 1024) (q : Fin 1280) :
    k3_pay1 x l (ix2 p q) = FloatOps.subf (x (ix2 p q)) (l (ix2 p (0 : Fin 1))) := by
  unfold k3_pay1
  show FloatOps.subf (shapeCast S1024x1280 x shapeCasts_S1024x1280_S1024x1280 (ix2 p q))
      (broadcastTo S1024x1280 (shapeCast S1024x1 l shapeCasts_S1024x1_S1024x1) broadcasts_S1024x1_S1024x1280 (ix2 p q)) = _
  rw [Column.broadcastTo_a1_ab_apply, shapeCast_self, shapeCast_self]

/-- The printed index maps over the grid: the output tile moves with the logits tile; the column block follows the
    row block; and both block indices stay in range. -/
theorem index_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = 0
    ∧ win3_2.index t (0 : Fin 2) ≤ 3 ∧ win3_2.index t (1 : Fin 2) ≤ 24 :=
  (by decide +kernel : ∀ t : Fin grid3.N, _)

/-- Every tile is some point's. -/
theorem index_onto : ∀ (a : Fin 4) (b : Fin 25), ∃ t : Fin cfg3.N, win3_2.index t = ![a.val, b.val] :=
  (by decide +kernel : ∀ (a : Fin 4) (b : Fin 25), ∃ t : Fin grid3.N, win3_2.index t = ![a.val, b.val])

/-- What point `t` writes back is tile `t` of `normAll` of the two arrays as the region finds them. -/
theorem flushed_eq (c : Dev nD) (t : Fin cfg3.N) :
    (dat V c).flushed 2 t = ((cfg3.win 2).blk t).view.read (Elt F)
      (normAll (V c (Pipeline.arrRef spec3 0)) (V c (Pipeline.arrRef spec3 1))) := by
  show (cfg3.win 2).cut (grid3.coords t) ((dat V c).after 2 t) = _
  rw [after_out]
  unfold normTile
  rw [View.canon_unit_zero zero_offsets]
  simp only [View.ld_unit_zero (S := S1024x1280) zero_offsets, View.ld_unit_zero (S := S1024x1) zero_offsets]
  obtain ⟨e0, e1, e2, e3, e4, e5⟩ := index_facts t
  funext j
  obtain ⟨p, q, rfl⟩ : ∃ (p : Fin 1024) (q : Fin 1280), j = ix2 p q := ⟨j 0, j 1, eq_ix2 j⟩
  refine (stored_apply _ _ p q).trans ?_
  unfold blockAt normAll
  show FloatOps.subf (V c (Pipeline.arrRef spec3 0) (((cfg3.win 0).blk t).view.emb (ix2 p q)))
      (V c (Pipeline.arrRef spec3 1) (((cfg3.win 1).blk t).view.emb (ix2 p (0 : Fin 1)))) = _
  have h0 : ((cfg3.win 0).blk t).view.emb (ix2 p q) = ((cfg3.win 2).blk t).view.emb (ix2 p q) := by
    funext a; apply Fin.ext
    match a with
    | ⟨0, _⟩ => show win3_0.index t (0 : Fin 2) * 1024 + 1 * p.val = win3_2.index t (0 : Fin 2) * 1024 + 1 * p.val; omega
    | ⟨1, _⟩ => show win3_0.index t (1 : Fin 2) * 1280 + 1 * q.val = win3_2.index t (1 : Fin 2) * 1280 + 1 * q.val; omega
  have h1 : ((cfg3.win 1).blk t).view.emb (ix2 p (0 : Fin 1))
      = ix2 (⟨((((cfg3.win 2).blk t).view.emb (ix2 p q)) 0).val, ((((cfg3.win 2).blk t).view.emb (ix2 p q)) 0).isLt⟩ : Fin 4096) (0 : Fin 1) := by
    funext a; apply Fin.ext
    match a with
    | ⟨0, _⟩ => show win3_1.index t (0 : Fin 2) * 1024 + 1 * p.val = win3_2.index t (0 : Fin 2) * 1024 + 1 * p.val; omega
    | ⟨1, _⟩ => show win3_1.index t (1 : Fin 2) * 1 + 1 * 0 = 0; omega
  rw [h0, h1]
  rfl

/-- An index of the array is in point `t`'s tile iff each coordinate is in the tile's range on its axis. -/
theorem mem_tile (t : Fin cfg3.N) (i : S4096x32000.Idx) :
    i ∈ ((cfg3.win 2).blk t).view.set ↔ ∀ a : Fin 2, win3_2.index t a * S1024x1280.size a ≤ (i a).val
      ∧ (i a).val < win3_2.index t a * S1024x1280.size a + S1024x1280.size a := by
  show i ∈ ((View.whole main_v0_0).slice (win3_2.rect t)).set ↔ _
  rw [View.set_slice_whole, Rect.mem_set_unit]
  exact Iff.rfl

/-- Every index of the array is in some point's tile: the tile (r / 1024, v / 1280). -/
theorem tiles_cover (i : S4096x32000.Idx) :
    ∃ t : Fin cfg3.N, (cfg3.win 2).flush t = true ∧ i ∈ ((cfg3.win 2).blk t).view.set := by
  have hi0 : (i 0).val < 4096 := (i 0).isLt
  have hi1 : (i 1).val < 32000 := (i 1).isLt
  obtain ⟨t, ht⟩ := index_onto ⟨(i 0).val / 1024, by omega⟩ ⟨(i 1).val / 1280, by omega⟩
  have q0 : win3_2.index t (0 : Fin 2) = (i 0).val / 1024 := congrFun ht 0
  have q1 : win3_2.index t (1 : Fin 2) = (i 1).val / 1280 := congrFun ht 1
  refine ⟨t, flush3_2 t, ?_⟩
  rw [mem_tile]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 1280 ≤ (i 1).val ∧ (i 1).val < win3_2.index t (1 : Fin 2) * 1280 + 1280; omega

/-- THE ARRAY after the region: `normAll` of the logits and the column as the region finds them. -/
theorem result (c : Dev nD) :
    (dat V c).arrAt 2 cfg3.N = normAll (V c (Pipeline.arrRef spec3 0)) (V c (Pipeline.arrRef spec3 1)) :=
  (dat V c).arrAt_eq_of_cover 2 _ (fun t _ => flushed_eq V c t) tiles_cover

end Cert.KernelIdeal.NormValue

end
-- ==== Proof.LstmReal.lean ====
/-
  The layers of the long short-term memory step keep real numbers real.

  On the extended reals a sum or product of reals is real; the logistic function and the hyperbolic tangent of a
  real are real. So, when every entry of every argument is a real number, so is every entry of the embedding, of
  each gate's pre-activation, of the new cell and of the new hidden state — and, the head being affine again, of
  every logit.
-/
import proofs.«125352_j18708877541498_2_alg».proof.Proof.LstmSpec

noncomputable section

namespace Cert.LstmSpec

open Idealize.ShloMosaic

/-- The logistic function of a real is real. -/
theorem IsReal.logistic {a : EReal} (h : IsReal a) : IsReal (Ideal.logistic a) := by
  obtain ⟨x, rfl⟩ := h
  exact ⟨(1 + Real.exp (-x))⁻¹, Ideal.logistic_coe x⟩

/-- The hyperbolic tangent of a real is real. -/
theorem IsReal.tanh {a : EReal} (h : IsReal a) : IsReal (Ideal.tanh a) := by
  obtain ⟨x, rfl⟩ := h
  exact ⟨Real.tanh x, Ideal.tanh_coe x⟩

/-- rows · weights + bias of reals is real. -/
theorem affine_real {K N : ℕ} (x : Fin 4096 → Fin K → EReal) (w : Fin K → Fin N → EReal) (b : Fin N → EReal)
    (hx : ∀ r k, IsReal (x r k)) (hw : ∀ k e, IsReal (w k e)) (hb : ∀ e, IsReal (b e)) (r : Fin 4096) (e : Fin N) :
    IsReal (affine x w b r e) := by
  unfold affine
  exact (IsReal.sum _ _ fun k _ => (hx r k).mul (hw k e)).add (hb e)

/-- A gate's pre-activation of reals is real. -/
theorem pre_real (E H : Fin 4096 → Fin 2048 → EReal) (W U : Fin 2048 → Fin 2048 → EReal) (b bh : Fin 2048 → EReal)
    (hE : ∀ r k, IsReal (E r k)) (hH : ∀ r k, IsReal (H r k)) (hW : ∀ k j, IsReal (W k j)) (hU : ∀ k j, IsReal (U k j))
    (hb : ∀ j, IsReal (b j)) (hbh : ∀ j, IsReal (bh j)) (r : Fin 4096) (j : Fin 2048) :
    IsReal (pre E H W U b bh r j) := by
  unfold pre
  exact ((IsReal.sum _ _ fun k _ => (hE r k).mul (hW k j)).add (IsReal.sum _ _ fun k _ => (hH r k).mul (hU k j))).add
    ((hb j).add (hbh j))

/-- The new cell of real pre-activations and a real cell is real. -/
theorem cellOf_real {pf pi pc c : EReal} (hf : IsReal pf) (hi : IsReal pi) (hc : IsReal pc) (hcell : IsReal c) :
    IsReal (cellOf pf pi pc c) := by
  unfold cellOf
  exact (hf.logistic.mul hcell).add (hi.logistic.mul hc.tanh)

/-- The new hidden state of a real pre-activation and a real cell is real. -/
theorem hiddenOf_real {po c' : EReal} (ho : IsReal po) (hc : IsReal c') : IsReal (hiddenOf po c') := by
  unfold hiddenOf
  exact ho.logistic.mul hc.tanh

end Cert.LstmSpec

end
-- ==== Proof.LstmArgs.lean ====
/-
  The whole step as functions of the twenty-three argument arrays.

  The arguments are bundled as functions of coordinates; the stages — embedding, the four gates' pre-activations, the
  new cell, the new hidden state, the logits, the logarithm of the softmax along a row — are defined once over the
  bundle, and the kernel's side and the reference's side are each shown to compute these same stages.
  If every entry of every argument is a real number then so is every logit: sums, products, the logistic function and
  the hyperbolic tangent of real numbers are real numbers.
-/
import proofs.«125352_j18708877541498_2_alg».proof.Proof.LstmSpec
import proofs.«125352_j18708877541498_2_alg».proof.Proof.LstmReal

noncomputable section

namespace Cert.LstmSpec

open Idealize.ShloMosaic Idealize.ShloMosaic.ValueIdx

/-- The arguments, as functions of coordinates. -/
structure Args where
  X : Fin 4096 → Fin 4096 → EReal
  H : Fin 4096 → Fin 2048 → EReal
  C : Fin 4096 → Fin 2048 → EReal
  We : Fin 4096 → Fin 2048 → EReal
  be : Fin 2048 → EReal
  Wf : Fin 2048 → Fin 2048 → EReal
  bf : Fin 2048 → EReal
  Wi : Fin 2048 → Fin 2048 → EReal
  bi : Fin 2048 → EReal
  Wc : Fin 2048 → Fin 2048 → EReal
  bc : Fin 2048 → EReal
  Wo : Fin 2048 → Fin 2048 → EReal
  bo : Fin 2048 → EReal
  Uf : Fin 2048 → Fin 2048 → EReal
  bhf : Fin 2048 → EReal
  Ui : Fin 2048 → Fin 2048 → EReal
  bhi : Fin 2048 → EReal
  Uc : Fin 2048 → Fin 2048 → EReal
  bhc : Fin 2048 → EReal
  Uo : Fin 2048 → Fin 2048 → EReal
  bho : Fin 2048 → EReal
  Wend : Fin 2048 → Fin 32000 → EReal
  bend : Fin 32000 → EReal

/-- The bundle of twenty-three arrays, in the programs' argument order. -/
def ofArrays (a0 : (⟨2, ![4096, 4096]⟩ : Shape).Idx → EReal) (a1 a2 a3 : (⟨2, ![4096, 2048]⟩ : Shape).Idx → EReal)
    (a4 : (⟨1, ![2048]⟩ : Shape).Idx → EReal) (a5 : (⟨2, ![2048, 2048]⟩ : Shape).Idx → EReal) (a6 : (⟨1, ![2048]⟩ : Shape).Idx → EReal)
    (a7 : (⟨2, ![2048, 2048]⟩ : Shape).Idx → EReal) (a8 : (⟨1, ![2048]⟩ : Shape).Idx → EReal)
    (a9 : (⟨2, ![2048, 2048]⟩ : Shape).Idx → EReal) (a10 : (⟨1, ![2048]⟩ : Shape).Idx → EReal)
    (a11 : (⟨2, ![2048, 2048]⟩ : Shape).Idx → EReal) (a12 : (⟨1, ![2048]⟩ : Shape).Idx → EReal)
    (a13 : (⟨2, ![2048, 2048]⟩ : Shape).Idx → EReal) (a14 : (⟨1, ![2048]⟩ : Shape).Idx → EReal)
    (a15 : (⟨2, ![2048, 2048]⟩ : Shape).Idx → EReal) (a16 : (⟨1, ![2048]⟩ : Shape).Idx → EReal)
    (a17 : (⟨2, ![2048, 2048]⟩ : Shape).Idx → EReal) (a18 : (⟨1, ![2048]⟩ : Shape).Idx → EReal)
    (a19 : (⟨2, ![2048, 2048]⟩ : Shape).Idx → EReal) (a20 : (⟨1, ![2048]⟩ : Shape).Idx → EReal)
    (a21 : (⟨2, ![2048, 32000]⟩ : Shape).Idx → EReal) (a22 : (⟨1, ![32000]⟩ : Shape).Idx → EReal) : Args where
  X := mat a0
  H := mat a1
  C := mat a2
  We := mat a3
  be := vec a4
  Wf := mat a5
  bf := vec a6
  Wi := mat a7
  bi := vec a8
  Wc := mat a9
  bc := vec a10
  Wo := mat a11
  bo := vec a12
  Uf := mat a13
  bhf := vec a14
  Ui := mat a15
  bhi := vec a16
  Uc := mat a17
  bhc := vec a18
  Uo := mat a19
  bho := vec a20
  Wend := mat a21
  bend := vec a22

namespace Args

variable (a : Args)

def emb : Fin 4096 → Fin 2048 → EReal := affine a.X a.We a.be
def preF : Fin 4096 → Fin 2048 → EReal := pre a.emb a.H a.Wf a.Uf a.bf a.bhf
def preI : Fin 4096 → Fin 2048 → EReal := pre a.emb a.H a.Wi a.Ui a.bi a.bhi
def preC : Fin 4096 → Fin 2048 → EReal := pre a.emb a.H a.Wc a.Uc a.bc a.bhc
def preO : Fin 4096 → Fin 2048 → EReal := pre a.emb a.H a.Wo a.Uo a.bo a.bho
def cell (r : Fin 4096) (j : Fin 2048) : EReal := cellOf (a.preF r j) (a.preI r j) (a.preC r j) (a.C r j)
def hidden (r : Fin 4096) (j : Fin 2048) : EReal := hiddenOf (a.preO r j) (a.cell r j)
def logit : Fin 4096 → Fin 32000 → EReal := affine a.hidden a.Wend a.bend
def out (r : Fin 4096) (v : Fin 32000) : EReal := logSoftmaxAt (fun v' => a.logit r v') (a.logit r v)

/-- Every entry of every argument is a real number. -/
structure AllReal : Prop where
  X : ∀ r k, IsReal (a.X r k)
  H : ∀ r k, IsReal (a.H r k)
  C : ∀ r k, IsReal (a.C r k)
  We : ∀ k e, IsReal (a.We k e)
  be : ∀ e, IsReal (a.be e)
  Wf : ∀ k j, IsReal (a.Wf k j)
  bf : ∀ j, IsReal (a.bf j)
  Wi : ∀ k j, IsReal (a.Wi k j)
  bi : ∀ j, IsReal (a.bi j)
  Wc : ∀ k j, IsReal (a.Wc k j)
  bc : ∀ j, IsReal (a.bc j)
  Wo : ∀ k j, IsReal (a.Wo k j)
  bo : ∀ j, IsReal (a.bo j)
  Uf : ∀ k j, IsReal (a.Uf k j)
  bhf : ∀ j, IsReal (a.bhf j)
  Ui : ∀ k j, IsReal (a.Ui k j)
  bhi : ∀ j, IsReal (a.bhi j)
  Uc : ∀ k j, IsReal (a.Uc k j)
  bhc : ∀ j, IsReal (a.bhc j)
  Uo : ∀ k j, IsReal (a.Uo k j)
  bho : ∀ j, IsReal (a.bho j)
  Wend : ∀ k v, IsReal (a.Wend k v)
  bend : ∀ v, IsReal (a.bend v)

variable {a}

theorem emb_real (h : a.AllReal) (r : Fin 4096) (e : Fin 2048) : IsReal (a.emb r e) :=
  affine_real a.X a.We a.be h.X h.We h.be r e

theorem cell_real (h : a.AllReal) (r : Fin 4096) (j : Fin 2048) : IsReal (a.cell r j) :=
  cellOf_real (pre_real a.emb a.H a.Wf a.Uf a.bf a.bhf (emb_real h) h.H h.Wf h.Uf h.bf h.bhf r j)
    (pre_real a.emb a.H a.Wi a.Ui a.bi a.bhi (emb_real h) h.H h.Wi h.Ui h.bi h.bhi r j)
    (pre_real a.emb a.H a.Wc a.Uc a.bc a.bhc (emb_real h) h.H h.Wc h.Uc h.bc h.bhc r j) (h.C r j)

theorem hidden_real (h : a.AllReal) (r : Fin 4096) (j : Fin 2048) : IsReal (a.hidden r j) :=
  hiddenOf_real (pre_real a.emb a.H a.Wo a.Uo a.bo a.bho (emb_real h) h.H h.Wo h.Uo h.bo h.bho r j) (cell_real h r j)

/-- Under real arguments every logit is a real number. -/
theorem logit_real (h : a.AllReal) (r : Fin 4096) (v : Fin 32000) : IsReal (a.logit r v) :=
  affine_real a.hidden a.Wend a.bend (hidden_real h) h.Wend h.bend r v

end Args

end Cert.LstmSpec

end
-- ==== Proof.KernelIdealValue.lean ====
/-
  The kernel's results as the specification's stages of the launch memory.

  Region by region: what a region leaves in its output array (its value theorem, over the arrays it finds) with the
  arrays it finds read back to the launch memory and to the earlier regions' results.
-/
import proofs.«125352_j18708877541498_2_alg».proof.Proof.KernelIdealEntries
import proofs.«125352_j18708877541498_2_alg».proof.Proof.KernelIdealEmbValue
import proofs.«125352_j18708877541498_2_alg».proof.Proof.KernelIdealHeadValue
import proofs.«125352_j18708877541498_2_alg».proof.Proof.KernelIdealNormValue
import proofs.«125352_j18708877541498_2_alg».proof.Proof.LstmArgs

set_option maxRecDepth 16384

noncomputable section

namespace Cert.KernelIdeal.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Run Cert.KernelIdeal.Entries Idealize.ShloMosaic.ValueIdx Cert.LstmSpec

variable (m : (ℓ : Loc nD τ sig) → Buf (Elt Ideal) ℓ) (ρ : Dev nD → PrngReg)

/-- The launch memory's twenty-three argument arrays on core `c`, bundled. -/
def args (c : Dev nD) : Args :=
  ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19)) (m ((c : Thread nD τ).loc main_arg20))
    (m ((c : Thread nD τ).loc main_arg21)) (m ((c : Thread nD τ).loc main_arg22))

/-- The embedding region leaves the embedding. -/
theorem emb_eq (c : Dev nD) (r : Fin 4096) (e : Fin 2048) :
    (Emb.dat (ent0 m ρ) c).arrAt 3 cfg0.N (ix2 r e) = (args m c).emb r e := by
  refine (EmbValue.result (ent0 m ρ) c r e).trans ?_
  show (∑ k : Fin 4096, mat (st1 m ρ c (Proc.devRef .tc main_arg0)) r k * mat (st1 m ρ c (Proc.devRef .tc main_call0_v0)) k e)
      + row (st1 m ρ c (Proc.devRef .tc main_call0_v1)) e = _
  refine congrArg₂ (· + ·) (Finset.sum_congr rfl fun k _ => ?_) (emb_bias m ρ c e)
  exact congrArg₂ (· * ·) (emb_input m ρ c (ix2 r k)) (emb_weights m ρ c (ix2 k e))

/-- The head region's logits, given that the gates region left the specification's hidden state. -/
theorem head_logit (c : Dev nD)
    (hhid : ∀ r j, (Gates.dat (ent1 m ρ) c).arrAt 15 cfg1.N (ix2 r j) = (args m c).hidden r j)
    (r : Fin 4096) (v : Fin 32000) : HeadValue.logit (ent2 m ρ) c r v = (args m c).logit r v := by
  unfold HeadValue.logit HeadValue.hid HeadValue.wts HeadValue.bia
  show (∑ k : Fin 2048, mat (st5 m ρ c (Proc.devRef .tc main_call0_v21)) r k * mat (st5 m ρ c (Proc.devRef .tc main_call0_v22)) k v)
      + row (st5 m ρ c (Proc.devRef .tc main_call0_v23)) v = _
  refine congrArg₂ (· + ·) (Finset.sum_congr rfl fun k _ => ?_) (head_bias m ρ c v)
  exact congrArg₂ (· * ·) ((head_hidden m ρ c (ix2 r k)).trans (hhid r k)) (head_weights m ρ c (ix2 k v))

theorem logit_eq (c : Dev nD)
    (hhid : ∀ r j, (Gates.dat (ent1 m ρ) c).arrAt 15 cfg1.N (ix2 r j) = (args m c).hidden r j)
    (r : Fin 4096) (v : Fin 32000) : (Head.dat (ent2 m ρ) c).arrAt 3 cfg2.N (ix2 r v) = (args m c).logit r v :=
  (HeadValue.logits (ent2 m ρ) c r v).trans (head_logit m ρ c hhid r v)

/-- The normalising region leaves the logarithm of the softmax of each row of logits: the online (running maximum,
    running sum) pair of the head region ends, on real logits, at the one-shot form. -/
theorem out_eq (c : Dev nD) (hreal : (args m c).AllReal)
    (hhid : ∀ r j, (Gates.dat (ent1 m ρ) c).arrAt 15 cfg1.N (ix2 r j) = (args m c).hidden r j)
    (r : Fin 4096) (v : Fin 32000) : (Norm.dat (ex2 m ρ) c).arrAt 2 cfg3.N (ix2 r v) = (args m c).out r v := by
  rw [NormValue.result]
  show mat (st6 m ρ c (Proc.devRef .tc main_call0_v24_0)) r v - mat (st6 m ρ c (Proc.devRef .tc main_call0_v24_1)) r (0 : Fin 1) = _
  rw [norm_logits, norm_lse]
  have hr : ∀ v' : Fin 32000, ∃ x : ℝ, HeadValue.logit (ent2 m ρ) c r v' = (x : EReal) := fun v' => by
    rw [head_logit m ρ c hhid r v']; exact Args.logit_real hreal r v'
  refine (HeadValue.lse (ent2 m ρ) c r hr _).trans ?_
  have ex : mat ((Head.dat (ent2 m ρ) c).arrAt 3 cfg2.N) r v = (args m c).logit r v := logit_eq m ρ c hhid r v
  rw [ex]
  simp only [head_logit m ρ c hhid]
  rfl

end Cert.KernelIdeal.KernelValue

end
-- ==== Proof.KernelIdealGatesValueOps.lean ====
/-
  The gates body's arithmetic read entry by entry over the extended reals.

  One accumulation step adds to an accumulator's entry (p, q) the product of row p of the embedding block with
  column q of the input-side weight block and then that of row p of the hidden block with column q of the
  hidden-side weight block, each a sum over the 512 contracted positions. At the last point of a run over k the
  new cell at (p, q) is logistic(aF + bf_q) · cell + logistic(aI + bi_q) · tanh(aC + bc_q), and the new hidden is
  logistic(aO + bo_q) · tanh(new cell).
-/
import proofs.«125352_j18708877541498_2_alg».proof.Proof.KernelIdealGatesLoads
import proofs.«125352_j18708877541498_2_alg».proof.Proof.LibPlainDot
import Idealize.ShloMosaic.Lib.Pipeline.Value
import Idealize.ShloMosaic.Lib.ValueIdx

set_option maxRecDepth 16384

noncomputable section

namespace Cert.KernelIdeal.GatesValue

open Cert.KernelIdeal Cert.KernelIdeal.Gen
open Idealize.ShloMosaic Idealize.ShloMosaic.TcCoe Idealize.ShloMosaic.ValueIdx
open Idealize.ShloMosaic.Pipeline (Dat Cfg Window)

/-- A [512, 512] by [512, 512] product into the zero accumulator at entry (p, q). -/
theorem dot_apply (l r : FVec Ideal S512x512 .bf16) (p q : Fin 512) :
    matmul (F := Ideal) dot_S512x512_S512x512_S512x512_1_0_0_1_n_n none l r (constant (F := Ideal) S512x512 .f32 0x00000000#32) (ix2 p q)
      = ∑ k : Fin 512, l (ix2 p k) * r (ix2 k q) :=
  (congrFun (congrArg (fun d => FloatOps.matmul (F := Ideal) d none l r (constant (F := Ideal) S512x512 .f32 0x00000000#32))
    (show dot_S512x512_S512x512_S512x512_1_0_0_1_n_n = DotDims.plain 512 512 512 from rfl)) (ix2 p q)).trans
    (PlainDot.matmul_apply_ix2 (M := 512) (K := 512) (N := 512) none l r p q)

/-- The entry's addend of one step: the two products. -/
def addend (e h w u : Vec Ideal S512x512 .bf16) (p q : Fin 512) : EReal :=
  (∑ k : Fin 512, e (ix2 p k) * w (ix2 k q)) + (∑ k : Fin 512, h (ix2 p k) * u (ix2 k q))

theorem stepF_apply (e h w u : Vec Ideal S512x512 .bf16) (a : Vec Ideal S512x512 .f32) (p q : Fin 512) :
    Gates.stepF e h w u a (ix2 p q) = a (ix2 p q) + addend e h w u p q := by
  unfold Gates.stepF k1_pay12 k1_pay11 k1_pay10 k1_pay9 addend
  simp only [shapeCast_self]
  show (a (ix2 p q) + _) + _ = _
  rw [dot_apply, dot_apply, add_assoc]

theorem stepI_apply (e h w u : Vec Ideal S512x512 .bf16) (a : Vec Ideal S512x512 .f32) (p q : Fin 512) :
    Gates.stepI e h w u a (ix2 p q) = a (ix2 p q) + addend e h w u p q := by
  unfold Gates.stepI k1_pay15 k1_pay14 k1_pay13 k1_pay10 k1_pay9 addend
  simp only [shapeCast_self]
  show (a (ix2 p q) + _) + _ = _
  rw [dot_apply, dot_apply, add_assoc]

theorem stepC_apply (e h w u : Vec Ideal S512x512 .bf16) (a : Vec Ideal S512x512 .f32) (p q : Fin 512) :
    Gates.stepC e h w u a (ix2 p q) = a (ix2 p q) + addend e h w u p q := by
  unfold Gates.stepC k1_pay17 k1_pay16 k1_pay10 k1_pay9 addend
  simp only [shapeCast_self]
  show (a (ix2 p q) + _) + _ = _
  rw [dot_apply, dot_apply, add_assoc]

theorem stepO_apply (e h w u : Vec Ideal S512x512 .bf16) (a : Vec Ideal S512x512 .f32) (p q : Fin 512) :
    Gates.stepO e h w u a (ix2 p q) = a (ix2 p q) + addend e h w u p q := by
  unfold Gates.stepO k1_pay2 k1_pay1 k1_pay18 k1_pay10 k1_pay9 addend
  simp only [shapeCast_self]
  show (a (ix2 p q) + _) + _ = _
  rw [dot_apply, dot_apply, add_assoc]

/-- The zeroed accumulators are zero at every entry. -/
theorem zero5 (y : S512x512.Idx) : (k1_pay5 (F := Ideal)) y = 0 := by
  unfold k1_pay5; simp only [shapeCast_self]; exact Ideal.ofBits_zero_f32
theorem zero6 (y : S512x512.Idx) : (k1_pay6 (F := Ideal)) y = 0 := by
  unfold k1_pay6; simp only [shapeCast_self]; exact Ideal.ofBits_zero_f32
theorem zero7 (y : S512x512.Idx) : (k1_pay7 (F := Ideal)) y = 0 := by
  unfold k1_pay7; simp only [shapeCast_self]; exact Ideal.ofBits_zero_f32
theorem zero8 (y : S512x512.Idx) : (k1_pay8 (F := Ideal)) y = 0 := by
  unfold k1_pay8; simp only [shapeCast_self]; exact Ideal.ofBits_zero_f32

/-- A [1, 512] row cast to itself and broadcast along the rows of [512, 512], at (p, q): the row's entry q. -/
theorem row_apply (b : Vec Ideal S1x512 .f32) (p q : Fin 512) :
    broadcastTo S512x512 (shapeCast S1x512 b shapeCasts_S1x512_S1x512) broadcasts_S1x512_S512x512 (ix2 p q)
      = b (ix2 0 q) := by
  rw [shapeCast_self]
  refine (broadcastTo_apply b broadcasts_S1x512_S512x512 (ix2 p q) (ix2 0 q) fun a => ?_)
  match a with
  | ⟨0, _⟩ => rfl
  | ⟨1, _⟩ => rfl

/-- The new cell at entry (p, q). -/
theorem newC_apply (aF aI aC : Vec Ideal S512x512 .f32) (bf bi bc : Vec Ideal S1x512 .f32) (cell : Vec Ideal S512x512 .f32)
    (p q : Fin 512) :
    Gates.newC aF aI aC bf bi bc cell (ix2 p q)
      = Ideal.logistic (aF (ix2 p q) + bf (ix2 0 q)) * cell (ix2 p q)
        + Ideal.logistic (aI (ix2 p q) + bi (ix2 0 q)) * Ideal.tanh (aC (ix2 p q) + bc (ix2 0 q)) := by
  unfold Gates.newC k1_pay3
  show Ideal.logistic (aF (ix2 p q) + _) * cell (ix2 p q) + Ideal.logistic (aI (ix2 p q) + _) * Ideal.tanh (aC (ix2 p q) + _) = _
  rw [row_apply, row_apply, row_apply]

/-- The new hidden at entry (p, q). -/
theorem newH_apply (aF aI aC aO : Vec Ideal S512x512 .f32) (bf bi bc bo : Vec Ideal S1x512 .f32) (cell : Vec Ideal S512x512 .f32)
    (p q : Fin 512) :
    Gates.newH aF aI aC aO bf bi bc bo cell (ix2 p q)
      = Ideal.logistic (aO (ix2 p q) + bo (ix2 0 q)) * Ideal.tanh (Gates.newC aF aI aC bf bi bc cell (ix2 p q)) := by
  unfold Gates.newH k1_pay4
  show Ideal.logistic (aO (ix2 p q) + _) * Ideal.tanh (k1_pay3 aF bf aI bi aC bc cell (ix2 p q)) = _
  rw [row_apply]; rfl

end Cert.KernelIdeal.GatesValue

end
-- ==== Proof.KernelIdealGatesValueBlocks.lean ====
/-
  The gates region: where a block's entry sits in its array.

  Grid point t = 16·i + 4·j + k stages, of the embedding and hidden arrays [4096, 2048], the tile of rows
  512·i … and contracted columns 512·k …; of each weight matrix [2048, 2048] the tile of contracted rows 512·k …
  and columns 512·j …; of each bias row [1, 2048] the columns 512·j …; of the cell array and of the two outputs
  the tile of rows 512·i … and columns 512·j …. The block indices are decided once over the grid's 128 points; an
  entry of a block is then the array's entry at block index × 512 + the coordinate inside the block.
-/
import proofs.«125352_j18708877541498_2_alg».proof.Proof.KernelIdealGatesBase
import Idealize.ShloMosaic.Lib.Pipeline.Value
import Idealize.ShloMosaic.Lib.ValueIdx

set_option maxRecDepth 16384

noncomputable section

namespace Cert.KernelIdeal.GatesValue

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

/-- The grid has 128 points. -/
theorem tlt (t : Fin cfg1.N) : t.val < 128 := lt_of_lt_of_eq t.isLt (show cfg1.N = 128 from N_1)

/-- The array row of row `p` of a tile at point `t` (the grid's first axis), -/
def rowOf (t : Fin cfg1.N) (p : Fin 512) : Fin 4096 :=
  ⟨512 * (t.val / 16) + p.val, by have := tlt t; have := p.isLt; omega⟩
/-- the array column of column `q` (the grid's second axis), -/
def colOf (t : Fin cfg1.N) (q : Fin 512) : Fin 2048 :=
  ⟨512 * (t.val / 4 % 4) + q.val, by have := q.isLt; omega⟩
/-- and the contracted position of position `k` of the point's block of the contracted axis (the grid's third axis). -/
def conOf (t : Fin cfg1.N) (k : Fin 512) : Fin 2048 :=
  ⟨512 * (t.val % 4) + k.val, by have := k.isLt; omega⟩

/-! ## The windows' block indices, decided over the grid -/

theorem idx0 : ∀ t : Fin cfg1.N, win1_0.index t (0 : Fin 2) = t.val / 16 ∧ win1_0.index t (1 : Fin 2) = t.val % 4 :=
  (by decide +kernel : ∀ t : Fin grid1.N, win1_0.index t (0 : Fin 2) = t.val / 16 ∧ win1_0.index t (1 : Fin 2) = t.val % 4)
theorem idx1 : ∀ t : Fin cfg1.N, win1_1.index t (0 : Fin 2) = t.val / 16 ∧ win1_1.index t (1 : Fin 2) = t.val % 4 :=
  (by decide +kernel : ∀ t : Fin grid1.N, win1_1.index t (0 : Fin 2) = t.val / 16 ∧ win1_1.index t (1 : Fin 2) = t.val % 4)
theorem idx2 : ∀ t : Fin cfg1.N, win1_2.index t (0 : Fin 2) = t.val / 16 ∧ win1_2.index t (1 : Fin 2) = t.val / 4 % 4 :=
  (by decide +kernel : ∀ t : Fin grid1.N, win1_2.index t (0 : Fin 2) = t.val / 16 ∧ win1_2.index t (1 : Fin 2) = t.val / 4 % 4)
theorem idx3 : ∀ t : Fin cfg1.N, win1_3.index t (0 : Fin 2) = t.val % 4 ∧ win1_3.index t (1 : Fin 2) = t.val / 4 % 4 :=
  (by decide +kernel : ∀ t : Fin grid1.N, win1_3.index t (0 : Fin 2) = t.val % 4 ∧ win1_3.index t (1 : Fin 2) = t.val / 4 % 4)
theorem idx4 : ∀ t : Fin cfg1.N, win1_4.index t (0 : Fin 2) = t.val % 4 ∧ win1_4.index t (1 : Fin 2) = t.val / 4 % 4 :=
  (by decide +kernel : ∀ t : Fin grid1.N, win1_4.index t (0 : Fin 2) = t.val % 4 ∧ win1_4.index t (1 : Fin 2) = t.val / 4 % 4)
theorem idx5 : ∀ t : Fin cfg1.N, win1_5.index t (0 : Fin 2) = t.val % 4 ∧ win1_5.index t (1 : Fin 2) = t.val / 4 % 4 :=
  (by decide +kernel : ∀ t : Fin grid1.N, win1_5.index t (0 : Fin 2) = t.val % 4 ∧ win1_5.index t (1 : Fin 2) = t.val / 4 % 4)
theorem idx6 : ∀ t : Fin cfg1.N, win1_6.index t (0 : Fin 2) = t.val % 4 ∧ win1_6.index t (1 : Fin 2) = t.val / 4 % 4 :=
  (by decide +kernel : ∀ t : Fin grid1.N, win1_6.index t (0 : Fin 2) = t.val % 4 ∧ win1_6.index t (1 : Fin 2) = t.val / 4 % 4)
theorem idx7 : ∀ t : Fin cfg1.N, win1_7.index t (0 : Fin 2) = t.val % 4 ∧ win1_7.index t (1 : Fin 2) = t.val / 4 % 4 :=
  (by decide +kernel : ∀ t : Fin grid1.N, win1_7.index t (0 : Fin 2) = t.val % 4 ∧ win1_7.index t (1 : Fin 2) = t.val / 4 % 4)
theorem idx8 : ∀ t : Fin cfg1.N, win1_8.index t (0 : Fin 2) = t.val % 4 ∧ win1_8.index t (1 : Fin 2) = t.val / 4 % 4 :=
  (by decide +kernel : ∀ t : Fin grid1.N, win1_8.index t (0 : Fin 2) = t.val % 4 ∧ win1_8.index t (1 : Fin 2) = t.val / 4 % 4)
theorem idx9 : ∀ t : Fin cfg1.N, win1_9.index t (0 : Fin 2) = t.val % 4 ∧ win1_9.index t (1 : Fin 2) = t.val / 4 % 4 :=
  (by decide +kernel : ∀ t : Fin grid1.N, win1_9.index t (0 : Fin 2) = t.val % 4 ∧ win1_9.index t (1 : Fin 2) = t.val / 4 % 4)
theorem idx10 : ∀ t : Fin cfg1.N, win1_10.index t (0 : Fin 2) = t.val % 4 ∧ win1_10.index t (1 : Fin 2) = t.val / 4 % 4 :=
  (by decide +kernel : ∀ t : Fin grid1.N, win1_10.index t (0 : Fin 2) = t.val % 4 ∧ win1_10.index t (1 : Fin 2) = t.val / 4 % 4)
theorem idx11 : ∀ t : Fin cfg1.N, win1_11.index t (0 : Fin 2) = 0 ∧ win1_11.index t (1 : Fin 2) = t.val / 4 % 4 :=
  (by decide +kernel : ∀ t : Fin grid1.N, win1_11.index t (0 : Fin 2) = 0 ∧ win1_11.index t (1 : Fin 2) = t.val / 4 % 4)
theorem idx12 : ∀ t : Fin cfg1.N, win1_12.index t (0 : Fin 2) = 0 ∧ win1_12.index t (1 : Fin 2) = t.val / 4 % 4 :=
  (by decide +kernel : ∀ t : Fin grid1.N, win1_12.index t (0 : Fin 2) = 0 ∧ win1_12.index t (1 : Fin 2) = t.val / 4 % 4)
theorem idx13 : ∀ t : Fin cfg1.N, win1_13.index t (0 : Fin 2) = 0 ∧ win1_13.index t (1 : Fin 2) = t.val / 4 % 4 :=
  (by decide +kernel : ∀ t : Fin grid1.N, win1_13.index t (0 : Fin 2) = 0 ∧ win1_13.index t (1 : Fin 2) = t.val / 4 % 4)
theorem idx14 : ∀ t : Fin cfg1.N, win1_14.index t (0 : Fin 2) = 0 ∧ win1_14.index t (1 : Fin 2) = t.val / 4 % 4 :=
  (by decide +kernel : ∀ t : Fin grid1.N, win1_14.index t (0 : Fin 2) = 0 ∧ win1_14.index t (1 : Fin 2) = t.val / 4 % 4)
theorem idx15 : ∀ t : Fin cfg1.N, win1_15.index t (0 : Fin 2) = t.val / 16 ∧ win1_15.index t (1 : Fin 2) = t.val / 4 % 4 :=
  (by decide +kernel : ∀ t : Fin grid1.N, win1_15.index t (0 : Fin 2) = t.val / 16 ∧ win1_15.index t (1 : Fin 2) = t.val / 4 % 4)
theorem idx16 : ∀ t : Fin cfg1.N, win1_16.index t (0 : Fin 2) = t.val / 16 ∧ win1_16.index t (1 : Fin 2) = t.val / 4 % 4 :=
  (by decide +kernel : ∀ t : Fin grid1.N, win1_16.index t (0 : Fin 2) = t.val / 16 ∧ win1_16.index t (1 : Fin 2) = t.val / 4 % 4)

/-! ## The arrays as the region finds them, at literal shapes -/

-- the buffers' contents when the region is entered
variable (V : (c : Dev nD) → (b : Ref sig .tc) → Buf (Elt F) ((c : Thread nD τ).loc b))

def aE (c : Dev nD) : S4096x2048.Idx → Elt F .bf16 := V c (Pipeline.arrRef spec1 0)
def aH (c : Dev nD) : S4096x2048.Idx → Elt F .bf16 := V c (Pipeline.arrRef spec1 1)
def aCell (c : Dev nD) : S4096x2048.Idx → Elt F .f32 := V c (Pipeline.arrRef spec1 2)
def aWf (c : Dev nD) : S2048x2048.Idx → Elt F .bf16 := V c (Pipeline.arrRef spec1 3)
def aWi (c : Dev nD) : S2048x2048.Idx → Elt F .bf16 := V c (Pipeline.arrRef spec1 4)
def aWc (c : Dev nD) : S2048x2048.Idx → Elt F .bf16 := V c (Pipeline.arrRef spec1 5)
def aWo (c : Dev nD) : S2048x2048.Idx → Elt F .bf16 := V c (Pipeline.arrRef spec1 6)
def aUf (c : Dev nD) : S2048x2048.Idx → Elt F .bf16 := V c (Pipeline.arrRef spec1 7)
def aUi (c : Dev nD) : S2048x2048.Idx → Elt F .bf16 := V c (Pipeline.arrRef spec1 8)
def aUc (c : Dev nD) : S2048x2048.Idx → Elt F .bf16 := V c (Pipeline.arrRef spec1 9)
def aUo (c : Dev nD) : S2048x2048.Idx → Elt F .bf16 := V c (Pipeline.arrRef spec1 10)
def aBf (c : Dev nD) : S1x2048.Idx → Elt F .f32 := V c (Pipeline.arrRef spec1 11)
def aBi (c : Dev nD) : S1x2048.Idx → Elt F .f32 := V c (Pipeline.arrRef spec1 12)
def aBc (c : Dev nD) : S1x2048.Idx → Elt F .f32 := V c (Pipeline.arrRef spec1 13)
def aBo (c : Dev nD) : S1x2048.Idx → Elt F .f32 := V c (Pipeline.arrRef spec1 14)

/-! ## A block's entry in its array -/

theorem block_aE (c : Dev nD) (t : Fin cfg1.N) (x y : Fin 512) :
    Gates.blockAt V c 0 t (ix2 x y) = aE V c (ix2 (rowOf t x) (conOf t y)) := by
  obtain ⟨e0, e1⟩ := idx0 t
  unfold Gates.blockAt aE
  show V c (Pipeline.arrRef spec1 0) (((cfg1.win 0).blk t).view.emb (ix2 x y)) = _
  refine congrArg _ (funext fun a => Fin.ext ?_)
  match a with
  | ⟨0, _⟩ => show win1_0.index t (0 : Fin 2) * 512 + 1 * x.val = 512 * (t.val / 16) + x.val; omega
  | ⟨1, _⟩ => show win1_0.index t (1 : Fin 2) * 512 + 1 * y.val = 512 * (t.val % 4) + y.val; omega

theorem block_aH (c : Dev nD) (t : Fin cfg1.N) (x y : Fin 512) :
    Gates.blockAt V c 1 t (ix2 x y) = aH V c (ix2 (rowOf t x) (conOf t y)) := by
  obtain ⟨e0, e1⟩ := idx1 t
  unfold Gates.blockAt aH
  show V c (Pipeline.arrRef spec1 1) (((cfg1.win 1).blk t).view.emb (ix2 x y)) = _
  refine congrArg _ (funext fun a => Fin.ext ?_)
  match a with
  | ⟨0, _⟩ => show win1_1.index t (0 : Fin 2) * 512 + 1 * x.val = 512 * (t.val / 16) + x.val; omega
  | ⟨1, _⟩ => show win1_1.index t (1 : Fin 2) * 512 + 1 * y.val = 512 * (t.val % 4) + y.val; omega

theorem block_aCell (c : Dev nD) (t : Fin cfg1.N) (x y : Fin 512) :
    Gates.blockAt V c 2 t (ix2 x y) = aCell V c (ix2 (rowOf t x) (colOf t y)) := by
  obtain ⟨e0, e1⟩ := idx2 t
  unfold Gates.blockAt aCell
  show V c (Pipeline.arrRef spec1 2) (((cfg1.win 2).blk t).view.emb (ix2 x y)) = _
  refine congrArg _ (funext fun a => Fin.ext ?_)
  match a with
  | ⟨0, _⟩ => show win1_2.index t (0 : Fin 2) * 512 + 1 * x.val = 512 * (t.val / 16) + x.val; omega
  | ⟨1, _⟩ => show win1_2.index t (1 : Fin 2) * 512 + 1 * y.val = 512 * (t.val / 4 % 4) + y.val; omega

theorem block_aWf (c : Dev nD) (t : Fin cfg1.N) (x y : Fin 512) :
    Gates.blockAt V c 3 t (ix2 x y) = aWf V c (ix2 (conOf t x) (colOf t y)) := by
  obtain ⟨e0, e1⟩ := idx3 t
  unfold Gates.blockAt aWf
  show V c (Pipeline.arrRef spec1 3) (((cfg1.win 3).blk t).view.emb (ix2 x y)) = _
  refine congrArg _ (funext fun a => Fin.ext ?_)
  match a with
  | ⟨0, _⟩ => show win1_3.index t (0 : Fin 2) * 512 + 1 * x.val = 512 * (t.val % 4) + x.val; omega
  | ⟨1, _⟩ => show win1_3.index t (1 : Fin 2) * 512 + 1 * y.val = 512 * (t.val / 4 % 4) + y.val; omega

theorem block_aWi (c : Dev nD) (t : Fin cfg1.N) (x y : Fin 512) :
    Gates.blockAt V c 4 t (ix2 x y) = aWi V c (ix2 (conOf t x) (colOf t y)) := by
  obtain ⟨e0, e1⟩ := idx4 t
  unfold Gates.blockAt aWi
  show V c (Pipeline.arrRef spec1 4) (((cfg1.win 4).blk t).view.emb (ix2 x y)) = _
  refine congrArg _ (funext fun a => Fin.ext ?_)
  match a with
  | ⟨0, _⟩ => show win1_4.index t (0 : Fin 2) * 512 + 1 * x.val = 512 * (t.val % 4) + x.val; omega
  | ⟨1, _⟩ => show win1_4.index t (1 : Fin 2) * 512 + 1 * y.val = 512 * (t.val / 4 % 4) + y.val; omega

theorem block_aWc (c : Dev nD) (t : Fin cfg1.N) (x y : Fin 512) :
    Gates.blockAt V c 5 t (ix2 x y) = aWc V c (ix2 (conOf t x) (colOf t y)) := by
  obtain ⟨e0, e1⟩ := idx5 t
  unfold Gates.blockAt aWc
  show V c (Pipeline.arrRef spec1 5) (((cfg1.win 5).blk t).view.emb (ix2 x y)) = _
  refine congrArg _ (funext fun a => Fin.ext ?_)
  match a with
  | ⟨0, _⟩ => show win1_5.index t (0 : Fin 2) * 512 + 1 * x.val = 512 * (t.val % 4) + x.val; omega
  | ⟨1, _⟩ => show win1_5.index t (1 : Fin 2) * 512 + 1 * y.val = 512 * (t.val / 4 % 4) + y.val; omega

theorem block_aWo (c : Dev nD) (t : Fin cfg1.N) (x y : Fin 512) :
    Gates.blockAt V c 6 t (ix2 x y) = aWo V c (ix2 (conOf t x) (colOf t y)) := by
  obtain ⟨e0, e1⟩ := idx6 t
  unfold Gates.blockAt aWo
  show V c (Pipeline.arrRef spec1 6) (((cfg1.win 6).blk t).view.emb (ix2 x y)) = _
  refine congrArg _ (funext fun a => Fin.ext ?_)
  match a with
  | ⟨0, _⟩ => show win1_6.index t (0 : Fin 2) * 512 + 1 * x.val = 512 * (t.val % 4) + x.val; omega
  | ⟨1, _⟩ => show win1_6.index t (1 : Fin 2) * 512 + 1 * y.val = 512 * (t.val / 4 % 4) + y.val; omega

theorem block_aUf (c : Dev nD) (t : Fin cfg1.N) (x y : Fin 512) :
    Gates.blockAt V c 7 t (ix2 x y) = aUf V c (ix2 (conOf t x) (colOf t y)) := by
  obtain ⟨e0, e1⟩ := idx7 t
  unfold Gates.blockAt aUf
  show V c (Pipeline.arrRef spec1 7) (((cfg1.win 7).blk t).view.emb (ix2 x y)) = _
  refine congrArg _ (funext fun a => Fin.ext ?_)
  match a with
  | ⟨0, _⟩ => show win1_7.index t (0 : Fin 2) * 512 + 1 * x.val = 512 * (t.val % 4) + x.val; omega
  | ⟨1, _⟩ => show win1_7.index t (1 : Fin 2) * 512 + 1 * y.val = 512 * (t.val / 4 % 4) + y.val; omega

theorem block_aUi (c : Dev nD) (t : Fin cfg1.N) (x y : Fin 512) :
    Gates.blockAt V c 8 t (ix2 x y) = aUi V c (ix2 (conOf t x) (colOf t y)) := by
  obtain ⟨e0, e1⟩ := idx8 t
  unfold Gates.blockAt aUi
  show V c (Pipeline.arrRef spec1 8) (((cfg1.win 8).blk t).view.emb (ix2 x y)) = _
  refine congrArg _ (funext fun a => Fin.ext ?_)
  match a with
  | ⟨0, _⟩ => show win1_8.index t (0 : Fin 2) * 512 + 1 * x.val = 512 * (t.val % 4) + x.val; omega
  | ⟨1, _⟩ => show win1_8.index t (1 : Fin 2) * 512 + 1 * y.val = 512 * (t.val / 4 % 4) + y.val; omega

theorem block_aUc (c : Dev nD) (t : Fin cfg1.N) (x y : Fin 512) :
    Gates.blockAt V c 9 t (ix2 x y) = aUc V c (ix2 (conOf t x) (colOf t y)) := by
  obtain ⟨e0, e1⟩ := idx9 t
  unfold Gates.blockAt aUc
  show V c (Pipeline.arrRef spec1 9) (((cfg1.win 9).blk t).view.emb (ix2 x y)) = _
  refine congrArg _ (funext fun a => Fin.ext ?_)
  match a with
  | ⟨0, _⟩ => show win1_9.index t (0 : Fin 2) * 512 + 1 * x.val = 512 * (t.val % 4) + x.val; omega
  | ⟨1, _⟩ => show win1_9.index t (1 : Fin 2) * 512 + 1 * y.val = 512 * (t.val / 4 % 4) + y.val; omega

theorem block_aUo (c : Dev nD) (t : Fin cfg1.N) (x y : Fin 512) :
    Gates.blockAt V c 10 t (ix2 x y) = aUo V c (ix2 (conOf t x) (colOf t y)) := by
  obtain ⟨e0, e1⟩ := idx10 t
  unfold Gates.blockAt aUo
  show V c (Pipeline.arrRef spec1 10) (((cfg1.win 10).blk t).view.emb (ix2 x y)) = _
  refine congrArg _ (funext fun a => Fin.ext ?_)
  match a with
  | ⟨0, _⟩ => show win1_10.index t (0 : Fin 2) * 512 + 1 * x.val = 512 * (t.val % 4) + x.val; omega
  | ⟨1, _⟩ => show win1_10.index t (1 : Fin 2) * 512 + 1 * y.val = 512 * (t.val / 4 % 4) + y.val; omega

theorem block_aBf (c : Dev nD) (t : Fin cfg1.N) (q : Fin 512) :
    Gates.blockAt V c 11 t (ix2 (0 : Fin 1) q) = aBf V c (ix2 (0 : Fin 1) (colOf t q)) := by
  obtain ⟨e0, e1⟩ := idx11 t
  unfold Gates.blockAt aBf
  show V c (Pipeline.arrRef spec1 11) (((cfg1.win 11).blk t).view.emb (ix2 (0 : Fin 1) q)) = _
  refine congrArg _ (funext fun a => Fin.ext ?_)
  match a with
  | ⟨0, _⟩ => show win1_11.index t (0 : Fin 2) * 1 + 1 * 0 = 0; omega
  | ⟨1, _⟩ => show win1_11.index t (1 : Fin 2) * 512 + 1 * q.val = 512 * (t.val / 4 % 4) + q.val; omega

theorem block_aBi (c : Dev nD) (t : Fin cfg1.N) (q : Fin 512) :
    Gates.blockAt V c 12 t (ix2 (0 : Fin 1) q) = aBi V c (ix2 (0 : Fin 1) (colOf t q)) := by
  obtain ⟨e0, e1⟩ := idx12 t
  unfold Gates.blockAt aBi
  show V c (Pipeline.arrRef spec1 12) (((cfg1.win 12).blk t).view.emb (ix2 (0 : Fin 1) q)) = _
  refine congrArg _ (funext fun a => Fin.ext ?_)
  match a with
  | ⟨0, _⟩ => show win1_12.index t (0 : Fin 2) * 1 + 1 * 0 = 0; omega
  | ⟨1, _⟩ => show win1_12.index t (1 : Fin 2) * 512 + 1 * q.val = 512 * (t.val / 4 % 4) + q.val; omega

theorem block_aBc (c : Dev nD) (t : Fin cfg1.N) (q : Fin 512) :
    Gates.blockAt V c 13 t (ix2 (0 : Fin 1) q) = aBc V c (ix2 (0 : Fin 1) (colOf t q)) := by
  obtain ⟨e0, e1⟩ := idx13 t
  unfold Gates.blockAt aBc
  show V c (Pipeline.arrRef spec1 13) (((cfg1.win 13).blk t).view.emb (ix2 (0 : Fin 1) q)) = _
  refine congrArg _ (funext fun a => Fin.ext ?_)
  match a with
  | ⟨0, _⟩ => show win1_13.index t (0 : Fin 2) * 1 + 1 * 0 = 0; omega
  | ⟨1, _⟩ => show win1_13.index t (1 : Fin 2) * 512 + 1 * q.val = 512 * (t.val / 4 % 4) + q.val; omega

theorem block_aBo (c : Dev nD) (t : Fin cfg1.N) (q : Fin 512) :
    Gates.blockAt V c 14 t (ix2 (0 : Fin 1) q) = aBo V c (ix2 (0 : Fin 1) (colOf t q)) := by
  obtain ⟨e0, e1⟩ := idx14 t
  unfold Gates.blockAt aBo
  show V c (Pipeline.arrRef spec1 14) (((cfg1.win 14).blk t).view.emb (ix2 (0 : Fin 1) q)) = _
  refine congrArg _ (funext fun a => Fin.ext ?_)
  match a with
  | ⟨0, _⟩ => show win1_14.index t (0 : Fin 2) * 1 + 1 * 0 = 0; omega
  | ⟨1, _⟩ => show win1_14.index t (1 : Fin 2) * 512 + 1 * q.val = 512 * (t.val / 4 % 4) + q.val; omega

end Cert.KernelIdeal.GatesValue

end
-- ==== Proof.KernelIdealGatesValueSums.lean ====
/-
  A contraction over 2048 positions walked in four runs of 512, each run's two partial products added to a running
  total that starts at zero, is the two whole contractions added: in any commutative additive monoid — the extended
  reals among them, with no finiteness asked —

      (((0 + (A₀ + B₀)) + (A₁ + B₁)) + (A₂ + B₂)) + (A₃ + B₃)  =  (Σ A) + (Σ B).
-/
import proofs.«125352_j18708877541498_2_alg».proof.Proof.LibBlockedSum
import Mathlib.Algebra.BigOperators.Fin

namespace Cert.KernelIdeal.GatesValue

open Idealize.ShloMosaic

/-- Position `j` of run `s` among the 2048 contracted positions. -/
def runIdx (s : Fin 4) (j : Fin 512) : Fin 2048 :=
  ⟨512 * s.val + j.val, by have := s.isLt; have := j.isLt; omega⟩

variable {M : Type*} [AddCommMonoid M]

/-- A sum over the 2048 positions, run by run. -/
theorem sum_runs (f : Fin 2048 → M) : ∑ k : Fin 2048, f k = ∑ s : Fin 4, ∑ j : Fin 512, f (runIdx s j) := by
  let g : ℕ → M := fun n => if h : n < 2048 then f ⟨n, h⟩ else 0
  have hg : ∀ k : Fin 2048, g k.val = f k := fun k => by simp only [g]; rw [dif_pos k.isLt]
  calc ∑ k : Fin 2048, f k = ∑ k : Fin 2048, g k.val := Finset.sum_congr rfl fun k _ => (hg k).symm
    _ = ∑ k ∈ Finset.range (4 * 512), g k := Fin.sum_univ_eq_sum_range g 2048
    _ = ∑ s ∈ Finset.range 4, ∑ j ∈ Finset.range 512, g (512 * s + j) := BlockedSum.sum_range_blocks 512 g 4
    _ = ∑ s : Fin 4, ∑ j : Fin 512, g (512 * s.val + j.val) := by
        rw [Finset.sum_range]; refine Finset.sum_congr rfl fun s _ => ?_; rw [Finset.sum_range]
    _ = ∑ s : Fin 4, ∑ j : Fin 512, f (runIdx s j) :=
        Finset.sum_congr rfl fun s _ => Finset.sum_congr rfl fun j _ => hg (runIdx s j)

/-- Four accumulation steps from zero, each adding its run's two partial products, are the two whole sums. -/
theorem acc_total (fE fH : Fin 2048 → M) :
    (((0 + ((∑ j : Fin 512, fE (runIdx 0 j)) + ∑ j : Fin 512, fH (runIdx 0 j)))
        + ((∑ j : Fin 512, fE (runIdx 1 j)) + ∑ j : Fin 512, fH (runIdx 1 j)))
        + ((∑ j : Fin 512, fE (runIdx 2 j)) + ∑ j : Fin 512, fH (runIdx 2 j)))
        + ((∑ j : Fin 512, fE (runIdx 3 j)) + ∑ j : Fin 512, fH (runIdx 3 j))
      = (∑ k : Fin 2048, fE k) + ∑ k : Fin 2048, fH k := by
  rw [sum_runs fE, sum_runs fH, Fin.sum_univ_four, Fin.sum_univ_four, zero_add]
  ac_rfl

end Cert.KernelIdeal.GatesValue
-- ==== Proof.KernelIdealGatesValue.lean ====
/-
  The gates region: what its two output arrays hold after the run.

  For a gate with input-side weights W, hidden-side weights U and bias row b, write
      pre r j = (Σ_k E(r, k) · W(k, j)) + (Σ_k H(r, k) · U(k, j)) + b(0, j),
  the sums over all 2048 contracted positions. The new cell at (r, j) is
      logistic(pre_f) · C(r, j) + logistic(pre_i) · tanh(pre_c)
  and the new hidden is logistic(pre_o) · tanh(new cell). The kernel reaches the two sums four blocks of 512
  positions at a time, adding each block's two partial products to an accumulator zeroed at the first block; that
  regrouping is associativity and commutativity of addition only. The tile stored at the last point of each run
  over k is the tile of these functions at the point's rows and columns, and those tiles cover the arrays.
-/
import proofs.«125352_j18708877541498_2_alg».proof.Proof.KernelIdealGates
import proofs.«125352_j18708877541498_2_alg».proof.Proof.KernelIdealGatesValueOps
import proofs.«125352_j18708877541498_2_alg».proof.Proof.KernelIdealGatesValueBlocks
import proofs.«125352_j18708877541498_2_alg».proof.Proof.KernelIdealGatesValueSums

set_option maxRecDepth 16384

noncomputable section

namespace Cert.KernelIdeal.GatesValue

open Cert.KernelIdeal Cert.KernelIdeal.Gen
open Idealize.ShloMosaic Idealize.ShloMosaic.TcCoe Idealize.ShloMosaic.ValueIdx
open Idealize.ShloMosaic.Pipeline (Dat Cfg Window)

-- the buffers' contents when the region is entered, over the extended reals
variable (V : (c : Dev nD) → (b : Ref sig .tc) → Buf (Elt Ideal) ((c : Thread nD τ).loc b))

/-! ## The specification -/

/-- A gate's pre-activation at (r, j) from the embedding and hidden arrays, its two weight matrices and its bias row. -/
def pre (E H : S4096x2048.Idx → EReal) (W U : S2048x2048.Idx → EReal) (b : S1x2048.Idx → EReal)
    (r : Fin 4096) (j : Fin 2048) : EReal :=
  ((∑ k : Fin 2048, E (ix2 r k) * W (ix2 k j)) + (∑ k : Fin 2048, H (ix2 r k) * U (ix2 k j))) + b (ix2 0 j)

def preF (c : Dev nD) (r : Fin 4096) (j : Fin 2048) : EReal := pre (aE V c) (aH V c) (aWf V c) (aUf V c) (aBf V c) r j
def preI (c : Dev nD) (r : Fin 4096) (j : Fin 2048) : EReal := pre (aE V c) (aH V c) (aWi V c) (aUi V c) (aBi V c) r j
def preC (c : Dev nD) (r : Fin 4096) (j : Fin 2048) : EReal := pre (aE V c) (aH V c) (aWc V c) (aUc V c) (aBc V c) r j
def preO (c : Dev nD) (r : Fin 4096) (j : Fin 2048) : EReal := pre (aE V c) (aH V c) (aWo V c) (aUo V c) (aBo V c) r j

/-- The forget, input and output gates and the cell candidate. -/
def gateF (c : Dev nD) (r : Fin 4096) (j : Fin 2048) : EReal := Ideal.logistic (preF V c r j)
def gateI (c : Dev nD) (r : Fin 4096) (j : Fin 2048) : EReal := Ideal.logistic (preI V c r j)
def gateG (c : Dev nD) (r : Fin 4096) (j : Fin 2048) : EReal := Ideal.tanh (preC V c r j)
def gateO (c : Dev nD) (r : Fin 4096) (j : Fin 2048) : EReal := Ideal.logistic (preO V c r j)

/-- The new cell and the new hidden at (r, j). -/
def cellNew (c : Dev nD) (r : Fin 4096) (j : Fin 2048) : EReal :=
  gateF V c r j * aCell V c (ix2 r j) + gateI V c r j * gateG V c r j
def hiddenNew (c : Dev nD) (r : Fin 4096) (j : Fin 2048) : EReal :=
  gateO V c r j * Ideal.tanh (cellNew V c r j)

/-! ## A run over k, unrolled -/

/-- After the last point of a run over k the accumulators are four steps from zero. -/
theorem accAt_run (c : Dev nD) (b : ℕ) (hb : b % 4 = 0) (h3 : b + 3 < cfg1.N) :
    Gates.accAt V c (b + 3) h3
      = Gates.stepAll V c ⟨b + 3, h3⟩ (Gates.stepAll V c ⟨b + 2, by omega⟩
          (Gates.stepAll V c ⟨b + 1, by omega⟩ (Gates.stepAll V c ⟨b, by omega⟩ Gates.zeros))) := by
  have e0 : Gates.accAt V c b (by omega) = Gates.stepAll V c ⟨b, by omega⟩ Gates.zeros :=
    Gates.accAt_first V c ⟨b, by omega⟩ hb
  have e1 : Gates.accAt V c (b + 1) (by omega)
      = Gates.stepAll V c ⟨b + 1, by omega⟩ (Gates.accAt V c b (by omega)) := by
    show Gates.stepAll V c ⟨b + 1, _⟩ (if (b + 1) % 4 = 0 then Gates.zeros else Gates.accAt V c b _) = _
    rw [if_neg (by omega)]
  have e2 : Gates.accAt V c (b + 2) (by omega)
      = Gates.stepAll V c ⟨b + 2, by omega⟩ (Gates.accAt V c (b + 1) (by omega)) := by
    show Gates.stepAll V c ⟨b + 1 + 1, _⟩ (if (b + 1 + 1) % 4 = 0 then Gates.zeros else Gates.accAt V c (b + 1) _) = _
    rw [if_neg (by omega)]
  have e3 : Gates.accAt V c (b + 3) h3
      = Gates.stepAll V c ⟨b + 3, h3⟩ (Gates.accAt V c (b + 2) (by omega)) := by
    show Gates.stepAll V c ⟨b + 2 + 1, _⟩ (if (b + 2 + 1) % 4 = 0 then Gates.zeros else Gates.accAt V c (b + 2) _) = _
    rw [if_neg (by omega)]
  rw [e3, e2, e1, e0]

/-- The four points of the run that ends at `t`. -/
def runPt (t : Fin cfg1.N) (s : Fin 4) : Fin cfg1.N :=
  ⟨t.val - 3 + s.val, lt_of_lt_of_eq (by have := tlt t; have := s.isLt; omega : t.val - 3 + s.val < 128)
    (show cfg1.N = 128 from N_1).symm⟩

theorem accAt_last (c : Dev nD) (t : Fin cfg1.N) (ht : t.val % 4 = 3) :
    Gates.accAt V c t.val t.isLt
      = Gates.stepAll V c (runPt t 3) (Gates.stepAll V c (runPt t 2)
          (Gates.stepAll V c (runPt t 1) (Gates.stepAll V c (runPt t 0) Gates.zeros))) := by
  rw [Gates.accAt_congr V c (show t.val = t.val - 3 + 3 by omega) t.isLt (by have := t.isLt; omega),
    accAt_run V c (t.val - 3) (by omega) (by have := t.isLt; omega)]
  rfl

/-- One step's addend at a point of the run, through the blocks' places in their arrays: run `s` of the two
    contractions at the run's rows and columns. -/
theorem addend_eq (bE bH bW bU : Vec Ideal S512x512 .bf16) (E H : S4096x2048.Idx → EReal) (W U : S2048x2048.Idx → EReal)
    (n : Fin cfg1.N) (s : Fin 4) (hs : n.val % 4 = s.val) (R : Fin 4096) (Cc : Fin 2048) (p q : Fin 512)
    (hE : ∀ x y, bE (ix2 x y) = E (ix2 (rowOf n x) (conOf n y))) (hH : ∀ x y, bH (ix2 x y) = H (ix2 (rowOf n x) (conOf n y)))
    (hW : ∀ x y, bW (ix2 x y) = W (ix2 (conOf n x) (colOf n y))) (hU : ∀ x y, bU (ix2 x y) = U (ix2 (conOf n x) (colOf n y)))
    (hR : rowOf n p = R) (hC : colOf n q = Cc) :
    addend bE bH bW bU p q
      = (∑ j : Fin 512, E (ix2 R (runIdx s j)) * W (ix2 (runIdx s j) Cc))
        + ∑ j : Fin 512, H (ix2 R (runIdx s j)) * U (ix2 (runIdx s j) Cc) := by
  have hk : ∀ j : Fin 512, conOf n j = runIdx s j := fun j =>
    Fin.ext (by show 512 * (n.val % 4) + j.val = 512 * s.val + j.val; rw [hs])
  unfold addend
  simp only [hE, hH, hW, hU, hk, hR, hC]

/-- The four addends of the run that ends at `t`, from zero: the two whole contractions at `t`'s rows and columns. -/
theorem run_total (t : Fin cfg1.N) (ht : t.val % 4 = 3) (p q : Fin 512)
    (bE bH bW bU : Fin cfg1.N → Vec Ideal S512x512 .bf16) (E H : S4096x2048.Idx → EReal) (W U : S2048x2048.Idx → EReal)
    (hE : ∀ n x y, bE n (ix2 x y) = E (ix2 (rowOf n x) (conOf n y))) (hH : ∀ n x y, bH n (ix2 x y) = H (ix2 (rowOf n x) (conOf n y)))
    (hW : ∀ n x y, bW n (ix2 x y) = W (ix2 (conOf n x) (colOf n y))) (hU : ∀ n x y, bU n (ix2 x y) = U (ix2 (conOf n x) (colOf n y))) :
    (((0 + addend (bE (runPt t 0)) (bH (runPt t 0)) (bW (runPt t 0)) (bU (runPt t 0)) p q)
        + addend (bE (runPt t 1)) (bH (runPt t 1)) (bW (runPt t 1)) (bU (runPt t 1)) p q)
        + addend (bE (runPt t 2)) (bH (runPt t 2)) (bW (runPt t 2)) (bU (runPt t 2)) p q)
        + addend (bE (runPt t 3)) (bH (runPt t 3)) (bW (runPt t 3)) (bU (runPt t 3)) p q
      = (∑ k : Fin 2048, E (ix2 (rowOf t p) k) * W (ix2 k (colOf t q)))
        + ∑ k : Fin 2048, H (ix2 (rowOf t p) k) * U (ix2 k (colOf t q)) := by
  have hs : ∀ s : Fin 4, (runPt t s).val % 4 = s.val := fun s => by
    show (t.val - 3 + s.val) % 4 = s.val; have := s.isLt; omega
  have hR : ∀ s : Fin 4, rowOf (runPt t s) p = rowOf t p := fun s =>
    Fin.ext (by show 512 * ((t.val - 3 + s.val) / 16) + p.val = 512 * (t.val / 16) + p.val; have := s.isLt; omega)
  have hC : ∀ s : Fin 4, colOf (runPt t s) q = colOf t q := fun s =>
    Fin.ext (by show 512 * ((t.val - 3 + s.val) / 4 % 4) + q.val = 512 * (t.val / 4 % 4) + q.val; have := s.isLt; omega)
  rw [addend_eq (bE (runPt t 0)) (bH (runPt t 0)) (bW (runPt t 0)) (bU (runPt t 0)) E H W U (runPt t 0) 0 (hs 0) (rowOf t p) (colOf t q) p q
      (hE _) (hH _) (hW _) (hU _) (hR 0) (hC 0),
    addend_eq (bE (runPt t 1)) (bH (runPt t 1)) (bW (runPt t 1)) (bU (runPt t 1)) E H W U (runPt t 1) 1 (hs 1) (rowOf t p) (colOf t q) p q
      (hE _) (hH _) (hW _) (hU _) (hR 1) (hC 1),
    addend_eq (bE (runPt t 2)) (bH (runPt t 2)) (bW (runPt t 2)) (bU (runPt t 2)) E H W U (runPt t 2) 2 (hs 2) (rowOf t p) (colOf t q) p q
      (hE _) (hH _) (hW _) (hU _) (hR 2) (hC 2),
    addend_eq (bE (runPt t 3)) (bH (runPt t 3)) (bW (runPt t 3)) (bU (runPt t 3)) E H W U (runPt t 3) 3 (hs 3) (rowOf t p) (colOf t q) p q
      (hE _) (hH _) (hW _) (hU _) (hR 3) (hC 3)]
  exact acc_total (fun k => E (ix2 (rowOf t p) k) * W (ix2 k (colOf t q))) (fun k => H (ix2 (rowOf t p) k) * U (ix2 k (colOf t q)))

/-- The F-gate accumulator after the last point of a run over k, at entry (p, q): the two whole contractions. -/
theorem accF_entry (c : Dev nD) (t : Fin cfg1.N) (ht : t.val % 4 = 3) (p q : Fin 512) :
    (Gates.accAt V c t.val t.isLt).1 (ix2 p q)
      = (∑ k : Fin 2048, aE V c (ix2 (rowOf t p) k) * aWf V c (ix2 k (colOf t q)))
        + ∑ k : Fin 2048, aH V c (ix2 (rowOf t p) k) * aUf V c (ix2 k (colOf t q)) := by
  rw [accAt_last V c t ht]
  unfold Gates.stepAll Gates.zeros; dsimp only
  rw [stepF_apply, stepF_apply, stepF_apply, stepF_apply, zero5]
  exact run_total t ht p q (fun n => Gates.blockAt V c 0 n) (fun n => Gates.blockAt V c 1 n)
    (fun n => Gates.blockAt V c 3 n) (fun n => Gates.blockAt V c 7 n) (aE V c) (aH V c) (aWf V c) (aUf V c)
    (fun n x y => block_aE V c n x y) (fun n x y => block_aH V c n x y)
    (fun n x y => block_aWf V c n x y) (fun n x y => block_aUf V c n x y)

/-- The I-gate accumulator after the last point of a run over k, at entry (p, q): the two whole contractions. -/
theorem accI_entry (c : Dev nD) (t : Fin cfg1.N) (ht : t.val % 4 = 3) (p q : Fin 512) :
    (Gates.accAt V c t.val t.isLt).2.1 (ix2 p q)
      = (∑ k : Fin 2048, aE V c (ix2 (rowOf t p) k) * aWi V c (ix2 k (colOf t q)))
        + ∑ k : Fin 2048, aH V c (ix2 (rowOf t p) k) * aUi V c (ix2 k (colOf t q)) := by
  rw [accAt_last V c t ht]
  unfold Gates.stepAll Gates.zeros; dsimp only
  rw [stepI_apply, stepI_apply, stepI_apply, stepI_apply, zero6]
  exact run_total t ht p q (fun n => Gates.blockAt V c 0 n) (fun n => Gates.blockAt V c 1 n)
    (fun n => Gates.blockAt V c 4 n) (fun n => Gates.blockAt V c 8 n) (aE V c) (aH V c) (aWi V c) (aUi V c)
    (fun n x y => block_aE V c n x y) (fun n x y => block_aH V c n x y)
    (fun n x y => block_aWi V c n x y) (fun n x y => block_aUi V c n x y)

/-- The C-gate accumulator after the last point of a run over k, at entry (p, q): the two whole contractions. -/
theorem accC_entry (c : Dev nD) (t : Fin cfg1.N) (ht : t.val % 4 = 3) (p q : Fin 512) :
    (Gates.accAt V c t.val t.isLt).2.2.1 (ix2 p q)
      = (∑ k : Fin 2048, aE V c (ix2 (rowOf t p) k) * aWc V c (ix2 k (colOf t q)))
        + ∑ k : Fin 2048, aH V c (ix2 (rowOf t p) k) * aUc V c (ix2 k (colOf t q)) := by
  rw [accAt_last V c t ht]
  unfold Gates.stepAll Gates.zeros; dsimp only
  rw [stepC_apply, stepC_apply, stepC_apply, stepC_apply, zero7]
  exact run_total t ht p q (fun n => Gates.blockAt V c 0 n) (fun n => Gates.blockAt V c 1 n)
    (fun n => Gates.blockAt V c 5 n) (fun n => Gates.blockAt V c 9 n) (aE V c) (aH V c) (aWc V c) (aUc V c)
    (fun n x y => block_aE V c n x y) (fun n x y => block_aH V c n x y)
    (fun n x y => block_aWc V c n x y) (fun n x y => block_aUc V c n x y)

/-- The O-gate accumulator after the last point of a run over k, at entry (p, q): the two whole contractions. -/
theorem accO_entry (c : Dev nD) (t : Fin cfg1.N) (ht : t.val % 4 = 3) (p q : Fin 512) :
    (Gates.accAt V c t.val t.isLt).2.2.2 (ix2 p q)
      = (∑ k : Fin 2048, aE V c (ix2 (rowOf t p) k) * aWo V c (ix2 k (colOf t q)))
        + ∑ k : Fin 2048, aH V c (ix2 (rowOf t p) k) * aUo V c (ix2 k (colOf t q)) := by
  rw [accAt_last V c t ht]
  unfold Gates.stepAll Gates.zeros; dsimp only
  rw [stepO_apply, stepO_apply, stepO_apply, stepO_apply, zero8]
  exact run_total t ht p q (fun n => Gates.blockAt V c 0 n) (fun n => Gates.blockAt V c 1 n)
    (fun n => Gates.blockAt V c 6 n) (fun n => Gates.blockAt V c 10 n) (aE V c) (aH V c) (aWo V c) (aUo V c)
    (fun n x y => block_aE V c n x y) (fun n x y => block_aH V c n x y)
    (fun n x y => block_aWo V c n x y) (fun n x y => block_aUo V c n x y)

/-! ## The stored tiles -/

/-- The new cell tile stored at the last point of a run over k is the tile of `cellNew` at its rows and columns. -/
theorem outC_entry (c : Dev nD) (t : Fin cfg1.N) (ht : t.val % 4 = 3) (p q : Fin 512) :
    Gates.outC V c t (ix2 p q) = cellNew V c (rowOf t p) (colOf t q) := by
  unfold Gates.outC
  rw [newC_apply (Gates.accAt V c t.val t.isLt).1 (Gates.accAt V c t.val t.isLt).2.1 (Gates.accAt V c t.val t.isLt).2.2.1
      (Gates.blockAt V c 11 t) (Gates.blockAt V c 12 t) (Gates.blockAt V c 13 t) (Gates.blockAt V c 2 t) p q,
    accF_entry V c t ht, accI_entry V c t ht, accC_entry V c t ht,
    block_aBf V c t q, block_aBi V c t q, block_aBc V c t q, block_aCell V c t p q]
  rfl

/-- The new hidden tile likewise. -/
theorem outH_entry (c : Dev nD) (t : Fin cfg1.N) (ht : t.val % 4 = 3) (p q : Fin 512) :
    Gates.outH V c t (ix2 p q) = hiddenNew V c (rowOf t p) (colOf t q) := by
  unfold Gates.outH
  rw [newH_apply (Gates.accAt V c t.val t.isLt).1 (Gates.accAt V c t.val t.isLt).2.1 (Gates.accAt V c t.val t.isLt).2.2.1
      (Gates.accAt V c t.val t.isLt).2.2.2
      (Gates.blockAt V c 11 t) (Gates.blockAt V c 12 t) (Gates.blockAt V c 13 t) (Gates.blockAt V c 14 t) (Gates.blockAt V c 2 t) p q,
    show Gates.newC (Gates.accAt V c t.val t.isLt).1 (Gates.accAt V c t.val t.isLt).2.1 (Gates.accAt V c t.val t.isLt).2.2.1
      (Gates.blockAt V c 11 t) (Gates.blockAt V c 12 t) (Gates.blockAt V c 13 t) (Gates.blockAt V c 2 t) (ix2 p q)
      = Gates.outC V c t (ix2 p q) from rfl,
    outC_entry V c t ht p q, accO_entry V c t ht, block_aBo V c t q]
  rfl

/-! ## From the tiles to the arrays -/

/-- The two output arrays as functions of the array index. -/
def GC (c : Dev nD) : S4096x2048.Idx → EReal := fun i => cellNew V c ⟨(i 0).val, idx2_lt0 i⟩ ⟨(i 1).val, idx2_lt1 i⟩
def GH (c : Dev nD) : S4096x2048.Idx → EReal := fun i => hiddenNew V c ⟨(i 0).val, idx2_lt0 i⟩ ⟨(i 1).val, idx2_lt1 i⟩

/-- What a point that writes window 16's tile back writes is the tile of `GC` there. -/
theorem flushed16 (c : Dev nD) (t : Fin cfg1.N) (hf : (cfg1.win 16).flush t = true) :
    (Gates.dat V c).flushed 16 t = ((cfg1.win 16).blk t).view.read (Elt Ideal) (GC V c) := by
  have ht : t.val % 4 = 3 := (flush1_16 t).mp hf
  obtain ⟨e0, e1⟩ := idx16 t
  show (cfg1.win 16).cut (grid1.coords t) ((Gates.dat V c).after 16 t) = _
  rw [Gates.after16]
  funext y
  obtain ⟨p, q, rfl⟩ : ∃ (p q : Fin 512), y = ix2 p q := ⟨y 0, y 1, eq_ix2 y⟩
  show Gates.outC V c t (ix2 p q) = GC V c (((cfg1.win 16).blk t).view.emb (ix2 p q))
  rw [outC_entry V c t ht p q]
  unfold GC
  exact congrArg₂ (cellNew V c)
    (Fin.ext (by show 512 * (t.val / 16) + p.val = win1_16.index t (0 : Fin 2) * 512 + 1 * p.val; omega))
    (Fin.ext (by show 512 * (t.val / 4 % 4) + q.val = win1_16.index t (1 : Fin 2) * 512 + 1 * q.val; omega))

/-- An index of the array is in point `t`'s tile iff each coordinate is in the tile's range on its axis. -/
theorem mem_blk16 (t : Fin cfg1.N) (i : S4096x2048.Idx) :
    i ∈ ((cfg1.win 16).blk t).view.set ↔ ∀ a : Fin 2, win1_16.index t a * S512x512.size a ≤ (i a).val
      ∧ (i a).val < win1_16.index t a * S512x512.size a + S512x512.size a := by
  show i ∈ ((View.whole main_v0_2).slice (win1_16.rect t)).set ↔ _
  rw [View.set_slice_whole, Rect.mem_set_unit]
  exact Iff.rfl

/-- Every index of the array is in the tile of some point that writes it back. -/
theorem cover16 (i : S4096x2048.Idx) :
    ∃ t : Fin cfg1.N, (cfg1.win 16).flush t = true ∧ i ∈ ((cfg1.win 16).blk t).view.set := by
  have hi0 : (i 0).val < 4096 := idx2_lt0 i
  have hi1 : (i 1).val < 2048 := idx2_lt1 i
  let t : Fin cfg1.N := ⟨16 * ((i 0).val / 512) + 4 * ((i 1).val / 512) + 3, by
    rw [show cfg1.N = 128 from N_1]; omega⟩
  have htv : t.val = 16 * ((i 0).val / 512) + 4 * ((i 1).val / 512) + 3 := rfl
  obtain ⟨e0, e1⟩ := idx16 t
  refine ⟨t, (flush1_16 t).mpr (by omega), ?_⟩
  rw [mem_blk16]
  intro a
  match a with
  | ⟨0, _⟩ => show win1_16.index t (0 : Fin 2) * 512 ≤ (i 0).val ∧ (i 0).val < win1_16.index t (0 : Fin 2) * 512 + 512; omega
  | ⟨1, _⟩ => show win1_16.index t (1 : Fin 2) * 512 ≤ (i 1).val ∧ (i 1).val < win1_16.index t (1 : Fin 2) * 512 + 512; omega

/-- The array after the run. -/
theorem final16 (c : Dev nD) : (Gates.dat V c).arrAt 16 cfg1.N = GC V c :=
  (Gates.dat V c).arrAt_eq_of_cover 16 (GC V c) (fun t hf => flushed16 V c t hf) cover16

/-- What a point that writes window 15's tile back writes is the tile of `GH` there. -/
theorem flushed15 (c : Dev nD) (t : Fin cfg1.N) (hf : (cfg1.win 15).flush t = true) :
    (Gates.dat V c).flushed 15 t = ((cfg1.win 15).blk t).view.read (Elt Ideal) (GH V c) := by
  have ht : t.val % 4 = 3 := (flush1_15 t).mp hf
  obtain ⟨e0, e1⟩ := idx15 t
  show (cfg1.win 15).cut (grid1.coords t) ((Gates.dat V c).after 15 t) = _
  rw [Gates.after15]
  funext y
  obtain ⟨p, q, rfl⟩ : ∃ (p q : Fin 512), y = ix2 p q := ⟨y 0, y 1, eq_ix2 y⟩
  show Gates.outH V c t (ix2 p q) = GH V c (((cfg1.win 15).blk t).view.emb (ix2 p q))
  rw [outH_entry V c t ht p q]
  unfold GH
  exact congrArg₂ (hiddenNew V c)
    (Fin.ext (by show 512 * (t.val / 16) + p.val = win1_15.index t (0 : Fin 2) * 512 + 1 * p.val; omega))
    (Fin.ext (by show 512 * (t.val / 4 % 4) + q.val = win1_15.index t (1 : Fin 2) * 512 + 1 * q.val; omega))

/-- An index of the array is in point `t`'s tile iff each coordinate is in the tile's range on its axis. -/
theorem mem_blk15 (t : Fin cfg1.N) (i : S4096x2048.Idx) :
    i ∈ ((cfg1.win 15).blk t).view.set ↔ ∀ a : Fin 2, win1_15.index t a * S512x512.size a ≤ (i a).val
      ∧ (i a).val < win1_15.index t a * S512x512.size a + S512x512.size a := by
  show i ∈ ((View.whole main_v0_1).slice (win1_15.rect t)).set ↔ _
  rw [View.set_slice_whole, Rect.mem_set_unit]
  exact Iff.rfl

/-- Every index of the array is in the tile of some point that writes it back. -/
theorem cover15 (i : S4096x2048.Idx) :
    ∃ t : Fin cfg1.N, (cfg1.win 15).flush t = true ∧ i ∈ ((cfg1.win 15).blk t).view.set := by
  have hi0 : (i 0).val < 4096 := idx2_lt0 i
  have hi1 : (i 1).val < 2048 := idx2_lt1 i
  let t : Fin cfg1.N := ⟨16 * ((i 0).val / 512) + 4 * ((i 1).val / 512) + 3, by
    rw [show cfg1.N = 128 from N_1]; omega⟩
  have htv : t.val = 16 * ((i 0).val / 512) + 4 * ((i 1).val / 512) + 3 := rfl
  obtain ⟨e0, e1⟩ := idx15 t
  refine ⟨t, (flush1_15 t).mpr (by omega), ?_⟩
  rw [mem_blk15]
  intro a
  match a with
  | ⟨0, _⟩ => show win1_15.index t (0 : Fin 2) * 512 ≤ (i 0).val ∧ (i 0).val < win1_15.index t (0 : Fin 2) * 512 + 512; omega
  | ⟨1, _⟩ => show win1_15.index t (1 : Fin 2) * 512 ≤ (i 1).val ∧ (i 1).val < win1_15.index t (1 : Fin 2) * 512 + 512; omega

/-- The array after the run. -/
theorem final15 (c : Dev nD) : (Gates.dat V c).arrAt 15 cfg1.N = GH V c :=
  (Gates.dat V c).arrAt_eq_of_cover 15 (GH V c) (fun t hf => flushed15 V c t hf) cover15

/-! ## The region's two results -/

/-- The new cell array after the run, entry by entry. -/
theorem new_cell (c : Dev nD) (r : Fin 4096) (j : Fin 2048) :
    (Gates.dat V c).arrAt 16 cfg1.N (ix2 r j)
      = gateF V c r j * aCell V c (ix2 r j) + gateI V c r j * gateG V c r j := by
  rw [final16]; rfl

/-- The new hidden array after the run, entry by entry. -/
theorem new_hidden (c : Dev nD) (r : Fin 4096) (j : Fin 2048) :
    (Gates.dat V c).arrAt 15 cfg1.N (ix2 r j)
      = gateO V c r j * Ideal.tanh (gateF V c r j * aCell V c (ix2 r j) + gateI V c r j * gateG V c r j) := by
  rw [final15]; rfl

end Cert.KernelIdeal.GatesValue

end
-- ==== Proof.KernelIdealValueGates.lean ====
/-
  The kernel's new cell and new hidden state as the specification's stages of the launch memory.

  The gates region finds, in its window arrays: the embedding the first region left; the hidden state, the eight
  weight matrices (recast, which changes nothing over the extended reals) and the cell as launched; and four bias
  rows, each the sum of two bias vectors. So each gate's pre-activation over the region's arrays is, term by term,
  the specification's over the arguments, and the region's two results — the logistic function and the hyperbolic
  tangent applied to those — are the specification's new cell and new hidden state.
-/
import proofs.«125352_j18708877541498_2_alg».proof.Proof.KernelIdealValue
import proofs.«125352_j18708877541498_2_alg».proof.Proof.KernelIdealGatesValue

set_option maxRecDepth 16384

noncomputable section

namespace Cert.KernelIdeal.KernelValue

open Cert.KernelIdeal Cert.KernelIdeal.Gen
open Idealize.ShloMosaic Idealize.ShloMosaic.TcCoe Idealize.ShloMosaic.Tactic
open Idealize.SL.Sem
open Idealize.ShloMosaic.Pipeline (Dat Cfg Window)
open Cert.KernelIdeal.Run Cert.KernelIdeal.Entries Idealize.ShloMosaic.ValueIdx Cert.LstmSpec

variable (m : (ℓ : Loc nD τ sig) → Buf (Elt Ideal) ℓ) (ρ : Dev nD → PrngReg)

/-- The embedding the gates region reads is the specification's. -/
theorem emb_entry (c : Dev nD) (r : Fin 4096) (k : Fin 2048) :
    mat (st3 m ρ c (Proc.devRef .tc main_call0_v2)) r k = (args m c).emb r k :=
  (congrFun (gates_emb m ρ c) (ix2 r k)).trans (emb_eq m ρ c r k)

/-! ## The four pre-activations -/

theorem preF_eq (c : Dev nD) (r : Fin 4096) (j : Fin 2048) :
    GatesValue.preF (ent1 m ρ) c r j = (args m c).preF r j := by
  unfold GatesValue.preF GatesValue.pre
  show ((∑ k : Fin 2048, mat (st3 m ρ c (Proc.devRef .tc main_call0_v2)) r k * mat (st3 m ρ c (Proc.devRef .tc main_call0_v12)) k j)
        + (∑ k : Fin 2048, mat (st3 m ρ c (Proc.devRef .tc main_call0_v11)) r k * mat (st3 m ρ c (Proc.devRef .tc main_call0_v16)) k j))
      + row (st3 m ρ c (Proc.devRef .tc main_call0_v4)) j = _
  refine congrArg₂ (· + ·) (congrArg₂ (· + ·) (Finset.sum_congr rfl fun k _ => ?_) (Finset.sum_congr rfl fun k _ => ?_))
    (gates_bf m ρ c j)
  · exact congrArg₂ (· * ·) (emb_entry m ρ c r k) (gates_wf m ρ c (ix2 k j))
  · exact congrArg₂ (· * ·) (gates_hidden m ρ c (ix2 r k)) (gates_uf m ρ c (ix2 k j))

theorem preI_eq (c : Dev nD) (r : Fin 4096) (j : Fin 2048) :
    GatesValue.preI (ent1 m ρ) c r j = (args m c).preI r j := by
  unfold GatesValue.preI GatesValue.pre
  show ((∑ k : Fin 2048, mat (st3 m ρ c (Proc.devRef .tc main_call0_v2)) r k * mat (st3 m ρ c (Proc.devRef .tc main_call0_v13)) k j)
        + (∑ k : Fin 2048, mat (st3 m ρ c (Proc.devRef .tc main_call0_v11)) r k * mat (st3 m ρ c (Proc.devRef .tc main_call0_v17)) k j))
      + row (st3 m ρ c (Proc.devRef .tc main_call0_v6)) j = _
  refine congrArg₂ (· + ·) (congrArg₂ (· + ·) (Finset.sum_congr rfl fun k _ => ?_) (Finset.sum_congr rfl fun k _ => ?_))
    (gates_bi m ρ c j)
  · exact congrArg₂ (· * ·) (emb_entry m ρ c r k) (gates_wi m ρ c (ix2 k j))
  · exact congrArg₂ (· * ·) (gates_hidden m ρ c (ix2 r k)) (gates_ui m ρ c (ix2 k j))

theorem preC_eq (c : Dev nD) (r : Fin 4096) (j : Fin 2048) :
    GatesValue.preC (ent1 m ρ) c r j = (args m c).preC r j := by
  unfold GatesValue.preC GatesValue.pre
  show ((∑ k : Fin 2048, mat (st3 m ρ c (Proc.devRef .tc main_call0_v2)) r k * mat (st3 m ρ c (Proc.devRef .tc main_call0_v14)) k j)
        + (∑ k : Fin 2048, mat (st3 m ρ c (Proc.devRef .tc main_call0_v11)) r k * mat (st3 m ρ c (Proc.devRef .tc main_call0_v18)) k j))
      + row (st3 m ρ c (Proc.devRef .tc main_call0_v8)) j = _
  refine congrArg₂ (· + ·) (congrArg₂ (· + ·) (Finset.sum_congr rfl fun k _ => ?_) (Finset.sum_congr rfl fun k _ => ?_))
    (gates_bc m ρ c j)
  · exact congrArg₂ (· * ·) (emb_entry m ρ c r k) (gates_wc m ρ c (ix2 k j))
  · exact congrArg₂ (· * ·) (gates_hidden m ρ c (ix2 r k)) (gates_uc m ρ c (ix2 k j))

theorem preO_eq (c : Dev nD) (r : Fin 4096) (j : Fin 2048) :
    GatesValue.preO (ent1 m ρ) c r j = (args m c).preO r j := by
  unfold GatesValue.preO GatesValue.pre
  show ((∑ k : Fin 2048, mat (st3 m ρ c (Proc.devRef .tc main_call0_v2)) r k * mat (st3 m ρ c (Proc.devRef .tc main_call0_v15)) k j)
        + (∑ k : Fin 2048, mat (st3 m ρ c (Proc.devRef .tc main_call0_v11)) r k * mat (st3 m ρ c (Proc.devRef .tc main_call0_v19)) k j))
      + row (st3 m ρ c (Proc.devRef .tc main_call0_v10)) j = _
  refine congrArg₂ (· + ·) (congrArg₂ (· + ·) (Finset.sum_congr rfl fun k _ => ?_) (Finset.sum_congr rfl fun k _ => ?_))
    (gates_bo m ρ c j)
  · exact congrArg₂ (· * ·) (emb_entry m ρ c r k) (gates_wo m ρ c (ix2 k j))
  · exact congrArg₂ (· * ·) (gates_hidden m ρ c (ix2 r k)) (gates_uo m ρ c (ix2 k j))

/-! ## The two results -/

/-- The gates region leaves the specification's new cell. -/
theorem cell_eq (c : Dev nD) (r : Fin 4096) (j : Fin 2048) :
    (Gates.dat (ent1 m ρ) c).arrAt 16 cfg1.N (ix2 r j) = (args m c).cell r j := by
  refine (GatesValue.new_cell (ent1 m ρ) c r j).trans ?_
  exact congrArg₂ (· + ·)
    (congrArg₂ (· * ·) (congrArg Ideal.logistic (preF_eq m ρ c r j)) (gates_cell m ρ c (ix2 r j)))
    (congrArg₂ (· * ·) (congrArg Ideal.logistic (preI_eq m ρ c r j)) (congrArg Ideal.tanh (preC_eq m ρ c r j)))

/-- The gates region leaves the specification's new hidden state. -/
theorem hidden_eq (c : Dev nD) (r : Fin 4096) (j : Fin 2048) :
    (Gates.dat (ent1 m ρ) c).arrAt 15 cfg1.N (ix2 r j) = (args m c).hidden r j := by
  refine (GatesValue.new_hidden (ent1 m ρ) c r j).trans ?_
  exact congrArg₂ (· * ·) (congrArg Ideal.logistic (preO_eq m ρ c r j))
    (congrArg Ideal.tanh ((GatesValue.new_cell (ent1 m ρ) c r j).symm.trans (cell_eq m ρ c r j)))

end Cert.KernelIdeal.KernelValue

end
-- ==== Proof.ReferenceRun.lean ====
/-
  The reference program's run.

  The reference's @main is a straight line of 89 host operations: the embedding, the four gates (each a sum of two
  matrix products and two biases under a logistic function or a hyperbolic tangent), the cell and hidden-state
  updates, the head's matrix product and bias, and the logarithm of the softmax along each row. So every weakly fair
  execution terminates, and every buffer ends at the fold of the operations' results over the launch contents: what
  an argument or a result holds at the end is read off that fold where it is needed.
-/
import proofs.«125352_j18708877541498_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 89 operations, in order (a called function's operations stand in its call's place, spelt `TRef.…`). -/
abbrev ops : List (HloOp τ sig (Elt F)) :=
  [ binary main_arg0 main_arg3 main_v0 ((fun l r => Host.dotGeneral dot_S4096x4096_S4096x2048_S4096x2048_1_0_0_1_n_n none l r) : (⟨S4096x4096, .f32⟩ : BufTy).Contents (Elt F) → (⟨S4096x2048, .f32⟩ : BufTy).Contents (Elt F) → (⟨S4096x2048, .f32⟩ : BufTy).Contents (Elt F)),
    unary main_arg4 main_v1 (broadcastInDim S1x2048 ![1] bcast_S2048_S1x2048_1 : (⟨S2048, .f32⟩ : BufTy).Contents (Elt F) → (⟨S1x2048, .f32⟩ : BufTy).Contents (Elt F)),
    unary main_v1 main_v2 (broadcastInDim S4096x2048 ![0, 1] bcast_S1x2048_S4096x2048_0_1 : (⟨S1x2048, .f32⟩ : BufTy).Contents (Elt F) → (⟨S4096x2048, .f32⟩ : BufTy).Contents (Elt F)),
    binary main_v0 main_v2 main_v3 (addf : (⟨S4096x2048, .f32⟩ : BufTy).Contents (Elt F) → (⟨S4096x2048, .f32⟩ : BufTy).Contents (Elt F) → (⟨S4096x2048, .f32⟩ : BufTy).Contents (Elt F)),
    binary main_v3 main_arg5 main_v4 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    unary main_arg6 main_v5 (broadcastInDim S1x2048 ![1] bcast_S2048_S1x2048_1 : (⟨S2048, .f32⟩ : BufTy).Contents (Elt F) → (⟨S1x2048, .f32⟩ : BufTy).Contents (Elt F)),
    unary main_v5 main_v6 (broadcastInDim S4096x2048 ![0, 1] bcast_S1x2048_S4096x2048_0_1 : (⟨S1x2048, .f32⟩ : BufTy).Contents (Elt F) → (⟨S4096x2048, .f32⟩ : BufTy).Contents (Elt F)),
    binary main_v4 main_v6 main_v7 (addf : (⟨S4096x2048, .f32⟩ : BufTy).Contents (Elt F) → (⟨S4096x2048, .f32⟩ : BufTy).Contents (Elt F) → (⟨S4096x2048, .f32⟩ : BufTy).Contents (Elt F)),
    binary main_arg1 main_arg13 main_v8 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    binary main_v7 main_v8 main_v9 (addf : (⟨S4096x2048, .f32⟩ : BufTy).Contents (Elt F) → (⟨S4096x2048, .f32⟩ : BufTy).Contents (Elt F) → (⟨S4096x2048, .f32⟩ : BufTy).Contents (Elt F)),
    unary main_arg14 main_v10 (broadcastInDim S1x2048 ![1] bcast_S2048_S1x2048_1 : (⟨S2048, .f32⟩ : BufTy).Contents (Elt F) → (⟨S1x2048, .f32⟩ : BufTy).Contents (Elt F)),
    unary main_v10 main_v11 (broadcastInDim S4096x2048 ![0, 1] bcast_S1x2048_S4096x2048_0_1 : (⟨S1x2048, .f32⟩ : BufTy).Contents (Elt F) → (⟨S4096x2048, .f32⟩ : BufTy).Contents (Elt F)),
    binary main_v9 main_v11 main_v12 (addf : (⟨S4096x2048, .f32⟩ : BufTy).Contents (Elt F) → (⟨S4096x2048, .f32⟩ : BufTy).Contents (Elt F) → (⟨S4096x2048, .f32⟩ : BufTy).Contents (Elt F)),
    unary main_v12 main_v13 (Host.negf : (⟨S4096x2048, .f32⟩ : BufTy).Contents (Elt F) → (⟨S4096x2048, .f32⟩ : BufTy).Contents (Elt F)),
    unary main_v13 main_v14 (Host.exp : (⟨S4096x2048, .f32⟩ : BufTy).Contents (Elt F) → (⟨S4096x2048, .f32⟩ : BufTy).Contents (Elt F)),
    nullary main_cst (constant S_ .f32 0x3F800000#32),
    unary main_cst main_v15 (broadcastInDim S4096x2048 ![] bcast_S_S4096x2048 : (⟨S_, .f32⟩ : BufTy).Contents (Elt F) → (⟨S4096x2048, .f32⟩ : BufTy).Contents (Elt F)),
    binary main_v15 main_v14 main_v16 (addf : (⟨S4096x2048, .f32⟩ : BufTy).Contents (Elt F) → (⟨S4096x2048, .f32⟩ : BufTy).Contents (Elt F) → (⟨S4096x2048, .f32⟩ : BufTy).Contents (Elt F)),
    nullary main_cst_0 (constant S_ .f32 0x3F800000#32),
    unary main_cst_0 main_v17 (broadcastInDim S4096x2048 ![] bcast_S_S4096x2048 : (⟨S_, .f32⟩ : BufTy).Contents (Elt F) → (⟨S4096x2048, .f32⟩ : BufTy).Contents (Elt F)),
    binary main_v17 main_v16 main_v18 (Host.divf : (⟨S4096x2048, .f32⟩ : BufTy).Contents (Elt F) → (⟨S4096x2048, .f32⟩ : BufTy).Contents (Elt F) → (⟨S4096x2048, .f32⟩ : BufTy).Contents (Elt F)),
    binary main_v3 main_arg7 main_v19 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    unary main_arg8 main_v20 (broadcastInDim S1x2048 ![1] bcast_S2048_S1x2048_1 : (⟨S2048, .f32⟩ : BufTy).Contents (Elt F) → (⟨S1x2048, .f32⟩ : BufTy).Contents (Elt F)),
    unary main_v20 main_v21 (broadcastInDim S4096x2048 ![0, 1] bcast_S1x2048_S4096x2048_0_1 : (⟨S1x2048, .f32⟩ : BufTy).Contents (Elt F) → (⟨S4096x2048, .f32⟩ : BufTy).Contents (Elt F)),
    binary main_v19 main_v21 main_v22 (addf : (⟨S4096x2048, .f32⟩ : BufTy).Contents (Elt F) → (⟨S4096x2048, .f32⟩ : BufTy).Contents (Elt F) → (⟨S4096x2048, .f32⟩ : BufTy).Contents (Elt F)),
    binary main_arg1 main_arg15 main_v23 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    binary main_v22 main_v23 main_v24 (addf : (⟨S4096x2048, .f32⟩ : BufTy).Contents (Elt F) → (⟨S4096x2048, .f32⟩ : BufTy).Contents (Elt F) → (⟨S4096x2048, .f32⟩ : BufTy).Contents (Elt F)),
    unary main_arg16 main_v25 (broadcastInDim S1x2048 ![1] bcast_S2048_S1x2048_1 : (⟨S2048, .f32⟩ : BufTy).Contents (Elt F) → (⟨S1x2048, .f32⟩ : BufTy).Contents (Elt F)),
    unary main_v25 main_v26 (broadcastInDim S4096x2048 ![0, 1] bcast_S1x2048_S4096x2048_0_1 : (⟨S1x2048, .f32⟩ : BufTy).Contents (Elt F) → (⟨S4096x2048, .f32⟩ : BufTy).Contents (Elt F)),
    binary main_v24 main_v26 main_v27 (addf : (⟨S4096x2048, .f32⟩ : BufTy).Contents (Elt F) → (⟨S4096x2048, .f32⟩ : BufTy).Contents (Elt F) → (⟨S4096x2048, .f32⟩ : BufTy).Contents (Elt F)),
    unary main_v27 main_v28 (Host.negf : (⟨S4096x2048, .f32⟩ : BufTy).Contents (Elt F) → (⟨S4096x2048, .f32⟩ : BufTy).Contents (Elt F)),
    unary main_v28 main_v29 (Host.exp : (⟨S4096x2048, .f32⟩ : BufTy).Contents (Elt F) → (⟨S4096x2048, .f32⟩ : BufTy).Contents (Elt F)),
    nullary main_cst_1 (constant S_ .f32 0x3F800000#32),
    unary main_cst_1 main_v30 (broadcastInDim S4096x2048 ![] bcast_S_S4096x2048 : (⟨S_, .f32⟩ : BufTy).Contents (Elt F) → (⟨S4096x2048, .f32⟩ : BufTy).Contents (Elt F)),
    binary main_v30 main_v29 main_v31 (addf : (⟨S4096x2048, .f32⟩ : BufTy).Contents (Elt F) → (⟨S4096x2048, .f32⟩ : BufTy).Contents (Elt F) → (⟨S4096x2048, .f32⟩ : BufTy).Contents (Elt F)),
    nullary main_cst_2 (constant S_ .f32 0x3F800000#32),
    unary main_cst_2 main_v32 (broadcastInDim S4096x2048 ![] bcast_S_S4096x2048 : (⟨S_, .f32⟩ : BufTy).Contents (Elt F) → (⟨S4096x2048, .f32⟩ : BufTy).Contents (Elt F)),
    binary main_v32 main_v31 main_v33 (Host.divf : (⟨S4096x2048, .f32⟩ : BufTy).Contents (Elt F) → (⟨S4096x2048, .f32⟩ : BufTy).Contents (Elt F) → (⟨S4096x2048, .f32⟩ : BufTy).Contents (Elt F)),
    binary main_v3 main_arg9 main_v34 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    unary main_arg10 main_v35 (broadcastInDim S1x2048 ![1] bcast_S2048_S1x2048_1 : (⟨S2048, .f32⟩ : BufTy).Contents (Elt F) → (⟨S1x2048, .f32⟩ : BufTy).Contents (Elt F)),
    unary main_v35 main_v36 (broadcastInDim S4096x2048 ![0, 1] bcast_S1x2048_S4096x2048_0_1 : (⟨S1x2048, .f32⟩ : BufTy).Contents (Elt F) → (⟨S4096x2048, .f32⟩ : BufTy).Contents (Elt F)),
    binary main_v34 main_v36 main_v37 (addf : (⟨S4096x2048, .f32⟩ : BufTy).Contents (Elt F) → (⟨S4096x2048, .f32⟩ : BufTy).Contents (Elt F) → (⟨S4096x2048, .f32⟩ : BufTy).Contents (Elt F)),
    binary main_arg1 main_arg17 main_v38 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    binary main_v37 main_v38 main_v39 (addf : (⟨S4096x2048, .f32⟩ : BufTy).Contents (Elt F) → (⟨S4096x2048, .f32⟩ : BufTy).Contents (Elt F) → (⟨S4096x2048, .f32⟩ : BufTy).Contents (Elt F)),
    unary main_arg18 main_v40 (broadcastInDim S1x2048 ![1] bcast_S2048_S1x2048_1 : (⟨S2048, .f32⟩ : BufTy).Contents (Elt F) → (⟨S1x2048, .f32⟩ : BufTy).Contents (Elt F)),
    unary main_v40 main_v41 (broadcastInDim S4096x2048 ![0, 1] bcast_S1x2048_S4096x2048_0_1 : (⟨S1x2048, .f32⟩ : BufTy).Contents (Elt F) → (⟨S4096x2048, .f32⟩ : BufTy).Contents (Elt F)),
    binary main_v39 main_v41 main_v42 (addf : (⟨S4096x2048, .f32⟩ : BufTy).Contents (Elt F) → (⟨S4096x2048, .f32⟩ : BufTy).Contents (Elt F) → (⟨S4096x2048, .f32⟩ : BufTy).Contents (Elt F)),
    unary main_v42 main_v43 (Host.tanh : (⟨S4096x2048, .f32⟩ : BufTy).Contents (Elt F) → (⟨S4096x2048, .f32⟩ : BufTy).Contents (Elt F)),
    binary main_v18 main_arg2 main_v44 (mulf : (⟨S4096x2048, .f32⟩ : BufTy).Contents (Elt F) → (⟨S4096x2048, .f32⟩ : BufTy).Contents (Elt F) → (⟨S4096x2048, .f32⟩ : BufTy).Contents (Elt F)),
    binary main_v33 main_v43 main_v45 (mulf : (⟨S4096x2048, .f32⟩ : BufTy).Contents (Elt F) → (⟨S4096x2048, .f32⟩ : BufTy).Contents (Elt F) → (⟨S4096x2048, .f32⟩ : BufTy).Contents (Elt F)),
    binary main_v44 main_v45 main_v46 (addf : (⟨S4096x2048, .f32⟩ : BufTy).Contents (Elt F) → (⟨S4096x2048, .f32⟩ : BufTy).Contents (Elt F) → (⟨S4096x2048, .f32⟩ : BufTy).Contents (Elt F)),
    binary main_v3 main_arg11 main_v47 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    unary main_arg12 main_v48 (broadcastInDim S1x2048 ![1] bcast_S2048_S1x2048_1 : (⟨S2048, .f32⟩ : BufTy).Contents (Elt F) → (⟨S1x2048, .f32⟩ : BufTy).Contents (Elt F)),
    unary main_v48 main_v49 (broadcastInDim S4096x2048 ![0, 1] bcast_S1x2048_S4096x2048_0_1 : (⟨S1x2048, .f32⟩ : BufTy).Contents (Elt F) → (⟨S4096x2048, .f32⟩ : BufTy).Contents (Elt F)),
    binary main_v47 main_v49 main_v50 (addf : (⟨S4096x2048, .f32⟩ : BufTy).Contents (Elt F) → (⟨S4096x2048, .f32⟩ : BufTy).Contents (Elt F) → (⟨S4096x2048, .f32⟩ : BufTy).Contents (Elt F)),
    binary main_arg1 main_arg19 main_v51 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    binary main_v50 main_v51 main_v52 (addf : (⟨S4096x2048, .f32⟩ : BufTy).Contents (Elt F) → (⟨S4096x2048, .f32⟩ : BufTy).Contents (Elt F) → (⟨S4096x2048, .f32⟩ : BufTy).Contents (Elt F)),
    unary main_arg20 main_v53 (broadcastInDim S1x2048 ![1] bcast_S2048_S1x2048_1 : (⟨S2048, .f32⟩ : BufTy).Contents (Elt F) → (⟨S1x2048, .f32⟩ : BufTy).Contents (Elt F)),
    unary main_v53 main_v54 (broadcastInDim S4096x2048 ![0, 1] bcast_S1x2048_S4096x2048_0_1 : (⟨S1x2048, .f32⟩ : BufTy).Contents (Elt F) → (⟨S4096x2048, .f32⟩ : BufTy).Contents (Elt F)),
    binary main_v52 main_v54 main_v55 (addf : (⟨S4096x2048, .f32⟩ : BufTy).Contents (Elt F) → (⟨S4096x2048, .f32⟩ : BufTy).Contents (Elt F) → (⟨S4096x2048, .f32⟩ : BufTy).Contents (Elt F)),
    unary main_v55 main_v56 (Host.negf : (⟨S4096x2048, .f32⟩ : BufTy).Contents (Elt F) → (⟨S4096x2048, .f32⟩ : BufTy).Contents (Elt F)),
    unary main_v56 main_v57 (Host.exp : (⟨S4096x2048, .f32⟩ : BufTy).Contents (Elt F) → (⟨S4096x2048, .f32⟩ : BufTy).Contents (Elt F)),
    nullary main_cst_3 (constant S_ .f32 0x3F800000#32),
    unary main_cst_3 main_v58 (broadcastInDim S4096x2048 ![] bcast_S_S4096x2048 : (⟨S_, .f32⟩ : BufTy).Contents (Elt F) → (⟨S4096x2048, .f32⟩ : BufTy).Contents (Elt F)),
    binary main_v58 main_v57 main_v59 (addf : (⟨S4096x2048, .f32⟩ : BufTy).Contents (Elt F) → (⟨S4096x2048, .f32⟩ : BufTy).Contents (Elt F) → (⟨S4096x2048, .f32⟩ : BufTy).Contents (Elt F)),
    nullary main_cst_4 (constant S_ .f32 0x3F800000#32),
    unary main_cst_4 main_v60 (broadcastInDim S4096x2048 ![] bcast_S_S4096x2048 : (⟨S_, .f32⟩ : BufTy).Contents (Elt F) → (⟨S4096x2048, .f32⟩ : BufTy).Contents (Elt F)),
    binary main_v60 main_v59 main_v61 (Host.divf : (⟨S4096x2048, .f32⟩ : BufTy).Contents (Elt F) → (⟨S4096x2048, .f32⟩ : BufTy).Contents (Elt F) → (⟨S4096x2048, .f32⟩ : BufTy).Contents (Elt F)),
    unary main_v46 main_v62 (Host.tanh : (⟨S4096x2048, .f32⟩ : BufTy).Contents (Elt F) → (⟨S4096x2048, .f32⟩ : BufTy).Contents (Elt F)),
    binary main_v61 main_v62 main_v63 (mulf : (⟨S4096x2048, .f32⟩ : BufTy).Contents (Elt F) → (⟨S4096x2048, .f32⟩ : BufTy).Contents (Elt F) → (⟨S4096x2048, .f32⟩ : BufTy).Contents (Elt F)),
    binary main_v63 main_arg21 main_v64 ((fun l r => Host.dotGeneral dot_S4096x2048_S2048x32000_S4096x32000_1_0_0_1_n_n none l r) : (⟨S4096x2048, .f32⟩ : BufTy).Contents (Elt F) → (⟨S2048x32000, .f32⟩ : BufTy).Contents (Elt F) → (⟨S4096x32000, .f32⟩ : BufTy).Contents (Elt F)),
    unary main_arg22 main_v65 (broadcastInDim S1x32000 ![1] bcast_S32000_S1x32000_1 : (⟨S32000, .f32⟩ : BufTy).Contents (Elt F) → (⟨S1x32000, .f32⟩ : BufTy).Contents (Elt F)),
    unary main_v65 main_v66 (broadcastInDim S4096x32000 ![0, 1] bcast_S1x32000_S4096x32000_0_1 : (⟨S1x32000, .f32⟩ : BufTy).Contents (Elt F) → (⟨S4096x32000, .f32⟩ : BufTy).Contents (Elt F)),
    binary main_v64 main_v66 main_v67 (addf : (⟨S4096x32000, .f32⟩ : BufTy).Contents (Elt F) → (⟨S4096x32000, .f32⟩ : BufTy).Contents (Elt F) → (⟨S4096x32000, .f32⟩ : BufTy).Contents (Elt F)),
    TRef.nullary (TRef.of (T := ⟨S_, .f32⟩) main_call0_cst) (constant S_ .f32 0xFF800000#32),
    TRef.binary (TRef.of (T := ⟨S4096x32000, .f32⟩) main_v67) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_v67) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v68) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., binary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
/-- `main_v63`'s composed term of the arguments (named: it is long). -/
def res_main_v63 (m : (ℓ : Loc nD τ sig) → Buf (Elt F) ℓ) (c : Dev nD) : Buf (Elt F) ((c.tc : Thread nD τ).loc main_v63) :=
  mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg11))) (broadcastInDim S4096x2048 ![0, 1] bcast_S1x2048_S4096x2048_0_1 (broadcastInDim S1x2048 ![1] bcast_S2048_S1x2048_1 (m ((c.tc : Thread nD τ).loc main_arg12))))) (Host.dotGeneral dot_S4096x2048_S2048x2048_S4096x2048_1_0_0_1_n_n none (m ((c.tc : Thread nD τ).loc main_arg1)) (m ((c.tc : Thread nD τ).loc main_arg19)))) (broadcastInDim S4096x2048 ![0, 1] bcast_S1x2048_S4096x2048_0_1 (broadcastInDim S1x2048 ![1] bcast_S2048_S1x2048_1 (m ((c.tc : Thread nD τ).loc main_arg20))))))))) (Host.tanh (addf (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg5))) (broadcastInDim S4096x2048 ![0, 1] bcast_S1x2048_S4096x2048_0_1 (broadcastInDim S1x2048 ![1] bcast_S2048_S1x2048_1 (m ((c.tc : Thread nD τ).loc main_arg6))))) (Host.dotGeneral dot_S4096x2048_S2048x2048_S4096x2048_1_0_0_1_n_n none (m ((c.tc : Thread nD τ).loc main_arg1)) (m ((c.tc : Thread nD τ).loc main_arg13)))) (broadcastInDim S4096x2048 ![0, 1] bcast_S1x2048_S4096x2048_0_1 (broadcastInDim S1x2048 ![1] bcast_S2048_S1x2048_1 (m ((c.tc : Thread nD τ).loc main_arg14))))))))) (m ((c.tc : Thread nD τ).loc main_arg2))) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg7))) (broadcastInDim S4096x2048 ![0, 1] bcast_S1x2048_S4096x2048_0_1 (broadcastInDim S1x2048 ![1] bcast_S2048_S1x2048_1 (m ((c.tc : Thread nD τ).loc main_arg8))))) (Host.dotGeneral dot_S4096x2048_S2048x2048_S4096x2048_1_0_0_1_n_n none (m ((c.tc : Thread nD τ).loc main_arg1)) (m ((c.tc : Thread nD τ).loc main_arg15)))) (broadcastInDim S4096x2048 ![0, 1] bcast_S1x2048_S4096x2048_0_1 (broadcastInDim S1x2048 ![1] bcast_S2048_S1x2048_1 (m ((c.tc : Thread nD τ).loc main_arg16))))))))) (Host.tanh (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg9))) (broadcastInDim S4096x2048 ![0, 1] bcast_S1x2048_S4096x2048_0_1 (broadcastInDim S1x2048 ![1] bcast_S2048_S1x2048_1 (m ((c.tc : Thread nD τ).loc main_arg10))))) (Host.dotGeneral dot_S4096x2048_S2048x2048_S4096x2048_1_0_0_1_n_n none (m ((c.tc : Thread nD τ).loc main_arg1)) (m ((c.tc : Thread nD τ).loc main_arg17)))) (broadcastInDim S4096x2048 ![0, 1] bcast_S1x2048_S4096x2048_0_1 (broadcastInDim S1x2048 ![1] bcast_S2048_S1x2048_1 (m ((c.tc : Thread nD τ).loc main_arg18)))))))))

/-- `res_main_v63` by its position among the values @main returns, 1 counting from 0: the name for hand proofs to cite, since
    a re-print renumbers `main_v63`. An abbreviation: it unfolds to the `res_main_v63` that `run` states. -/
abbrev res_out1 (m : (ℓ : Loc nD τ sig) → Buf (Elt F) ℓ) (c : Dev nD) : Buf (Elt F) ((c.tc : Thread nD τ).loc main_v63) := res_main_v63 m c

set_option maxRecDepth 8192 in
/-- `main_v68`'s composed term of the arguments (named: it is long). -/
def res_main_v68 (m : (ℓ : Loc nD τ sig) → Buf (Elt F) ℓ) (c : Dev nD) : Buf (Elt F) ((c.tc : Thread nD τ).loc main_v68) :=
  subf (subf (addf (Host.dotGeneral dot_S4096x2048_S2048x32000_S4096x32000_1_0_0_1_n_n none (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg11))) (broadcastInDim S4096x2048 ![0, 1] bcast_S1x2048_S4096x2048_0_1 (broadcastInDim S1x2048 ![1] bcast_S2048_S1x2048_1 (m ((c.tc : Thread nD τ).loc main_arg12))))) (Host.dotGeneral dot_S4096x2048_S2048x2048_S4096x2048_1_0_0_1_n_n none (m ((c.tc : Thread nD τ).loc main_arg1)) (m ((c.tc : Thread nD τ).loc main_arg19)))) (broadcastInDim S4096x2048 ![0, 1] bcast_S1x2048_S4096x2048_0_1 (broadcastInDim S1x2048 ![1] bcast_S2048_S1x2048_1 (m ((c.tc : Thread nD τ).loc main_arg20))))))))) (Host.tanh (addf (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg5))) (broadcastInDim S4096x2048 ![0, 1] bcast_S1x2048_S4096x2048_0_1 (broadcastInDim S1x2048 ![1] bcast_S2048_S1x2048_1 (m ((c.tc : Thread nD τ).loc main_arg6))))) (Host.dotGeneral dot_S4096x2048_S2048x2048_S4096x2048_1_0_0_1_n_n none (m ((c.tc : Thread nD τ).loc main_arg1)) (m ((c.tc : Thread nD τ).loc main_arg13)))) (broadcastInDim S4096x2048 ![0, 1] bcast_S1x2048_S4096x2048_0_1 (broadcastInDim S1x2048 ![1] bcast_S2048_S1x2048_1 (m ((c.tc : Thread nD τ).loc main_arg14))))))))) (m ((c.tc : Thread nD τ).loc main_arg2))) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg7))) (broadcastInDim S4096x2048 ![0, 1] bcast_S1x2048_S4096x2048_0_1 (broadcastInDim S1x2048 ![1] bcast_S2048_S1x2048_1 (m ((c.tc : Thread nD τ).loc main_arg8))))) (Host.dotGeneral dot_S4096x2048_S2048x2048_S4096x2048_1_0_0_1_n_n none (m ((c.tc : Thread nD τ).loc main_arg1)) (m ((c.tc : Thread nD τ).loc main_arg15)))) (broadcastInDim S4096x2048 ![0, 1] bcast_S1x2048_S4096x2048_0_1 (broadcastInDim S1x2048 ![1] bcast_S2048_S1x2048_1 (m ((c.tc : Thread nD τ).loc main_arg16))))))))) (Host.tanh (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg9))) (broadcastInDim S4096x2048 ![0, 1] bcast_S1x2048_S4096x2048_0_1 (broadcastInDim S1x2048 ![1] bcast_S2048_S1x2048_1 (m ((c.tc : Thread nD τ).loc main_arg10))))) (Host.dotGeneral dot_S4096x2048_S2048x2048_S4096x2048_1_0_0_1_n_n none (m ((c.tc : Thread nD τ).loc main_arg1)) (m ((c.tc : Thread nD τ).loc main_arg17)))) (broadcastInDim S4096x2048 ![0, 1] bcast_S1x2048_S4096x2048_0_1 (broadcastInDim S1x2048 ![1] bcast_S2048_S1x2048_1 (m ((c.tc : Thread nD τ).loc main_arg18)))))))))) (m ((c.tc : Thread nD τ).loc main_arg21))) (broadcastInDim S4096x32000 ![0, 1] bcast_S1x32000_S4096x32000_0_1 (broadcastInDim S1x32000 ![1] bcast_S32000_S1x32000_1 (m ((c.tc : Thread nD τ).loc main_arg22))))) (broadcastInDim S4096x32000 ![0, 1] bcast_S4096x1_S4096x32000_0_1 (broadcastInDim S4096x1 ![0] bcast_S4096_S4096x1_0 (maximumf (broadcastInDim S4096 ![] bcast_S_S4096 (constant S_ .f32 0xFF800000#32)) (Host.reduce FloatOps.maximumf (addf (Host.dotGeneral dot_S4096x2048_S2048x32000_S4096x32000_1_0_0_1_n_n none (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg11))) (broadcastInDim S4096x2048 ![0, 1] bcast_S1x2048_S4096x2048_0_1 (broadcastInDim S1x2048 ![1] bcast_S2048_S1x2048_1 (m ((c.tc : Thread nD τ).loc main_arg12))))) (Host.dotGeneral dot_S4096x2048_S2048x2048_S4096x2048_1_0_0_1_n_n none (m ((c.tc : Thread nD τ).loc main_arg1)) (m ((c.tc : Thread nD τ).loc main_arg19)))) (broadcastInDim S4096x2048 ![0, 1] bcast_S1x2048_S4096x2048_0_1 (broadcastInDim S1x2048 ![1] bcast_S2048_S1x2048_1 (m ((c.tc : Thread nD τ).loc main_arg20))))))))) (Host.tanh (addf (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg5))) (broadcastInDim S4096x2048 ![0, 1] bcast_S1x2048_S4096x2048_0_1 (broadcastInDim S1x2048 ![1] bcast_S2048_S1x2048_1 (m ((c.tc : Thread nD τ).loc main_arg6))))) (Host.dotGeneral dot_S4096x2048_S2048x2048_S4096x2048_1_0_0_1_n_n none (m ((c.tc : Thread nD τ).loc main_arg1)) (m ((c.tc : Thread nD τ).loc main_arg13)))) (broadcastInDim S4096x2048 ![0, 1] bcast_S1x2048_S4096x2048_0_1 (broadcastInDim S1x2048 ![1] bcast_S2048_S1x2048_1 (m ((c.tc : Thread nD τ).loc main_arg14))))))))) (m ((c.tc : Thread nD τ).loc main_arg2))) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg7))) (broadcastInDim S4096x2048 ![0, 1] bcast_S1x2048_S4096x2048_0_1 (broadcastInDim S1x2048 ![1] bcast_S2048_S1x2048_1 (m ((c.tc : Thread nD τ).loc main_arg8))))) (Host.dotGeneral dot_S4096x2048_S2048x2048_S4096x2048_1_0_0_1_n_n none (m ((c.tc : Thread nD τ).loc main_arg1)) (m ((c.tc : Thread nD τ).loc main_arg15)))) (broadcastInDim S4096x2048 ![0, 1] bcast_S1x2048_S4096x2048_0_1 (broadcastInDim S1x2048 ![1] bcast_S2048_S1x2048_1 (m ((c.tc : Thread nD τ).loc main_arg16))))))))) (Host.tanh (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg9))) (broadcastInDim S4096x2048 ![0, 1] bcast_S1x2048_S4096x2048_0_1 (broadcastInDim S1x2048 ![1] bcast_S2048_S1x2048_1 (m ((c.tc : Thread nD τ).loc main_arg10))))) (Host.dotGeneral dot_S4096x2048_S2048x2048_S4096x2048_1_0_0_1_n_n none (m ((c.tc : Thread nD τ).loc main_arg1)) (m ((c.tc : Thread nD τ).loc main_arg17)))) (broadcastInDim S4096x2048 ![0, 1] bcast_S1x2048_S4096x2048_0_1 (broadcastInDim S1x2048 ![1] bcast_S2048_S1x2048_1 (m ((c.tc : Thread nD τ).loc main_arg18)))))))))) (m ((c.tc : Thread nD τ).loc main_arg21))) (broadcastInDim S4096x32000 ![0, 1] bcast_S1x32000_S4096x32000_0_1 (broadcastInDim S1x32000 ![1] bcast_S32000_S1x32000_1 (m ((c.tc : Thread nD τ).loc main_arg22))))) (constant S_ .f32 0xFF800000#32) reducesTo_S4096x32000_S4096_d1 h_S_))))) (broadcastInDim S4096x32000 ![0, 1] bcast_S4096x1_S4096x32000_0_1 (Host.log (broadcastInDim S4096x1 ![0] bcast_S4096_S4096x1_0 (Host.reduceAdd (Host.exp (subf (addf (Host.dotGeneral dot_S4096x2048_S2048x32000_S4096x32000_1_0_0_1_n_n none (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg11))) (broadcastInDim S4096x2048 ![0, 1] bcast_S1x2048_S4096x2048_0_1 (broadcastInDim S1x2048 ![1] bcast_S2048_S1x2048_1 (m ((c.tc : Thread nD τ).loc main_arg12))))) (Host.dotGeneral dot_S4096x2048_S2048x2048_S4096x2048_1_0_0_1_n_n none (m ((c.tc : Thread nD τ).loc main_arg1)) (m ((c.tc : Thread nD τ).loc main_arg19)))) (broadcastInDim S4096x2048 ![0, 1] bcast_S1x2048_S4096x2048_0_1 (broadcastInDim S1x2048 ![1] bcast_S2048_S1x2048_1 (m ((c.tc : Thread nD τ).loc main_arg20))))))))) (Host.tanh (addf (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg5))) (broadcastInDim S4096x2048 ![0, 1] bcast_S1x2048_S4096x2048_0_1 (broadcastInDim S1x2048 ![1] bcast_S2048_S1x2048_1 (m ((c.tc : Thread nD τ).loc main_arg6))))) (Host.dotGeneral dot_S4096x2048_S2048x2048_S4096x2048_1_0_0_1_n_n none (m ((c.tc : Thread nD τ).loc main_arg1)) (m ((c.tc : Thread nD τ).loc main_arg13)))) (broadcastInDim S4096x2048 ![0, 1] bcast_S1x2048_S4096x2048_0_1 (broadcastInDim S1x2048 ![1] bcast_S2048_S1x2048_1 (m ((c.tc : Thread nD τ).loc main_arg14))))))))) (m ((c.tc : Thread nD τ).loc main_arg2))) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg7))) (broadcastInDim S4096x2048 ![0, 1] bcast_S1x2048_S4096x2048_0_1 (broadcastInDim S1x2048 ![1] bcast_S2048_S1x2048_1 (m ((c.tc : Thread nD τ).loc main_arg8))))) (Host.dotGeneral dot_S4096x2048_S2048x2048_S4096x2048_1_0_0_1_n_n none (m ((c.tc : Thread nD τ).loc main_arg1)) (m ((c.tc : Thread nD τ).loc main_arg15)))) (broadcastInDim S4096x2048 ![0, 1] bcast_S1x2048_S4096x2048_0_1 (broadcastInDim S1x2048 ![1] bcast_S2048_S1x2048_1 (m ((c.tc : Thread nD τ).loc main_arg16))))))))) (Host.tanh (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg9))) (broadcastInDim S4096x2048 ![0, 1] bcast_S1x2048_S4096x2048_0_1 (broadcastInDim S1x2048 ![1] bcast_S2048_S1x2048_1 (m ((c.tc : Thread nD τ).loc main_arg10))))) (Host.dotGeneral dot_S4096x2048_S2048x2048_S4096x2048_1_0_0_1_n_n none (m ((c.tc : Thread nD τ).loc main_arg1)) (m ((c.tc : Thread nD τ).loc main_arg17)))) (broadcastInDim S4096x2048 ![0, 1] bcast_S1x2048_S4096x2048_0_1 (broadcastInDim S1x2048 ![1] bcast_S2048_S1x2048_1 (m ((c.tc : Thread nD τ).loc main_arg18)))))))))) (m ((c.tc : Thread nD τ).loc main_arg21))) (broadcastInDim S4096x32000 ![0, 1] bcast_S1x32000_S4096x32000_0_1 (broadcastInDim S1x32000 ![1] bcast_S32000_S1x32000_1 (m ((c.tc : Thread nD τ).loc main_arg22))))) (broadcastInDim S4096x32000 ![0, 1] bcast_S4096x1_S4096x32000_0_1 (broadcastInDim S4096x1 ![0] bcast_S4096_S4096x1_0 (maximumf (broadcastInDim S4096 ![] bcast_S_S4096 (constant S_ .f32 0xFF800000#32)) (Host.reduce FloatOps.maximumf (addf (Host.dotGeneral dot_S4096x2048_S2048x32000_S4096x32000_1_0_0_1_n_n none (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg11))) (broadcastInDim S4096x2048 ![0, 1] bcast_S1x2048_S4096x2048_0_1 (broadcastInDim S1x2048 ![1] bcast_S2048_S1x2048_1 (m ((c.tc : Thread nD τ).loc main_arg12))))) (Host.dotGeneral dot_S4096x2048_S2048x2048_S4096x2048_1_0_0_1_n_n none (m ((c.tc : Thread nD τ).loc main_arg1)) (m ((c.tc : Thread nD τ).loc main_arg19)))) (broadcastInDim S4096x2048 ![0, 1] bcast_S1x2048_S4096x2048_0_1 (broadcastInDim S1x2048 ![1] bcast_S2048_S1x2048_1 (m ((c.tc : Thread nD τ).loc main_arg20))))))))) (Host.tanh (addf (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg5))) (broadcastInDim S4096x2048 ![0, 1] bcast_S1x2048_S4096x2048_0_1 (broadcastInDim S1x2048 ![1] bcast_S2048_S1x2048_1 (m ((c.tc : Thread nD τ).loc main_arg6))))) (Host.dotGeneral dot_S4096x2048_S2048x2048_S4096x2048_1_0_0_1_n_n none (m ((c.tc : Thread nD τ).loc main_arg1)) (m ((c.tc : Thread nD τ).loc main_arg13)))) (broadcastInDim S4096x2048 ![0, 1] bcast_S1x2048_S4096x2048_0_1 (broadcastInDim S1x2048 ![1] bcast_S2048_S1x2048_1 (m ((c.tc : Thread nD τ).loc main_arg14))))))))) (m ((c.tc : Thread nD τ).loc main_arg2))) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg7))) (broadcastInDim S4096x2048 ![0, 1] bcast_S1x2048_S4096x2048_0_1 (broadcastInDim S1x2048 ![1] bcast_S2048_S1x2048_1 (m ((c.tc : Thread nD τ).loc main_arg8))))) (Host.dotGeneral dot_S4096x2048_S2048x2048_S4096x2048_1_0_0_1_n_n none (m ((c.tc : Thread nD τ).loc main_arg1)) (m ((c.tc : Thread nD τ).loc main_arg15)))) (broadcastInDim S4096x2048 ![0, 1] bcast_S1x2048_S4096x2048_0_1 (broadcastInDim S1x2048 ![1] bcast_S2048_S1x2048_1 (m ((c.tc : Thread nD τ).loc main_arg16))))))))) (Host.tanh (addf (addf (addf (Host.dotGeneral dot_S4096x2048_S2048x2048_S4096x2048_1_0_0_1_n_n none (addf (Host.dotGeneral dot_S4096x4096_S4096x2048_S4096x2048_1_0_0_1_n_n none (m ((c.tc : Thread nD τ).loc main_arg0)) (m ((c.tc : Thread nD τ).loc main_arg3))) (broadcastInDim S4096x2048 ![0, 1] bcast_S1x2048_S4096x2048_0_1 (broadcastInDim S1x2048 ![1] bcast_S2048_S1x2048_1 (m ((c.tc : Thread nD τ).loc main_arg4))))) (m ((c.tc : Thread nD τ).loc main_arg9))) (broadcastInDim S4096x2048 ![0, 1] bcast_S1x2048_S4096x2048_0_1 (broadcastInDim S1x2048 ![1] bcast_S2048_S1x2048_1 (m ((c.tc : Thread nD τ).loc main_arg10))))) (Host.dotGeneral dot_S4096x2048_S2048x2048_S4096x2048_1_0_0_1_n_n none (m ((c.tc : Thread nD τ).loc main_arg1)) (m ((c.tc : Thread nD τ).loc main_arg17)))) (broadcastInDim S4096x2048 ![0, 1] bcast_S1x2048_S4096x2048_0_1 (broadcastInDim S1x2048 ![1] bcast_S2048_S1x2048_1 (m ((c.tc : Thread nD τ).loc main_arg18)))))))))) (m ((c.tc : Thread nD τ).loc main_arg21))) (broadcastInDim S4096x32000 ![0, 1] bcast_S1x32000_S4096x32000_0_1 (broadcastInDim S1x32000 ![1] bcast_S32000_S1x32000_1 (m ((c.tc : Thread nD τ).loc main_arg22))))) (constant S_ .f32 0xFF800000#32) reducesTo_S4096x32000_S4096_d1 h_S_)))))) (constant S_ .f32 0x00000000#32) reducesTo_S4096x32000_S4096_d1 h_S_))))

/-- `res_main_v68` by its position among the values @main returns, 0 counting from 0: the name for hand proofs to cite, since
    a re-print renumbers `main_v68`. An abbreviation: it unfolds to the `res_main_v68` that `run` states. -/
abbrev res_out0 (m : (ℓ : Loc nD τ sig) → Buf (Elt F) ℓ) (c : Dev nD) : Buf (Elt F) ((c.tc : Thread nD τ).loc main_v68) := res_main_v68 m c

/-- On every device, for any float values, from any memory with zero counters: every weakly fair execution of
    @main terminates with EVERY TensorCore buffer at the fold of the operations' results over its launch contents
    (`run_seq`'s own conclusion; a result or an argument is read off that fold where it is needed). -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.RefRun

end
-- ==== Proof.LibFold.lean ====
/-
  Two general facts about runs. (1) The contents after a list of host operations is a fold, so running two lists one after
  the other is running their concatenation: a long straight-line program can be cut at any operation and each part read
  separately. (2) Two facts about the final memory of every weakly fair execution of one program from one state hold
  together: termination and progress are the same statement in both, only the postconditions combine.
-/
import Idealize.ShloMosaic.Lib.StableHlo.Run

namespace Idealize.ShloMosaic.Fold

open Idealize.ShloMosaic Idealize.ShloMosaic.StableHlo Idealize.SL.Sem

/-- Running two lists of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Two postconditions of one run hold together. -/
theorem run_and {nD : Nat} {τ : Topo} {sig : RefSig} {Val : EltTy → Type} {Λ : Labels}
    (defs : Defs nD τ sig Val Λ) (p : (c : Thread nD τ) → Prog (TpuEff nD τ sig Val Λ c.2) PUnit)
    (s : MemSt nD τ sig Val) {Q₁ Q₂ : PUnit × MemSt nD τ sig Val → Prop}
    (h₁ : θ_run defs p s Q₁) (h₂ : θ_run defs p s Q₂) : θ_run defs p s (fun r => Q₁ r ∧ Q₂ r) :=
  ⟨fun t ht hf => ⟨h₁.post t ht hf, h₂.post t ht hf⟩, h₁.progress, h₁.fair⟩

end Idealize.ShloMosaic.Fold
-- ==== Proof.ReferenceEnds.lean ====
/-
  The reference program's ends: what its arguments and its three results hold after the run, read off the fold of
  its operations over the launch contents.

  No operation writes an argument, so each argument ends as launched. The new cell, the new hidden state and the
  logits are each the composition of the operations that lead to them, applied to the arguments. The last fifteen
  operations — the logarithm of the softmax along each row — read the logits only, so the final result is those
  fifteen applied to the logits: the run is cut after the logits, the logits read off the first part, and the
  second part read off whatever the first part left.
-/
import proofs.«125352_j18708877541498_2_alg».proof.Proof.ReferenceReadP
import proofs.«125352_j18708877541498_2_alg».proof.Proof.LibFold

noncomputable section

namespace Cert.ReferenceIdeal.RefEnds

open Cert.ReferenceIdeal Cert.ReferenceIdeal.Gen Cert.ReferenceIdeal.RefRun Cert.ReferenceIdeal.ReadP
open Idealize.ShloMosaic Idealize.ShloMosaic.TcCoe Idealize.SL.Sem Idealize.ShloMosaic.StableHlo

variable {F : FTy → Type} [FloatOps F]

/-! ## The arguments -/

/-- The references the operations write, in order. -/
abbrev opsW : List (Ref sig .tc) :=
  [main_v0, main_v1, main_v2, main_v3, main_v4, main_v5, main_v6, main_v7, main_v8, main_v9, main_v10, main_v11, main_v12, main_v13, main_v14, main_cst, main_v15, main_v16, main_cst_0, main_v17, main_v18, main_v19, main_v20, main_v21, main_v22, main_v23, main_v24, main_v25, main_v26, main_v27, main_v28, main_v29, main_cst_1, main_v30, main_v31, main_cst_2, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_cst_3, main_v58, main_v59, main_cst_4, main_v60, main_v61, main_v62, main_v63, main_v64, main_v65, main_v66, main_v67, main_call0_cst, main_call0_v0, main_call0_cst_0, main_call0_v1, main_call0_v2, main_call0_v3, main_call0_v4, main_call0_v5, main_call0_v6, main_call0_cst_1, main_call0_v7, main_call0_v8, main_call0_v9, main_call0_v10, main_v68]

set_option maxRecDepth 16384 in
set_option maxHeartbeats 4000000 in
/-- Each operation writes its own result reference only. -/
theorem ops_writes : (ops : List (HloOp τ sig (Elt F))).Forall fun op => op.writes ⊆ (opsW.map (Proc.devRef (τ := τ) .tc)).toFinset := by
  simp only [ops, List.Forall]
  repeat' apply And.intro
  all_goals (simp only [nullary_writes, unary_writes, binary_writes, Finset.singleton_subset_iff, List.mem_toFinset]; exact List.mem_map_of_mem (by decide))

/-- A reference no operation writes — every argument — ends as launched. -/
theorem arg_kept (m : (ℓ : Loc nD τ sig) → Buf (Elt F) ℓ) (d : Dev nD) (b : Ref sig .tc) (h : b ∉ opsW) :
    after ops (launchContents m d) (Proc.devRef .tc b) = m ((d.tc : Thread nD τ).loc b) :=
  (after_of_writes_sub ops _ ops_writes h).trans rfl

/-! ## The new cell and the new hidden state -/

set_option maxRecDepth 32768 in
set_option maxHeartbeats 8000000 in
/-- The new cell is its stage of the arguments. -/
theorem link_v46 (m : (ℓ : Loc nD τ sig) → Buf (Elt F) ℓ) (d : Dev nD) :
    after ops (launchContents m d) (Proc.devRef .tc main_v46)
      = val_main_v46 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) := by
  after_results_simp
  rfl

set_option maxRecDepth 32768 in
set_option maxHeartbeats 8000000 in
/-- The new hidden state is its stage of the arguments. -/
theorem link_v63 (m : (ℓ : Loc nD τ sig) → Buf (Elt F) ℓ) (d : Dev nD) :
    after ops (launchContents m d) (Proc.devRef .tc main_v63)
      = val_main_v63 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) := by
  after_results_simp
  rfl

/-! ## The result -/

/-- The operations up to the logits, -/
abbrev opsHead : List (HloOp τ sig (Elt F)) :=
  [ binary main_arg0 main_arg3 main_v0 ((fun l r => Host.dotGeneral dot_S4096x4096_S4096x2048_S4096x2048_1_0_0_1_n_n none l r) : (⟨S4096x4096, .f32⟩ : BufTy).Contents (Elt F) → (⟨S4096x2048, .f32⟩ : BufTy).Contents (Elt F) → (⟨S4096x2048, .f32⟩ : BufTy).Contents (Elt F)),
    unary main_arg4 main_v1 (broadcastInDim S1x2048 ![1] bcast_S2048_S1x2048_1 : (⟨S2048, .f32⟩ : BufTy).Contents (Elt F) → (⟨S1x2048, .f32⟩ : BufTy).Contents (Elt F)),
    unary main_v1 main_v2 (broadcastInDim S4096x2048 ![0, 1] bcast_S1x2048_S4096x2048_0_1 : (⟨S1x2048, .f32⟩ : BufTy).Contents (Elt F) → (⟨S4096x2048, .f32⟩ : BufTy).Contents (Elt F)),
    binary main_v0 main_v2 main_v3 (addf : (⟨S4096x2048, .f32⟩ : BufTy).Contents (Elt F) → (⟨S4096x2048, .f32⟩ : BufTy).Contents (Elt F) → (⟨S4096x2048, .f32⟩ : BufTy).Contents (Elt F)),
    binary main_v3 main_arg5 main_v4 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    unary main_arg6 main_v5 (broadcastInDim S1x2048 ![1] bcast_S2048_S1x2048_1 : (⟨S2048, .f32⟩ : BufTy).Contents (Elt F) → (⟨S1x2048, .f32⟩ : BufTy).Contents (Elt F)),
    unary main_v5 main_v6 (broadcastInDim S4096x2048 ![0, 1] bcast_S1x2048_S4096x2048_0_1 : (⟨S1x2048, .f32⟩ : BufTy).Contents (Elt F) → (⟨S4096x2048, .f32⟩ : BufTy).Contents (Elt F)),
    binary main_v4 main_v6 main_v7 (addf : (⟨S4096x2048, .f32⟩ : BufTy).Contents (Elt F) → (⟨S4096x2048, .f32⟩ : BufTy).Contents (Elt F) → (⟨S4096x2048, .f32⟩ : BufTy).Contents (Elt F)),
    binary main_arg1 main_arg13 main_v8 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    binary main_v7 main_v8 main_v9 (addf : (⟨S4096x2048, .f32⟩ : BufTy).Contents (Elt F) → (⟨S4096x2048, .f32⟩ : BufTy).Contents (Elt F) → (⟨S4096x2048, .f32⟩ : BufTy).Contents (Elt F)),
    unary main_arg14 main_v10 (broadcastInDim S1x2048 ![1] bcast_S2048_S1x2048_1 : (⟨S2048, .f32⟩ : BufTy).Contents (Elt F) → (⟨S1x2048, .f32⟩ : BufTy).Contents (Elt F)),
    unary main_v10 main_v11 (broadcastInDim S4096x2048 ![0, 1] bcast_S1x2048_S4096x2048_0_1 : (⟨S1x2048, .f32⟩ : BufTy).Contents (Elt F) → (⟨S4096x2048, .f32⟩ : BufTy).Contents (Elt F)),
    binary main_v9 main_v11 main_v12 (addf : (⟨S4096x2048, .f32⟩ : BufTy).Contents (Elt F) → (⟨S4096x2048, .f32⟩ : BufTy).Contents (Elt F) → (⟨S4096x2048, .f32⟩ : BufTy).Contents (Elt F)),
    unary main_v12 main_v13 (Host.negf : (⟨S4096x2048, .f32⟩ : BufTy).Contents (Elt F) → (⟨S4096x2048, .f32⟩ : BufTy).Contents (Elt F)),
    unary main_v13 main_v14 (Host.exp : (⟨S4096x2048, .f32⟩ : BufTy).Contents (Elt F) → (⟨S4096x2048, .f32⟩ : BufTy).Contents (Elt F)),
    nullary main_cst (constant S_ .f32 0x3F800000#32),
    unary main_cst main_v15 (broadcastInDim S4096x2048 ![] bcast_S_S4096x2048 : (⟨S_, .f32⟩ : BufTy).Contents (Elt F) → (⟨S4096x2048, .f32⟩ : BufTy).Contents (Elt F)),
    binary main_v15 main_v14 main_v16 (addf : (⟨S4096x2048, .f32⟩ : BufTy).Contents (Elt F) → (⟨S4096x2048, .f32⟩ : BufTy).Contents (Elt F) → (⟨S4096x2048, .f32⟩ : BufTy).Contents (Elt F)),
    nullary main_cst_0 (constant S_ .f32 0x3F800000#32),
    unary main_cst_0 main_v17 (broadcastInDim S4096x2048 ![] bcast_S_S4096x2048 : (⟨S_, .f32⟩ : BufTy).Contents (Elt F) → (⟨S4096x2048, .f32⟩ : BufTy).Contents (Elt F)),
    binary main_v17 main_v16 main_v18 (Host.divf : (⟨S4096x2048, .f32⟩ : BufTy).Contents (Elt F) → (⟨S4096x2048, .f32⟩ : BufTy).Contents (Elt F) → (⟨S4096x2048, .f32⟩ : BufTy).Contents (Elt F)),
    binary main_v3 main_arg7 main_v19 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    unary main_arg8 main_v20 (broadcastInDim S1x2048 ![1] bcast_S2048_S1x2048_1 : (⟨S2048, .f32⟩ : BufTy).Contents (Elt F) → (⟨S1x2048, .f32⟩ : BufTy).Contents (Elt F)),
    unary main_v20 main_v21 (broadcastInDim S4096x2048 ![0, 1] bcast_S1x2048_S4096x2048_0_1 : (⟨S1x2048, .f32⟩ : BufTy).Contents (Elt F) → (⟨S4096x2048, .f32⟩ : BufTy).Contents (Elt F)),
    binary main_v19 main_v21 main_v22 (addf : (⟨S4096x2048, .f32⟩ : BufTy).Contents (Elt F) → (⟨S4096x2048, .f32⟩ : BufTy).Contents (Elt F) → (⟨S4096x2048, .f32⟩ : BufTy).Contents (Elt F)),
    binary main_arg1 main_arg15 main_v23 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    binary main_v22 main_v23 main_v24 (addf : (⟨S4096x2048, .f32⟩ : BufTy).Contents (Elt F) → (⟨S4096x2048, .f32⟩ : BufTy).Contents (Elt F) → (⟨S4096x2048, .f32⟩ : BufTy).Contents (Elt F)),
    unary main_arg16 main_v25 (broadcastInDim S1x2048 ![1] bcast_S2048_S1x2048_1 : (⟨S2048, .f32⟩ : BufTy).Contents (Elt F) → (⟨S1x2048, .f32⟩ : BufTy).Contents (Elt F)),
    unary main_v25 main_v26 (broadcastInDim S4096x2048 ![0, 1] bcast_S1x2048_S4096x2048_0_1 : (⟨S1x2048, .f32⟩ : BufTy).Contents (Elt F) → (⟨S4096x2048, .f32⟩ : BufTy).Contents (Elt F)),
    binary main_v24 main_v26 main_v27 (addf : (⟨S4096x2048, .f32⟩ : BufTy).Contents (Elt F) → (⟨S4096x2048, .f32⟩ : BufTy).Contents (Elt F) → (⟨S4096x2048, .f32⟩ : BufTy).Contents (Elt F)),
    unary main_v27 main_v28 (Host.negf : (⟨S4096x2048, .f32⟩ : BufTy).Contents (Elt F) → (⟨S4096x2048, .f32⟩ : BufTy).Contents (Elt F)),
    unary main_v28 main_v29 (Host.exp : (⟨S4096x2048, .f32⟩ : BufTy).Contents (Elt F) → (⟨S4096x2048, .f32⟩ : BufTy).Contents (Elt F)),
    nullary main_cst_1 (constant S_ .f32 0x3F800000#32),
    unary main_cst_1 main_v30 (broadcastInDim S4096x2048 ![] bcast_S_S4096x2048 : (⟨S_, .f32⟩ : BufTy).Contents (Elt F) → (⟨S4096x2048, .f32⟩ : BufTy).Contents (Elt F)),
    binary main_v30 main_v29 main_v31 (addf : (⟨S4096x2048, .f32⟩ : BufTy).Contents (Elt F) → (⟨S4096x2048, .f32⟩ : BufTy).Contents (Elt F) → (⟨S4096x2048, .f32⟩ : BufTy).Contents (Elt F)),
    nullary main_cst_2 (constant S_ .f32 0x3F800000#32),
    unary main_cst_2 main_v32 (broadcastInDim S4096x2048 ![] bcast_S_S4096x2048 : (⟨S_, .f32⟩ : BufTy).Contents (Elt F) → (⟨S4096x2048, .f32⟩ : BufTy).Contents (Elt F)),
    binary main_v32 main_v31 main_v33 (Host.divf : (⟨S4096x2048, .f32⟩ : BufTy).Contents (Elt F) → (⟨S4096x2048, .f32⟩ : BufTy).Contents (Elt F) → (⟨S4096x2048, .f32⟩ : BufTy).Contents (Elt F)),
    binary main_v3 main_arg9 main_v34 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    unary main_arg10 main_v35 (broadcastInDim S1x2048 ![1] bcast_S2048_S1x2048_1 : (⟨S2048, .f32⟩ : BufTy).Contents (Elt F) → (⟨S1x2048, .f32⟩ : BufTy).Contents (Elt F)),
    unary main_v35 main_v36 (broadcastInDim S4096x2048 ![0, 1] bcast_S1x2048_S4096x2048_0_1 : (⟨S1x2048, .f32⟩ : BufTy).Contents (Elt F) → (⟨S4096x2048, .f32⟩ : BufTy).Contents (Elt F)),
    binary main_v34 main_v36 main_v37 (addf : (⟨S4096x2048, .f32⟩ : BufTy).Contents (Elt F) → (⟨S4096x2048, .f32⟩ : BufTy).Contents (Elt F) → (⟨S4096x2048, .f32⟩ : BufTy).Contents (Elt F)),
    binary main_arg1 main_arg17 main_v38 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    binary main_v37 main_v38 main_v39 (addf : (⟨S4096x2048, .f32⟩ : BufTy).Contents (Elt F) → (⟨S4096x2048, .f32⟩ : BufTy).Contents (Elt F) → (⟨S4096x2048, .f32⟩ : BufTy).Contents (Elt F)),
    unary main_arg18 main_v40 (broadcastInDim S1x2048 ![1] bcast_S2048_S1x2048_1 : (⟨S2048, .f32⟩ : BufTy).Contents (Elt F) → (⟨S1x2048, .f32⟩ : BufTy).Contents (Elt F)),
    unary main_v40 main_v41 (broadcastInDim S4096x2048 ![0, 1] bcast_S1x2048_S4096x2048_0_1 : (⟨S1x2048, .f32⟩ : BufTy).Contents (Elt F) → (⟨S4096x2048, .f32⟩ : BufTy).Contents (Elt F)),
    binary main_v39 main_v41 main_v42 (addf : (⟨S4096x2048, .f32⟩ : BufTy).Contents (Elt F) → (⟨S4096x2048, .f32⟩ : BufTy).Contents (Elt F) → (⟨S4096x2048, .f32⟩ : BufTy).Contents (Elt F)),
    unary main_v42 main_v43 (Host.tanh : (⟨S4096x2048, .f32⟩ : BufTy).Contents (Elt F) → (⟨S4096x2048, .f32⟩ : BufTy).Contents (Elt F)),
    binary main_v18 main_arg2 main_v44 (mulf : (⟨S4096x2048, .f32⟩ : BufTy).Contents (Elt F) → (⟨S4096x2048, .f32⟩ : BufTy).Contents (Elt F) → (⟨S4096x2048, .f32⟩ : BufTy).Contents (Elt F)),
    binary main_v33 main_v43 main_v45 (mulf : (⟨S4096x2048, .f32⟩ : BufTy).Contents (Elt F) → (⟨S4096x2048, .f32⟩ : BufTy).Contents (Elt F) → (⟨S4096x2048, .f32⟩ : BufTy).Contents (Elt F)),
    binary main_v44 main_v45 main_v46 (addf : (⟨S4096x2048, .f32⟩ : BufTy).Contents (Elt F) → (⟨S4096x2048, .f32⟩ : BufTy).Contents (Elt F) → (⟨S4096x2048, .f32⟩ : BufTy).Contents (Elt F)),
    binary main_v3 main_arg11 main_v47 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    unary main_arg12 main_v48 (broadcastInDim S1x2048 ![1] bcast_S2048_S1x2048_1 : (⟨S2048, .f32⟩ : BufTy).Contents (Elt F) → (⟨S1x2048, .f32⟩ : BufTy).Contents (Elt F)),
    unary main_v48 main_v49 (broadcastInDim S4096x2048 ![0, 1] bcast_S1x2048_S4096x2048_0_1 : (⟨S1x2048, .f32⟩ : BufTy).Contents (Elt F) → (⟨S4096x2048, .f32⟩ : BufTy).Contents (Elt F)),
    binary main_v47 main_v49 main_v50 (addf : (⟨S4096x2048, .f32⟩ : BufTy).Contents (Elt F) → (⟨S4096x2048, .f32⟩ : BufTy).Contents (Elt F) → (⟨S4096x2048, .f32⟩ : BufTy).Contents (Elt F)),
    binary main_arg1 main_arg19 main_v51 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    binary main_v50 main_v51 main_v52 (addf : (⟨S4096x2048, .f32⟩ : BufTy).Contents (Elt F) → (⟨S4096x2048, .f32⟩ : BufTy).Contents (Elt F) → (⟨S4096x2048, .f32⟩ : BufTy).Contents (Elt F)),
    unary main_arg20 main_v53 (broadcastInDim S1x2048 ![1] bcast_S2048_S1x2048_1 : (⟨S2048, .f32⟩ : BufTy).Contents (Elt F) → (⟨S1x2048, .f32⟩ : BufTy).Contents (Elt F)),
    unary main_v53 main_v54 (broadcastInDim S4096x2048 ![0, 1] bcast_S1x2048_S4096x2048_0_1 : (⟨S1x2048, .f32⟩ : BufTy).Contents (Elt F) → (⟨S4096x2048, .f32⟩ : BufTy).Contents (Elt F)),
    binary main_v52 main_v54 main_v55 (addf : (⟨S4096x2048, .f32⟩ : BufTy).Contents (Elt F) → (⟨S4096x2048, .f32⟩ : BufTy).Contents (Elt F) → (⟨S4096x2048, .f32⟩ : BufTy).Contents (Elt F)),
    unary main_v55 main_v56 (Host.negf : (⟨S4096x2048, .f32⟩ : BufTy).Contents (Elt F) → (⟨S4096x2048, .f32⟩ : BufTy).Contents (Elt F)),
    unary main_v56 main_v57 (Host.exp : (⟨S4096x2048, .f32⟩ : BufTy).Contents (Elt F) → (⟨S4096x2048, .f32⟩ : BufTy).Contents (Elt F)),
    nullary main_cst_3 (constant S_ .f32 0x3F800000#32),
    unary main_cst_3 main_v58 (broadcastInDim S4096x2048 ![] bcast_S_S4096x2048 : (⟨S_, .f32⟩ : BufTy).Contents (Elt F) → (⟨S4096x2048, .f32⟩ : BufTy).Contents (Elt F)),
    binary main_v58 main_v57 main_v59 (addf : (⟨S4096x2048, .f32⟩ : BufTy).Contents (Elt F) → (⟨S4096x2048, .f32⟩ : BufTy).Contents (Elt F) → (⟨S4096x2048, .f32⟩ : BufTy).Contents (Elt F)),
    nullary main_cst_4 (constant S_ .f32 0x3F800000#32),
    unary main_cst_4 main_v60 (broadcastInDim S4096x2048 ![] bcast_S_S4096x2048 : (⟨S_, .f32⟩ : BufTy).Contents (Elt F) → (⟨S4096x2048, .f32⟩ : BufTy).Contents (Elt F)),
    binary main_v60 main_v59 main_v61 (Host.divf : (⟨S4096x2048, .f32⟩ : BufTy).Contents (Elt F) → (⟨S4096x2048, .f32⟩ : BufTy).Contents (Elt F) → (⟨S4096x2048, .f32⟩ : BufTy).Contents (Elt F)),
    unary main_v46 main_v62 (Host.tanh : (⟨S4096x2048, .f32⟩ : BufTy).Contents (Elt F) → (⟨S4096x2048, .f32⟩ : BufTy).Contents (Elt F)),
    binary main_v61 main_v62 main_v63 (mulf : (⟨S4096x2048, .f32⟩ : BufTy).Contents (Elt F) → (⟨S4096x2048, .f32⟩ : BufTy).Contents (Elt F) → (⟨S4096x2048, .f32⟩ : BufTy).Contents (Elt F)),
    binary main_v63 main_arg21 main_v64 ((fun l r => Host.dotGeneral dot_S4096x2048_S2048x32000_S4096x32000_1_0_0_1_n_n none l r) : (⟨S4096x2048, .f32⟩ : BufTy).Contents (Elt F) → (⟨S2048x32000, .f32⟩ : BufTy).Contents (Elt F) → (⟨S4096x32000, .f32⟩ : BufTy).Contents (Elt F)),
    unary main_arg22 main_v65 (broadcastInDim S1x32000 ![1] bcast_S32000_S1x32000_1 : (⟨S32000, .f32⟩ : BufTy).Contents (Elt F) → (⟨S1x32000, .f32⟩ : BufTy).Contents (Elt F)),
    unary main_v65 main_v66 (broadcastInDim S4096x32000 ![0, 1] bcast_S1x32000_S4096x32000_0_1 : (⟨S1x32000, .f32⟩ : BufTy).Contents (Elt F) → (⟨S4096x32000, .f32⟩ : BufTy).Contents (Elt F)),
    binary main_v64 main_v66 main_v67 (addf : (⟨S4096x32000, .f32⟩ : BufTy).Contents (Elt F) → (⟨S4096x32000, .f32⟩ : BufTy).Contents (Elt F) → (⟨S4096x32000, .f32⟩ : BufTy).Contents (Elt F)) ]

/-- and the fifteen after them: the logarithm of the softmax along each row. -/
abbrev opsTail : List (HloOp τ sig (Elt F)) :=
  [ TRef.nullary (TRef.of (T := ⟨S_, .f32⟩) main_call0_cst) (constant S_ .f32 0xFF800000#32),
    TRef.binary (TRef.of (T := ⟨S4096x32000, .f32⟩) main_v67) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_v67) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v68) subf ]

set_option maxRecDepth 16384 in
theorem ops_split : (ops : List (HloOp τ sig (Elt F))) = opsHead ++ opsTail := rfl

set_option maxRecDepth 32768 in
set_option maxHeartbeats 8000000 in
/-- The logits, read off the first part, are their stage of the arguments. -/
theorem head_v67 (m : (ℓ : Loc nD τ sig) → Buf (Elt F) ℓ) (d : Dev nD) :
    after opsHead (launchContents m d) (Proc.devRef .tc main_v67)
      = val_main_v67 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) := by
  after_results_simp
  rfl

/-- Contents carried to a reference's own type and back are the contents. -/
theorem ofBuf_toBuf {T : BufTy} (x : TRef sig T) (v : T.Contents (Elt F)) : x.ofBuf (x.toBuf v) = v := by
  unfold TRef.ofBuf TRef.toBuf
  simp only [cast_cast, cast_eq]

/-- The logits' and the result's references have the type [4096, 32000] of f32: carrying contents of that type
    to them is the identity. -/
theorem ofBuf_v67 (Y : (⟨S4096x32000, .f32⟩ : BufTy).Contents (Elt F)) :
    (TRef.of (T := ⟨S4096x32000, .f32⟩) main_v67).ofBuf (Val := Elt F) Y = Y := rfl
theorem toBuf_v68 (Y : (⟨S4096x32000, .f32⟩ : BufTy).Contents (Elt F)) :
    (TRef.of (T := ⟨S4096x32000, .f32⟩) main_v68).toBuf (Val := Elt F) Y = Y := rfl

set_option maxRecDepth 32768 in
set_option maxHeartbeats 8000000 in
/-- The result is its stage of the arguments: the run cut after the logits. -/
theorem link_v68 (m : (ℓ : Loc nD τ sig) → Buf (Elt F) ℓ) (d : Dev nD) :
    after ops (launchContents m d) (Proc.devRef .tc main_v68)
      = val_main_v68 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) := by
  rw [ops_split, Fold.after_append]
  have h67 := head_v67 (F := F) m d
  generalize after opsHead (launchContents m d) = W at h67 ⊢
  after_results_simp
  rw [h67]
  simp only [ofBuf_toBuf]
  unfold val_main_v68 val_main_call0_v10 val_main_call0_v9 val_main_call0_v8 val_main_call0_v7 val_main_call0_cst_1
    val_main_call0_v6 val_main_call0_v5 val_main_call0_v4 val_main_call0_v3 val_main_call0_v2 val_main_call0_v1
    val_main_call0_cst_0 val_main_call0_v0 val_main_call0_cst
  generalize val_main_v67 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) = L
  simp only [ofBuf_v67]
  refine (toBuf_v68 _).trans ?_
  rfl

end Cert.ReferenceIdeal.RefEnds

end
-- ==== Proof.ReferenceLogSoftmax.lean ====
/-
  The reference's last stage: the logarithm of the softmax along the rows of the [4096, 32000] logits.

  The reference takes each row's maximum (a fold of max from -infinity, then a maximum with -infinity again), subtracts
  it from the row, exponentiates, sums the row from 0, takes the logarithm, and subtracts that from the shifted row.
  Read at entry (r, v), with L the row r of the logits and x its entry v, this is
  (x - max L) - log (0 + sum over the row of exp (L - max L)): the one-shot form. The logits themselves are never
  opened: the row is any row.
-/
import proofs.«125352_j18708877541498_2_alg».proof.Proof.ReferenceReadP
import proofs.«125352_j18708877541498_2_alg».proof.Proof.LstmSpec
import proofs.«125352_j18708877541498_2_alg».proof.Proof.LibRowColumn
import Idealize.ShloMosaic.Lib.ValueIdx

set_option maxRecDepth 16384

noncomputable section

open scoped BigOperators

namespace Cert.ReferenceIdeal.RefLogSoftmax

open Cert.ReferenceIdeal Cert.ReferenceIdeal.Gen Cert.ReferenceIdeal.ReadP
open Idealize.ShloMosaic Idealize.ShloMosaic.TcCoe Idealize.ShloMosaic.ValueIdx

/-- The rows of the logits array reduce along their columns to one entry per row. -/
theorem reduces_rows : S4096x32000.Reduces [1] S4096 := by decide

/-- The maximum of row `r`, as the reference computes it: the fold of max over the row from -infinity (and a
    further maximum with -infinity, which changes nothing). -/
theorem row_max (x0 : (⟨S4096x4096, .f32⟩ : BufTy).Contents (Elt Ideal)) (x1 : (⟨S4096x2048, .f32⟩ : BufTy).Contents (Elt Ideal)) (x2 : (⟨S4096x2048, .f32⟩ : BufTy).Contents (Elt Ideal)) (x3 : (⟨S4096x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (x19 : (⟨S2048x2048, .f32⟩ : BufTy).Contents (Elt Ideal)) (x20 : (⟨S2048, .f32⟩ : BufTy).Contents (Elt Ideal)) (x21 : (⟨S2048x32000, .f32⟩ : BufTy).Contents (Elt Ideal)) (x22 : (⟨S32000, .f32⟩ : BufTy).Contents (Elt Ideal)) (r : Fin 4096) :
    val_main_call0_v2 (F := Ideal) x0 x1 x2 x3 x4 x5 x6 x7 x8 x9 x10 x11 x12 x13 x14 x15 x16 x17 x18 x19 x20 x21 x22 (ix1 r)
      = (Finset.univ : Finset (Fin 32000)).fold max ⊥ (fun v' : Fin 32000 => val_main_v67 (F := Ideal) x0 x1 x2 x3 x4 x5 x6 x7 x8 x9 x10 x11 x12 x13 x14 x15 x16 x17 x18 x19 x20 x21 x22 (ix2 r v')) := by
  rw [val_main_call0_v2_apply, val_main_call0_v1_apply, val_main_call0_cst_0_apply]
  unfold val_main_call0_v0
  generalize val_main_v67 (F := Ideal) x0 x1 x2 x3 x4 x5 x6 x7 x8 x9 x10 x11 x12 x13 x14 x15 x16 x17 x18 x19 x20 x21 x22 = y
  rw [RowColumn.hostReduce_maximumf_cols y _ reducesTo_S4096x32000_S4096_d1 reduces_rows h_S_ r, val_main_call0_cst_apply]
  simp only [Ideal.ofBits_def, Ideal.maximumf_def, RowColumn.ofBits_negInf]
  exact max_bot_left _

/-- The shifted row: entry (r, v) of the logits less the maximum of row `r`. -/
theorem shifted (x0 : (⟨S4096x4096, .f32⟩ : BufTy).Contents (Elt Ideal)) (x1 : (⟨S4096x2048, .f32⟩ : BufTy).Contents (Elt Ideal)) (x2 : (⟨S4096x2048, .f32⟩ : BufTy).Contents (Elt Ideal)) (x3 : (⟨S4096x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (x19 : (⟨S2048x2048, .f32⟩ : BufTy).Contents (Elt Ideal)) (x20 : (⟨S2048, .f32⟩ : BufTy).Contents (Elt Ideal)) (x21 : (⟨S2048x32000, .f32⟩ : BufTy).Contents (Elt Ideal)) (x22 : (⟨S32000, .f32⟩ : BufTy).Contents (Elt Ideal)) (r : Fin 4096) (v : Fin 32000) :
    val_main_call0_v5 (F := Ideal) x0 x1 x2 x3 x4 x5 x6 x7 x8 x9 x10 x11 x12 x13 x14 x15 x16 x17 x18 x19 x20 x21 x22 (ix2 r v)
      = val_main_v67 (F := Ideal) x0 x1 x2 x3 x4 x5 x6 x7 x8 x9 x10 x11 x12 x13 x14 x15 x16 x17 x18 x19 x20 x21 x22 (ix2 r v) - (Finset.univ : Finset (Fin 32000)).fold max ⊥ (fun v' : Fin 32000 => val_main_v67 (F := Ideal) x0 x1 x2 x3 x4 x5 x6 x7 x8 x9 x10 x11 x12 x13 x14 x15 x16 x17 x18 x19 x20 x21 x22 (ix2 r v')) := by
  rw [val_main_call0_v5_apply, val_main_call0_v4_apply, val_main_call0_v3_apply]
  have e : idx_main_call0_v3 (idx_main_call0_v4 (ix2 r v)) = ix1 r :=
    funext fun a => Fin.ext (by match a with | ⟨0, _⟩ => rfl)
  rw [e, row_max]
  simp only [Ideal.subf_def]

/-- The sum over row `r` of the exponentials of the shifted row, from 0. -/
theorem row_sum (x0 : (⟨S4096x4096, .f32⟩ : BufTy).Contents (Elt Ideal)) (x1 : (⟨S4096x2048, .f32⟩ : BufTy).Contents (Elt Ideal)) (x2 : (⟨S4096x2048, .f32⟩ : BufTy).Contents (Elt Ideal)) (x3 : (⟨S4096x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (x19 : (⟨S2048x2048, .f32⟩ : BufTy).Contents (Elt Ideal)) (x20 : (⟨S2048, .f32⟩ : BufTy).Contents (Elt Ideal)) (x21 : (⟨S2048x32000, .f32⟩ : BufTy).Contents (Elt Ideal)) (x22 : (⟨S32000, .f32⟩ : BufTy).Contents (Elt Ideal)) (r : Fin 4096) :
    val_main_call0_v7 (F := Ideal) x0 x1 x2 x3 x4 x5 x6 x7 x8 x9 x10 x11 x12 x13 x14 x15 x16 x17 x18 x19 x20 x21 x22 (ix1 r)
      = 0 + ∑ k : Fin 32000, Ideal.exp (val_main_v67 (F := Ideal) x0 x1 x2 x3 x4 x5 x6 x7 x8 x9 x10 x11 x12 x13 x14 x15 x16 x17 x18 x19 x20 x21 x22 (ix2 r k) - (Finset.univ : Finset (Fin 32000)).fold max ⊥ (fun v' : Fin 32000 => val_main_v67 (F := Ideal) x0 x1 x2 x3 x4 x5 x6 x7 x8 x9 x10 x11 x12 x13 x14 x15 x16 x17 x18 x19 x20 x21 x22 (ix2 r v'))) := by
  rw [val_main_call0_v7_apply, val_main_call0_cst_1_apply]
  simp only [Ideal.ofBits_def, Ideal.ofBits_zero_f32]
  refine congrArg (0 + ·) (Finset.sum_congr rfl fun k _ => ?_)
  have e : idx_main_call0_v7 (ix1 r) k = ix2 r k :=
    funext fun a => Fin.ext (by match a with | ⟨0, _⟩ => rfl | ⟨1, _⟩ => rfl)
  rw [e, val_main_call0_v6_apply, shifted]
  simp only [Ideal.hostUnary_exp_def]

/-- THE LAST STAGE at entry (r, v): the one-shot logarithm of the softmax of row `r` of the logits at its entry `v`. -/
theorem log_softmax_eq (x0 : (⟨S4096x4096, .f32⟩ : BufTy).Contents (Elt Ideal)) (x1 : (⟨S4096x2048, .f32⟩ : BufTy).Contents (Elt Ideal)) (x2 : (⟨S4096x2048, .f32⟩ : BufTy).Contents (Elt Ideal)) (x3 : (⟨S4096x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (x19 : (⟨S2048x2048, .f32⟩ : BufTy).Contents (Elt Ideal)) (x20 : (⟨S2048, .f32⟩ : BufTy).Contents (Elt Ideal)) (x21 : (⟨S2048x32000, .f32⟩ : BufTy).Contents (Elt Ideal)) (x22 : (⟨S32000, .f32⟩ : BufTy).Contents (Elt Ideal)) (r : Fin 4096) (v : Fin 32000) :
    val_main_v68 (F := Ideal) x0 x1 x2 x3 x4 x5 x6 x7 x8 x9 x10 x11 x12 x13 x14 x15 x16 x17 x18 x19 x20 x21 x22 (ix2 r v)
      = Cert.LstmSpec.logSoftmaxAt (fun v' : Fin 32000 => val_main_v67 (F := Ideal) x0 x1 x2 x3 x4 x5 x6 x7 x8 x9 x10 x11 x12 x13 x14 x15 x16 x17 x18 x19 x20 x21 x22 (ix2 r v'))
          (val_main_v67 (F := Ideal) x0 x1 x2 x3 x4 x5 x6 x7 x8 x9 x10 x11 x12 x13 x14 x15 x16 x17 x18 x19 x20 x21 x22 (ix2 r v)) := by
  rw [val_main_v68_apply, val_main_call0_v10_apply, val_main_call0_v9_apply, val_main_call0_v8_apply]
  have e : idx_main_call0_v8 (idx_main_call0_v10 (ix2 r v)) = ix1 r :=
    funext fun a => Fin.ext (by match a with | ⟨0, _⟩ => rfl)
  rw [e, row_sum, shifted]
  unfold Cert.LstmSpec.logSoftmaxAt
  simp only [Ideal.subf_def, Ideal.hostUnary_log_def]

end Cert.ReferenceIdeal.RefLogSoftmax

end
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«125352_j18708877541498_2_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSplitLayer.lean ====
/-
  A linear layer applied to rows that come in two parts, followed by the rectifier, over the extended reals, in its two
  spellings. A row-tiled kernel holds the weight matrix `W` (one row per output feature, `K₁ + K₂` columns) as two
  transposed column ranges `W₁ = (W[:, :K₁])ᵀ` and `W₂ = (W[:, K₁:])ᵀ`, multiplies each part of the row block by its range on
  the matrix unit (the rounding of the operands to bf16 is the identity on the extended reals, and a product into the zero
  accumulator is the finite sum over the contracted coordinate), adds the two products, adds the bias row and takes the
  maximum with zero. The host lays the two parts side by side, multiplies the `K₁ + K₂`-wide rows by `Wᵀ` in one
  `dot_general`, adds the bias lifted twice and takes the maximum with a broadcast zero. Entry `(r, j)` of either is
    max (Σ_{k < K₁} X₁(r,k)·W(j,k) + Σ_{k < K₂} X₂(r,k)·W(j,K₁+k) + b(j)) 0 :
  a sum over `Fin (K₁ + K₂)` is the sum over its first `K₁` positions plus the sum over the remaining `K₂`, which holds
  in every commutative additive monoid, so nothing here asks the entries to be finite.
-/
import Idealize.ShloMosaic.PureOps.Ideal.Laws
import Idealize.ShloMosaic.Lib.ValueIdx
import Idealize.ShloMosaic.Lib.ValueLayout
import Idealize.ShloMosaic.Lib.Pipeline.Value
import proofs.«125352_j18708877541498_2_alg».proof.Proof.LibPlainDot
import proofs.«125352_j18708877541498_2_alg».proof.Proof.LibAffine

namespace Idealize.ShloMosaic.SplitLayer

open Idealize.ShloMosaic.ValueIdx

variable {A K₁ K₂ K M : Nat}

/-- The layer on rows in two parts with the weights in two transposed ranges: entry `(r, j)` is
    `max (Σ_k X₁(r,k)·W₁(k,j) + Σ_k X₂(r,k)·W₂(k,j) + b(j)) 0`. -/
noncomputable def layer (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32) :
    FVec Ideal ⟨2, ![A, M]⟩ .f32 :=
  fun i => max (((∑ k : Fin K₁, X₁ (ix2 ⟨(i 0).val, idx2_lt0 i⟩ k) * W₁ (ix2 k ⟨(i 1).val, idx2_lt1 i⟩))
      + (∑ k : Fin K₂, X₂ (ix2 ⟨(i 0).val, idx2_lt0 i⟩ k) * W₂ (ix2 k ⟨(i 1).val, idx2_lt1 i⟩)))
      + b (ix1 ⟨(i 1).val, idx2_lt1 i⟩)) (Ideal.ofBits .f32 0x00000000#32)

theorem layer_ix2 (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (p : Fin A) (q : Fin M) :
    layer X₁ X₂ W₁ W₂ b (ix2 p q)
      = max (((∑ k : Fin K₁, X₁ (ix2 p k) * W₁ (ix2 k q)) + (∑ k : Fin K₂, X₂ (ix2 p k) * W₂ (ix2 k q))) + b (ix1 q))
          (Ideal.ofBits .f32 0x00000000#32) := rfl

/-- An entry of the layer depends on its own row of the two parts, its own column of the two weight ranges and its own
    bias entry only: row `p`, column `q` of the layer on a block of rows is row `r`, column `q` of the layer on whole
    arrays when those five agree. -/
theorem layer_entry_congr {B : Nat} (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (x₁ : FVec Ideal ⟨2, ![B, K₁]⟩ .f32) (x₂ : FVec Ideal ⟨2, ![B, K₂]⟩ .f32)
    (w₁ : FVec Ideal ⟨2, ![K₁, M]⟩ .f32) (w₂ : FVec Ideal ⟨2, ![K₂, M]⟩ .f32) (b' : FVec Ideal ⟨1, ![M]⟩ .f32)
    (p : Fin B) (r : Fin A) (q : Fin M)
    (h₁ : ∀ k, x₁ (ix2 p k) = X₁ (ix2 r k)) (h₂ : ∀ k, x₂ (ix2 p k) = X₂ (ix2 r k))
    (h₃ : ∀ k, w₁ (ix2 k q) = W₁ (ix2 k q)) (h₄ : ∀ k, w₂ (ix2 k q) = W₂ (ix2 k q)) (h₅ : b' (ix1 q) = b (ix1 q)) :
    layer x₁ x₂ w₁ w₂ b' (ix2 p q) = layer X₁ X₂ W₁ W₂ b (ix2 r q) := by
  rw [layer_ix2, layer_ix2]
  simp only [h₁, h₂, h₃, h₄, h₅]

/-- The kernel body's value at row `p`, column `q` of its block: two products into zero accumulators added, the bias
    `[M]` recast to a row and repeated down the block, the maximum with a splat zero. -/
theorem body_apply (prec : Option ContractPrecision) (x₁ : FVec Ideal ⟨2, ![A, K₁]⟩ .f32) (x₂ : FVec Ideal ⟨2, ![A, K₂]⟩ .f32)
    (w₁ : FVec Ideal ⟨2, ![K₁, M]⟩ .f32) (w₂ : FVec Ideal ⟨2, ![K₂, M]⟩ .f32) (b : FVec Ideal ⟨1, ![M]⟩ .f32)
    (ht : FTy.bf16.bits < FTy.f32.bits) (hc : (⟨1, ![M]⟩ : Shape).ShapeCasts ⟨2, ![1, M]⟩)
    (hb : (⟨2, ![1, M]⟩ : Shape).Broadcasts ⟨2, ![A, M]⟩) (p : Fin A) (q : Fin M) :
    maximumf
        (addf
          (addf
            (FloatOps.matmul (DotDims.plain A K₁ M) prec (truncf .bf16 x₁ ht) (truncf .bf16 w₁ ht) (constant ⟨2, ![A, M]⟩ .f32 0x00000000#32))
            (FloatOps.matmul (DotDims.plain A K₂ M) prec (truncf .bf16 x₂ ht) (truncf .bf16 w₂ ht) (constant ⟨2, ![A, M]⟩ .f32 0x00000000#32)))
          (broadcastTo ⟨2, ![A, M]⟩ (shapeCast ⟨2, ![1, M]⟩ b hc) hb))
        (broadcast ⟨2, ![A, M]⟩ (Scalar.ofBits (F := Ideal) .f32 0x00000000#32)) (ix2 p q)
      = layer x₁ x₂ w₁ w₂ b (ix2 p q) := by
  rw [layer_ix2]
  refine (maximumf_apply _ _ _).trans (congrArg₂ max ?_ rfl)
  refine (addf_apply _ _ _).trans (congrArg₂ (· + ·) ?_ ?_)
  · refine (addf_apply _ _ _).trans (congrArg₂ (· + ·) ?_ ?_)
    · exact PlainDot.matmul_apply_ix2 prec (truncf .bf16 x₁ ht) (truncf .bf16 w₁ ht) p q
    · exact PlainDot.matmul_apply_ix2 prec (truncf .bf16 x₂ ht) (truncf .bf16 w₂ ht) p q
  · exact (broadcastTo_1b_ab_apply _ hb p q).trans (shapeCast_a_1a_apply b hc 0 q)

/-- Two arrays laid side by side along the columns, read in the first one's columns. -/
theorem concat_cols_left (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₁) :
    concatenate ⟨2, ![A, K₁ + K₂]⟩ 1 [⟨⟨2, ![A, K₁]⟩, X₁⟩, ⟨⟨2, ![A, K₂]⟩, X₂⟩] hcat (ix2 p (Fin.castAdd K₂ k)) = X₁ (ix2 p k) :=
  concatenate_pair_apply_left 1 X₁ X₂ hcat (ix2 p (Fin.castAdd K₂ k)) rfl (ix2 p k) fun b =>
    match b with
    | ⟨0, _⟩ => rfl
    | ⟨1, _⟩ => rfl

/-- Two arrays laid side by side along the columns, read in the second one's columns. -/
theorem concat_cols_right (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₂) :
    concatenate ⟨2, ![A, K₁ + K₂]⟩ 1 [⟨⟨2, ![A, K₁]⟩, X₁⟩, ⟨⟨2, ![A, K₂]⟩, X₂⟩] hcat (ix2 p (Fin.natAdd K₁ k)) = X₂ (ix2 p k) :=
  concatenate_pair_apply_right 1 X₁ X₂ hcat (ix2 p (Fin.natAdd K₁ k)) rfl rfl (ix2 p k)
    (fun b hb =>
      match b, hb with
      | ⟨0, _⟩, _ => rfl
      | ⟨1, _⟩, hb => absurd rfl hb)
    (show k.val + K₁ = K₁ + k.val from Nat.add_comm _ _)

/-- A matrix transposed, read at `(c, q)`: the matrix at `(q, c)`. -/
theorem transpose_ix2 {R C : Nat} (W : FVec Ideal ⟨2, ![R, C]⟩ .f32) (h : (⟨2, ![R, C]⟩ : Shape).Transposes [1, 0] ⟨2, ![C, R]⟩)
    (c : Fin C) (q : Fin R) : transpose ⟨2, ![C, R]⟩ [1, 0] W h (ix2 c q) = W (ix2 q c) :=
  transpose_apply [1, 0] W h (ix2 c q) (ix2 q c) fun b =>
    match b with
    | ⟨0, _⟩ => rfl
    | ⟨1, _⟩ => rfl

/-- A range of `C'` columns of a matrix starting at column `o`, transposed, read at `(k, q)`: the matrix at `(q, o + k)`. -/
theorem transpose_cols_ix2 {R C C' : Nat} (o : Nat) (W : FVec Ideal ⟨2, ![R, C]⟩ .f32)
    (hs : (⟨2, ![R, C]⟩ : Shape).Slices ![0, o] ⟨2, ![R, C']⟩)
    (h : (⟨2, ![R, C']⟩ : Shape).Transposes [1, 0] ⟨2, ![C', R]⟩) (k : Fin C') (q : Fin R) (hk : o + k.val < C) :
    transpose ⟨2, ![C', R]⟩ [1, 0] (extractStridedSlice ⟨2, ![R, C']⟩ ![0, o] W hs) h (ix2 k q) = W (ix2 q ⟨o + k.val, hk⟩) :=
  (transpose_ix2 _ h k q).trans
    (extractStridedSlice_apply ![0, o] W hs (ix2 q k) (ix2 q ⟨o + k.val, hk⟩) fun a =>
      match a with
      | ⟨0, _⟩ => (Nat.zero_add _).symm
      | ⟨1, _⟩ => rfl)

/-- The host's spelling at `(p, q)`, against the layer on the two transposed column ranges of the weight matrix. -/
theorem host_apply (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) (p : Fin A) (q : Fin M) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32)) (ix2 p q)
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b (ix2 p q) := by
  rw [layer_ix2]
  refine (maximumf_apply _ _ _).trans (congrArg₂ max ?_ ?_)
  · refine (addf_apply _ _ _).trans (congrArg₂ (· + ·) ?_ (Affine.bias_rows_apply b h1 h2 p q))
    refine (PlainDot.dotGeneral_apply_ix2 prec sched _ _ p q).trans ?_
    rw [Fin.sum_univ_add]
    refine congrArg₂ (· + ·) (Finset.sum_congr rfl fun k _ => ?_) (Finset.sum_congr rfl fun k _ => ?_)
    · refine congrArg₂ (· * ·) (concat_cols_left X₁ X₂ hcat p k) ?_
      refine (transpose_ix2 W htr (Fin.castAdd K₂ k) q).trans ?_
      refine ((transpose_cols_ix2 0 W hs₁ ht₁ k q (by have := k.isLt; omega)).trans ?_).symm
      exact congrArg W (congrArg (ix2 q) (Fin.ext (Nat.zero_add _)))
    · refine congrArg₂ (· * ·) (concat_cols_right X₁ X₂ hcat p k) ?_
      refine (transpose_ix2 W htr (Fin.natAdd K₁ k) q).trans ?_
      exact (transpose_cols_ix2 K₁ W hs₂ ht₂ k q (by have := k.isLt; omega)).symm
  · exact broadcastInDim_apply _ h0 _ (ix2 p q) ix0 fun a => a.elim0

/-- The two spellings are one array. -/
theorem host_eq (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32))
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b := by
  funext i
  obtain ⟨p, q, rfl⟩ : ∃ (p : Fin A) (q : Fin M), i = ix2 p q := ⟨i 0, i 1, eq_ix2 i⟩
  exact host_apply prec sched X₁ X₂ W b hcat htr hs₁ ht₁ hs₂ ht₂ h1 h2 h0 p q

end Idealize.ShloMosaic.SplitLayer
-- ==== Proof.LibSplitDot.lean ====
/-
  Three readings of host operations over the extended reals, at an output index given by coordinates.
  `split_dot`: rows that come in two parts `X₁` (`K₁` columns) and `X₂` (`K₂` columns), laid side by side and multiplied in ONE
  `dot_general` by the transpose of a matrix `W` with one row per output feature and `K₁ + K₂` columns, give at `(p, q)`
    Σ_{k < K₁} X₁(p,k)·W(q,k) + Σ_{k < K₂} X₂(p,k)·W(q,K₁+k):
  a sum over `Fin (K₁ + K₂)` is the sum over its first `K₁` positions plus the sum over the remaining `K₂`, in any commutative
  additive monoid, so nothing is asked of the entries.
  `dot_transposed`: rows multiplied by the transpose of `W` give `Σ_k X(p,k)·W(q,k)`.
  `sigmoid_host`: the logistic function spelt as `1 / (1 + exp (−x))` in the host's operations, with the f32 word of 1.0 for
  both ones, is `Ideal.logistic x` on every extended real (the quotient's and the exponential's conventions at ±∞ are the
  definition's own).
-/
import Idealize.ShloMosaic.PureOps.Ideal.Laws
import Idealize.ShloMosaic.Lib.ValueIdx
import Idealize.ShloMosaic.Lib.IdealHost
import proofs.«125352_j18708877541498_2_alg».proof.Proof.LibPlainDot
import proofs.«125352_j18708877541498_2_alg».proof.Proof.LibSplitLayer

namespace Idealize.ShloMosaic.SplitDot

open Idealize.ShloMosaic.ValueIdx

variable {A K₁ K₂ K M : Nat}

/-- Rows in two parts, side by side, against a transposed weight matrix: the two partial sums. -/
theorem split_dot (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩) (p : Fin A) (q : Fin M) :
    FloatOps.dotGeneral (DotDims.plain A (K₁ + K₂) M) prec sched
        (concatenate ⟨2, ![A, K₁ + K₂]⟩ 1 [⟨⟨2, ![A, K₁]⟩, X₁⟩, ⟨⟨2, ![A, K₂]⟩, X₂⟩] hcat)
        (transpose ⟨2, ![K₁ + K₂, M]⟩ [1, 0] W htr) (ix2 p q)
      = (∑ k : Fin K₁, X₁ (ix2 p k) * W (ix2 q (Fin.castAdd K₂ k))) + (∑ k : Fin K₂, X₂ (ix2 p k) * W (ix2 q (Fin.natAdd K₁ k))) := by
  refine (PlainDot.dotGeneral_apply_ix2 prec sched _ _ p q).trans ?_
  rw [Fin.sum_univ_add]
  refine congrArg₂ (· + ·) (Finset.sum_congr rfl fun k _ => ?_) (Finset.sum_congr rfl fun k _ => ?_)
  · exact congrArg₂ (· * ·) (SplitLayer.concat_cols_left X₁ X₂ hcat p k) (SplitLayer.transpose_ix2 W htr (Fin.castAdd K₂ k) q)
  · exact congrArg₂ (· * ·) (SplitLayer.concat_cols_right X₁ X₂ hcat p k) (SplitLayer.transpose_ix2 W htr (Fin.natAdd K₁ k) q)

/-- Rows against a transposed weight matrix: the matrix read row by row. -/
theorem dot_transposed (prec : Option ContractPrecision) (sched : HostSchedule)
    (X : FVec Ideal ⟨2, ![A, K]⟩ .f32) (W : FVec Ideal ⟨2, ![M, K]⟩ .f32)
    (htr : (⟨2, ![M, K]⟩ : Shape).Transposes [1, 0] ⟨2, ![K, M]⟩) (p : Fin A) (q : Fin M) :
    FloatOps.dotGeneral (DotDims.plain A K M) prec sched X (transpose ⟨2, ![K, M]⟩ [1, 0] W htr) (ix2 p q)
      = ∑ k : Fin K, X (ix2 p k) * W (ix2 q k) :=
  (PlainDot.dotGeneral_apply_ix2 prec sched _ _ p q).trans
    (Finset.sum_congr rfl fun k _ => congrArg (X (ix2 p k) * ·) (SplitLayer.transpose_ix2 W htr k q))

/-- The host's `1 / (1 + exp (−x))` with the f32 word of 1.0 is the logistic function. -/
theorem sigmoid_host (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  rw [Ideal.ofBits_def, Ideal.ofBits_one_f32]
  rfl

end Idealize.ShloMosaic.SplitDot
-- ==== Proof.ReferenceValue.lean ====
/-
  The reference's results, stage by stage, as the specification's stages of its argument arrays.

  The reference computes emb = input·We + be once and feeds it to the four gates; each gate adds, in this order, the
  input-side product, its bias, the hidden-side product and the hidden-side bias, where the specification adds the two
  products first and then the two biases' sum: addition of extended reals is commutative and associative, so the two
  agree with no finiteness. The reference spells the logistic function 1 / (1 + exp(−x)) with the f32 word of 1, which
  is its definition. The last stage is the logarithm of the softmax along each row.
-/
import proofs.«125352_j18708877541498_2_alg».proof.Proof.ReferenceReadP
import proofs.«125352_j18708877541498_2_alg».proof.Proof.ReferenceLogSoftmax
import proofs.«125352_j18708877541498_2_alg».proof.Proof.LstmArgs
import proofs.«125352_j18708877541498_2_alg».proof.Proof.LibSplitDot
import Idealize.ShloMosaic.Lib.ValueIdx
import Idealize.ShloMosaic.PureOps.Ideal.Laws

noncomputable section

namespace Cert.ReferenceIdeal.RefValue

open Cert.ReferenceIdeal Cert.ReferenceIdeal.ReadP Cert.LstmSpec
open Idealize.ShloMosaic Idealize.ShloMosaic.ValueIdx

variable (x0 : (⟨S4096x4096, .f32⟩ : BufTy).Contents (Elt Ideal)) (x1 x2 x3 : (⟨S4096x2048, .f32⟩ : BufTy).Contents (Elt Ideal)) (x4 : (⟨S2048, .f32⟩ : BufTy).Contents (Elt Ideal))
  (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal))
  (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal))
  (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal))
  (x17 : (⟨S2048x2048, .f32⟩ : BufTy).Contents (Elt Ideal)) (x18 : (⟨S2048, .f32⟩ : BufTy).Contents (Elt Ideal)) (x19 : (⟨S2048x2048, .f32⟩ : BufTy).Contents (Elt Ideal)) (x20 : (⟨S2048, .f32⟩ : BufTy).Contents (Elt Ideal))
  (x21 : (⟨S2048x32000, .f32⟩ : BufTy).Contents (Elt Ideal)) (x22 : (⟨S32000, .f32⟩ : BufTy).Contents (Elt Ideal))

local notation "𝔸" => ofArrays x0 x1 x2 x3 x4 x5 x6 x7 x8 x9 x10 x11 x12 x13 x14 x15 x16 x17 x18 x19 x20 x21 x22

/-- The reference's order of a gate's four summands against the specification's. -/
theorem regroup (A b B bh : EReal) : ((A + b) + B) + bh = (A + B) + (b + bh) := by
  rw [add_right_comm A b B, add_assoc]

/-- The embedding: input · We + be. -/
theorem emb_eq (r : Fin 4096) (e : Fin 2048) :
    val_main_v3 (F := Ideal) x0 x3 x4 (ix2 r e) = Args.emb 𝔸 r e := by
  rw [val_main_v3_apply, val_main_v0_apply, val_main_v2_apply, val_main_v1_apply]
  have el : ∀ k, lidx_main_v0 (ix2 r e) k = ix2 r k := fun k => funext fun a => Fin.ext (by match a with | ⟨0, _⟩ => rfl | ⟨1, _⟩ => rfl)
  have er : ∀ k, ridx_main_v0 (ix2 r e) k = ix2 k e := fun k => funext fun a => Fin.ext (by match a with | ⟨0, _⟩ => rfl | ⟨1, _⟩ => rfl)
  have eb : idx_main_v1 (idx_main_v2 (ix2 r e)) = ix1 e := funext fun a => Fin.ext (by match a with | ⟨0, _⟩ => rfl)
  simp only [el, er, eb, Ideal.addf_def]
  rfl

/-- preF's pre-activation. -/
theorem pre_f_eq (r : Fin 4096) (j : Fin 2048) :
    val_main_v12 (F := Ideal) x0 x1 x3 x4 x5 x6 x13 x14 (ix2 r j) = Args.preF 𝔸 r j := by
  rw [val_main_v12_apply, val_main_v9_apply, val_main_v7_apply, val_main_v4_apply, val_main_v6_apply, val_main_v5_apply, val_main_v8_apply, val_main_v11_apply, val_main_v10_apply]
  have el : ∀ k, lidx_main_v4 (ix2 r j) k = ix2 r k := fun k => funext fun a => Fin.ext (by match a with | ⟨0, _⟩ => rfl | ⟨1, _⟩ => rfl)
  have er : ∀ k, ridx_main_v4 (ix2 r j) k = ix2 k j := fun k => funext fun a => Fin.ext (by match a with | ⟨0, _⟩ => rfl | ⟨1, _⟩ => rfl)
  have el' : ∀ k, lidx_main_v8 (ix2 r j) k = ix2 r k := fun k => funext fun a => Fin.ext (by match a with | ⟨0, _⟩ => rfl | ⟨1, _⟩ => rfl)
  have er' : ∀ k, ridx_main_v8 (ix2 r j) k = ix2 k j := fun k => funext fun a => Fin.ext (by match a with | ⟨0, _⟩ => rfl | ⟨1, _⟩ => rfl)
  have eb : idx_main_v5 (idx_main_v6 (ix2 r j)) = ix1 j := funext fun a => Fin.ext (by match a with | ⟨0, _⟩ => rfl)
  have eb' : idx_main_v10 (idx_main_v11 (ix2 r j)) = ix1 j := funext fun a => Fin.ext (by match a with | ⟨0, _⟩ => rfl)
  simp only [el, er, el', er', eb, eb', Ideal.addf_def, emb_eq x0 x1 x2 x3 x4 x5 x6 x7 x8 x9 x10 x11 x12 x13 x14 x15 x16 x17 x18 x19 x20 x21 x22]
  exact regroup _ _ _ _

/-- preI's pre-activation. -/
theorem pre_i_eq (r : Fin 4096) (j : Fin 2048) :
    val_main_v27 (F := Ideal) x0 x1 x3 x4 x7 x8 x15 x16 (ix2 r j) = Args.preI 𝔸 r j := by
  rw [val_main_v27_apply, val_main_v24_apply, val_main_v22_apply, val_main_v19_apply, val_main_v21_apply, val_main_v20_apply, val_main_v23_apply, val_main_v26_apply, val_main_v25_apply]
  have el : ∀ k, lidx_main_v19 (ix2 r j) k = ix2 r k := fun k => funext fun a => Fin.ext (by match a with | ⟨0, _⟩ => rfl | ⟨1, _⟩ => rfl)
  have er : ∀ k, ridx_main_v19 (ix2 r j) k = ix2 k j := fun k => funext fun a => Fin.ext (by match a with | ⟨0, _⟩ => rfl | ⟨1, _⟩ => rfl)
  have el' : ∀ k, lidx_main_v23 (ix2 r j) k = ix2 r k := fun k => funext fun a => Fin.ext (by match a with | ⟨0, _⟩ => rfl | ⟨1, _⟩ => rfl)
  have er' : ∀ k, ridx_main_v23 (ix2 r j) k = ix2 k j := fun k => funext fun a => Fin.ext (by match a with | ⟨0, _⟩ => rfl | ⟨1, _⟩ => rfl)
  have eb : idx_main_v20 (idx_main_v21 (ix2 r j)) = ix1 j := funext fun a => Fin.ext (by match a with | ⟨0, _⟩ => rfl)
  have eb' : idx_main_v25 (idx_main_v26 (ix2 r j)) = ix1 j := funext fun a => Fin.ext (by match a with | ⟨0, _⟩ => rfl)
  simp only [el, er, el', er', eb, eb', Ideal.addf_def, emb_eq x0 x1 x2 x3 x4 x5 x6 x7 x8 x9 x10 x11 x12 x13 x14 x15 x16 x17 x18 x19 x20 x21 x22]
  exact regroup _ _ _ _

/-- preC's pre-activation. -/
theorem pre_c_eq (r : Fin 4096) (j : Fin 2048) :
    val_main_v42 (F := Ideal) x0 x1 x3 x4 x9 x10 x17 x18 (ix2 r j) = Args.preC 𝔸 r j := by
  rw [val_main_v42_apply, val_main_v39_apply, val_main_v37_apply, val_main_v34_apply, val_main_v36_apply, val_main_v35_apply, val_main_v38_apply, val_main_v41_apply, val_main_v40_apply]
  have el : ∀ k, lidx_main_v34 (ix2 r j) k = ix2 r k := fun k => funext fun a => Fin.ext (by match a with | ⟨0, _⟩ => rfl | ⟨1, _⟩ => rfl)
  have er : ∀ k, ridx_main_v34 (ix2 r j) k = ix2 k j := fun k => funext fun a => Fin.ext (by match a with | ⟨0, _⟩ => rfl | ⟨1, _⟩ => rfl)
  have el' : ∀ k, lidx_main_v38 (ix2 r j) k = ix2 r k := fun k => funext fun a => Fin.ext (by match a with | ⟨0, _⟩ => rfl | ⟨1, _⟩ => rfl)
  have er' : ∀ k, ridx_main_v38 (ix2 r j) k = ix2 k j := fun k => funext fun a => Fin.ext (by match a with | ⟨0, _⟩ => rfl | ⟨1, _⟩ => rfl)
  have eb : idx_main_v35 (idx_main_v36 (ix2 r j)) = ix1 j := funext fun a => Fin.ext (by match a with | ⟨0, _⟩ => rfl)
  have eb' : idx_main_v40 (idx_main_v41 (ix2 r j)) = ix1 j := funext fun a => Fin.ext (by match a with | ⟨0, _⟩ => rfl)
  simp only [el, er, el', er', eb, eb', Ideal.addf_def, emb_eq x0 x1 x2 x3 x4 x5 x6 x7 x8 x9 x10 x11 x12 x13 x14 x15 x16 x17 x18 x19 x20 x21 x22]
  exact regroup _ _ _ _

/-- preO's pre-activation. -/
theorem pre_o_eq (r : Fin 4096) (j : Fin 2048) :
    val_main_v55 (F := Ideal) x0 x1 x3 x4 x11 x12 x19 x20 (ix2 r j) = Args.preO 𝔸 r j := by
  rw [val_main_v55_apply, val_main_v52_apply, val_main_v50_apply, val_main_v47_apply, val_main_v49_apply, val_main_v48_apply, val_main_v51_apply, val_main_v54_apply, val_main_v53_apply]
  have el : ∀ k, lidx_main_v47 (ix2 r j) k = ix2 r k := fun k => funext fun a => Fin.ext (by match a with | ⟨0, _⟩ => rfl | ⟨1, _⟩ => rfl)
  have er : ∀ k, ridx_main_v47 (ix2 r j) k = ix2 k j := fun k => funext fun a => Fin.ext (by match a with | ⟨0, _⟩ => rfl | ⟨1, _⟩ => rfl)
  have el' : ∀ k, lidx_main_v51 (ix2 r j) k = ix2 r k := fun k => funext fun a => Fin.ext (by match a with | ⟨0, _⟩ => rfl | ⟨1, _⟩ => rfl)
  have er' : ∀ k, ridx_main_v51 (ix2 r j) k = ix2 k j := fun k => funext fun a => Fin.ext (by match a with | ⟨0, _⟩ => rfl | ⟨1, _⟩ => rfl)
  have eb : idx_main_v48 (idx_main_v49 (ix2 r j)) = ix1 j := funext fun a => Fin.ext (by match a with | ⟨0, _⟩ => rfl)
  have eb' : idx_main_v53 (idx_main_v54 (ix2 r j)) = ix1 j := funext fun a => Fin.ext (by match a with | ⟨0, _⟩ => rfl)
  simp only [el, er, el', er', eb, eb', Ideal.addf_def, emb_eq x0 x1 x2 x3 x4 x5 x6 x7 x8 x9 x10 x11 x12 x13 x14 x15 x16 x17 x18 x19 x20 x21 x22]
  exact regroup _ _ _ _

/-- The forget gate: the reference's 1 / (1 + exp(−p)) is the logistic function of the pre-activation. -/
theorem sig_f (r : Fin 4096) (j : Fin 2048) :
    val_main_v18 (F := Ideal) x0 x1 x3 x4 x5 x6 x13 x14 (ix2 r j) = Ideal.logistic (Args.preF 𝔸 r j) := by
  rw [val_main_v18_apply, val_main_v17_apply, val_main_cst_0_apply, val_main_v16_apply, val_main_v15_apply, val_main_cst_apply,
    val_main_v14_apply, val_main_v13_apply, SplitDot.sigmoid_host, pre_f_eq]

/-- The input gate. -/
theorem sig_i (r : Fin 4096) (j : Fin 2048) :
    val_main_v33 (F := Ideal) x0 x1 x3 x4 x7 x8 x15 x16 (ix2 r j) = Ideal.logistic (Args.preI 𝔸 r j) := by
  rw [val_main_v33_apply, val_main_v32_apply, val_main_cst_2_apply, val_main_v31_apply, val_main_v30_apply, val_main_cst_1_apply,
    val_main_v29_apply, val_main_v28_apply, SplitDot.sigmoid_host, pre_i_eq]

/-- The candidate cell. -/
theorem tanh_c (r : Fin 4096) (j : Fin 2048) :
    val_main_v43 (F := Ideal) x0 x1 x3 x4 x9 x10 x17 x18 (ix2 r j) = Ideal.tanh (Args.preC 𝔸 r j) := by
  rw [val_main_v43_apply, pre_c_eq, Ideal.hostUnary_tanh_def]

/-- The output gate. -/
theorem sig_o (r : Fin 4096) (j : Fin 2048) :
    val_main_v61 (F := Ideal) x0 x1 x3 x4 x11 x12 x19 x20 (ix2 r j) = Ideal.logistic (Args.preO 𝔸 r j) := by
  rw [val_main_v61_apply, val_main_v60_apply, val_main_cst_4_apply, val_main_v59_apply, val_main_v58_apply, val_main_cst_3_apply,
    val_main_v57_apply, val_main_v56_apply, SplitDot.sigmoid_host, pre_o_eq]

/-- The new cell. -/
theorem cell_eq (r : Fin 4096) (j : Fin 2048) :
    val_main_v46 (F := Ideal) x0 x1 x2 x3 x4 x5 x6 x7 x8 x9 x10 x13 x14 x15 x16 x17 x18 (ix2 r j) = Args.cell 𝔸 r j := by
  rw [val_main_v46_apply, val_main_v44_apply, val_main_v45_apply, sig_f, sig_i, tanh_c]
  simp only [Ideal.addf_def, Ideal.mulf_def]
  rfl

/-- The new hidden state. -/
theorem hidden_eq (r : Fin 4096) (j : Fin 2048) :
    val_main_v63 (F := Ideal) x0 x1 x2 x3 x4 x5 x6 x7 x8 x9 x10 x11 x12 x13 x14 x15 x16 x17 x18 x19 x20 (ix2 r j) = Args.hidden 𝔸 r j := by
  rw [val_main_v63_apply, val_main_v62_apply, sig_o, cell_eq]
  simp only [Ideal.mulf_def, Ideal.hostUnary_tanh_def]
  rfl

/-- The logits. -/
theorem logit_eq (r : Fin 4096) (v : Fin 32000) :
    val_main_v67 (F := Ideal) x0 x1 x2 x3 x4 x5 x6 x7 x8 x9 x10 x11 x12 x13 x14 x15 x16 x17 x18 x19 x20 x21 x22 (ix2 r v) = Args.logit 𝔸 r v := by
  rw [val_main_v67_apply, val_main_v64_apply, val_main_v66_apply, val_main_v65_apply]
  have el : ∀ k, lidx_main_v64 (ix2 r v) k = ix2 r k := fun k => funext fun a => Fin.ext (by match a with | ⟨0, _⟩ => rfl | ⟨1, _⟩ => rfl)
  have er : ∀ k, ridx_main_v64 (ix2 r v) k = ix2 k v := fun k => funext fun a => Fin.ext (by match a with | ⟨0, _⟩ => rfl | ⟨1, _⟩ => rfl)
  have eb : idx_main_v65 (idx_main_v66 (ix2 r v)) = ix1 v := funext fun a => Fin.ext (by match a with | ⟨0, _⟩ => rfl)
  simp only [el, er, eb, Ideal.addf_def, hidden_eq x0 x1 x2 x3 x4 x5 x6 x7 x8 x9 x10 x11 x12 x13 x14 x15 x16 x17 x18 x19 x20 x21 x22]
  rfl

/-- The output: the logarithm of the softmax of the row of logits. -/
theorem out_eq (r : Fin 4096) (v : Fin 32000) :
    val_main_v68 (F := Ideal) x0 x1 x2 x3 x4 x5 x6 x7 x8 x9 x10 x11 x12 x13 x14 x15 x16 x17 x18 x19 x20 x21 x22 (ix2 r v) = Args.out 𝔸 r v := by
  rw [RefLogSoftmax.log_softmax_eq]
  simp only [logit_eq x0 x1 x2 x3 x4 x5 x6 x7 x8 x9 x10 x11 x12 x13 x14 x15 x16 x17 x18 x19 x20 x21 x22]
  rfl

end Cert.ReferenceIdeal.RefValue

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.FiniteInputs.lean ====
/-
  The precondition, decoded: it tests every entry of each of the twenty-three argument arrays for |x| < +∞ and joins
  the tests by `and`, so under it every entry of every argument is a real number.
-/
import proofs.«125352_j18708877541498_2_alg».proof.Proof.Gen.Pre_finite_inputs
import proofs.«125352_j18708877541498_2_alg».proof.Proof.LibFiniteTest
import proofs.«125352_j18708877541498_2_alg».proof.Proof.LstmSpec
import Idealize.ShloMosaic.Lib.ReduceAll
import Idealize.ShloMosaic.Lib.ValueIdx

set_option maxRecDepth 16384

noncomputable section

namespace Cert.FiniteInputs

open Idealize.ShloMosaic Idealize.ShloMosaic.ValueIdx Cert.Pre_finite_inputs Cert.LstmSpec

/-- Every entry of an array is a real number. -/
def AllReal {s : Shape} (x : s.Idx → EReal) : Prop := ∀ i, IsReal (x i)

/-- One array's test: if the `and` over all its entries of |x| < +∞ is 1, every entry is a real. -/
theorem allReal_of_test {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : AllReal x := by
  haveI := FiniteTest.subsingleton_scalarIdx
  intro i
  exact FiniteTest.real_of_test x hb i (Host.reduce_andi_all _ _ hr hu ix0 e i)

set_option maxHeartbeats 4000000 in
/-- The whole precondition: all twenty-three arrays. -/
theorem all_real (a0 : FVec Ideal S4096x4096 .f32) (a1 a2 a3 : FVec Ideal S4096x2048 .f32) (a4 : FVec Ideal S2048 .f32)
    (a5 : FVec Ideal S2048x2048 .f32) (a6 : FVec Ideal S2048 .f32) (a7 : FVec Ideal S2048x2048 .f32) (a8 : FVec Ideal S2048 .f32)
    (a9 : FVec Ideal S2048x2048 .f32) (a10 : FVec Ideal S2048 .f32) (a11 : FVec Ideal S2048x2048 .f32) (a12 : FVec Ideal S2048 .f32)
    (a13 : FVec Ideal S2048x2048 .f32) (a14 : FVec Ideal S2048 .f32) (a15 : FVec Ideal S2048x2048 .f32) (a16 : FVec Ideal S2048 .f32)
    (a17 : FVec Ideal S2048x2048 .f32) (a18 : FVec Ideal S2048 .f32) (a19 : FVec Ideal S2048x2048 .f32) (a20 : FVec Ideal S2048 .f32)
    (a21 : FVec Ideal S2048x32000 .f32) (a22 : FVec Ideal S32000 .f32)
    (h : fn (F := Ideal) a0 a1 a2 a3 a4 a5 a6 a7 a8 a9 a10 a11 a12 a13 a14 a15 a16 a17 a18 a19 a20 a21 a22 = fun _ => 1#1) :
    AllReal a0 ∧ AllReal a1 ∧ AllReal a2 ∧ AllReal a3 ∧ AllReal a4 ∧ AllReal a5 ∧ AllReal a6 ∧ AllReal a7 ∧ AllReal a8
      ∧ AllReal a9 ∧ AllReal a10 ∧ AllReal a11 ∧ AllReal a12 ∧ AllReal a13 ∧ AllReal a14 ∧ AllReal a15 ∧ AllReal a16
      ∧ AllReal a17 ∧ AllReal a18 ∧ AllReal a19 ∧ AllReal a20 ∧ AllReal a21 ∧ AllReal a22 := by
  have h0 := congrFun h ix0
  dsimp only [fn, fn_part1, fn_part2, fn_part3, fn_part4, fn_part5, fn_part6] at h0
  simp only [andi, IntOp.andi_eq_one, and_assoc] at h0
  obtain ⟨t0, t1, t2, t3, t4, t5, t6, t7, t8, t9, t10, t11, t12, t13, t14, t15, t16, t17, t18, t19, t20, t21, t22⟩ := h0
  exact ⟨allReal_of_test a0 _ _ _ t0, allReal_of_test a1 _ _ _ t1, allReal_of_test a2 _ _ _ t2, allReal_of_test a3 _ _ _ t3,
    allReal_of_test a4 _ _ _ t4, allReal_of_test a5 _ _ _ t5, allReal_of_test a6 _ _ _ t6, allReal_of_test a7 _ _ _ t7,
    allReal_of_test a8 _ _ _ t8, allReal_of_test a9 _ _ _ t9, allReal_of_test a10 _ _ _ t10, allReal_of_test a11 _ _ _ t11,
    allReal_of_test a12 _ _ _ t12, allReal_of_test a13 _ _ _ t13, allReal_of_test a14 _ _ _ t14, allReal_of_test a15 _ _ _ t15,
    allReal_of_test a16 _ _ _ t16, allReal_of_test a17 _ _ _ t17, allReal_of_test a18 _ _ _ t18, allReal_of_test a19 _ _ _ t19,
    allReal_of_test a20 _ _ _ t20, allReal_of_test a21 _ _ _ t21, allReal_of_test a22 _ _ _ t22⟩

end Cert.FiniteInputs

end
-- ==== Proof.lean ====
/-
  One step of a long short-term memory cell — an embedding layer, four gates, the cell and hidden-state updates, a
  projection to 32000 logits and the logarithm of the softmax along each row — as a Pallas program of four kernel
  regions, against the plain jnp program.

  The frames. Each kernel program is @main = two host lines, the embedding region, seventeen host lines, the gates
  region, three host lines, the head region, the normalising region; each region's pipeline is run against its proof
  data (the embedding and the gates accumulate block products in scratch buffers over a grid axis and store at its
  last point; the head keeps a running row maximum and a running sum of exponentials in two scratch columns), and the
  run ends with every buffer at a named valuation in which no argument has been written. The reference is a straight
  line of host operations.

  The values, at the ideal instance. Both programs compute the same stages of the twenty-three argument arrays
  (LstmArgs.lean). On the kernel's side: a product accumulated block by block is the whole product; a recast to bf16
  is the identity; the biases added pairwise before the region are the same sum as the reference's four-term sum, by
  commutativity and associativity of the addition of extended reals alone. The one place where finiteness enters is
  the last stage: the head's online pair (running maximum m, running sum l of exp(x − m)) gives x − (m + log l), which
  is the reference's (x − max) − log Σ exp(x − max) when the logits are real numbers — and they are, because under
  the precondition every argument entry is a real number and sums, products, the logistic function and the
  hyperbolic tangent of real numbers are real numbers.
-/
import proofs.«125352_j18708877541498_2_alg».proof.Defs
import proofs.«125352_j18708877541498_2_alg».proof.Proof.Gen.Kernel
import proofs.«125352_j18708877541498_2_alg».proof.Proof.Gen.KernelIdeal
import proofs.«125352_j18708877541498_2_alg».proof.Proof.Gen.ReferenceIdeal
import proofs.«125352_j18708877541498_2_alg».proof.Proof.Gen.Pre_finite_inputs
import proofs.«125352_j18708877541498_2_alg».proof.Proof.KernelFrame
import proofs.«125352_j18708877541498_2_alg».proof.Proof.KernelIdealFrame
import proofs.«125352_j18708877541498_2_alg».proof.Proof.KernelIdealValue
import proofs.«125352_j18708877541498_2_alg».proof.Proof.KernelIdealValueGates
import proofs.«125352_j18708877541498_2_alg».proof.Proof.ReferenceEnds
import proofs.«125352_j18708877541498_2_alg».proof.Proof.ReferenceValue
import proofs.«125352_j18708877541498_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.LstmSpec

/-! ## The frames -/

theorem frame_k : Cert.frame_Kernel := fun m ρ _ =>
  (θ_run (Cert.Kernel.defs (F := Bits)) _ _).mono (fun r h c => Cert.Kernel.Run.args_end m ρ c r.2.mem (h c))
    (Cert.Kernel.Run.run (F := Bits) m ρ)

theorem frame_ki : Cert.frame_KernelIdeal := fun m ρ _ =>
  (θ_run (Cert.KernelIdeal.defs (F := Ideal)) _ _).mono (fun r h c => Cert.KernelIdeal.Run.args_end m ρ c r.2.mem (h c))
    (Cert.KernelIdeal.Run.run (F := Ideal) m ρ)

theorem frame_ri : Cert.frame_ReferenceIdeal := fun m ρ _ =>
  (θ_run (Cert.ReferenceIdeal.defs (F := Ideal)) _ _).mono (fun r h c => by
    repeat' apply And.intro
    all_goals exact (h c _).trans (Cert.ReferenceIdeal.RefEnds.arg_kept m c _ (by decide)))
    (Cert.ReferenceIdeal.RefRun.run (F := Ideal) m ρ)

theorem preserves : Cert.preserves_Kernel_KernelIdeal := trivial

/-! ## The values -/

open Cert.KernelIdeal.Run Cert.KernelIdeal.KernelValue in
/-- Under the precondition every entry of the kernel program's arguments is a real number. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) : (args m c).AllReal := by
  obtain ⟨h0, h1, h2, h3, h4, h5, h6, h7, h8, h9, h10, h11, h12, h13, h14, h15, h16, h17, h18, h19, h20, h21, h22⟩ :=
    Cert.FiniteInputs.all_real _ _ _ _ _ _ _ _ _ _ _ _ _ _ _ _ _ _ _ _ _ _ _ (hpre c)
  exact ⟨fun r k => h0 (ix2 r k), fun r k => h1 (ix2 r k), fun r k => h2 (ix2 r k), fun k e => h3 (ix2 k e), fun e => h4 (ix1 e),
    fun k j => h5 (ix2 k j), fun j => h6 (ix1 j), fun k j => h7 (ix2 k j), fun j => h8 (ix1 j), fun k j => h9 (ix2 k j),
    fun j => h10 (ix1 j), fun k j => h11 (ix2 k j), fun j => h12 (ix1 j), fun k j => h13 (ix2 k j), fun j => h14 (ix1 j),
    fun k j => h15 (ix2 k j), fun j => h16 (ix1 j), fun k j => h17 (ix2 k j), fun j => h18 (ix1 j), fun k j => h19 (ix2 k j),
    fun j => h20 (ix1 j), fun k v => h21 (ix2 k v), fun v => h22 (ix1 v)⟩

open Cert.KernelIdeal.Run Cert.KernelIdeal.KernelValue Cert.ReferenceIdeal.RefEnds Cert.ReferenceIdeal.RefValue Cert.ReferenceIdeal.ReadP in
set_option maxHeartbeats 4000000 in
/-- From memories agreeing on the arguments both programs run, and end with the same three results: both compute
    the specification's output, hidden state and cell of the arguments. -/
theorem algebraic : Cert.algebraic_KernelIdeal_ReferenceIdeal := by
  intro m ρ m' ρ' hpre hagree
  refine ⟨fun c => st7 m ρ c (Proc.devRef .tc Cert.KernelIdeal.main_v0_0), fun c => st7 m ρ c (Proc.devRef .tc Cert.KernelIdeal.main_v0_1),
    fun c => st7 m ρ c (Proc.devRef .tc Cert.KernelIdeal.main_v0_2), ?_, ?_⟩
  · -- the kernel program: its run; the three results and the arguments read off the last valuation
    exact (θ_run (Cert.KernelIdeal.defs (F := Ideal)) _ _).mono (fun r h c =>
      ⟨h c _ (mem_uc Cert.KernelIdeal.main_v0_0 (by decide)), h c _ (mem_uc Cert.KernelIdeal.main_v0_1 (by decide)),
        h c _ (mem_uc Cert.KernelIdeal.main_v0_2 (by decide)), args_end m ρ c r.2.mem (h c)⟩)
      (Cert.KernelIdeal.Run.run (F := Ideal) m ρ)
  · -- the reference: its run, each result read off the fold as its stage, each stage the specification's
    refine (θ_run (Cert.ReferenceIdeal.defs (F := Ideal)) _ _).mono (fun r h c => ?_) (Cert.ReferenceIdeal.RefRun.run (F := Ideal) m' ρ')
    obtain ⟨e0, e1, e2, e3, e4, e5, e6, e7, e8, e9, e10, e11, e12, e13, e14, e15, e16, e17, e18, e19, e20, e21, e22⟩ := hagree c
    have hreal := args_real m hpre c
    have hhid := Cert.KernelIdeal.KernelValue.hidden_eq m ρ c
    refine ⟨(h c Cert.ReferenceIdeal.main_v68).trans (Eq.trans ?_ (out_end m ρ c).symm),
      (h c Cert.ReferenceIdeal.main_v63).trans (Eq.trans ?_ (hidden_end m ρ c).symm),
      (h c Cert.ReferenceIdeal.main_v46).trans (Eq.trans ?_ (cell_end m ρ c).symm), ?_⟩
    · rw [link_v68, e0, e1, e2, e3, e4, e5, e6, e7, e8, e9, e10, e11, e12, e13, e14, e15, e16, e17, e18, e19, e20, e21, e22]
      funext i
      obtain ⟨p, q, rfl⟩ : ∃ (p : Fin 4096) (q : Fin 32000), i = ix2 p q := ⟨i 0, i 1, eq_ix2 i⟩
      exact (out_eq _ _ _ _ _ _ _ _ _ _ _ _ _ _ _ _ _ _ _ _ _ _ _ p q).trans (Cert.KernelIdeal.KernelValue.out_eq m ρ c hreal hhid p q).symm
    · rw [link_v63, e0, e1, e2, e3, e4, e5, e6, e7, e8, e9, e10, e11, e12, e13, e14, e15, e16, e17, e18, e19, e20]
      funext i
      obtain ⟨p, q, rfl⟩ : ∃ (p : Fin 4096) (q : Fin 2048), i = ix2 p q := ⟨i 0, i 1, eq_ix2 i⟩
      exact (hidden_eq _ _ _ _ _ _ _ _ _ _ _ _ _ _ _ _ _ _ _ _ _ (m ((c.tc : Thread Cert.KernelIdeal.nD Cert.KernelIdeal.τ).loc Cert.KernelIdeal.main_arg21)) (m ((c.tc : Thread Cert.KernelIdeal.nD Cert.KernelIdeal.τ).loc Cert.KernelIdeal.main_arg22)) p q).trans (hhid p q).symm
    · rw [link_v46, e0, e1, e2, e3, e4, e5, e6, e7, e8, e9, e10, e13, e14, e15, e16, e17, e18]
      funext i
      obtain ⟨p, q, rfl⟩ : ∃ (p : Fin 4096) (q : Fin 2048), i = ix2 p q := ⟨i 0, i 1, eq_ix2 i⟩
      exact (cell_eq _ _ _ _ _ _ _ _ _ _ _ (m ((c.tc : Thread Cert.KernelIdeal.nD Cert.KernelIdeal.τ).loc Cert.KernelIdeal.main_arg11)) (m ((c.tc : Thread Cert.KernelIdeal.nD Cert.KernelIdeal.τ).loc Cert.KernelIdeal.main_arg12)) _ _ _ _ _ _ (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) p q).trans
        (Cert.KernelIdeal.KernelValue.cell_eq m ρ c p q).symm
    · repeat' apply And.intro
      all_goals exact (h c _).trans (arg_kept m' c _ (by decide))

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
